-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x5 : Shape := ⟨2, ![16384, 5]⟩
abbrev S16384 : Shape := ⟨1, ![16384]⟩
abbrev S100000x64 : Shape := ⟨2, ![100000, 64]⟩
abbrev S641x1 : Shape := ⟨2, ![641, 1]⟩
abbrev S1 : Shape := ⟨1, ![1]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S641x1 : S_.BroadcastsInDim S641x1 (![] : Fin 0 → Fin S641x1.rank)
  reducesTo_S641x1_S_d0_1 : S641x1.ReducesTo [0, 1] S_
  bcast_S_S1 : S_.BroadcastsInDim S1 (![] : Fin 0 → Fin S1.rank)
  reducesTo_S1_S_d0 : S1.ReducesTo [0] S_
  bcast_S_S16384x5 : S_.BroadcastsInDim S16384x5 (![] : Fin 0 → Fin S16384x5.rank)
  reducesTo_S16384x5_S_d0_1 : S16384x5.ReducesTo [0, 1] S_

variable [Facts]

def fn_part1 {F : FTy → Type} [FloatOps F] (main_arg0 : IVec S16384x5 32) (main_arg1 : IVec S16384x5 32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_c_6 : IVec S_ 32 := constantI S_ 32 0#32
  let main_v19 : IVec S16384x5 32 := broadcastInDim S16384x5 ![] bcast_S_S16384x5 main_c_6
  let main_v20 : IVec S16384x5 1 := cmpi .sge main_arg0 main_v19
  let main_c_7 : IVec S_ 32 := constantI S_ 32 99999#32
  let main_v21 : IVec S16384x5 32 := broadcastInDim S16384x5 ![] bcast_S_S16384x5 main_c_7
  let main_v22 : IVec S16384x5 1 := cmpi .sle main_arg0 main_v21
  let main_v23 : IVec S16384x5 1 := andi main_v20 main_v22
  let main_c_8 : IVec S_ 1 := constantI S_ 1 1#1
  let main_v24 : IVec S_ 1 := (fun x v => Host.reduce IntOp.andi x v reducesTo_S16384x5_S_d0_1 h_S_) main_v23 main_c_8
  let main_v25 : IVec S_ 1 := andi main_v18 main_v24
  let main_c_9 : IVec S_ 32 := constantI S_ 32 0#32
  let main_v26 : IVec S16384x5 32 := broadcastInDim S16384x5 ![] bcast_S_S16384x5 main_c_9
  let main_v27 : IVec S16384x5 1 := cmpi .sge main_arg1 main_v26
  let main_c_10 : IVec S_ 32 := constantI S_ 32 99999#32
  let main_v28 : IVec S16384x5 32 := broadcastInDim S16384x5 ![] bcast_S_S16384x5 main_c_10
  let main_v29 : IVec S16384x5 1 := cmpi .sle main_arg1 main_v28
  let main_v30 : IVec S16384x5 1 := andi main_v27 main_v29
  let main_c_11 : IVec S_ 1 := constantI S_ 1 1#1
  let main_v31 : IVec S_ 1 := (fun x v => Host.reduce IntOp.andi x v reducesTo_S16384x5_S_d0_1 h_S_) main_v30 main_c_11
  let main_v32 : IVec S_ 1 := andi main_v25 main_v31
  main_v32

def fn {F : FTy → Type} [FloatOps F] (main_arg0 : IVec S16384x5 32) (main_arg1 : IVec S16384x5 32) (main_arg2 : FVec F S16384 .f32) (main_arg3 : FVec F S100000x64 .f32) (main_arg4 : FVec F S641x1 .f32) (main_arg5 : FVec F S1 .f32) : IVec S_ 1 :=
  let main_v0 : FVec F S16384 .f32 := Host.absf main_arg2
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S641x1 .f32 := Host.absf main_arg4
  let main_cst_2 : FVec F S_ .f32 := constant S_ .f32 0x7F800000#32
  let main_v10 : FVec F S641x1 .f32 := broadcastInDim S641x1 ![] bcast_S_S641x1 main_cst_2
  let main_v11 : IVec S641x1 1 := cmpf .olt main_v9 main_v10
  let main_c_3 : IVec S_ 1 := constantI S_ 1 1#1
  let main_v12 : IVec S_ 1 := (fun x v => Host.reduce IntOp.andi x v reducesTo_S641x1_S_d0_1 h_S_) main_v11 main_c_3
  let main_v13 : IVec S_ 1 := andi main_v8 main_v12
  let main_v14 : FVec F S1 .f32 := Host.absf main_arg5
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg0 main_arg1 main_v13 main_v16
-- ==== Kernel.lean ====
abbrev S16384x5 : Shape := ⟨2, ![16384, 5]⟩
abbrev S16384 : Shape := ⟨1, ![16384]⟩
abbrev S100000x64 : Shape := ⟨2, ![100000, 64]⟩
abbrev S641x1 : Shape := ⟨2, ![641, 1]⟩
abbrev S1 : Shape := ⟨1, ![1]⟩
abbrev S640x1 : Shape := ⟨2, ![640, 1]⟩
abbrev S640 : Shape := ⟨1, ![640]⟩
abbrev S10x64 : Shape := ⟨2, ![10, 64]⟩
abbrev S_ : Shape := ⟨0, ![]⟩
abbrev S16x64 : Shape := ⟨2, ![16, 64]⟩
abbrev S64x100000 : Shape := ⟨2, ![64, 100000]⟩
abbrev S16x106496 : Shape := ⟨2, ![16, 106496]⟩
abbrev S64x8192 : Shape := ⟨2, ![64, 8192]⟩
abbrev S16x8192 : Shape := ⟨2, ![16, 8192]⟩
abbrev S16384x10 : Shape := ⟨2, ![16384, 10]⟩
abbrev S10x16384 : Shape := ⟨2, ![10, 16384]⟩
abbrev S10x2x8192 : Shape := ⟨3, ![10, 2, 8192]⟩
abbrev S106496 : Shape := ⟨1, ![106496]⟩
abbrev S4096 : Shape := ⟨1, ![4096]⟩
abbrev S26624 : Shape := ⟨1, ![26624]⟩
abbrev S1x26624 : Shape := ⟨2, ![1, 26624]⟩
abbrev S1x1x4096 : Shape := ⟨3, ![1, 1, 4096]⟩
abbrev S16 : Shape := ⟨1, ![16]⟩
abbrev S10x128x128 : Shape := ⟨3, ![10, 128, 128]⟩
abbrev S128x128 : Shape := ⟨2, ![128, 128]⟩
abbrev S1x1 : Shape := ⟨2, ![1, 1]⟩
abbrev S2 : Shape := ⟨1, ![2]⟩
abbrev S1x128x128 : Shape := ⟨3, ![1, 128, 128]⟩
abbrev S16384x1 : Shape := ⟨2, ![16384, 1]⟩

abbrev nBuf : Table → Nat
  | .hbm => 30
  | .local .tc .vmem => 8
  | .local .tc .smem => 1
  | .local .scVector .vmem => 3
  | _ => 0

abbrev bufTy : (tb : Table) → Fin (nBuf tb) → BufTy
  | .hbm, ⟨0, _⟩ => ⟨S16384x5, .i32⟩
  | .hbm, ⟨1, _⟩ => ⟨S16384x5, .i32⟩
  | .hbm, ⟨2, _⟩ => ⟨S16384, .f32⟩
  | .hbm, ⟨3, _⟩ => ⟨S100000x64, .f32⟩
  | .hbm, ⟨4, _⟩ => ⟨S641x1, .f32⟩
  | .hbm, ⟨5, _⟩ => ⟨S1, .f32⟩
  | .hbm, ⟨6, _⟩ => ⟨S640x1, .f32⟩
  | .hbm, ⟨7, _⟩ => ⟨S640, .f32⟩
  | .hbm, ⟨8, _⟩ => ⟨S10x64, .f32⟩
  | .hbm, ⟨9, _⟩ => ⟨S_, .f32⟩
  | .hbm, ⟨10, _⟩ => ⟨S16x64, .f32⟩
  | .hbm, ⟨11, _⟩ => ⟨S_, .i32⟩
  | .hbm, ⟨12, _⟩ => ⟨S1, .i32⟩
  | .hbm, ⟨13, _⟩ => ⟨S16x64, .f32⟩
  | .hbm, ⟨14, _⟩ => ⟨S64x100000, .f32⟩
  | .hbm, ⟨15, _⟩ => ⟨S16x106496, .f32⟩
  | .hbm, ⟨16, _⟩ => ⟨S16384x10, .i32⟩
  | .hbm, ⟨17, _⟩ => ⟨S10x16384, .i32⟩
  | .hbm, ⟨18, _⟩ => ⟨S10x2x8192, .i32⟩
  | .hbm, ⟨19, _⟩ => ⟨S10x2x8192, .f32⟩
  | .hbm, ⟨20, _⟩ => ⟨S10x128x128, .f32⟩
  | .hbm, ⟨21, _⟩ => ⟨S128x128, .f32⟩
  | .hbm, ⟨22, _⟩ => ⟨S1x1, .f32⟩
  | .hbm, ⟨23, _⟩ => ⟨S_, .f32⟩
  | .hbm, ⟨24, _⟩ => ⟨S_, .f32⟩
  | .hbm, ⟨25, _⟩ => ⟨S1, .f32⟩
  | .hbm, ⟨26, _⟩ => ⟨S1, .f32⟩
  | .hbm, ⟨27, _⟩ => ⟨S2, .f32⟩
  | .hbm, ⟨28, _⟩ => ⟨S128x128, .f32⟩
  | .hbm, ⟨29, _⟩ => ⟨S16384x1, .f32⟩
  | .local .tc .vmem, ⟨0, _⟩ => ⟨S16x64, .f32⟩
  | .local .tc .vmem, ⟨1, _⟩ => ⟨S64x8192, .f32⟩
  | .local .tc .vmem, ⟨2, _⟩ => ⟨S64x8192, .f32⟩
  | .local .tc .vmem, ⟨3, _⟩ => ⟨S16x8192, .f32⟩
  | .local .tc .vmem, ⟨4, _⟩ => ⟨S16x8192, .f32⟩
  | .local .tc .vmem, ⟨5, _⟩ => ⟨S10x128x128, .f32⟩
  | .local .tc .vmem, ⟨6, _⟩ => ⟨S128x128, .f32⟩
  | .local .tc .vmem, ⟨7, _⟩ => ⟨S128x128, .f32⟩
  | .local .tc .smem, ⟨0, _⟩ => ⟨S2, .f32⟩
  | .local .scVector .vmem, ⟨0, _⟩ => ⟨S106496, .f32⟩
  | .local .scVector .vmem, ⟨1, _⟩ => ⟨S4096, .i32⟩
  | .local .scVector .vmem, ⟨2, _⟩ => ⟨S4096, .f32⟩
  | _, _ => ⟨S16384x5, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => true
  | ⟨1, _⟩ => true
  | ⟨2, _⟩ => true
  | ⟨3, _⟩ => true
  | ⟨4, _⟩ => true
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v7_scv : Ref sig .scVector := ⟨.hbm, 15, rfl⟩
abbrev main_v10_scv : Ref sig .scVector := ⟨.hbm, 18, rfl⟩
abbrev main_v11_scv : Ref sig .scVector := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc2_stg0_0 : Ref sig .tc := ⟨.vmem, 5, rfl⟩
abbrev cc2_stg1_0 : Ref sig .tc := ⟨.vmem, 6, rfl⟩
abbrev cc2_stg3_0 : Ref sig .tc := ⟨.vmem, 7, rfl⟩
abbrev cc2_stg2_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc2_sem0_0 : DmaSem sig := 13
abbrev cc2_sem1_0 : DmaSem sig := 14
abbrev cc2_sem2_0 : DmaSem sig := 15
abbrev cc2_sem3_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_cond1 (i : grid1.Coords) : BitVec 1 :=
  let arg1 : BitVec 32 := BitVec.ofNat 32 (i 1).val
  let c10_i32 : BitVec 32 := 10#32
  let v0 : BitVec 1 := Scalar.cmpi .slt arg1 c10_i32
  let v1 : BitVec 32 := Scalar.extui v0
  let c0_i32 : BitVec 32 := 0#32
  let v2 : BitVec 1 := Scalar.cmpi .ne v1 c0_i32
  v2

def k1_off1 (i : grid1.Coords) : Fin 2 → Nat :=
  let arg1 : BitVec 32 := BitVec.ofNat 32 (i 1).val
  let c0_i32_9_r0 : BitVec 32 := 0#32
  ![arg1.toNat, 0]
def k1_off2 (i : grid1.Coords) : Fin 2 → Nat :=
  let arg1 : BitVec 32 := BitVec.ofNat 32 (i 1).val
  let c26624_i32_8_r1 : BitVec 32 := 26624#32
  ![arg1.toNat, 26624]
def k1_off3 (i : grid1.Coords) : Fin 2 → Nat :=
  let arg1 : BitVec 32 := BitVec.ofNat 32 (i 1).val
  let c53248_i32_8_r2 : BitVec 32 := 53248#32
  ![arg1.toNat, 53248]
def k1_off4 (i : grid1.Coords) : Fin 2 → Nat :=
  let arg1 : BitVec 32 := BitVec.ofNat 32 (i 1).val
  let c79872_i32_8_r3 : BitVec 32 := 79872#32
  ![arg1.toNat, 79872]
def k1_off5 (i : grid1.Coords) : Fin 3 → Nat :=
  let arg1 : BitVec 32 := BitVec.ofNat 32 (i 1).val
  let arg0 : BitVec 32 := BitVec.ofNat 32 (i 0).val
  let c0_i32_8_r4 : BitVec 32 := 0#32
  ![arg1.toNat, arg0.toNat, 0]
@[reducible] def k1_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k1_off6 (k1_t1 : Fin k1_t1_loop.trips) : Fin 1 → Nat :=
  let c0_i32_1 : BitVec 32 := 0#32
  let c1_i32 : BitVec 32 := 1#32
  let arg8 : BitVec 32 := Scf.iv c0_i32_1 c1_i32 k1_t1
  let c16_i32_8 : BitVec 32 := 16#32
  let v5 : BitVec 32 := Scalar.muli arg8 c16_i32_8
  let c0_i32_9 : BitVec 32 := 0#32
  let v6 : BitVec 32 := Scalar.addi v5 c0_i32_9
  let c16_i32_10 : BitVec 32 := 16#32
  let v7 : BitVec 32 := Scalar.muli v6 c16_i32_10
  let v8 : Index := Scalar.indexCast v7
  ![v8.toNat]

def k1_chk1 (i : grid1.Coords) (v9 : IVec S16 32) : Prop :=
  (∀ (k1_h1 : k1_cond1 i = 1#1), ∀ a x, ((![v9] : Fin 1 → IVec S16 32) a x).toNat < S106496.size a)
instance k1_chk1.dec : ∀ (i : grid1.Coords) (v9 : IVec S16 32), Decidable (k1_chk1 i v9) := fun i v9 => decidable_of_iff' _ (Iff.of_eq (k1_chk1.eq_1 i v9))
theorem k1_idx1_inb : ∀ (i : grid1.Coords) (v9 : IVec S16 32) (k1_hw1 : k1_chk1 i v9), ∀ (k1_h1 : k1_cond1 i = 1#1), ∀ a x, ((![v9] : Fin 1 → IVec S16 32) a x).toNat < S106496.size a := fun i v9 k1_hw1 k1_h1 => k1_hw1 k1_h1
def k1_off7 (k1_t1 : Fin k1_t1_loop.trips) (c0_i32_9 : BitVec 32) : Fin 1 → Nat :=
  let c0_i32_1 : BitVec 32 := 0#32
  let c1_i32 : BitVec 32 := 1#32
  let arg8 : BitVec 32 := Scf.iv c0_i32_1 c1_i32 k1_t1
  let c16_i32_8 : BitVec 32 := 16#32
  let v5 : BitVec 32 := Scalar.muli arg8 c16_i32_8
  let v6 : BitVec 32 := Scalar.addi v5 c0_i32_9
  let c16_i32_11 : BitVec 32 := 16#32
  let v11 : BitVec 32 := Scalar.muli v6 c16_i32_11
  let v12 : Index := Scalar.indexCast v11
  ![v12.toNat]

def k1_chk2 (i : grid1.Coords) (v18 : IVec S16 32) : Prop :=
  (∀ (k1_h1 : k1_cond1 i = 1#1), ∀ a x, ((![v18] : Fin 1 → IVec S16 32) a x).toNat < S106496.size a)
instance k1_chk2.dec : ∀ (i : grid1.Coords) (v18 : IVec S16 32), Decidable (k1_chk2 i v18) := fun i v18 => decidable_of_iff' _ (Iff.of_eq (k1_chk2.eq_1 i v18))
theorem k1_idx2_inb : ∀ (i : grid1.Coords) (v18 : IVec S16 32) (k1_hw2 : k1_chk2 i v18), ∀ (k1_h1 : k1_cond1 i = 1#1), ∀ a x, ((![v18] : Fin 1 → IVec S16 32) a x).toNat < S106496.size a := fun i v18 k1_hw2 k1_h1 => k1_hw2 k1_h1
def k1_off8 (k1_t1 : Fin k1_t1_loop.trips) (c1_i32_13 : BitVec 32) : Fin 1 → Nat :=
  let c0_i32_1 : BitVec 32 := 0#32
  let c1_i32 : BitVec 32 := 1#32
  let arg8 : BitVec 32 := Scf.iv c0_i32_1 c1_i32 k1_t1
  let c16_i32_12 : BitVec 32 := 16#32
  let v14 : BitVec 32 := Scalar.muli arg8 c16_i32_12
  let v15 : BitVec 32 := Scalar.addi v14 c1_i32_13
  let c16_i32_15 : BitVec 32 := 16#32
  let v20 : BitVec 32 := Scalar.muli v15 c16_i32_15
  let v21 : Index := Scalar.indexCast v20
  ![v21.toNat]

def k1_chk3 (i : grid1.Coords) (v27 : IVec S16 32) : Prop :=
  (∀ (k1_h1 : k1_cond1 i = 1#1), ∀ a x, ((![v27] : Fin 1 → IVec S16 32) a x).toNat < S106496.size a)
instance k1_chk3.dec : ∀ (i : grid1.Coords) (v27 : IVec S16 32), Decidable (k1_chk3 i v27) := fun i v27 => decidable_of_iff' _ (Iff.of_eq (k1_chk3.eq_1 i v27))
theorem k1_idx3_inb : ∀ (i : grid1.Coords) (v27 : IVec S16 32) (k1_hw3 : k1_chk3 i v27), ∀ (k1_h1 : k1_cond1 i = 1#1), ∀ a x, ((![v27] : Fin 1 → IVec S16 32) a x).toNat < S106496.size a := fun i v27 k1_hw3 k1_h1 => k1_hw3 k1_h1
def k1_off9 (k1_t1 : Fin k1_t1_loop.trips) (c2_i32 : BitVec 32) : Fin 1 → Nat :=
  let c0_i32_1 : BitVec 32 := 0#32
  let c1_i32 : BitVec 32 := 1#32
  let arg8 : BitVec 32 := Scf.iv c0_i32_1 c1_i32 k1_t1
  let c16_i32_16 : BitVec 32 := 16#32
  let v23 : BitVec 32 := Scalar.muli arg8 c16_i32_16
  let v24 : BitVec 32 := Scalar.addi v23 c2_i32
  let c16_i32_18 : BitVec 32 := 16#32
  let v29 : BitVec 32 := Scalar.muli v24 c16_i32_18
  let v30 : Index := Scalar.indexCast v29
  ![v30.toNat]

def k1_chk4 (i : grid1.Coords) (v36 : IVec S16 32) : Prop :=
  (∀ (k1_h1 : k1_cond1 i = 1#1), ∀ a x, ((![v36] : Fin 1 → IVec S16 32) a x).toNat < S106496.size a)
instance k1_chk4.dec : ∀ (i : grid1.Coords) (v36 : IVec S16 32), Decidable (k1_chk4 i v36) := fun i v36 => decidable_of_iff' _ (Iff.of_eq (k1_chk4.eq_1 i v36))
theorem k1_idx4_inb : ∀ (i : grid1.Coords) (v36 : IVec S16 32) (k1_hw4 : k1_chk4 i v36), ∀ (k1_h1 : k1_cond1 i = 1#1), ∀ a x, ((![v36] : Fin 1 → IVec S16 32) a x).toNat < S106496.size a := fun i v36 k1_hw4 k1_h1 => k1_hw4 k1_h1
def k1_off10 (k1_t1 : Fin k1_t1_loop.trips) (c3_i32 : BitVec 32) : Fin 1 → Nat :=
  let c0_i32_1 : BitVec 32 := 0#32
  let c1_i32 : BitVec 32 := 1#32
  let arg8 : BitVec 32 := Scf.iv c0_i32_1 c1_i32 k1_t1
  let c16_i32_19 : BitVec 32 := 16#32
  let v32 : BitVec 32 := Scalar.muli arg8 c16_i32_19
  let v33 : BitVec 32 := Scalar.addi v32 c3_i32
  let c16_i32_21 : BitVec 32 := 16#32
  let v38 : BitVec 32 := Scalar.muli v33 c16_i32_21
  let v39 : Index := Scalar.indexCast v38
  ![v39.toNat]

def k1_chk5 (i : grid1.Coords) (v45 : IVec S16 32) : Prop :=
  (∀ (k1_h1 : k1_cond1 i = 1#1), ∀ a x, ((![v45] : Fin 1 → IVec S16 32) a x).toNat < S106496.size a)
instance k1_chk5.dec : ∀ (i : grid1.Coords) (v45 : IVec S16 32), Decidable (k1_chk5 i v45) := fun i v45 => decidable_of_iff' _ (Iff.of_eq (k1_chk5.eq_1 i v45))
theorem k1_idx5_inb : ∀ (i : grid1.Coords) (v45 : IVec S16 32) (k1_hw5 : k1_chk5 i v45), ∀ (k1_h1 : k1_cond1 i = 1#1), ∀ a x, ((![v45] : Fin 1 → IVec S16 32) a x).toNat < S106496.size a := fun i v45 k1_hw5 k1_h1 => k1_hw5 k1_h1
def k1_off11 (k1_t1 : Fin k1_t1_loop.trips) (c4_i32 : BitVec 32) : Fin 1 → Nat :=
  let c0_i32_1 : BitVec 32 := 0#32
  let c1_i32 : BitVec 32 := 1#32
  let arg8 : BitVec 32 := Scf.iv c0_i32_1 c1_i32 k1_t1
  let c16_i32_22 : BitVec 32 := 16#32
  let v41 : BitVec 32 := Scalar.muli arg8 c16_i32_22
  let v42 : BitVec 32 := Scalar.addi v41 c4_i32
  let c16_i32_24 : BitVec 32 := 16#32
  let v47 : BitVec 32 := Scalar.muli v42 c16_i32_24
  let v48 : Index := Scalar.indexCast v47
  ![v48.toNat]

def k1_chk6 (i : grid1.Coords) (v54 : IVec S16 32) : Prop :=
  (∀ (k1_h1 : k1_cond1 i = 1#1), ∀ a x, ((![v54] : Fin 1 → IVec S16 32) a x).toNat < S106496.size a)
instance k1_chk6.dec : ∀ (i : grid1.Coords) (v54 : IVec S16 32), Decidable (k1_chk6 i v54) := fun i v54 => decidable_of_iff' _ (Iff.of_eq (k1_chk6.eq_1 i v54))
theorem k1_idx6_inb : ∀ (i : grid1.Coords) (v54 : IVec S16 32) (k1_hw6 : k1_chk6 i v54), ∀ (k1_h1 : k1_cond1 i = 1#1), ∀ a x, ((![v54] : Fin 1 → IVec S16 32) a x).toNat < S106496.size a := fun i v54 k1_hw6 k1_h1 => k1_hw6 k1_h1
def k1_off12 (k1_t1 : Fin k1_t1_loop.trips) (c5_i32 : BitVec 32) : Fin 1 → Nat :=
  let c0_i32_1 : BitVec 32 := 0#32
  let c1_i32 : BitVec 32 := 1#32
  let arg8 : BitVec 32 := Scf.iv c0_i32_1 c1_i32 k1_t1
  let c16_i32_25 : BitVec 32 := 16#32
  let v50 : BitVec 32 := Scalar.muli arg8 c16_i32_25
  let v51 : BitVec 32 := Scalar.addi v50 c5_i32
  let c16_i32_27 : BitVec 32 := 16#32
  let v56 : BitVec 32 := Scalar.muli v51 c16_i32_27
  let v57 : Index := Scalar.indexCast v56
  ![v57.toNat]

def k1_chk7 (i : grid1.Coords) (v63 : IVec S16 32) : Prop :=
  (∀ (k1_h1 : k1_cond1 i = 1#1), ∀ a x, ((![v63] : Fin 1 → IVec S16 32) a x).toNat < S106496.size a)
instance k1_chk7.dec : ∀ (i : grid1.Coords) (v63 : IVec S16 32), Decidable (k1_chk7 i v63) := fun i v63 => decidable_of_iff' _ (Iff.of_eq (k1_chk7.eq_1 i v63))
theorem k1_idx7_inb : ∀ (i : grid1.Coords) (v63 : IVec S16 32) (k1_hw7 : k1_chk7 i v63), ∀ (k1_h1 : k1_cond1 i = 1#1), ∀ a x, ((![v63] : Fin 1 → IVec S16 32) a x).toNat < S106496.size a := fun i v63 k1_hw7 k1_h1 => k1_hw7 k1_h1
def k1_off13 (k1_t1 : Fin k1_t1_loop.trips) (c6_i32 : BitVec 32) : Fin 1 → Nat :=
  let c0_i32_1 : BitVec 32 := 0#32
  let c1_i32 : BitVec 32 := 1#32
  let arg8 : BitVec 32 := Scf.iv c0_i32_1 c1_i32 k1_t1
  let c16_i32_28 : BitVec 32 := 16#32
  let v59 : BitVec 32 := Scalar.muli arg8 c16_i32_28
  let v60 : BitVec 32 := Scalar.addi v59 c6_i32
  let c16_i32_30 : BitVec 32 := 16#32
  let v65 : BitVec 32 := Scalar.muli v60 c16_i32_30
  let v66 : Index := Scalar.indexCast v65
  ![v66.toNat]

def k1_chk8 (i : grid1.Coords) (v72 : IVec S16 32) : Prop :=
  (∀ (k1_h1 : k1_cond1 i = 1#1), ∀ a x, ((![v72] : Fin 1 → IVec S16 32) a x).toNat < S106496.size a)
instance k1_chk8.dec : ∀ (i : grid1.Coords) (v72 : IVec S16 32), Decidable (k1_chk8 i v72) := fun i v72 => decidable_of_iff' _ (Iff.of_eq (k1_chk8.eq_1 i v72))
theorem k1_idx8_inb : ∀ (i : grid1.Coords) (v72 : IVec S16 32) (k1_hw8 : k1_chk8 i v72), ∀ (k1_h1 : k1_cond1 i = 1#1), ∀ a x, ((![v72] : Fin 1 → IVec S16 32) a x).toNat < S106496.size a := fun i v72 k1_hw8 k1_h1 => k1_hw8 k1_h1
def k1_off14 (k1_t1 : Fin k1_t1_loop.trips) (c7_i32 : BitVec 32) : Fin 1 → Nat :=
  let c0_i32_1 : BitVec 32 := 0#32
  let c1_i32 : BitVec 32 := 1#32
  let arg8 : BitVec 32 := Scf.iv c0_i32_1 c1_i32 k1_t1
  let c16_i32_31 : BitVec 32 := 16#32
  let v68 : BitVec 32 := Scalar.muli arg8 c16_i32_31
  let v69 : BitVec 32 := Scalar.addi v68 c7_i32
  let c16_i32_33 : BitVec 32 := 16#32
  let v74 : BitVec 32 := Scalar.muli v69 c16_i32_33
  let v75 : Index := Scalar.indexCast v74
  ![v75.toNat]

def k1_chk9 (i : grid1.Coords) (v81 : IVec S16 32) : Prop :=
  (∀ (k1_h1 : k1_cond1 i = 1#1), ∀ a x, ((![v81] : Fin 1 → IVec S16 32) a x).toNat < S106496.size a)
instance k1_chk9.dec : ∀ (i : grid1.Coords) (v81 : IVec S16 32), Decidable (k1_chk9 i v81) := fun i v81 => decidable_of_iff' _ (Iff.of_eq (k1_chk9.eq_1 i v81))
theorem k1_idx9_inb : ∀ (i : grid1.Coords) (v81 : IVec S16 32) (k1_hw9 : k1_chk9 i v81), ∀ (k1_h1 : k1_cond1 i = 1#1), ∀ a x, ((![v81] : Fin 1 → IVec S16 32) a x).toNat < S106496.size a := fun i v81 k1_hw9 k1_h1 => k1_hw9 k1_h1
def k1_off15 (k1_t1 : Fin k1_t1_loop.trips) (c8_i32 : BitVec 32) : Fin 1 → Nat :=
  let c0_i32_1 : BitVec 32 := 0#32
  let c1_i32 : BitVec 32 := 1#32
  let arg8 : BitVec 32 := Scf.iv c0_i32_1 c1_i32 k1_t1
  let c16_i32_34 : BitVec 32 := 16#32
  let v77 : BitVec 32 := Scalar.muli arg8 c16_i32_34
  let v78 : BitVec 32 := Scalar.addi v77 c8_i32
  let c16_i32_36 : BitVec 32 := 16#32
  let v83 : BitVec 32 := Scalar.muli v78 c16_i32_36
  let v84 : Index := Scalar.indexCast v83
  ![v84.toNat]

def k1_chk10 (i : grid1.Coords) (v90 : IVec S16 32) : Prop :=
  (∀ (k1_h1 : k1_cond1 i = 1#1), ∀ a x, ((![v90] : Fin 1 → IVec S16 32) a x).toNat < S106496.size a)
instance k1_chk10.dec : ∀ (i : grid1.Coords) (v90 : IVec S16 32), Decidable (k1_chk10 i v90) := fun i v90 => decidable_of_iff' _ (Iff.of_eq (k1_chk10.eq_1 i v90))
theorem k1_idx10_inb : ∀ (i : grid1.Coords) (v90 : IVec S16 32) (k1_hw10 : k1_chk10 i v90), ∀ (k1_h1 : k1_cond1 i = 1#1), ∀ a x, ((![v90] : Fin 1 → IVec S16 32) a x).toNat < S106496.size a := fun i v90 k1_hw10 k1_h1 => k1_hw10 k1_h1
def k1_off16 (k1_t1 : Fin k1_t1_loop.trips) (c9_i32 : BitVec 32) : Fin 1 → Nat :=
  let c0_i32_1 : BitVec 32 := 0#32
  let c1_i32 : BitVec 32 := 1#32
  let arg8 : BitVec 32 := Scf.iv c0_i32_1 c1_i32 k1_t1
  let c16_i32_37 : BitVec 32 := 16#32
  let v86 : BitVec 32 := Scalar.muli arg8 c16_i32_37
  let v87 : BitVec 32 := Scalar.addi v86 c9_i32
  let c16_i32_39 : BitVec 32 := 16#32
  let v92 : BitVec 32 := Scalar.muli v87 c16_i32_39
  let v93 : Index := Scalar.indexCast v92
  ![v93.toNat]

def k1_chk11 (i : grid1.Coords) (v99 : IVec S16 32) : Prop :=
  (∀ (k1_h1 : k1_cond1 i = 1#1), ∀ a x, ((![v99] : Fin 1 → IVec S16 32) a x).toNat < S106496.size a)
instance k1_chk11.dec : ∀ (i : grid1.Coords) (v99 : IVec S16 32), Decidable (k1_chk11 i v99) := fun i v99 => decidable_of_iff' _ (Iff.of_eq (k1_chk11.eq_1 i v99))
theorem k1_idx11_inb : ∀ (i : grid1.Coords) (v99 : IVec S16 32) (k1_hw11 : k1_chk11 i v99), ∀ (k1_h1 : k1_cond1 i = 1#1), ∀ a x, ((![v99] : Fin 1 → IVec S16 32) a x).toNat < S106496.size a := fun i v99 k1_hw11 k1_h1 => k1_hw11 k1_h1
def k1_off17 (k1_t1 : Fin k1_t1_loop.trips) (c10_i32_41 : BitVec 32) : Fin 1 → Nat :=
  let c0_i32_1 : BitVec 32 := 0#32
  let c1_i32 : BitVec 32 := 1#32
  let arg8 : BitVec 32 := Scf.iv c0_i32_1 c1_i32 k1_t1
  let c16_i32_40 : BitVec 32 := 16#32
  let v95 : BitVec 32 := Scalar.muli arg8 c16_i32_40
  let v96 : BitVec 32 := Scalar.addi v95 c10_i32_41
  let c16_i32_43 : BitVec 32 := 16#32
  let v101 : BitVec 32 := Scalar.muli v96 c16_i32_43
  let v102 : Index := Scalar.indexCast v101
  ![v102.toNat]

def k1_chk12 (i : grid1.Coords) (v108 : IVec S16 32) : Prop :=
  (∀ (k1_h1 : k1_cond1 i = 1#1), ∀ a x, ((![v108] : Fin 1 → IVec S16 32) a x).toNat < S106496.size a)
instance k1_chk12.dec : ∀ (i : grid1.Coords) (v108 : IVec S16 32), Decidable (k1_chk12 i v108) := fun i v108 => decidable_of_iff' _ (Iff.of_eq (k1_chk12.eq_1 i v108))
theorem k1_idx12_inb : ∀ (i : grid1.Coords) (v108 : IVec S16 32) (k1_hw12 : k1_chk12 i v108), ∀ (k1_h1 : k1_cond1 i = 1#1), ∀ a x, ((![v108] : Fin 1 → IVec S16 32) a x).toNat < S106496.size a := fun i v108 k1_hw12 k1_h1 => k1_hw12 k1_h1
def k1_off18 (k1_t1 : Fin k1_t1_loop.trips) (c11_i32 : BitVec 32) : Fin 1 → Nat :=
  let c0_i32_1 : BitVec 32 := 0#32
  let c1_i32 : BitVec 32 := 1#32
  let arg8 : BitVec 32 := Scf.iv c0_i32_1 c1_i32 k1_t1
  let c16_i32_44 : BitVec 32 := 16#32
  let v104 : BitVec 32 := Scalar.muli arg8 c16_i32_44
  let v105 : BitVec 32 := Scalar.addi v104 c11_i32
  let c16_i32_46 : BitVec 32 := 16#32
  let v110 : BitVec 32 := Scalar.muli v105 c16_i32_46
  let v111 : Index := Scalar.indexCast v110
  ![v111.toNat]

def k1_chk13 (i : grid1.Coords) (v117 : IVec S16 32) : Prop :=
  (∀ (k1_h1 : k1_cond1 i = 1#1), ∀ a x, ((![v117] : Fin 1 → IVec S16 32) a x).toNat < S106496.size a)
instance k1_chk13.dec : ∀ (i : grid1.Coords) (v117 : IVec S16 32), Decidable (k1_chk13 i v117) := fun i v117 => decidable_of_iff' _ (Iff.of_eq (k1_chk13.eq_1 i v117))
theorem k1_idx13_inb : ∀ (i : grid1.Coords) (v117 : IVec S16 32) (k1_hw13 : k1_chk13 i v117), ∀ (k1_h1 : k1_cond1 i = 1#1), ∀ a x, ((![v117] : Fin 1 → IVec S16 32) a x).toNat < S106496.size a := fun i v117 k1_hw13 k1_h1 => k1_hw13 k1_h1
def k1_off19 (k1_t1 : Fin k1_t1_loop.trips) (c12_i32 : BitVec 32) : Fin 1 → Nat :=
  let c0_i32_1 : BitVec 32 := 0#32
  let c1_i32 : BitVec 32 := 1#32
  let arg8 : BitVec 32 := Scf.iv c0_i32_1 c1_i32 k1_t1
  let c16_i32_47 : BitVec 32 := 16#32
  let v113 : BitVec 32 := Scalar.muli arg8 c16_i32_47
  let v114 : BitVec 32 := Scalar.addi v113 c12_i32
  let c16_i32_49 : BitVec 32 := 16#32
  let v119 : BitVec 32 := Scalar.muli v114 c16_i32_49
  let v120 : Index := Scalar.indexCast v119
  ![v120.toNat]

def k1_chk14 (i : grid1.Coords) (v126 : IVec S16 32) : Prop :=
  (∀ (k1_h1 : k1_cond1 i = 1#1), ∀ a x, ((![v126] : Fin 1 → IVec S16 32) a x).toNat < S106496.size a)
instance k1_chk14.dec : ∀ (i : grid1.Coords) (v126 : IVec S16 32), Decidable (k1_chk14 i v126) := fun i v126 => decidable_of_iff' _ (Iff.of_eq (k1_chk14.eq_1 i v126))
theorem k1_idx14_inb : ∀ (i : grid1.Coords) (v126 : IVec S16 32) (k1_hw14 : k1_chk14 i v126), ∀ (k1_h1 : k1_cond1 i = 1#1), ∀ a x, ((![v126] : Fin 1 → IVec S16 32) a x).toNat < S106496.size a := fun i v126 k1_hw14 k1_h1 => k1_hw14 k1_h1
def k1_off20 (k1_t1 : Fin k1_t1_loop.trips) (c13_i32 : BitVec 32) : Fin 1 → Nat :=
  let c0_i32_1 : BitVec 32 := 0#32
  let c1_i32 : BitVec 32 := 1#32
  let arg8 : BitVec 32 := Scf.iv c0_i32_1 c1_i32 k1_t1
  let c16_i32_50 : BitVec 32 := 16#32
  let v122 : BitVec 32 := Scalar.muli arg8 c16_i32_50
  let v123 : BitVec 32 := Scalar.addi v122 c13_i32
  let c16_i32_52 : BitVec 32 := 16#32
  let v128 : BitVec 32 := Scalar.muli v123 c16_i32_52
  let v129 : Index := Scalar.indexCast v128
  ![v129.toNat]

def k1_chk15 (i : grid1.Coords) (v135 : IVec S16 32) : Prop :=
  (∀ (k1_h1 : k1_cond1 i = 1#1), ∀ a x, ((![v135] : Fin 1 → IVec S16 32) a x).toNat < S106496.size a)
instance k1_chk15.dec : ∀ (i : grid1.Coords) (v135 : IVec S16 32), Decidable (k1_chk15 i v135) := fun i v135 => decidable_of_iff' _ (Iff.of_eq (k1_chk15.eq_1 i v135))
theorem k1_idx15_inb : ∀ (i : grid1.Coords) (v135 : IVec S16 32) (k1_hw15 : k1_chk15 i v135), ∀ (k1_h1 : k1_cond1 i = 1#1), ∀ a x, ((![v135] : Fin 1 → IVec S16 32) a x).toNat < S106496.size a := fun i v135 k1_hw15 k1_h1 => k1_hw15 k1_h1
def k1_off21 (k1_t1 : Fin k1_t1_loop.trips) (c14_i32 : BitVec 32) : Fin 1 → Nat :=
  let c0_i32_1 : BitVec 32 := 0#32
  let c1_i32 : BitVec 32 := 1#32
  let arg8 : BitVec 32 := Scf.iv c0_i32_1 c1_i32 k1_t1
  let c16_i32_53 : BitVec 32 := 16#32
  let v131 : BitVec 32 := Scalar.muli arg8 c16_i32_53
  let v132 : BitVec 32 := Scalar.addi v131 c14_i32
  let c16_i32_55 : BitVec 32 := 16#32
  let v137 : BitVec 32 := Scalar.muli v132 c16_i32_55
  let v138 : Index := Scalar.indexCast v137
  ![v138.toNat]

def k1_chk16 (i : grid1.Coords) (v144 : IVec S16 32) : Prop :=
  (∀ (k1_h1 : k1_cond1 i = 1#1), ∀ a x, ((![v144] : Fin 1 → IVec S16 32) a x).toNat < S106496.size a)
instance k1_chk16.dec : ∀ (i : grid1.Coords) (v144 : IVec S16 32), Decidable (k1_chk16 i v144) := fun i v144 => decidable_of_iff' _ (Iff.of_eq (k1_chk16.eq_1 i v144))
theorem k1_idx16_inb : ∀ (i : grid1.Coords) (v144 : IVec S16 32) (k1_hw16 : k1_chk16 i v144), ∀ (k1_h1 : k1_cond1 i = 1#1), ∀ a x, ((![v144] : Fin 1 → IVec S16 32) a x).toNat < S106496.size a := fun i v144 k1_hw16 k1_h1 => k1_hw16 k1_h1
def k1_off22 (k1_t1 : Fin k1_t1_loop.trips) : Fin 1 → Nat :=
  let c0_i32_1 : BitVec 32 := 0#32
  let c1_i32 : BitVec 32 := 1#32
  let arg8 : BitVec 32 := Scf.iv c0_i32_1 c1_i32 k1_t1
  let c16_i32_56 : BitVec 32 := 16#32
  let v140 : BitVec 32 := Scalar.muli arg8 c16_i32_56
  let c15_i32 : BitVec 32 := 15#32
  let v141 : BitVec 32 := Scalar.addi v140 c15_i32
  let c16_i32_58 : BitVec 32 := 16#32
  let v146 : BitVec 32 := Scalar.muli v141 c16_i32_58
  let v147 : Index := Scalar.indexCast v146
  ![v147.toNat]
def k1_off23 (i : grid1.Coords) : Fin 3 → Nat :=
  let arg1 : BitVec 32 := BitVec.ofNat 32 (i 1).val
  let arg0 : BitVec 32 := BitVec.ofNat 32 (i 0).val
  let c4096_i32_r6 : BitVec 32 := 4096#32
  ![arg1.toNat, arg0.toNat, 4096]
@[reducible] def k1_t2_loop : Scf.Loop 32 :=
  let c0_i32_4 : BitVec 32 := 0#32
  let c16_i32_5 : BitVec 32 := 16#32
  let v4 : BitVec 32 := Scalar.addi c0_i32_4 c16_i32_5
  let c1_i32_6 : BitVec 32 := 1#32
  ⟨c0_i32_4, v4, c1_i32_6⟩
def k1_off24 (k1_t2 : Fin k1_t2_loop.trips) : Fin 1 → Nat :=
  let c0_i32_4 : BitVec 32 := 0#32
  let c1_i32_6 : BitVec 32 := 1#32
  let arg8 : BitVec 32 := Scf.iv c0_i32_4 c1_i32_6 k1_t2
  let c16_i32_8 : BitVec 32 := 16#32
  let v5 : BitVec 32 := Scalar.muli arg8 c16_i32_8
  let c0_i32_9 : BitVec 32 := 0#32
  let v6 : BitVec 32 := Scalar.addi v5 c0_i32_9
  let c16_i32_10 : BitVec 32 := 16#32
  let v7 : BitVec 32 := Scalar.muli v6 c16_i32_10
  let v8 : Index := Scalar.indexCast v7
  ![v8.toNat]

def k1_chk17 (i : grid1.Coords) (v9 : IVec S16 32) : Prop :=
  (∀ (k1_h1 : k1_cond1 i = 1#1), ∀ a x, ((![v9] : Fin 1 → IVec S16 32) a x).toNat < S106496.size a)
instance k1_chk17.dec : ∀ (i : grid1.Coords) (v9 : IVec S16 32), Decidable (k1_chk17 i v9) := fun i v9 => decidable_of_iff' _ (Iff.of_eq (k1_chk17.eq_1 i v9))
theorem k1_idx17_inb : ∀ (i : grid1.Coords) (v9 : IVec S16 32) (k1_hw17 : k1_chk17 i v9), ∀ (k1_h1 : k1_cond1 i = 1#1), ∀ a x, ((![v9] : Fin 1 → IVec S16 32) a x).toNat < S106496.size a := fun i v9 k1_hw17 k1_h1 => k1_hw17 k1_h1
def k1_off25 (k1_t2 : Fin k1_t2_loop.trips) (c0_i32_9 : BitVec 32) : Fin 1 → Nat :=
  let c0_i32_4 : BitVec 32 := 0#32
  let c1_i32_6 : BitVec 32 := 1#32
  let arg8 : BitVec 32 := Scf.iv c0_i32_4 c1_i32_6 k1_t2
  let c16_i32_8 : BitVec 32 := 16#32
  let v5 : BitVec 32 := Scalar.muli arg8 c16_i32_8
  let v6 : BitVec 32 := Scalar.addi v5 c0_i32_9
  let c16_i32_11 : BitVec 32 := 16#32
  let v11 : BitVec 32 := Scalar.muli v6 c16_i32_11
  let v12 : Index := Scalar.indexCast v11
  ![v12.toNat]

def k1_chk18 (i : grid1.Coords) (v18 : IVec S16 32) : Prop :=
  (∀ (k1_h1 : k1_cond1 i = 1#1), ∀ a x, ((![v18] : Fin 1 → IVec S16 32) a x).toNat < S106496.size a)
instance k1_chk18.dec : ∀ (i : grid1.Coords) (v18 : IVec S16 32), Decidable (k1_chk18 i v18) := fun i v18 => decidable_of_iff' _ (Iff.of_eq (k1_chk18.eq_1 i v18))
theorem k1_idx18_inb : ∀ (i : grid1.Coords) (v18 : IVec S16 32) (k1_hw18 : k1_chk18 i v18), ∀ (k1_h1 : k1_cond1 i = 1#1), ∀ a x, ((![v18] : Fin 1 → IVec S16 32) a x).toNat < S106496.size a := fun i v18 k1_hw18 k1_h1 => k1_hw18 k1_h1
def k1_off26 (k1_t2 : Fin k1_t2_loop.trips) (c1_i32_13 : BitVec 32) : Fin 1 → Nat :=
  let c0_i32_4 : BitVec 32 := 0#32
  let c1_i32_6 : BitVec 32 := 1#32
  let arg8 : BitVec 32 := Scf.iv c0_i32_4 c1_i32_6 k1_t2
  let c16_i32_12 : BitVec 32 := 16#32
  let v14 : BitVec 32 := Scalar.muli arg8 c16_i32_12
  let v15 : BitVec 32 := Scalar.addi v14 c1_i32_13
  let c16_i32_15 : BitVec 32 := 16#32
  let v20 : BitVec 32 := Scalar.muli v15 c16_i32_15
  let v21 : Index := Scalar.indexCast v20
  ![v21.toNat]

def k1_chk19 (i : grid1.Coords) (v27 : IVec S16 32) : Prop :=
  (∀ (k1_h1 : k1_cond1 i = 1#1), ∀ a x, ((![v27] : Fin 1 → IVec S16 32) a x).toNat < S106496.size a)
instance k1_chk19.dec : ∀ (i : grid1.Coords) (v27 : IVec S16 32), Decidable (k1_chk19 i v27) := fun i v27 => decidable_of_iff' _ (Iff.of_eq (k1_chk19.eq_1 i v27))
theorem k1_idx19_inb : ∀ (i : grid1.Coords) (v27 : IVec S16 32) (k1_hw19 : k1_chk19 i v27), ∀ (k1_h1 : k1_cond1 i = 1#1), ∀ a x, ((![v27] : Fin 1 → IVec S16 32) a x).toNat < S106496.size a := fun i v27 k1_hw19 k1_h1 => k1_hw19 k1_h1
def k1_off27 (k1_t2 : Fin k1_t2_loop.trips) (c2_i32 : BitVec 32) : Fin 1 → Nat :=
  let c0_i32_4 : BitVec 32 := 0#32
  let c1_i32_6 : BitVec 32 := 1#32
  let arg8 : BitVec 32 := Scf.iv c0_i32_4 c1_i32_6 k1_t2
  let c16_i32_16 : BitVec 32 := 16#32
  let v23 : BitVec 32 := Scalar.muli arg8 c16_i32_16
  let v24 : BitVec 32 := Scalar.addi v23 c2_i32
  let c16_i32_18 : BitVec 32 := 16#32
  let v29 : BitVec 32 := Scalar.muli v24 c16_i32_18
  let v30 : Index := Scalar.indexCast v29
  ![v30.toNat]

def k1_chk20 (i : grid1.Coords) (v36 : IVec S16 32) : Prop :=
  (∀ (k1_h1 : k1_cond1 i = 1#1), ∀ a x, ((![v36] : Fin 1 → IVec S16 32) a x).toNat < S106496.size a)
instance k1_chk20.dec : ∀ (i : grid1.Coords) (v36 : IVec S16 32), Decidable (k1_chk20 i v36) := fun i v36 => decidable_of_iff' _ (Iff.of_eq (k1_chk20.eq_1 i v36))
theorem k1_idx20_inb : ∀ (i : grid1.Coords) (v36 : IVec S16 32) (k1_hw20 : k1_chk20 i v36), ∀ (k1_h1 : k1_cond1 i = 1#1), ∀ a x, ((![v36] : Fin 1 → IVec S16 32) a x).toNat < S106496.size a := fun i v36 k1_hw20 k1_h1 => k1_hw20 k1_h1
def k1_off28 (k1_t2 : Fin k1_t2_loop.trips) (c3_i32 : BitVec 32) : Fin 1 → Nat :=
  let c0_i32_4 : BitVec 32 := 0#32
  let c1_i32_6 : BitVec 32 := 1#32
  let arg8 : BitVec 32 := Scf.iv c0_i32_4 c1_i32_6 k1_t2
  let c16_i32_19 : BitVec 32 := 16#32
  let v32 : BitVec 32 := Scalar.muli arg8 c16_i32_19
  let v33 : BitVec 32 := Scalar.addi v32 c3_i32
  let c16_i32_21 : BitVec 32 := 16#32
  let v38 : BitVec 32 := Scalar.muli v33 c16_i32_21
  let v39 : Index := Scalar.indexCast v38
  ![v39.toNat]

def k1_chk21 (i : grid1.Coords) (v45 : IVec S16 32) : Prop :=
  (∀ (k1_h1 : k1_cond1 i = 1#1), ∀ a x, ((![v45] : Fin 1 → IVec S16 32) a x).toNat < S106496.size a)
instance k1_chk21.dec : ∀ (i : grid1.Coords) (v45 : IVec S16 32), Decidable (k1_chk21 i v45) := fun i v45 => decidable_of_iff' _ (Iff.of_eq (k1_chk21.eq_1 i v45))
theorem k1_idx21_inb : ∀ (i : grid1.Coords) (v45 : IVec S16 32) (k1_hw21 : k1_chk21 i v45), ∀ (k1_h1 : k1_cond1 i = 1#1), ∀ a x, ((![v45] : Fin 1 → IVec S16 32) a x).toNat < S106496.size a := fun i v45 k1_hw21 k1_h1 => k1_hw21 k1_h1
def k1_off29 (k1_t2 : Fin k1_t2_loop.trips) (c4_i32 : BitVec 32) : Fin 1 → Nat :=
  let c0_i32_4 : BitVec 32 := 0#32
  let c1_i32_6 : BitVec 32 := 1#32
  let arg8 : BitVec 32 := Scf.iv c0_i32_4 c1_i32_6 k1_t2
  let c16_i32_22 : BitVec 32 := 16#32
  let v41 : BitVec 32 := Scalar.muli arg8 c16_i32_22
  let v42 : BitVec 32 := Scalar.addi v41 c4_i32
  let c16_i32_24 : BitVec 32 := 16#32
  let v47 : BitVec 32 := Scalar.muli v42 c16_i32_24
  let v48 : Index := Scalar.indexCast v47
  ![v48.toNat]

def k1_chk22 (i : grid1.Coords) (v54 : IVec S16 32) : Prop :=
  (∀ (k1_h1 : k1_cond1 i = 1#1), ∀ a x, ((![v54] : Fin 1 → IVec S16 32) a x).toNat < S106496.size a)
instance k1_chk22.dec : ∀ (i : grid1.Coords) (v54 : IVec S16 32), Decidable (k1_chk22 i v54) := fun i v54 => decidable_of_iff' _ (Iff.of_eq (k1_chk22.eq_1 i v54))
theorem k1_idx22_inb : ∀ (i : grid1.Coords) (v54 : IVec S16 32) (k1_hw22 : k1_chk22 i v54), ∀ (k1_h1 : k1_cond1 i = 1#1), ∀ a x, ((![v54] : Fin 1 → IVec S16 32) a x).toNat < S106496.size a := fun i v54 k1_hw22 k1_h1 => k1_hw22 k1_h1
def k1_off30 (k1_t2 : Fin k1_t2_loop.trips) (c5_i32 : BitVec 32) : Fin 1 → Nat :=
  let c0_i32_4 : BitVec 32 := 0#32
  let c1_i32_6 : BitVec 32 := 1#32
  let arg8 : BitVec 32 := Scf.iv c0_i32_4 c1_i32_6 k1_t2
  let c16_i32_25 : BitVec 32 := 16#32
  let v50 : BitVec 32 := Scalar.muli arg8 c16_i32_25
  let v51 : BitVec 32 := Scalar.addi v50 c5_i32
  let c16_i32_27 : BitVec 32 := 16#32
  let v56 : BitVec 32 := Scalar.muli v51 c16_i32_27
  let v57 : Index := Scalar.indexCast v56
  ![v57.toNat]

def k1_chk23 (i : grid1.Coords) (v63 : IVec S16 32) : Prop :=
  (∀ (k1_h1 : k1_cond1 i = 1#1), ∀ a x, ((![v63] : Fin 1 → IVec S16 32) a x).toNat < S106496.size a)
instance k1_chk23.dec : ∀ (i : grid1.Coords) (v63 : IVec S16 32), Decidable (k1_chk23 i v63) := fun i v63 => decidable_of_iff' _ (Iff.of_eq (k1_chk23.eq_1 i v63))
theorem k1_idx23_inb : ∀ (i : grid1.Coords) (v63 : IVec S16 32) (k1_hw23 : k1_chk23 i v63), ∀ (k1_h1 : k1_cond1 i = 1#1), ∀ a x, ((![v63] : Fin 1 → IVec S16 32) a x).toNat < S106496.size a := fun i v63 k1_hw23 k1_h1 => k1_hw23 k1_h1
def k1_off31 (k1_t2 : Fin k1_t2_loop.trips) (c6_i32 : BitVec 32) : Fin 1 → Nat :=
  let c0_i32_4 : BitVec 32 := 0#32
  let c1_i32_6 : BitVec 32 := 1#32
  let arg8 : BitVec 32 := Scf.iv c0_i32_4 c1_i32_6 k1_t2
  let c16_i32_28 : BitVec 32 := 16#32
  let v59 : BitVec 32 := Scalar.muli arg8 c16_i32_28
  let v60 : BitVec 32 := Scalar.addi v59 c6_i32
  let c16_i32_30 : BitVec 32 := 16#32
  let v65 : BitVec 32 := Scalar.muli v60 c16_i32_30
  let v66 : Index := Scalar.indexCast v65
  ![v66.toNat]

def k1_chk24 (i : grid1.Coords) (v72 : IVec S16 32) : Prop :=
  (∀ (k1_h1 : k1_cond1 i = 1#1), ∀ a x, ((![v72] : Fin 1 → IVec S16 32) a x).toNat < S106496.size a)
instance k1_chk24.dec : ∀ (i : grid1.Coords) (v72 : IVec S16 32), Decidable (k1_chk24 i v72) := fun i v72 => decidable_of_iff' _ (Iff.of_eq (k1_chk24.eq_1 i v72))
theorem k1_idx24_inb : ∀ (i : grid1.Coords) (v72 : IVec S16 32) (k1_hw24 : k1_chk24 i v72), ∀ (k1_h1 : k1_cond1 i = 1#1), ∀ a x, ((![v72] : Fin 1 → IVec S16 32) a x).toNat < S106496.size a := fun i v72 k1_hw24 k1_h1 => k1_hw24 k1_h1
def k1_off32 (k1_t2 : Fin k1_t2_loop.trips) (c7_i32 : BitVec 32) : Fin 1 → Nat :=
  let c0_i32_4 : BitVec 32 := 0#32
  let c1_i32_6 : BitVec 32 := 1#32
  let arg8 : BitVec 32 := Scf.iv c0_i32_4 c1_i32_6 k1_t2
  let c16_i32_31 : BitVec 32 := 16#32
  let v68 : BitVec 32 := Scalar.muli arg8 c16_i32_31
  let v69 : BitVec 32 := Scalar.addi v68 c7_i32
  let c16_i32_33 : BitVec 32 := 16#32
  let v74 : BitVec 32 := Scalar.muli v69 c16_i32_33
  let v75 : Index := Scalar.indexCast v74
  ![v75.toNat]

def k1_chk25 (i : grid1.Coords) (v81 : IVec S16 32) : Prop :=
  (∀ (k1_h1 : k1_cond1 i = 1#1), ∀ a x, ((![v81] : Fin 1 → IVec S16 32) a x).toNat < S106496.size a)
instance k1_chk25.dec : ∀ (i : grid1.Coords) (v81 : IVec S16 32), Decidable (k1_chk25 i v81) := fun i v81 => decidable_of_iff' _ (Iff.of_eq (k1_chk25.eq_1 i v81))
theorem k1_idx25_inb : ∀ (i : grid1.Coords) (v81 : IVec S16 32) (k1_hw25 : k1_chk25 i v81), ∀ (k1_h1 : k1_cond1 i = 1#1), ∀ a x, ((![v81] : Fin 1 → IVec S16 32) a x).toNat < S106496.size a := fun i v81 k1_hw25 k1_h1 => k1_hw25 k1_h1
def k1_off33 (k1_t2 : Fin k1_t2_loop.trips) (c8_i32 : BitVec 32) : Fin 1 → Nat :=
  let c0_i32_4 : BitVec 32 := 0#32
  let c1_i32_6 : BitVec 32 := 1#32
  let arg8 : BitVec 32 := Scf.iv c0_i32_4 c1_i32_6 k1_t2
  let c16_i32_34 : BitVec 32 := 16#32
  let v77 : BitVec 32 := Scalar.muli arg8 c16_i32_34
  let v78 : BitVec 32 := Scalar.addi v77 c8_i32
  let c16_i32_36 : BitVec 32 := 16#32
  let v83 : BitVec 32 := Scalar.muli v78 c16_i32_36
  let v84 : Index := Scalar.indexCast v83
  ![v84.toNat]

def k1_chk26 (i : grid1.Coords) (v90 : IVec S16 32) : Prop :=
  (∀ (k1_h1 : k1_cond1 i = 1#1), ∀ a x, ((![v90] : Fin 1 → IVec S16 32) a x).toNat < S106496.size a)
instance k1_chk26.dec : ∀ (i : grid1.Coords) (v90 : IVec S16 32), Decidable (k1_chk26 i v90) := fun i v90 => decidable_of_iff' _ (Iff.of_eq (k1_chk26.eq_1 i v90))
theorem k1_idx26_inb : ∀ (i : grid1.Coords) (v90 : IVec S16 32) (k1_hw26 : k1_chk26 i v90), ∀ (k1_h1 : k1_cond1 i = 1#1), ∀ a x, ((![v90] : Fin 1 → IVec S16 32) a x).toNat < S106496.size a := fun i v90 k1_hw26 k1_h1 => k1_hw26 k1_h1
def k1_off34 (k1_t2 : Fin k1_t2_loop.trips) (c9_i32 : BitVec 32) : Fin 1 → Nat :=
  let c0_i32_4 : BitVec 32 := 0#32
  let c1_i32_6 : BitVec 32 := 1#32
  let arg8 : BitVec 32 := Scf.iv c0_i32_4 c1_i32_6 k1_t2
  let c16_i32_37 : BitVec 32 := 16#32
  let v86 : BitVec 32 := Scalar.muli arg8 c16_i32_37
  let v87 : BitVec 32 := Scalar.addi v86 c9_i32
  let c16_i32_39 : BitVec 32 := 16#32
  let v92 : BitVec 32 := Scalar.muli v87 c16_i32_39
  let v93 : Index := Scalar.indexCast v92
  ![v93.toNat]

def k1_chk27 (i : grid1.Coords) (v99 : IVec S16 32) : Prop :=
  (∀ (k1_h1 : k1_cond1 i = 1#1), ∀ a x, ((![v99] : Fin 1 → IVec S16 32) a x).toNat < S106496.size a)
instance k1_chk27.dec : ∀ (i : grid1.Coords) (v99 : IVec S16 32), Decidable (k1_chk27 i v99) := fun i v99 => decidable_of_iff' _ (Iff.of_eq (k1_chk27.eq_1 i v99))
theorem k1_idx27_inb : ∀ (i : grid1.Coords) (v99 : IVec S16 32) (k1_hw27 : k1_chk27 i v99), ∀ (k1_h1 : k1_cond1 i = 1#1), ∀ a x, ((![v99] : Fin 1 → IVec S16 32) a x).toNat < S106496.size a := fun i v99 k1_hw27 k1_h1 => k1_hw27 k1_h1
def k1_off35 (k1_t2 : Fin k1_t2_loop.trips) (c10_i32_41 : BitVec 32) : Fin 1 → Nat :=
  let c0_i32_4 : BitVec 32 := 0#32
  let c1_i32_6 : BitVec 32 := 1#32
  let arg8 : BitVec 32 := Scf.iv c0_i32_4 c1_i32_6 k1_t2
  let c16_i32_40 : BitVec 32 := 16#32
  let v95 : BitVec 32 := Scalar.muli arg8 c16_i32_40
  let v96 : BitVec 32 := Scalar.addi v95 c10_i32_41
  let c16_i32_43 : BitVec 32 := 16#32
  let v101 : BitVec 32 := Scalar.muli v96 c16_i32_43
  let v102 : Index := Scalar.indexCast v101
  ![v102.toNat]

def k1_chk28 (i : grid1.Coords) (v108 : IVec S16 32) : Prop :=
  (∀ (k1_h1 : k1_cond1 i = 1#1), ∀ a x, ((![v108] : Fin 1 → IVec S16 32) a x).toNat < S106496.size a)
instance k1_chk28.dec : ∀ (i : grid1.Coords) (v108 : IVec S16 32), Decidable (k1_chk28 i v108) := fun i v108 => decidable_of_iff' _ (Iff.of_eq (k1_chk28.eq_1 i v108))
theorem k1_idx28_inb : ∀ (i : grid1.Coords) (v108 : IVec S16 32) (k1_hw28 : k1_chk28 i v108), ∀ (k1_h1 : k1_cond1 i = 1#1), ∀ a x, ((![v108] : Fin 1 → IVec S16 32) a x).toNat < S106496.size a := fun i v108 k1_hw28 k1_h1 => k1_hw28 k1_h1
def k1_off36 (k1_t2 : Fin k1_t2_loop.trips) (c11_i32 : BitVec 32) : Fin 1 → Nat :=
  let c0_i32_4 : BitVec 32 := 0#32
  let c1_i32_6 : BitVec 32 := 1#32
  let arg8 : BitVec 32 := Scf.iv c0_i32_4 c1_i32_6 k1_t2
  let c16_i32_44 : BitVec 32 := 16#32
  let v104 : BitVec 32 := Scalar.muli arg8 c16_i32_44
  let v105 : BitVec 32 := Scalar.addi v104 c11_i32
  let c16_i32_46 : BitVec 32 := 16#32
  let v110 : BitVec 32 := Scalar.muli v105 c16_i32_46
  let v111 : Index := Scalar.indexCast v110
  ![v111.toNat]

def k1_chk29 (i : grid1.Coords) (v117 : IVec S16 32) : Prop :=
  (∀ (k1_h1 : k1_cond1 i = 1#1), ∀ a x, ((![v117] : Fin 1 → IVec S16 32) a x).toNat < S106496.size a)
instance k1_chk29.dec : ∀ (i : grid1.Coords) (v117 : IVec S16 32), Decidable (k1_chk29 i v117) := fun i v117 => decidable_of_iff' _ (Iff.of_eq (k1_chk29.eq_1 i v117))
theorem k1_idx29_inb : ∀ (i : grid1.Coords) (v117 : IVec S16 32) (k1_hw29 : k1_chk29 i v117), ∀ (k1_h1 : k1_cond1 i = 1#1), ∀ a x, ((![v117] : Fin 1 → IVec S16 32) a x).toNat < S106496.size a := fun i v117 k1_hw29 k1_h1 => k1_hw29 k1_h1
def k1_off37 (k1_t2 : Fin k1_t2_loop.trips) (c12_i32 : BitVec 32) : Fin 1 → Nat :=
  let c0_i32_4 : BitVec 32 := 0#32
  let c1_i32_6 : BitVec 32 := 1#32
  let arg8 : BitVec 32 := Scf.iv c0_i32_4 c1_i32_6 k1_t2
  let c16_i32_47 : BitVec 32 := 16#32
  let v113 : BitVec 32 := Scalar.muli arg8 c16_i32_47
  let v114 : BitVec 32 := Scalar.addi v113 c12_i32
  let c16_i32_49 : BitVec 32 := 16#32
  let v119 : BitVec 32 := Scalar.muli v114 c16_i32_49
  let v120 : Index := Scalar.indexCast v119
  ![v120.toNat]

def k1_chk30 (i : grid1.Coords) (v126 : IVec S16 32) : Prop :=
  (∀ (k1_h1 : k1_cond1 i = 1#1), ∀ a x, ((![v126] : Fin 1 → IVec S16 32) a x).toNat < S106496.size a)
instance k1_chk30.dec : ∀ (i : grid1.Coords) (v126 : IVec S16 32), Decidable (k1_chk30 i v126) := fun i v126 => decidable_of_iff' _ (Iff.of_eq (k1_chk30.eq_1 i v126))
theorem k1_idx30_inb : ∀ (i : grid1.Coords) (v126 : IVec S16 32) (k1_hw30 : k1_chk30 i v126), ∀ (k1_h1 : k1_cond1 i = 1#1), ∀ a x, ((![v126] : Fin 1 → IVec S16 32) a x).toNat < S106496.size a := fun i v126 k1_hw30 k1_h1 => k1_hw30 k1_h1
def k1_off38 (k1_t2 : Fin k1_t2_loop.trips) (c13_i32 : BitVec 32) : Fin 1 → Nat :=
  let c0_i32_4 : BitVec 32 := 0#32
  let c1_i32_6 : BitVec 32 := 1#32
  let arg8 : BitVec 32 := Scf.iv c0_i32_4 c1_i32_6 k1_t2
  let c16_i32_50 : BitVec 32 := 16#32
  let v122 : BitVec 32 := Scalar.muli arg8 c16_i32_50
  let v123 : BitVec 32 := Scalar.addi v122 c13_i32
  let c16_i32_52 : BitVec 32 := 16#32
  let v128 : BitVec 32 := Scalar.muli v123 c16_i32_52
  let v129 : Index := Scalar.indexCast v128
  ![v129.toNat]

def k1_chk31 (i : grid1.Coords) (v135 : IVec S16 32) : Prop :=
  (∀ (k1_h1 : k1_cond1 i = 1#1), ∀ a x, ((![v135] : Fin 1 → IVec S16 32) a x).toNat < S106496.size a)
instance k1_chk31.dec : ∀ (i : grid1.Coords) (v135 : IVec S16 32), Decidable (k1_chk31 i v135) := fun i v135 => decidable_of_iff' _ (Iff.of_eq (k1_chk31.eq_1 i v135))
theorem k1_idx31_inb : ∀ (i : grid1.Coords) (v135 : IVec S16 32) (k1_hw31 : k1_chk31 i v135), ∀ (k1_h1 : k1_cond1 i = 1#1), ∀ a x, ((![v135] : Fin 1 → IVec S16 32) a x).toNat < S106496.size a := fun i v135 k1_hw31 k1_h1 => k1_hw31 k1_h1
def k1_off39 (k1_t2 : Fin k1_t2_loop.trips) (c14_i32 : BitVec 32) : Fin 1 → Nat :=
  let c0_i32_4 : BitVec 32 := 0#32
  let c1_i32_6 : BitVec 32 := 1#32
  let arg8 : BitVec 32 := Scf.iv c0_i32_4 c1_i32_6 k1_t2
  let c16_i32_53 : BitVec 32 := 16#32
  let v131 : BitVec 32 := Scalar.muli arg8 c16_i32_53
  let v132 : BitVec 32 := Scalar.addi v131 c14_i32
  let c16_i32_55 : BitVec 32 := 16#32
  let v137 : BitVec 32 := Scalar.muli v132 c16_i32_55
  let v138 : Index := Scalar.indexCast v137
  ![v138.toNat]

def k1_chk32 (i : grid1.Coords) (v144 : IVec S16 32) : Prop :=
  (∀ (k1_h1 : k1_cond1 i = 1#1), ∀ a x, ((![v144] : Fin 1 → IVec S16 32) a x).toNat < S106496.size a)
instance k1_chk32.dec : ∀ (i : grid1.Coords) (v144 : IVec S16 32), Decidable (k1_chk32 i v144) := fun i v144 => decidable_of_iff' _ (Iff.of_eq (k1_chk32.eq_1 i v144))
theorem k1_idx32_inb : ∀ (i : grid1.Coords) (v144 : IVec S16 32) (k1_hw32 : k1_chk32 i v144), ∀ (k1_h1 : k1_cond1 i = 1#1), ∀ a x, ((![v144] : Fin 1 → IVec S16 32) a x).toNat < S106496.size a := fun i v144 k1_hw32 k1_h1 => k1_hw32 k1_h1
def k1_off40 (k1_t2 : Fin k1_t2_loop.trips) : Fin 1 → Nat :=
  let c0_i32_4 : BitVec 32 := 0#32
  let c1_i32_6 : BitVec 32 := 1#32
  let arg8 : BitVec 32 := Scf.iv c0_i32_4 c1_i32_6 k1_t2
  let c16_i32_56 : BitVec 32 := 16#32
  let v140 : BitVec 32 := Scalar.muli arg8 c16_i32_56
  let c15_i32 : BitVec 32 := 15#32
  let v141 : BitVec 32 := Scalar.addi v140 c15_i32
  let c16_i32_58 : BitVec 32 := 16#32
  let v146 : BitVec 32 := Scalar.muli v141 c16_i32_58
  let v147 : Index := Scalar.indexCast v146
  ![v147.toNat]
abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S10x128x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .smem S2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S641x1_S640x1_0_0 : S641x1.Slices ![0, 0] S640x1
  shapeCasts_S640x1_S640 : S640x1.ShapeCasts S640
  shapeCasts_S640_S10x64 : S640.ShapeCasts S10x64
  bcast_S_S16x64 : S_.BroadcastsInDim S16x64 (![] : Fin 0 → Fin S16x64.rank)
  bcast_S_S1 : S_.BroadcastsInDim S1 (![] : Fin 0 → Fin S1.rank)
  transposes_S100000x64_S64x100000_1_0 : S100000x64.Transposes [1, 0] S64x100000
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  inb_S16x8192_S16x8192_0_0 : ∀ a, (![0, 0] : Fin 2 → Nat) a + S16x8192.size a ≤ S16x8192.size a
  h_S16x8192 : 0 < S16x8192.numel
  concatenates_S16384x5_S16384x5_S16384x10_d1 : Shape.Concatenates [S16384x5, S16384x5] S16384x10 1
  transposes_S16384x10_S10x16384_1_0 : S16384x10.Transposes [1, 0] S10x16384
  shapeCasts_S10x16384_S10x2x8192 : S10x16384.ShapeCasts S10x2x8192
  inb_S106496_S26624_0 : ∀ a, (![0] : Fin 1 → Nat) a + S26624.size a ≤ S106496.size a
  squeezes_S1x26624_S26624 : S1x26624.Squeezes S26624
  inb_S106496_S26624_26624 : ∀ a, (![26624] : Fin 1 → Nat) a + S26624.size a ≤ S106496.size a
  inb_S106496_S26624_53248 : ∀ a, (![53248] : Fin 1 → Nat) a + S26624.size a ≤ S106496.size a
  inb_S106496_S26624_79872 : ∀ a, (![79872] : Fin 1 → Nat) a + S26624.size a ≤ S106496.size a
  squeezes_S1x1x4096_S4096 : S1x1x4096.Squeezes S4096
  h_S16 : 0 < S16.numel
  h_S106496 : 0 < S106496.numel
  shapeCasts_S10x2x8192_S10x128x128 : S10x2x8192.ShapeCasts S10x128x128
  shapeCasts_S16384_S128x128 : S16384.ShapeCasts S128x128
  slices_S641x1_S1x1_640_0 : S641x1.Slices ![640, 0] S1x1
  shapeCasts_S1x1_S_ : S1x1.ShapeCasts S_
  shapeCasts_S1_S_ : S1.ShapeCasts S_
  concatenates_S1_S1_S2_d0 : Shape.Concatenates [S1, S1] S2 0
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2_S1_0 : ∀ a, (![0] : Fin 1 → Nat) a + S1.size a ≤ S2.size a
  numel1_S1 : S1.numel = 1
  inb_S2_S1_1 : ∀ a, (![1] : Fin 1 → Nat) a + S1.size a ≤ S2.size a
  inb_S10x128x128_S1x128x128_0_0_0 : ∀ a, (![0, 0, 0] : Fin 3 → Nat) a + S1x128x128.size a ≤ S10x128x128.size a
  h_S1x128x128 : 0 < S1x128x128.numel
  shapeCasts_S1x128x128_S128x128 : S1x128x128.ShapeCasts S128x128
  inb_S10x128x128_S1x128x128_1_0_0 : ∀ a, (![1, 0, 0] : Fin 3 → Nat) a + S1x128x128.size a ≤ S10x128x128.size a
  inb_S10x128x128_S1x128x128_2_0_0 : ∀ a, (![2, 0, 0] : Fin 3 → Nat) a + S1x128x128.size a ≤ S10x128x128.size a
  inb_S10x128x128_S1x128x128_3_0_0 : ∀ a, (![3, 0, 0] : Fin 3 → Nat) a + S1x128x128.size a ≤ S10x128x128.size a
  inb_S10x128x128_S1x128x128_4_0_0 : ∀ a, (![4, 0, 0] : Fin 3 → Nat) a + S1x128x128.size a ≤ S10x128x128.size a
  inb_S10x128x128_S1x128x128_5_0_0 : ∀ a, (![5, 0, 0] : Fin 3 → Nat) a + S1x128x128.size a ≤ S10x128x128.size a
  inb_S10x128x128_S1x128x128_6_0_0 : ∀ a, (![6, 0, 0] : Fin 3 → Nat) a + S1x128x128.size a ≤ S10x128x128.size a
  inb_S10x128x128_S1x128x128_7_0_0 : ∀ a, (![7, 0, 0] : Fin 3 → Nat) a + S1x128x128.size a ≤ S10x128x128.size a
  inb_S10x128x128_S1x128x128_8_0_0 : ∀ a, (![8, 0, 0] : Fin 3 → Nat) a + S1x128x128.size a ≤ S10x128x128.size a
  inb_S10x128x128_S1x128x128_9_0_0 : ∀ a, (![9, 0, 0] : Fin 3 → Nat) a + S1x128x128.size a ≤ S10x128x128.size a
  shapeCasts_S128x128_S16384x1 : S128x128.ShapeCasts S16384x1
  scatter_S16x64_S1_S10x64_01_n_0_0_wf : ScatterDims.WF S16x64 S1 S10x64 [0, 1] [] [0] 0
  dot_S16x64_S64x8192_S16x8192_1_0_0_1_n_n_wf : DotDims.WF S16x64 S64x8192 S16x8192 [1] [0] [0] [1] [] []
  hcc1_scoped0 : 5 + S_.numel ≤ 17
  hcc1_scoped1 : 6 + S_.numel ≤ 17
  hcc1_scoped2 : 7 + S_.numel ≤ 17
  hcc1_scoped3 : 8 + S_.numel ≤ 17
  hcc1_scoped4 : 9 + S_.numel ≤ 17
  hcc1_scoped5 : 10 + S_.numel ≤ 17
  hcc1_scoped6 : 11 + S_.numel ≤ 17
  hcc1_scoped7 : 12 + S_.numel ≤ 17
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x64.size a ≤ S16x64.size a
  hwx0_0 : ∀ i : grid0.Coords, EltTy.bits .f32 = 32 ∨ (Rect.block (s := S16x64) S16x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S64x8192.size a < S64x100000.size a
  hwx0_1 : ∀ i : grid0.Coords, EltTy.bits .f32 = 32 ∨ (Rect.unit (s := S64x100000) (fun a => cc0_transform_1 i a * S64x8192.size a) (fun a => (Pipeline.Clip.of (cc0_transform_1 i a) (S64x8192.size a) (S64x100000.size a)).extent (S64x8192.size a)) fun a => Pipeline.Clip.inb (Pipeline.Clip.ok_of (hstart0_1 i a))).WholeWords (EltTy.packing .f32)
  hwxs0_1 : ∀ i : grid0.Coords, EltTy.bits .f32 = 32 ∨ (Rect.unit (s := S64x8192) (fun _ => 0) (fun a => (Pipeline.Clip.of (cc0_transform_1 i a) (S64x8192.size a) (S64x100000.size a)).extent (S64x8192.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x8192.size a ≤ S16x106496.size a
  hwx0_2 : ∀ i : grid0.Coords, EltTy.bits .f32 = 32 ∨ (Rect.block (s := S16x106496) S16x8192.size (cc0_transform_2 i) (hinb0_2 i)).WholeWords (EltTy.packing .f32)
  hcore1 : grid1.bound 0 ≤ τ.nSC
  hsub1 : grid1.bound 1 ≤ τ.nSub
  k1_off1_inb : ∀ i : grid1.Coords, ∀ (k1_h1 : k1_cond1 i = 1#1), ∀ a, (k1_off1 i) a + S1x26624.size a ≤ S16x106496.size a
  k1_off2_inb : ∀ i : grid1.Coords, ∀ (k1_h1 : k1_cond1 i = 1#1), ∀ a, (k1_off2 i) a + S1x26624.size a ≤ S16x106496.size a
  k1_off3_inb : ∀ i : grid1.Coords, ∀ (k1_h1 : k1_cond1 i = 1#1), ∀ a, (k1_off3 i) a + S1x26624.size a ≤ S16x106496.size a
  k1_off4_inb : ∀ i : grid1.Coords, ∀ (k1_h1 : k1_cond1 i = 1#1), ∀ a, (k1_off4 i) a + S1x26624.size a ≤ S16x106496.size a
  k1_off5_inb : ∀ i : grid1.Coords, ∀ (k1_h1 : k1_cond1 i = 1#1), ∀ a, (k1_off5 i) a + S1x1x4096.size a ≤ S10x2x8192.size a
  k1_t1_ok : ∀ i : grid1.Coords, ∀ (k1_h1 : k1_cond1 i = 1#1), k1_t1_loop.OK
  k1_off6_inb : ∀ (i : grid1.Coords) (k1_t1 : Fin k1_t1_loop.trips), ∀ (k1_h1 : k1_cond1 i = 1#1), ∀ a, (k1_off6 k1_t1) a + S16.size a ≤ S4096.size a
  k1_off7_inb : ∀ (i : grid1.Coords) (k1_t1 : Fin k1_t1_loop.trips), ∀ (k1_h1 : k1_cond1 i = 1#1), ∀ (r : Fin 2), ∀ a, (k1_off7 k1_t1 (BitVec.ofNat 32 r.val)) a + S16.size a ≤ S4096.size a
  k1_off8_inb : ∀ (i : grid1.Coords) (k1_t1 : Fin k1_t1_loop.trips), ∀ (k1_h1 : k1_cond1 i = 1#1), ∀ (r : Fin 2), ∀ a, (k1_off8 k1_t1 (BitVec.ofNat 32 (1 + r.val))) a + S16.size a ≤ S4096.size a
  k1_off9_inb : ∀ (i : grid1.Coords) (k1_t1 : Fin k1_t1_loop.trips), ∀ (k1_h1 : k1_cond1 i = 1#1), ∀ (r : Fin 2), ∀ a, (k1_off9 k1_t1 (BitVec.ofNat 32 (2 + r.val))) a + S16.size a ≤ S4096.size a
  k1_off10_inb : ∀ (i : grid1.Coords) (k1_t1 : Fin k1_t1_loop.trips), ∀ (k1_h1 : k1_cond1 i = 1#1), ∀ (r : Fin 2), ∀ a, (k1_off10 k1_t1 (BitVec.ofNat 32 (3 + r.val))) a + S16.size a ≤ S4096.size a
  k1_off11_inb : ∀ (i : grid1.Coords) (k1_t1 : Fin k1_t1_loop.trips), ∀ (k1_h1 : k1_cond1 i = 1#1), ∀ (r : Fin 2), ∀ a, (k1_off11 k1_t1 (BitVec.ofNat 32 (4 + r.val))) a + S16.size a ≤ S4096.size a
  k1_off12_inb : ∀ (i : grid1.Coords) (k1_t1 : Fin k1_t1_loop.trips), ∀ (k1_h1 : k1_cond1 i = 1#1), ∀ (r : Fin 2), ∀ a, (k1_off12 k1_t1 (BitVec.ofNat 32 (5 + r.val))) a + S16.size a ≤ S4096.size a
  k1_off13_inb : ∀ (i : grid1.Coords) (k1_t1 : Fin k1_t1_loop.trips), ∀ (k1_h1 : k1_cond1 i = 1#1), ∀ (r : Fin 2), ∀ a, (k1_off13 k1_t1 (BitVec.ofNat 32 (6 + r.val))) a + S16.size a ≤ S4096.size a
  k1_off14_inb : ∀ (i : grid1.Coords) (k1_t1 : Fin k1_t1_loop.trips), ∀ (k1_h1 : k1_cond1 i = 1#1), ∀ (r : Fin 2), ∀ a, (k1_off14 k1_t1 (BitVec.ofNat 32 (7 + r.val))) a + S16.size a ≤ S4096.size a
  k1_off15_inb : ∀ (i : grid1.Coords) (k1_t1 : Fin k1_t1_loop.trips), ∀ (k1_h1 : k1_cond1 i = 1#1), ∀ (r : Fin 2), ∀ a, (k1_off15 k1_t1 (BitVec.ofNat 32 (8 + r.val))) a + S16.size a ≤ S4096.size a
  k1_off16_inb : ∀ (i : grid1.Coords) (k1_t1 : Fin k1_t1_loop.trips), ∀ (k1_h1 : k1_cond1 i = 1#1), ∀ (r : Fin 2), ∀ a, (k1_off16 k1_t1 (BitVec.ofNat 32 (9 + r.val))) a + S16.size a ≤ S4096.size a
  k1_off17_inb : ∀ (i : grid1.Coords) (k1_t1 : Fin k1_t1_loop.trips), ∀ (k1_h1 : k1_cond1 i = 1#1), ∀ (r : Fin 2), ∀ a, (k1_off17 k1_t1 (BitVec.ofNat 32 (10 + r.val))) a + S16.size a ≤ S4096.size a
  k1_off18_inb : ∀ (i : grid1.Coords) (k1_t1 : Fin k1_t1_loop.trips), ∀ (k1_h1 : k1_cond1 i = 1#1), ∀ (r : Fin 2), ∀ a, (k1_off18 k1_t1 (BitVec.ofNat 32 (11 + r.val))) a + S16.size a ≤ S4096.size a
  k1_off19_inb : ∀ (i : grid1.Coords) (k1_t1 : Fin k1_t1_loop.trips), ∀ (k1_h1 : k1_cond1 i = 1#1), ∀ (r : Fin 2), ∀ a, (k1_off19 k1_t1 (BitVec.ofNat 32 (12 + r.val))) a + S16.size a ≤ S4096.size a
  k1_off20_inb : ∀ (i : grid1.Coords) (k1_t1 : Fin k1_t1_loop.trips), ∀ (k1_h1 : k1_cond1 i = 1#1), ∀ (r : Fin 2), ∀ a, (k1_off20 k1_t1 (BitVec.ofNat 32 (13 + r.val))) a + S16.size a ≤ S4096.size a
  k1_off21_inb : ∀ (i : grid1.Coords) (k1_t1 : Fin k1_t1_loop.trips), ∀ (k1_h1 : k1_cond1 i = 1#1), ∀ (r : Fin 2), ∀ a, (k1_off21 k1_t1 (BitVec.ofNat 32 (14 + r.val))) a + S16.size a ≤ S4096.size a
  k1_off22_inb : ∀ (i : grid1.Coords) (k1_t1 : Fin k1_t1_loop.trips), ∀ (k1_h1 : k1_cond1 i = 1#1), ∀ a, (k1_off22 k1_t1) a + S16.size a ≤ S4096.size a
  k1_off23_inb : ∀ i : grid1.Coords, ∀ (k1_h1 : k1_cond1 i = 1#1), ∀ a, (k1_off23 i) a + S1x1x4096.size a ≤ S10x2x8192.size a
  k1_t2_ok : ∀ i : grid1.Coords, ∀ (k1_h1 : k1_cond1 i = 1#1), k1_t2_loop.OK
  k1_off24_inb : ∀ (i : grid1.Coords) (k1_t2 : Fin k1_t2_loop.trips), ∀ (k1_h1 : k1_cond1 i = 1#1), ∀ a, (k1_off24 k1_t2) a + S16.size a ≤ S4096.size a
  k1_off25_inb : ∀ (i : grid1.Coords) (k1_t2 : Fin k1_t2_loop.trips), ∀ (k1_h1 : k1_cond1 i = 1#1), ∀ (r : Fin 2), ∀ a, (k1_off25 k1_t2 (BitVec.ofNat 32 r.val)) a + S16.size a ≤ S4096.size a
  k1_off26_inb : ∀ (i : grid1.Coords) (k1_t2 : Fin k1_t2_loop.trips), ∀ (k1_h1 : k1_cond1 i = 1#1), ∀ (r : Fin 2), ∀ a, (k1_off26 k1_t2 (BitVec.ofNat 32 (1 + r.val))) a + S16.size a ≤ S4096.size a
  k1_off27_inb : ∀ (i : grid1.Coords) (k1_t2 : Fin k1_t2_loop.trips), ∀ (k1_h1 : k1_cond1 i = 1#1), ∀ (r : Fin 2), ∀ a, (k1_off27 k1_t2 (BitVec.ofNat 32 (2 + r.val))) a + S16.size a ≤ S4096.size a
  k1_off28_inb : ∀ (i : grid1.Coords) (k1_t2 : Fin k1_t2_loop.trips), ∀ (k1_h1 : k1_cond1 i = 1#1), ∀ (r : Fin 2), ∀ a, (k1_off28 k1_t2 (BitVec.ofNat 32 (3 + r.val))) a + S16.size a ≤ S4096.size a
  k1_off29_inb : ∀ (i : grid1.Coords) (k1_t2 : Fin k1_t2_loop.trips), ∀ (k1_h1 : k1_cond1 i = 1#1), ∀ (r : Fin 2), ∀ a, (k1_off29 k1_t2 (BitVec.ofNat 32 (4 + r.val))) a + S16.size a ≤ S4096.size a
  k1_off30_inb : ∀ (i : grid1.Coords) (k1_t2 : Fin k1_t2_loop.trips), ∀ (k1_h1 : k1_cond1 i = 1#1), ∀ (r : Fin 2), ∀ a, (k1_off30 k1_t2 (BitVec.ofNat 32 (5 + r.val))) a + S16.size a ≤ S4096.size a
  k1_off31_inb : ∀ (i : grid1.Coords) (k1_t2 : Fin k1_t2_loop.trips), ∀ (k1_h1 : k1_cond1 i = 1#1), ∀ (r : Fin 2), ∀ a, (k1_off31 k1_t2 (BitVec.ofNat 32 (6 + r.val))) a + S16.size a ≤ S4096.size a
  k1_off32_inb : ∀ (i : grid1.Coords) (k1_t2 : Fin k1_t2_loop.trips), ∀ (k1_h1 : k1_cond1 i = 1#1), ∀ (r : Fin 2), ∀ a, (k1_off32 k1_t2 (BitVec.ofNat 32 (7 + r.val))) a + S16.size a ≤ S4096.size a
  k1_off33_inb : ∀ (i : grid1.Coords) (k1_t2 : Fin k1_t2_loop.trips), ∀ (k1_h1 : k1_cond1 i = 1#1), ∀ (r : Fin 2), ∀ a, (k1_off33 k1_t2 (BitVec.ofNat 32 (8 + r.val))) a + S16.size a ≤ S4096.size a
  k1_off34_inb : ∀ (i : grid1.Coords) (k1_t2 : Fin k1_t2_loop.trips), ∀ (k1_h1 : k1_cond1 i = 1#1), ∀ (r : Fin 2), ∀ a, (k1_off34 k1_t2 (BitVec.ofNat 32 (9 + r.val))) a + S16.size a ≤ S4096.size a
  k1_off35_inb : ∀ (i : grid1.Coords) (k1_t2 : Fin k1_t2_loop.trips), ∀ (k1_h1 : k1_cond1 i = 1#1), ∀ (r : Fin 2), ∀ a, (k1_off35 k1_t2 (BitVec.ofNat 32 (10 + r.val))) a + S16.size a ≤ S4096.size a
  k1_off36_inb : ∀ (i : grid1.Coords) (k1_t2 : Fin k1_t2_loop.trips), ∀ (k1_h1 : k1_cond1 i = 1#1), ∀ (r : Fin 2), ∀ a, (k1_off36 k1_t2 (BitVec.ofNat 32 (11 + r.val))) a + S16.size a ≤ S4096.size a
  k1_off37_inb : ∀ (i : grid1.Coords) (k1_t2 : Fin k1_t2_loop.trips), ∀ (k1_h1 : k1_cond1 i = 1#1), ∀ (r : Fin 2), ∀ a, (k1_off37 k1_t2 (BitVec.ofNat 32 (12 + r.val))) a + S16.size a ≤ S4096.size a
  k1_off38_inb : ∀ (i : grid1.Coords) (k1_t2 : Fin k1_t2_loop.trips), ∀ (k1_h1 : k1_cond1 i = 1#1), ∀ (r : Fin 2), ∀ a, (k1_off38 k1_t2 (BitVec.ofNat 32 (13 + r.val))) a + S16.size a ≤ S4096.size a
  k1_off39_inb : ∀ (i : grid1.Coords) (k1_t2 : Fin k1_t2_loop.trips), ∀ (k1_h1 : k1_cond1 i = 1#1), ∀ (r : Fin 2), ∀ a, (k1_off39 k1_t2 (BitVec.ofNat 32 (14 + r.val))) a + S16.size a ≤ S4096.size a
  k1_off40_inb : ∀ (i : grid1.Coords) (k1_t2 : Fin k1_t2_loop.trips), ∀ (k1_h1 : k1_cond1 i = 1#1), ∀ a, (k1_off40 k1_t2) a + S16.size a ≤ S4096.size a
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S10x128x128.size a ≤ S10x128x128.size a
  hwx2_0 : ∀ i : grid2.Coords, EltTy.bits .f32 = 32 ∨ (Rect.block (s := S10x128x128) S10x128x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S2.size a ≤ S2.size a
  hwx2_2 : ∀ i : grid2.Coords, EltTy.bits .f32 = 32 ∨ (Rect.block (s := S2) S2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)

variable [Facts₀]

abbrev cc1_scoped0 : DmaSems sig S_ := SemArray.consecutive 5 S_ hcc1_scoped0
abbrev cc1_scoped1 : DmaSems sig S_ := SemArray.consecutive 6 S_ hcc1_scoped1
abbrev cc1_scoped2 : DmaSems sig S_ := SemArray.consecutive 7 S_ hcc1_scoped2
abbrev cc1_scoped3 : DmaSems sig S_ := SemArray.consecutive 8 S_ hcc1_scoped3
abbrev cc1_scoped4 : DmaSems sig S_ := SemArray.consecutive 9 S_ hcc1_scoped4
abbrev cc1_scoped5 : DmaSems sig S_ := SemArray.consecutive 10 S_ hcc1_scoped5
abbrev cc1_scoped6 : DmaSems sig S_ := SemArray.consecutive 11 S_ hcc1_scoped6
abbrev cc1_scoped7 : DmaSems sig S_ := SemArray.consecutive 12 S_ hcc1_scoped7
def scatter_S16x64_S1_S10x64_01_n_0_0 : ScatterDims S16x64 S1 S10x64 where
  updateWindowDims := [0, 1]
  insertedWindowDims := []
  scatterDimsToOperandDims := [0]
  indexVectorDim := 0
  wf := scatter_S16x64_S1_S10x64_01_n_0_0_wf
def dot_S16x64_S64x8192_S16x8192_1_0_0_1_n_n : DotDims S16x64 S64x8192 S16x8192 where
  lhsContracting := [1]
  rhsContracting := [0]
  lhsNonContracting := [0]
  rhsNonContracting := [1]
  lhsBatch := []
  rhsBatch := []
  wf := dot_S16x64_S64x8192_S16x8192_1_0_0_1_n_n_wf

abbrev win0_0 : Pipeline.Window sig grid0 :=
  Pipeline.Window.ofSpec (Memref.whole main_v5) S16x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v6) S64x8192.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v7) S16x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win2_0 : Pipeline.Window sig grid2 :=
  Pipeline.Window.ofSpec (Memref.whole main_v12) S10x128x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v13) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S2.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S128x128.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S16384x5 : Shape := ⟨2, ![16384, 5]⟩
abbrev S16384 : Shape := ⟨1, ![16384]⟩
abbrev S100000x64 : Shape := ⟨2, ![100000, 64]⟩
abbrev S641x1 : Shape := ⟨2, ![641, 1]⟩
abbrev S1 : Shape := ⟨1, ![1]⟩
abbrev S_ : Shape := ⟨0, ![]⟩
abbrev S16384x5x1 : Shape := ⟨3, ![16384, 5, 1]⟩
abbrev S1x1x1 : Shape := ⟨3, ![1, 1, 1]⟩
abbrev S16384x5x64 : Shape := ⟨3, ![16384, 5, 64]⟩
abbrev S16384x320 : Shape := ⟨2, ![16384, 320]⟩
abbrev S16384x1 : Shape := ⟨2, ![16384, 1]⟩
abbrev S16384x641 : Shape := ⟨2, ![16384, 641]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S16384x5, .i32⟩
  | .hbm, ⟨1, _⟩ => ⟨S16384x5, .i32⟩
  | .hbm, ⟨2, _⟩ => ⟨S16384, .f32⟩
  | .hbm, ⟨3, _⟩ => ⟨S100000x64, .f32⟩
  | .hbm, ⟨4, _⟩ => ⟨S641x1, .f32⟩
  | .hbm, ⟨5, _⟩ => ⟨S1, .f32⟩
  | .hbm, ⟨6, _⟩ => ⟨S_, .i32⟩
  | .hbm, ⟨7, _⟩ => ⟨S16384x5, .i32⟩
  | .hbm, ⟨8, _⟩ => ⟨S16384x5, .i1⟩
  | .hbm, ⟨9, _⟩ => ⟨S_, .i32⟩
  | .hbm, ⟨10, _⟩ => ⟨S16384x5, .i32⟩
  | .hbm, ⟨11, _⟩ => ⟨S16384x5, .i32⟩
  | .hbm, ⟨12, _⟩ => ⟨S16384x5, .i32⟩
  | .hbm, ⟨13, _⟩ => ⟨S16384x5x1, .i32⟩
  | .hbm, ⟨14, _⟩ => ⟨S1, .i32⟩
  | .hbm, ⟨15, _⟩ => ⟨S_, .i32⟩
  | .hbm, ⟨16, _⟩ => ⟨S16384x5x1, .i32⟩
  | .hbm, ⟨17, _⟩ => ⟨S16384x5x1, .i1⟩
  | .hbm, ⟨18, _⟩ => ⟨S1x1x1, .i32⟩
  | .hbm, ⟨19, _⟩ => ⟨S16384x5x1, .i32⟩
  | .hbm, ⟨20, _⟩ => ⟨S16384x5x1, .i1⟩
  | .hbm, ⟨21, _⟩ => ⟨S16384x5x1, .i1⟩
  | .hbm, ⟨22, _⟩ => ⟨S_, .i1⟩
  | .hbm, ⟨23, _⟩ => ⟨S16384x5, .i1⟩
  | .hbm, ⟨24, _⟩ => ⟨S16384x5x64, .f32⟩
  | .hbm, ⟨25, _⟩ => ⟨S16384x5x64, .i1⟩
  | .hbm, ⟨26, _⟩ => ⟨S_, .f32⟩
  | .hbm, ⟨27, _⟩ => ⟨S16384x5x64, .f32⟩
  | .hbm, ⟨28, _⟩ => ⟨S16384x5x64, .f32⟩
  | .hbm, ⟨29, _⟩ => ⟨S16384x320, .f32⟩
  | .hbm, ⟨30, _⟩ => ⟨S_, .i32⟩
  | .hbm, ⟨31, _⟩ => ⟨S16384x5, .i32⟩
  | .hbm, ⟨32, _⟩ => ⟨S16384x5, .i1⟩
  | .hbm, ⟨33, _⟩ => ⟨S_, .i32⟩
  | .hbm, ⟨34, _⟩ => ⟨S16384x5, .i32⟩
  | .hbm, ⟨35, _⟩ => ⟨S16384x5, .i32⟩
  | .hbm, ⟨36, _⟩ => ⟨S16384x5, .i32⟩
  | .hbm, ⟨37, _⟩ => ⟨S16384x5x1, .i32⟩
  | .hbm, ⟨38, _⟩ => ⟨S1, .i32⟩
  | .hbm, ⟨39, _⟩ => ⟨S_, .i32⟩
  | .hbm, ⟨40, _⟩ => ⟨S16384x5x1, .i32⟩
  | .hbm, ⟨41, _⟩ => ⟨S16384x5x1, .i1⟩
  | .hbm, ⟨42, _⟩ => ⟨S1x1x1, .i32⟩
  | .hbm, ⟨43, _⟩ => ⟨S16384x5x1, .i32⟩
  | .hbm, ⟨44, _⟩ => ⟨S16384x5x1, .i1⟩
  | .hbm, ⟨45, _⟩ => ⟨S16384x5x1, .i1⟩
  | .hbm, ⟨46, _⟩ => ⟨S_, .i1⟩
  | .hbm, ⟨47, _⟩ => ⟨S16384x5, .i1⟩
  | .hbm, ⟨48, _⟩ => ⟨S16384x5x64, .f32⟩
  | .hbm, ⟨49, _⟩ => ⟨S16384x5x64, .i1⟩
  | .hbm, ⟨50, _⟩ => ⟨S_, .f32⟩
  | .hbm, ⟨51, _⟩ => ⟨S16384x5x64, .f32⟩
  | .hbm, ⟨52, _⟩ => ⟨S16384x5x64, .f32⟩
  | .hbm, ⟨53, _⟩ => ⟨S16384x320, .f32⟩
  | .hbm, ⟨54, _⟩ => ⟨S16384x1, .f32⟩
  | .hbm, ⟨55, _⟩ => ⟨S16384x641, .f32⟩
  | .hbm, ⟨56, _⟩ => ⟨S16384x1, .f32⟩
  | .hbm, ⟨57, _⟩ => ⟨S1x1, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S_, .f32⟩
  | .hbm, ⟨63, _⟩ => ⟨S16384x1, .f32⟩
  | .hbm, ⟨64, _⟩ => ⟨S16384x1, .f32⟩
  | .hbm, ⟨65, _⟩ => ⟨S_, .f32⟩
  | .hbm, ⟨66, _⟩ => ⟨S16384x1, .f32⟩
  | .hbm, ⟨67, _⟩ => ⟨S16384x1, .f32⟩
  | _, _ => ⟨S16384x5, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_v1 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v2 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_cst : Ref sig .tc := ⟨.hbm, 62, rfl⟩
abbrev main_v12 : Ref sig .tc := ⟨.hbm, 63, rfl⟩
abbrev main_v13 : Ref sig .tc := ⟨.hbm, 64, rfl⟩
abbrev main_cst_0 : Ref sig .tc := ⟨.hbm, 65, rfl⟩
abbrev main_v14 : Ref sig .tc := ⟨.hbm, 66, rfl⟩
abbrev main_v15 : Ref sig .tc := ⟨.hbm, 67, rfl⟩

abbrev nD : Nat := 1
abbrev τ : Topo := Topo.v7x

variable {F : FTy → Type} [FloatOps F]

class Facts₀ : Prop where
  bcast_S_S16384x5 : S_.BroadcastsInDim S16384x5 (![] : Fin 0 → Fin S16384x5.rank)
  bcast_S16384x5_S16384x5x1_0_1 : S16384x5.BroadcastsInDim S16384x5x1 (![0, 1] : Fin 2 → Fin S16384x5x1.rank)
  bcast_S_S16384x5x1 : S_.BroadcastsInDim S16384x5x1 (![] : Fin 0 → Fin S16384x5x1.rank)
  bcast_S1_S1x1x1_2 : S1.BroadcastsInDim S1x1x1 (![2] : Fin 1 → Fin S1x1x1.rank)
  bcast_S1x1x1_S16384x5x1_0_1_2 : S1x1x1.BroadcastsInDim S16384x5x1 (![0, 1, 2] : Fin 3 → Fin S16384x5x1.rank)
  reducesTo_S16384x5x1_S16384x5_d2 : S16384x5x1.ReducesTo [2] S16384x5
  h_S_ : 0 < S_.numel
  bcast_S16384x5_S16384x5x64_0_1 : S16384x5.BroadcastsInDim S16384x5x64 (![0, 1] : Fin 2 → Fin S16384x5x64.rank)
  bcast_S_S16384x5x64 : S_.BroadcastsInDim S16384x5x64 (![] : Fin 0 → Fin S16384x5x64.rank)
  shapeCasts_S16384x5x64_S16384x320 : S16384x5x64.ShapeCasts S16384x320
  bcast_S16384_S16384x1_0 : S16384.BroadcastsInDim S16384x1 (![0] : Fin 1 → Fin S16384x1.rank)
  concatenates_S16384x320_S16384x320_S16384x1_S16384x641_d1 : Shape.Concatenates [S16384x320, S16384x320, S16384x1] S16384x641 1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  gather_S100000x64_S16384x5x1_S16384x5x64_2_0_n_n_0_2_164_wf : GatherDims.WF S100000x64 S16384x5x1 S16384x5x64 [2] [0] [] [0] [] 2 ![1, 64]
  dot_S16384x641_S641x1_S16384x1_1_0_0_1_n_n_wf : DotDims.WF S16384x641 S641x1 S16384x1 [1] [0] [0] [1] [] []

variable [Facts₀]

def gather_S100000x64_S16384x5x1_S16384x5x64_2_0_n_n_0_2_164 : GatherDims S100000x64 S16384x5x1 S16384x5x64 where
  offsetDims := [2]
  collapsedSliceDims := [0]
  operandBatchingDims := []
  startIndicesBatchingDims := []
  startIndexMap := [0]
  indexVectorDim := 2
  sliceSizes := ![1, 64]
  wf := gather_S100000x64_S16384x5x1_S16384x5x64_2_0_n_n_0_2_164_wf
def dot_S16384x641_S641x1_S16384x1_1_0_0_1_n_n : DotDims S16384x641 S641x1 S16384x1 where
  lhsContracting := [1]
  rhsContracting := [0]
  lhsNonContracting := [0]
  rhsNonContracting := [1]
  lhsBatch := []
  rhsBatch := []
  wf := dot_S16384x641_S641x1_S16384x1_1_0_0_1_n_n_wf

class Facts : Prop extends Facts₀ where

variable [Facts]
-- ==== Proof.KSetup.lean ====
/-
  The program as the SparseCore launch theorem reads it: the extended label table, the ghost state (the launch
  handshakes' rounds, the TensorCore pipelines' staging cells' rounds, the local transfers' counters), and @main cut
  into its four stretches of host operations around the two TensorCore regions and the SparseCore call.
-/
import proofs.«204616_g36739150250405_cont_8to1_b_1211_24_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«204616_g36739150250405_cont_8to1_b_1211_24_alg».proof.Proof.Gen.KernelIdeal
import proofs.«204616_g36739150250405_cont_8to1_b_1211_24_alg».proof.Proof.Gen.KernelIdeal.Launch
import proofs.«204616_g36739150250405_cont_8to1_b_1211_24_alg».proof.Proof.Gen.KernelIdeal.Points

noncomputable section

namespace Cert.KernelIdeal.KS

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## @main's host stretches -/

variable [FloatOps F]

/-- The nine operations before the first TensorCore region: the weight rows padded to sixteen, the table transposed. -/
def ops0 : List (HloOp τ sig (Elt F)) :=
  [
    StableHlo.unary main_arg4 main_v0 ((extractStridedSlice S640x1 ![0, 0] · slices_S641x1_S640x1_0_0) : (⟨S641x1, .f32⟩ : BufTy).Contents (Elt F) → (⟨S640x1, .f32⟩ : BufTy).Contents (Elt F)),
    StableHlo.reshape main_v0 main_v1 rfl shapeCasts_S640x1_S640,
    StableHlo.reshape main_v1 main_v2 rfl shapeCasts_S640_S10x64,
    StableHlo.nullary main_cst (constant S_ .f32 0x00000000#32),
    StableHlo.unary main_cst main_v3 (broadcastInDim S16x64 ![] bcast_S_S16x64 : (⟨S_, .f32⟩ : BufTy).Contents (Elt F) → (⟨S16x64, .f32⟩ : BufTy).Contents (Elt F)),
    StableHlo.nullary main_c (constantI S_ 32 0#32),
    StableHlo.unary main_c main_v4 (broadcastInDim S1 ![] bcast_S_S1 : (⟨S_, .i32⟩ : BufTy).Contents (Elt F) → (⟨S1, .i32⟩ : BufTy).Contents (Elt F)),
    StableHlo.ternary main_v3 main_v4 main_v2 main_v5 ((fun x i u => Host.scatter scatter_S16x64_S1_S10x64_01_n_0_0 (fun _ b => b) x i u) : (⟨S16x64, .f32⟩ : BufTy).Contents (Elt F) → (⟨S1, .i32⟩ : BufTy).Contents (Elt F) → (⟨S10x64, .f32⟩ : BufTy).Contents (Elt F) → (⟨S16x64, .f32⟩ : BufTy).Contents (Elt F)),
    StableHlo.unary main_arg3 main_v6 ((transpose S64x100000 [1, 0] · transposes_S100000x64_S64x100000_1_0) : (⟨S100000x64, .f32⟩ : BufTy).Contents (Elt F) → (⟨S64x100000, .f32⟩ : BufTy).Contents (Elt F))
  ]

/-- The three operations between the first region and the SparseCore call: the index columns stacked, transposed, split by core. -/
def ops1 : List (HloOp τ sig (Elt F)) :=
  [
    StableHlo.binary main_arg0 main_arg1 main_v8 ((fun a b => concatenate S16384x10 1 [⟨S16384x5, a⟩, ⟨S16384x5, b⟩] concatenates_S16384x5_S16384x5_S16384x10_d1) : (⟨S16384x5, .i32⟩ : BufTy).Contents (Elt F) → (⟨S16384x5, .i32⟩ : BufTy).Contents (Elt F) → (⟨S16384x10, .i32⟩ : BufTy).Contents (Elt F)),
    StableHlo.unary main_v8 main_v9 ((transpose S10x16384 [1, 0] · transposes_S16384x10_S10x16384_1_0) : (⟨S16384x10, .i32⟩ : BufTy).Contents (Elt F) → (⟨S10x16384, .i32⟩ : BufTy).Contents (Elt F)),
    StableHlo.reshape main_v9 main_v10 rfl shapeCasts_S10x16384_S10x2x8192
  ]

/-- The eight operations between the SparseCore call and the second region. -/
def ops2 : List (HloOp τ sig (Elt F)) :=
  [
    StableHlo.reshape main_v11 main_v12 rfl shapeCasts_S10x2x8192_S10x128x128,
    StableHlo.reshape main_arg2 main_v13 rfl shapeCasts_S16384_S128x128,
    StableHlo.unary main_arg4 main_v14 ((extractStridedSlice S1x1 ![640, 0] · slices_S641x1_S1x1_640_0) : (⟨S641x1, .f32⟩ : BufTy).Contents (Elt F) → (⟨S1x1, .f32⟩ : BufTy).Contents (Elt F)),
    StableHlo.reshape main_v14 main_v15 rfl shapeCasts_S1x1_S_,
    StableHlo.reshape main_arg5 main_v16 rfl shapeCasts_S1_S_,
    StableHlo.unary main_v15 main_v17 (broadcastInDim S1 ![] bcast_S_S1 : (⟨S_, .f32⟩ : BufTy).Contents (Elt F) → (⟨S1, .f32⟩ : BufTy).Contents (Elt F)),
    StableHlo.unary main_v16 main_v18 (broadcastInDim S1 ![] bcast_S_S1 : (⟨S_, .f32⟩ : BufTy).Contents (Elt F) → (⟨S1, .f32⟩ : BufTy).Contents (Elt F)),
    StableHlo.binary main_v17 main_v18 main_v19 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F))
  ]

/-- The one operation after the second region. -/
def ops3 : List (HloOp τ sig (Elt F)) :=
  [
    StableHlo.reshape main_v20 main_v21 rfl shapeCasts_S128x128_S16384x1
  ]

/-- @main is its four stretches around the three calls. -/
theorem main_eq (d : Dev nD) : main (F := F) d
    = (StableHlo.seq ops0 >>= fun _ => Prog.lift (.customCall (SparseCore.inner (Pipeline.entry 0)) ()) >>= fun _ =>
        StableHlo.seq ops1 >>= fun _ => (sc (F := F)).run d 0 >>= fun _ => StableHlo.seq ops2 >>= fun _ =>
        Prog.lift (.customCall (SparseCore.inner (Pipeline.entry 1)) ()) >>= fun _ => StableHlo.seq ops3 >>= fun _ => pure ⟨⟩) := by
  simp only [main, ops0, ops1, ops2, ops3, StableHlo.seq, bind_assoc, pure_bind]

end Cert.KernelIdeal.KS

end
-- ==== Proof.KRegion.lean ====
/-
  One TensorCore region entered from @main inside the SparseCore program: the region's step of the pipeline library,
  carried to the extended label table; once over exact proof data, once over relational proof data.
-/
import proofs.«204616_g36739150250405_cont_8to1_b_1211_24_alg».proof.Proof.KSetup

noncomputable section

namespace Cert.KernelIdeal.KS

open Cert.KernelIdeal Cert.KernelIdeal.Gen Cert.KernelIdeal.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Idealize.ShloMosaic.TcCoe

variable {F : FTy → Type} [FloatOps F]

local notation "𝕄" => MT nD τ sig (HIx 1) (Elt F) ℕ UU ℕ

/-- The prefetched tables' admissible contents: no pipeline has a table. -/
abbrev adm : (p : Fin 2) → (pcfgs (F := F) p).Adm := fun p => (cfgs p).toPCfg_adm

/-- The program's staging cells are pairwise distinct, read at the pinned configurations. -/
theorem cinj : Function.Injective (Pipeline.cellOf (nD := nD) (τ := τ) (Pipeline.pin (pcfgs (F := F)) adm)) := cellOf_inj

set_option maxHeartbeats 4000000 in
set_option backward.isDefEq.respectTransparency.types false in
/-- A region's step under the program's own label table, at any level assignment. -/
theorem region_core [∀ e, Nonempty (Elt F e)] (L : GSem nD τ sig → Finset (HIx 1)) (lv : GSem nD τ sig → HIx 1 → ℕ)
    (pdats : (p : Fin 2) → (c : Dev nD) → Pipeline.Dat τ (Elt F) (HIx 1) ℕ UU ℕ (Pipeline.pin (pcfgs (F := F)) adm p) c)
    {p : Fin 2} (R : Pipeline.RegionSeg (pcfgs (F := F)) adm pdats (none : HIx 1) defs₀ 𝒱₀ L lv p)
    (d : Dev nD) (Q : PUnit → sProp 𝕄) :
    iprop((iprop(boundary (d.tc : Thread nD τ) ∗ R.post d) -∗ wp frame (wpE (Pipeline.defs (pcfgs (F := F)) defs₀) (Variants.lift 𝒱₀) (d.tc : Thread nD τ) none) Set.univ (.ret ⟨⟩) Q)
        ∗ boundary (d.tc : Thread nD τ) ∗ R.pre d ∗ levAts L lv
        ∗ Pipeline.cellsGhost (Pipeline.pin (pcfgs (F := F)) adm) EP p d ∗ Pipeline.toksInit (Pipeline.pin (pcfgs (F := F)) adm) EP p d)
      ⊢ wp frame (wpE (Pipeline.defs (pcfgs (F := F)) defs₀) (Variants.lift 𝒱₀) (d.tc : Thread nD τ) none) Set.univ
          (.op (.customCall (Pipeline.entry p) ()) fun _ => .ret ⟨⟩) Q :=
  Pipeline.RegionSeg.wp (pcfgs (F := F)) adm pdats (none : HIx 1) cinj EP defs₀ 𝒱₀ L lv R d none
    (fun _ h => nomatch h) (fun _ => .ret ⟨⟩) Q

set_option maxHeartbeats 4000000 in
set_option backward.isDefEq.respectTransparency.types false in
/-- The same over relational proof data (a window whose contents the data constrain without naming them). -/
theorem region_coreR [∀ e, Nonempty (Elt F e)] (L : GSem nD τ sig → Finset (HIx 1)) (lv : GSem nD τ sig → HIx 1 → ℕ)
    (rdats : (p : Fin 2) → (c : Dev nD) → Pipeline.RDat τ (Elt F) (HIx 1) ℕ UU ℕ (Pipeline.pin (pcfgs (F := F)) adm p) c)
    {p : Fin 2} (R : Pipeline.RDat.RegionSeg (pcfgs (F := F)) adm rdats (none : HIx 1) defs₀ 𝒱₀ L lv p)
    (d : Dev nD) (Q : PUnit → sProp 𝕄) :
    iprop((iprop(boundary (d.tc : Thread nD τ) ∗ R.post d) -∗ wp frame (wpE (Pipeline.defs (pcfgs (F := F)) defs₀) (Variants.lift 𝒱₀) (d.tc : Thread nD τ) none) Set.univ (.ret ⟨⟩) Q)
        ∗ boundary (d.tc : Thread nD τ) ∗ R.pre d ∗ levAts L lv
        ∗ Pipeline.cellsGhost (Pipeline.pin (pcfgs (F := F)) adm) EP p d ∗ Pipeline.toksInit (Pipeline.pin (pcfgs (F := F)) adm) EP p d)
      ⊢ wp frame (wpE (Pipeline.defs (pcfgs (F := F)) defs₀) (Variants.lift 𝒱₀) (d.tc : Thread nD τ) none) Set.univ
          (.op (.customCall (Pipeline.entry p) ()) fun _ => .ret ⟨⟩) Q :=
  Pipeline.RDat.RegionSeg.wp (pcfgs (F := F)) adm rdats (none : HIx 1) cinj EP defs₀ 𝒱₀ L lv R d none
    (fun _ h => nomatch h) (fun _ => .ret ⟨⟩) Q

/-- A continuation that is the return: its weakest precondition is its postcondition. -/
theorem ret_intro {Λ' : Labels} (defs' : Defs nD τ sig (Elt F) Λ') (𝒱' : Variants) (thr : Thread nD τ) (bd : Option 𝒱'.V) (X Rest : sProp 𝕄) (Q : PUnit → sProp 𝕄) :
    iprop((X -∗ Q ⟨⟩) ∗ Rest) ⊢ iprop((X -∗ wp frame (wpE defs' 𝒱' thr bd) Set.univ (.ret ⟨⟩) Q) ∗ Rest) := by
  iintro ⟨Hk, Hrest⟩
  isplitl [Hk]
  · iintro H; rw [wp_ret]; imodintro; iapply Hk; iexact H
  · iexact Hrest

/-- A region of @main as the extended program spells it: the pipeline's entry under the SparseCore layer of labels.
    From the boundary, the region's entry state, the level facts and the pipeline's launch ghost state it runs to the
    boundary and the region's exit state. -/
theorem region_step [∀ e, Nonempty (Elt F e)] (pdats : (p : Fin 2) → (c : Dev nD) → Pipeline.Dat τ (Elt F) (HIx 1) ℕ UU ℕ (Pipeline.pin (pcfgs (F := F)) adm p) c)
    {p : Fin 2} (R : Pipeline.RegionSeg (pcfgs (F := F)) adm pdats (none : HIx 1) defs₀ 𝒱₀ (K (F := F)).L (K (F := F)).lev p)
    (d : Dev nD) (Q : PUnit → sProp 𝕄) :
    iprop((iprop(boundary (d.tc : Thread nD τ) ∗ R.post d) -∗ Q ⟨⟩) ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ
          (Prog.lift (.customCall (SparseCore.inner (Pipeline.entry p)) ())) Q := by
  exact (ret_intro _ _ _ _ _ _ Q).trans ((region_core (K (F := F)).L (K (F := F)).lev pdats R d Q).trans
    ((K (F := F)).wp_liftProg (D (F := F)) 𝒱 (T d) Set.univ none (Prog.lift (.customCall (Pipeline.entry p) ())) Q))

/-- The same over relational proof data. -/
theorem region_stepR [∀ e, Nonempty (Elt F e)] (rdats : (p : Fin 2) → (c : Dev nD) → Pipeline.RDat τ (Elt F) (HIx 1) ℕ UU ℕ (Pipeline.pin (pcfgs (F := F)) adm p) c)
    {p : Fin 2} (R : Pipeline.RDat.RegionSeg (pcfgs (F := F)) adm rdats (none : HIx 1) defs₀ 𝒱₀ (K (F := F)).L (K (F := F)).lev p)
    (d : Dev nD) (Q : PUnit → sProp 𝕄) :
    iprop((iprop(boundary (d.tc : Thread nD τ) ∗ R.post d) -∗ Q ⟨⟩) ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ
          (Prog.lift (.customCall (SparseCore.inner (Pipeline.entry p)) ())) Q := by
  exact (ret_intro _ _ _ _ _ _ Q).trans ((region_coreR (K (F := F)).L (K (F := F)).lev rdats R d Q).trans
    ((K (F := F)).wp_liftProg (D (F := F)) 𝒱 (T d) Set.univ none (Prog.lift (.customCall (Pipeline.entry p) ())) Q))

end Cert.KernelIdeal.KS

end
-- ==== Proof.KHost.lean ====
/-
  @main's four stretches of host operations: each touches unscoped TensorCore buffers only and allocates nothing.
-/
import proofs.«204616_g36739150250405_cont_8to1_b_1211_24_alg».proof.Proof.KSetup
import Idealize.ShloMosaic.Lib.Pipeline.Frame

noncomputable section

namespace Cert.KernelIdeal.KS

open Cert.KernelIdeal Cert.KernelIdeal.Gen Cert.KernelIdeal.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)

variable {F : FTy → Type} [FloatOps F]

local notation "𝕄" => MT nD τ sig (HIx 1) (Elt F) ℕ UU ℕ

theorem ops0_sub' : (ops0 : List (HloOp τ sig (Elt F))).Forall fun op => op.bufs ⊆ StableHlo.tcRefs τ sig := by
  simp only [ops0, List.Forall]; repeat' apply And.intro
  all_goals first | exact StableHlo.unary_bufs_sub .. | exact StableHlo.reshape_bufs_sub .. | exact StableHlo.nullary_bufs_sub .. | exact StableHlo.binary_bufs_sub .. | exact StableHlo.ternary_bufs_sub ..
theorem ops0_sub : ∀ op ∈ (ops0 : List (HloOp τ sig (Elt F))), op.bufs ⊆ Pipeline.ucRefs τ sig :=
  fun op h => Pipeline.sub_ucRefs op ((List.forall_iff_forall_mem.mp ops0_sub') op h)
theorem ops0_fresh' : (ops0 : List (HloOp τ sig (Elt F))).Forall fun op => op.fresh = ∅ := by
  simp only [ops0, List.Forall]; repeat' constructor
theorem ops0_fresh : ∀ op ∈ (ops0 : List (HloOp τ sig (Elt F))), op.fresh = ∅ :=
  fun op h => (List.forall_iff_forall_mem.mp ops0_fresh') op h

theorem ops1_sub' : (ops1 : List (HloOp τ sig (Elt F))).Forall fun op => op.bufs ⊆ StableHlo.tcRefs τ sig := by
  simp only [ops1, List.Forall]; repeat' apply And.intro
  all_goals first | exact StableHlo.unary_bufs_sub .. | exact StableHlo.reshape_bufs_sub .. | exact StableHlo.nullary_bufs_sub .. | exact StableHlo.binary_bufs_sub .. | exact StableHlo.ternary_bufs_sub ..
theorem ops1_sub : ∀ op ∈ (ops1 : List (HloOp τ sig (Elt F))), op.bufs ⊆ Pipeline.ucRefs τ sig :=
  fun op h => Pipeline.sub_ucRefs op ((List.forall_iff_forall_mem.mp ops1_sub') op h)
theorem ops1_fresh' : (ops1 : List (HloOp τ sig (Elt F))).Forall fun op => op.fresh = ∅ := by
  simp only [ops1, List.Forall]; repeat' constructor
theorem ops1_fresh : ∀ op ∈ (ops1 : List (HloOp τ sig (Elt F))), op.fresh = ∅ :=
  fun op h => (List.forall_iff_forall_mem.mp ops1_fresh') op h

theorem ops2_sub' : (ops2 : List (HloOp τ sig (Elt F))).Forall fun op => op.bufs ⊆ StableHlo.tcRefs τ sig := by
  simp only [ops2, List.Forall]; repeat' apply And.intro
  all_goals first | exact StableHlo.unary_bufs_sub .. | exact StableHlo.reshape_bufs_sub .. | exact StableHlo.nullary_bufs_sub .. | exact StableHlo.binary_bufs_sub .. | exact StableHlo.ternary_bufs_sub ..
theorem ops2_sub : ∀ op ∈ (ops2 : List (HloOp τ sig (Elt F))), op.bufs ⊆ Pipeline.ucRefs τ sig :=
  fun op h => Pipeline.sub_ucRefs op ((List.forall_iff_forall_mem.mp ops2_sub') op h)
theorem ops2_fresh' : (ops2 : List (HloOp τ sig (Elt F))).Forall fun op => op.fresh = ∅ := by
  simp only [ops2, List.Forall]; repeat' constructor
theorem ops2_fresh : ∀ op ∈ (ops2 : List (HloOp τ sig (Elt F))), op.fresh = ∅ :=
  fun op h => (List.forall_iff_forall_mem.mp ops2_fresh') op h

theorem ops3_sub' : (ops3 : List (HloOp τ sig (Elt F))).Forall fun op => op.bufs ⊆ StableHlo.tcRefs τ sig := by
  simp only [ops3, List.Forall]; repeat' apply And.intro
  all_goals first | exact StableHlo.unary_bufs_sub .. | exact StableHlo.reshape_bufs_sub .. | exact StableHlo.nullary_bufs_sub .. | exact StableHlo.binary_bufs_sub .. | exact StableHlo.ternary_bufs_sub ..
theorem ops3_sub : ∀ op ∈ (ops3 : List (HloOp τ sig (Elt F))), op.bufs ⊆ Pipeline.ucRefs τ sig :=
  fun op h => Pipeline.sub_ucRefs op ((List.forall_iff_forall_mem.mp ops3_sub') op h)
theorem ops3_fresh' : (ops3 : List (HloOp τ sig (Elt F))).Forall fun op => op.fresh = ∅ := by
  simp only [ops3, List.Forall]; repeat' constructor
theorem ops3_fresh : ∀ op ∈ (ops3 : List (HloOp τ sig (Elt F))), op.fresh = ∅ :=
  fun op h => (List.forall_iff_forall_mem.mp ops3_fresh') op h

end Cert.KernelIdeal.KS

end
-- ==== Proof.TcBase.lean ====
import proofs.«204616_g36739150250405_cont_8to1_b_1211_24_alg».proof.Proof.Gen.KernelIdeal.Launch
import proofs.«204616_g36739150250405_cont_8to1_b_1211_24_alg».proof.Proof.Gen.KernelIdeal.Skeleton
import proofs.«204616_g36739150250405_cont_8to1_b_1211_24_alg».proof.Proof.Gen.KernelIdeal.Points
import Idealize.ShloMosaic.Lib.Pipeline.FrameBody
import Idealize.ShloMosaic.Lib.SparseCore.Cells
import Idealize.ShloMosaic.Lib.Tactic

set_option maxRecDepth 16384

noncomputable section

namespace Cert.KernelIdeal.TcReg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.SparseCore.Cfg (HIx)

variable {F : FTy → Type} [FloatOps F]
variable {U : Type} [URA U]

local notation "𝕄" => MT nD τ sig (HIx 1) (Elt F) ℕ U ℕ

/-- A region's invariant on core `c`: the core's scoped buffers that stage no window of the region, each at some
    contents, and its generator register at some state (the body touches neither). -/
def ΦH {gr W : Nat} (win : Fin W → Pipeline.WinSpec sig gr) (c : Dev nD) : sProp 𝕄 :=
  iprop(Pipeline.scopedRest (Ix := HIx 1) (Name := ℕ) (U := U) (Lvl := ℕ) (Val := Elt F) win c ∗ ∃ r, prngReg c r)

end Cert.KernelIdeal.TcReg

end
-- ==== Proof.TcRegion0.lean ====
import proofs.«204616_g36739150250405_cont_8to1_b_1211_24_alg».proof.Proof.TcBase

set_option maxRecDepth 16384

noncomputable section

namespace Cert.KernelIdeal.TcReg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.SparseCore.Cfg (HIx)

variable {F : FTy → Type} [FloatOps F]
variable {U : Type} [URA U]

local notation "𝕄" => MT nD τ sig (HIx 1) (Elt F) ℕ U ℕ

-- the TensorCore's buffer contents when a region is entered: the parameter both regions' halves are stated at
variable (V : (c : Dev nD) → (b : Ref sig .tc) → Buf (Elt F) ((c : Thread nD τ).loc b))
-- what the TensorCore owes the handshakes during a region, and the bound on its recorded pairs: passed through unread
variable (O : CellTallies nD τ sig (HIx 1)) (Rc : Set (SemLoc sig × HIx 1))

/-! # Region 0: the projection, one matrix product per column block -/

/-- Window `w`'s block at point `t`, read off its array as the region finds it: the part inside the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The table window's staging buffer once the fetch at `t` has landed: the block on the columns inside the table,
    `d` (contents nothing names) on the columns past its end. -/
def tblk0 (c : Dev nD) (t : Fin cfg0.N) (d : S64x8192.Idx → Elt F .f32) : S64x8192.Idx → Elt F .f32 :=
  (cfg0.win 1).fill (cfg0.grid.coords t) d (iblk0 V c 1 t)

abbrev rW0 : Rect S16x64 := Rect.unit (s := S16x64) ![0, 0] S16x64.size inb_S16x64_S16x64_0_0
abbrev rE0 : Rect S64x8192 := Rect.unit (s := S64x8192) ![0, 0] S64x8192.size inb_S64x8192_S64x8192_0_0
abbrev rO0 : Rect S16x8192 := Rect.unit (s := S16x8192) ![0, 0] S16x8192.size inb_S16x8192_S16x8192_0_0

/-- The result window's staging buffer after the body, from what the two input buffers hold: its one whole store. -/
def out0_2 (x0 : Vec F S16x64 .f32) (x1 : Vec F S64x8192 .f32) : Vec F S16x8192 .f32 :=
  View.canon [⟨rO0, k0_pay1 (View.ld x0 rW0) (View.ld x1 rE0)⟩]

/-- What the body may leave in the result window's buffer at point `t`: the product of the weight block with the
    table block as fetched, whatever filled the latter out past the table's end. -/
def R0_2 (c : Dev nD) (t : Fin cfg0.N) (_Y X : S16x8192.Idx → Elt F .f32) : Prop :=
  ∃ d : S64x8192.Idx → Elt F .f32, X = out0_2 (iblk0 V c 0 t) (tblk0 V c t d)

/-- The relational proof data of pipeline 0 on core `c`: the arrays as the region finds them; the two input
    buffers left as found; the result's buffer at the product of what the inputs' hold (`R0_2`). -/
def rdat0 (c : Dev nD) : RDat τ (Elt F) (HIx 1) ℕ U ℕ cfg0 c where
  A w := V c (Pipeline.arrRef spec0 w)
  after w t Y X := match w with
    | ⟨0, _⟩ => X = Y
    | ⟨1, _⟩ => X = Y
    | ⟨2, _⟩ => R0_2 V c t Y X
  Φ _ := ΦH spec0 c
  q _ := fullShare
  owed _ := O
  recorded _ := Rc

/-! ## The body's triple -/

/-- The one store tiles the result's buffer, so it covers it. -/
theorem cover0_2 (p0 : Vec F S16x8192 .f32) (y : S16x8192.Idx) :
    ∃ pc ∈ ([⟨rO0, p0⟩] : List (View.Piece (Elt F) S16x8192 .f32)), y ∈ pc.1.set :=
  View.cover_of_tiled [⟨rO0, p0⟩] S16x8192.size (by rfl) y

set_option maxHeartbeats 1000000 in
/-- The body on whole staging memrefs, the inputs' at read contents `x0`, `x1` and the result's at anything, runs to
    the continuation holding the inputs' as they were and the result's at `out0_2 x0 x1`. -/
theorem sound_kernel0 (c : Dev nD) (E : Set ℕ) (i : grid0.Coords)
    (arg1 : Memref sig .tc .vmem S16x64 .f32) (harg1 : arg1.IsWhole) (arg2 : Memref sig .tc .vmem S64x8192 .f32) (harg2 : arg2.IsWhole)
    (arg3 : Memref sig .tc .vmem S16x8192 .f32) (harg3 : arg3.IsWhole)
    (x0 : Vec F S16x64 .f32) (x1 : Vec F S64x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_body i arg1 harg1 arg2 harg2 arg3 harg3) K := by
  simp only [cc0__proj_body_eq_skeleton]; unfold cc0__proj_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## What the body finds in the input windows' buffers -/

/-- A fetch of the weight window fills its buffer with the block: the window is uncut. -/
theorem fetched0_0 (c : Dev nD) (t : Fin cfg0.N) (d) : (rdat0 (F := F) (U := U) V O Rc c).fetched 0 t d = iblk0 V c 0 t := by
  unfold RDat.fetched RDat.blockOf iblk0; rfl

/-- The weight window's buffer holds its block at every point, fetched there or not: its index never moves and
    the body leaves the buffer as found. -/
theorem finds0_0 (c : Dev nD) (t : Fin cfg0.N) (Y) (h : (rdat0 (F := F) (U := U) V O Rc c).Finds 0 t Y) : Y = iblk0 V c 0 t := by
  obtain ⟨d, hd⟩ := Pipeline.RDat.finds_in_eq_fetched (rdat0 (F := F) (U := U) V O Rc c) 0 rfl (fun _ _ _ => rfl) (fun _ _ _ h => h) t Y h
  rw [hd]; exact fetched0_0 V O Rc c t d

/-- The table window is fetched at every point: its buffer holds the block on the columns inside the table and
    contents nothing names past its end. -/
theorem finds0_1 (c : Dev nD) (t : Fin cfg0.N) (Y) (h : (rdat0 (F := F) (U := U) V O Rc c).Finds 1 t Y) : ∃ d, Y = tblk0 V c t d :=
  ((rdat0 (F := F) (U := U) V O Rc c).finds_of_fetch (fetch0_1 t) Y).mp h

/-! ## The body obligation, at a generic point -/

/-- What the body is called with at point `t`, the windows one by one, at contents `Y`, -/
def bodyPre0 (c : Dev nD) (t : Fin cfg0.N) (Y : (w : Fin cfg0.W) → (cfg0.win w).block.Idx → Elt F (cfg0.win w).elt) : sProp 𝕄 :=
  iprop((rdat0 V O Rc c).Φ t.castSucc ∗ (rdat0 V O Rc c).owesAt (none : HIx 1) t.castSucc
    ∗ owns (c : Thread nD τ) (st0_0 t) fullShare (Y 0)
    ∗ owns (c : Thread nD τ) (st0_1 t) fullShare (Y 1)
    ∗ owns (c : Thread nD τ) (st0_2 t) fullShare (Y 2))

/-- and what it returns. -/
def bodyPost0 (c : Dev nD) (t : Fin cfg0.N) (Y : (w : Fin cfg0.W) → (cfg0.win w).block.Idx → Elt F (cfg0.win w).elt) : sProp 𝕄 :=
  iprop((rdat0 V O Rc c).Φ t.succ ∗ (rdat0 V O Rc c).owesAt (none : HIx 1) t.succ
    ∗ (∃ X : (cfg0.win 0).block.Idx → Elt F (cfg0.win 0).elt, ⌜(rdat0 (F := F) (U := U) V O Rc c).after 0 t (Y 0) X⌝ ∗ owns (c : Thread nD τ) (st0_0 t) fullShare X)
    ∗ (∃ X : (cfg0.win 1).block.Idx → Elt F (cfg0.win 1).elt, ⌜(rdat0 (F := F) (U := U) V O Rc c).after 1 t (Y 1) X⌝ ∗ owns (c : Thread nD τ) (st0_1 t) fullShare X)
    ∗ (∃ X : (cfg0.win 2).block.Idx → Elt F (cfg0.win 2).elt, ⌜(rdat0 (F := F) (U := U) V O Rc c).after 2 t (Y 2) X⌝ ∗ owns (c : Thread nD τ) (st0_2 t) fullShare X))

/-- The body at any point, on any contents the buffers may then hold: the invariant and the core's `owes` pass
    through unread; the inputs' buffers come back as found; the result's holds the product of what they hold,
    which is the product of the weight block with the table block as fetched. -/
theorem sound_body0 (c : Dev nD) (t : Fin cfg0.N) (Y : (w : Fin cfg0.W) → (cfg0.win w).block.Idx → Elt F (cfg0.win w).elt)
    (hY : ∀ w, (rdat0 (F := F) (U := U) V O Rc c).Finds w t (Y w)) :
    bodyPre0 (F := F) (U := U) V O Rc c t Y ⊢ wp frame (wpE (defs₀ (F := F)) Variants.none c none) Set.univ (bodyAt0 t) (fun _ => bodyPost0 V O Rc c t Y) := by
  have h0 := finds0_0 V O Rc c t (Y 0) (hY 0)
  obtain ⟨d1, h1⟩ := finds0_1 V O Rc c t (Y 1) (hY 1)
  unfold bodyPre0 bodyPost0 bodyAt0
  rw [show (rdat0 V O Rc c).Φ t.succ = (rdat0 V O Rc c).Φ t.castSucc from rfl,
    show (rdat0 V O Rc c).owesAt (none : HIx 1) t.succ = (rdat0 V O Rc c).owesAt (none : HIx 1) t.castSucc from rfl]
  iintro ⟨HΦ, Ho, H0, H1, H2⟩
  iapply (sound_kernel0 c Set.univ _ _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; exact rfl
    iexact H0
  isplitl [H1]
  · iexists (Y 1); isplitr; · ipureintro; exact rfl
    iexact H1
  iexists _; isplitr
  · ipureintro; exact ⟨d1, congrArg₂ out0_2 h0 h1⟩
  iexact H2

/-- The library's relational body obligation, at every point. -/
theorem body_obligation0 (c : Dev nD) :
    (rdat0 (F := F) (U := U) V O Rc c).BodyObligation (defs₀ (F := F)) Variants.none (none : HIx 1) Set.univ := fun t Y hY => by
  rw [bigSep_W0, bigSep_W0]
  exact sound_body0 V O Rc c t Y hY

end Cert.KernelIdeal.TcReg

end
-- ==== Proof.TcRegion2.lean ====
import proofs.«204616_g36739150250405_cont_8to1_b_1211_24_alg».proof.Proof.TcBase

set_option maxRecDepth 16384

noncomputable section

namespace Cert.KernelIdeal.TcReg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.SparseCore.Cfg (HIx)

variable {F : FTy → Type} [FloatOps F]
variable {U : Type} [URA U]

local notation "𝕄" => MT nD τ sig (HIx 1) (Elt F) ℕ U ℕ

-- the TensorCore's buffer contents when a region is entered: the parameter both regions' halves are stated at
variable (V : (c : Dev nD) → (b : Ref sig .tc) → Buf (Elt F) ((c : Thread nD τ).loc b))
-- what the TensorCore owes the handshakes during a region, and the bound on its recorded pairs: passed through unread
variable (O : CellTallies nD τ sig (HIx 1)) (Rc : Set (SemLoc sig × HIx 1))

/-! # Region 2: the reduction — side * w + b, the ten partial results added in order, the logistic -/

/-- Window `w`'s block at the one point, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rP2_0 : Rect S10x128x128 := Rect.unit (s := S10x128x128) ![0, 0, 0] S1x128x128.size inb_S10x128x128_S1x128x128_0_0_0
abbrev rP2_1 : Rect S10x128x128 := Rect.unit (s := S10x128x128) ![1, 0, 0] S1x128x128.size inb_S10x128x128_S1x128x128_1_0_0
abbrev rP2_2 : Rect S10x128x128 := Rect.unit (s := S10x128x128) ![2, 0, 0] S1x128x128.size inb_S10x128x128_S1x128x128_2_0_0
abbrev rP2_3 : Rect S10x128x128 := Rect.unit (s := S10x128x128) ![3, 0, 0] S1x128x128.size inb_S10x128x128_S1x128x128_3_0_0
abbrev rP2_4 : Rect S10x128x128 := Rect.unit (s := S10x128x128) ![4, 0, 0] S1x128x128.size inb_S10x128x128_S1x128x128_4_0_0
abbrev rP2_5 : Rect S10x128x128 := Rect.unit (s := S10x128x128) ![5, 0, 0] S1x128x128.size inb_S10x128x128_S1x128x128_5_0_0
abbrev rP2_6 : Rect S10x128x128 := Rect.unit (s := S10x128x128) ![6, 0, 0] S1x128x128.size inb_S10x128x128_S1x128x128_6_0_0
abbrev rP2_7 : Rect S10x128x128 := Rect.unit (s := S10x128x128) ![7, 0, 0] S1x128x128.size inb_S10x128x128_S1x128x128_7_0_0
abbrev rP2_8 : Rect S10x128x128 := Rect.unit (s := S10x128x128) ![8, 0, 0] S1x128x128.size inb_S10x128x128_S1x128x128_8_0_0
abbrev rP2_9 : Rect S10x128x128 := Rect.unit (s := S10x128x128) ![9, 0, 0] S1x128x128.size inb_S10x128x128_S1x128x128_9_0_0
abbrev rS2 : Rect S128x128 := Rect.unit (s := S128x128) ![0, 0] S128x128.size inb_S128x128_S128x128_0_0
abbrev rB2_0 : Rect S2 := Rect.unit (s := S2) ![0] S1.size inb_S2_S1_0
abbrev rB2_1 : Rect S2 := Rect.unit (s := S2) ![1] S1.size inb_S2_S1_1

/-- The one index of a one-word rectangle. -/
abbrev i1 : S1.Idx := Shape.Idx.first (numel1_S1.symm ▸ Nat.one_pos)

/-- The result window's staging buffer after the body, from what the three input buffers hold: its one whole store. -/
def out2_3 (x0 : Vec F S10x128x128 .f32) (x1 : Vec F S128x128 .f32) (x2 : Vec F S2 .f32) : Vec F S128x128 .f32 :=
  View.canon [⟨rS2, k2_pay1
    (k2_pay2 (View.ld x1 rS2) (View.ld x2 rB2_0 i1) (View.ld x2 rB2_1 i1)
      (View.ld x0 rP2_0) (View.ld x0 rP2_1) (View.ld x0 rP2_2) (View.ld x0 rP2_3) (View.ld x0 rP2_4) (View.ld x0 rP2_5) (View.ld x0 rP2_6))
    (k2_pay3 (View.ld x0 rP2_7)) (View.ld x0 rP2_8) (View.ld x0 rP2_9)⟩]

/-- The proof data of pipeline 1 (custom_call 2) on core `c`: the arrays as the region finds them; after the body
    each input's buffer at its block and the result's at `out2_3` of the input blocks. -/
def dat2 (c : Dev nD) : Dat τ (Elt F) (HIx 1) ℕ U ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := ΦH spec2 c
  q _ := fullShare
  owed _ := O
  recorded _ := Rc

/-! ## What the body finds in the input windows' buffers -/

/-- Input window 0's current staging buffer holds its block at the one point, for any proof data whose array is
    `V`'s and whose body leaves the block in place. -/
theorem before2_0_of {c : Dev nD} (dat : Dat τ (Elt F) (HIx 1) ℕ U ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at the one point, for any proof data whose array is
    `V`'s and whose body leaves the block in place. -/
theorem before2_1_of {c : Dev nD} (dat : Dat τ (Elt F) (HIx 1) ℕ U ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at the one point, for any proof data whose array is
    `V`'s and whose body leaves the block in place. -/
theorem before2_2_of {c : Dev nD} (dat : Dat τ (Elt F) (HIx 1) ℕ U ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's triple -/

/-- The one store tiles the result's buffer, so it covers it. -/
theorem cover2_3 (p0 : Vec F S128x128 .f32) (y : S128x128.Idx) :
    ∃ pc ∈ ([⟨rS2, p0⟩] : List (View.Piece (Elt F) S128x128 .f32)), y ∈ pc.1.set :=
  View.cover_of_tiled [⟨rS2, p0⟩] S128x128.size (by rfl) y

set_option maxHeartbeats 1000000 in
/-- The body on whole staging memrefs, the inputs' at read contents `x0`, `x1`, `x2` (the last in scalar memory) and
    the result's at anything, runs to the continuation holding the inputs' as they were and the result's at
    `out2_3 x0 x1 x2`. -/
theorem sound_kernel2 (c : Dev nD) (E : Set ℕ) (i : grid2.Coords)
    (arg1 : Memref sig .tc .vmem S10x128x128 .f32) (harg1 : arg1.IsWhole) (arg2 : Memref sig .tc .vmem S128x128 .f32) (harg2 : arg2.IsWhole)
    (arg3 : Memref sig .tc .smem S2 .f32) (harg3 : arg3.IsWhole) (arg4 : Memref sig .tc .vmem S128x128 .f32) (harg4 : arg4.IsWhole)
    (x0 : Vec F S10x128x128 .f32) (x1 : Vec F S128x128 .f32) (x2 : Vec F S2 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__reduce_body i arg1 harg1 arg2 harg2 arg3 harg3 arg4 harg4) K := by
  simp only [cc2__reduce_body_eq_skeleton]; unfold cc2__reduce_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data's fields -/

theorem A_eq2 (c : Dev nD) (w : Fin cfg2.W) : (dat2 (F := F) (U := U) V O Rc c).A w = V c (Pipeline.arrRef spec2 w) := by
  dsimp only [dat2]

theorem after2_0 (c : Dev nD) (t : Fin cfg2.N) : (dat2 (F := F) (U := U) V O Rc c).after 0 t = iblk2 V c 0 t := by dsimp only [dat2]
theorem after2_1 (c : Dev nD) (t : Fin cfg2.N) : (dat2 (F := F) (U := U) V O Rc c).after 1 t = iblk2 V c 1 t := by dsimp only [dat2]
theorem after2_2 (c : Dev nD) (t : Fin cfg2.N) : (dat2 (F := F) (U := U) V O Rc c).after 2 t = iblk2 V c 2 t := by dsimp only [dat2]
theorem after2_3 (c : Dev nD) (t : Fin cfg2.N) :
    (dat2 (F := F) (U := U) V O Rc c).after 3 t = out2_3 (iblk2 V c 0 t) (iblk2 V c 1 t) (iblk2 V c 2 t) := by dsimp only [dat2]

theorem before2_0 (c : Dev nD) (t : Fin cfg2.N) (d) : (dat2 (F := F) (U := U) V O Rc c).before 0 t d = iblk2 V c 0 t :=
  before2_0_of V (dat2 (F := F) (U := U) V O Rc c) (A_eq2 V O Rc c 0) (after2_0 V O Rc c) t d
theorem before2_1 (c : Dev nD) (t : Fin cfg2.N) (d) : (dat2 (F := F) (U := U) V O Rc c).before 1 t d = iblk2 V c 1 t :=
  before2_1_of V (dat2 (F := F) (U := U) V O Rc c) (A_eq2 V O Rc c 1) (after2_1 V O Rc c) t d
theorem before2_2 (c : Dev nD) (t : Fin cfg2.N) (d) : (dat2 (F := F) (U := U) V O Rc c).before 2 t d = iblk2 V c 2 t :=
  before2_2_of V (dat2 (F := F) (U := U) V O Rc c) (A_eq2 V O Rc c 2) (after2_2 V O Rc c) t d

/-! ## The body obligation, at the one point -/

/-- What the body is called with, the windows one by one, -/
def bodyPre2 (c : Dev nD) (t : Fin cfg2.N) : sProp 𝕄 :=
  iprop((dat2 (F := F) (U := U) V O Rc c).Φ t.castSucc ∗ (dat2 (F := F) (U := U) V O Rc c).owesAt (none : HIx 1) t.castSucc
    ∗ (∃ d, owns (c : Thread nD τ) (st2_0 t) fullShare ((dat2 (F := F) (U := U) V O Rc c).before 0 t d))
    ∗ (∃ d, owns (c : Thread nD τ) (st2_1 t) fullShare ((dat2 (F := F) (U := U) V O Rc c).before 1 t d))
    ∗ (∃ d, owns (c : Thread nD τ) (st2_2 t) fullShare ((dat2 (F := F) (U := U) V O Rc c).before 2 t d))
    ∗ (∃ d, owns (c : Thread nD τ) (st2_3 t) fullShare ((dat2 (F := F) (U := U) V O Rc c).before 3 t d)))

/-- and what it returns. -/
def bodyPost2 (c : Dev nD) (t : Fin cfg2.N) : sProp 𝕄 :=
  iprop((dat2 (F := F) (U := U) V O Rc c).Φ t.succ ∗ (dat2 (F := F) (U := U) V O Rc c).owesAt (none : HIx 1) t.succ
    ∗ owns (c : Thread nD τ) (st2_0 t) fullShare ((dat2 (F := F) (U := U) V O Rc c).after 0 t)
    ∗ owns (c : Thread nD τ) (st2_1 t) fullShare ((dat2 (F := F) (U := U) V O Rc c).after 1 t)
    ∗ owns (c : Thread nD τ) (st2_2 t) fullShare ((dat2 (F := F) (U := U) V O Rc c).after 2 t)
    ∗ owns (c : Thread nD τ) (st2_3 t) fullShare ((dat2 (F := F) (U := U) V O Rc c).after 3 t))

/-- The body at the point: the inputs' memrefs hold their blocks, so `sound_kernel2` applies; the invariant and the
    core's `owes` pass through unread. -/
theorem sound_body2 (c : Dev nD) (t : Fin cfg2.N) :
    bodyPre2 (F := F) (U := U) V O Rc c t ⊢ wp frame (wpE (defs₀ (F := F)) Variants.none c none) Set.univ (bodyAt2 t) (fun _ => bodyPost2 V O Rc c t) := by
  unfold bodyPre2 bodyPost2 bodyAt2
  simp only [before2_0, before2_1, before2_2]
  rw [show (dat2 (F := F) (U := U) V O Rc c).Φ t.succ = (dat2 (F := F) (U := U) V O Rc c).Φ t.castSucc from rfl,
    show (dat2 (F := F) (U := U) V O Rc c).owesAt (none : HIx 1) t.succ = (dat2 (F := F) (U := U) V O Rc c).owesAt (none : HIx 1) t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) :
    BodyObligation (dat2 (F := F) (U := U) V O Rc c) (defs₀ (F := F)) Variants.none (none : HIx 1) Set.univ := fun t => by
  rw [bigSep_W2, bigSep_W2]
  exact sound_body2 V O Rc c t

end Cert.KernelIdeal.TcReg

end
-- ==== Proof.TcArrays0.lean ====
import proofs.«204616_g36739150250405_cont_8to1_b_1211_24_alg».proof.Proof.TcRegion0

set_option maxRecDepth 16384

noncomputable section

namespace Cert.KernelIdeal.TcReg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.SparseCore.Cfg (HIx)

variable {F : FTy → Type} [FloatOps F]
variable {U : Type} [URA U]

local notation "𝕄" => MT nD τ sig (HIx 1) (Elt F) ℕ U ℕ

-- the TensorCore's buffer contents when a region is entered: the parameter both regions' halves are stated at
variable (V : (c : Dev nD) → (b : Ref sig .tc) → Buf (Elt F) ((c : Thread nD τ).loc b))
-- what the TensorCore owes the handshakes during a region, and the bound on its recorded pairs: passed through unread
variable (O : CellTallies nD τ sig (HIx 1)) (Rc : Set (SemLoc sig × HIx 1))

/-! # Region 0's arrays after the run: the two inputs as the region found them, the result at some contents the
write-backs may have left -/

theorem arraysAt0 (c : Dev nD) :
    (rdat0 (F := F) (U := U) V O Rc c).arraysAt cfg0.N ⊢ (iprop(
      ((cfg0.win 0).arr.view.loc (c.tc : Thread nD τ) ↦[(cfg0.win 0).arr.view.set]{fullShare} V c (Pipeline.arrRef spec0 0))
      ∗ ((cfg0.win 1).arr.view.loc (c.tc : Thread nD τ) ↦[(cfg0.win 1).arr.view.set]{fullShare} V c (Pipeline.arrRef spec0 1))
      ∗ ∃ G, ⌜(rdat0 (F := F) (U := U) V O Rc c).ArrAt 2 cfg0.N G⌝
          ∗ ((cfg0.win 2).arr.view.loc (c.tc : Thread nD τ) ↦[(cfg0.win 2).arr.view.set]{fullShare} G)) : sProp 𝕄) := by
  unfold RDat.arraysAt
  rw [bigSep_W0]
  iintro ⟨⟨%G0, %h0, H0⟩, ⟨%G1, %h1, H1⟩, ⟨%G2, %h2, H2⟩⟩
  rw [(rdat0 (F := F) (U := U) V O Rc c).ArrAt_in 0 rfl] at h0
  rw [(rdat0 (F := F) (U := U) V O Rc c).ArrAt_in 1 rfl] at h1
  subst h0; subst h1
  isplitl [H0]; · iexact H0
  isplitl [H1]; · iexact H1
  iexists G2; isplitr
  · ipureintro; exact h2
  iexact H2

end Cert.KernelIdeal.TcReg

end
-- ==== Proof.TcRegions.lean ====
import proofs.«204616_g36739150250405_cont_8to1_b_1211_24_alg».proof.Proof.TcRegion0
import proofs.«204616_g36739150250405_cont_8to1_b_1211_24_alg».proof.Proof.TcRegion2
import proofs.«204616_g36739150250405_cont_8to1_b_1211_24_alg».proof.Proof.TcArrays0
-- ==== Proof.KReg0.lean ====
/-
  The two TensorCore regions as segments of @main inside the SparseCore program, each at ANY entry contents `W` of the
  TensorCore's buffers and before SparseCore call `n` (the TensorCore owes the handshakes of the calls from `n` on
  throughout the region). This module: the shared thread state, the proof data family, and the first region (the
  projection of the table onto the weight rows), left with its result array at SOME contents the pipeline's
  write-backs may leave (its columns past the table's end are not determined).
-/
import proofs.«204616_g36739150250405_cont_8to1_b_1211_24_alg».proof.Proof.KSetup
import proofs.«204616_g36739150250405_cont_8to1_b_1211_24_alg».proof.Proof.KRegion
import proofs.«204616_g36739150250405_cont_8to1_b_1211_24_alg».proof.Proof.KHost
import proofs.«204616_g36739150250405_cont_8to1_b_1211_24_alg».proof.Proof.TcRegions
import Idealize.ShloMosaic.Lib.Pipeline.Frame

noncomputable section

namespace Cert.KernelIdeal.KS

open Cert.KernelIdeal Cert.KernelIdeal.Gen Cert.KernelIdeal.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Idealize.ShloMosaic.TcCoe
open Cert.KernelIdeal.TcReg

variable {F : FTy → Type} [FloatOps F]

local notation "𝕄" => MT nD τ sig (HIx 1) (Elt F) ℕ UU ℕ

/-- What the TensorCore owes the launch handshakes before SparseCore call `n`, and the bound on its recorded pairs. -/
abbrev Oc (d : Dev nD) (n : ℕ) : CellTallies nD τ sig (HIx 1) := (K (F := F)).Otc d n
def Rc (d : Dev nD) (n : ℕ) : Set (SemLoc sig × HIx 1) := {p | (K (F := F)).lev (T d, p.1) p.2 ≤ 8 * n}

/-- What rides beside the buffers through every segment: the generator register at some state, and the core's debts
    to the handshakes with its recorded pairs bounded. -/
abbrev Rd (d : Dev nD) (n : ℕ) : sProp 𝕄 :=
  iprop((∃ r, prngReg d r) ∗ ∃ W, ⌜(K (F := F)).WBelow (T d) W (8 * n)⌝ ∗ owes (T d) (Oc (F := F) d n) W)

omit [FloatOps F] in
/-- The recorded pairs stay bounded through a region: the pipeline's own waits sit at index `none`, level zero. -/
theorem wbelow_of_bound (d : Dev nD) (n : ℕ) (cfg : Pipeline.Cfg sig Λ₀) (W : Waits sig (HIx 1))
    (h : (↑W : Set (SemLoc sig × HIx 1)) ⊆ Rc (F := F) d n ∪ cfg.waitPairs (none : HIx 1)) : (K (F := F)).WBelow (T d) W (8 * n) := by
  intro p hp
  rcases h hp with h | ⟨w, s, rfl⟩
  · exact h
  · exact Nat.zero_le _

omit [FloatOps F] in
/-- The handshake debts name no pair at index `none`. -/
theorem Oc_none (d : Dev nD) (n : ℕ) (g : GSem nD τ sig) : Oc (F := F) d n g none = 0 := by
  by_contra h
  have := SparseCore.Cfg.lev_of_Otc_pos (K := K (F := F)) (Nat.pos_of_ne_zero h)
  rw [SparseCore.Cfg.lev_none] at this; omega

variable (W : Dev nD → Valuation τ sig (Elt F)) (n : ℕ)

/-- The buffers read at the TensorCore's references (what the regions' proof data take). -/
abbrev VW : (c : Dev nD) → (b : Ref sig .tc) → Buf (Elt F) ((c : Thread nD τ).loc b) := fun c b => W c b

/-- Both pipelines' proof data at the entry contents `W`, before call `n`. -/
def rdatsW : (p : Fin 2) → (c : Dev nD) → Pipeline.RDat τ (Elt F) (HIx 1) ℕ UU ℕ (Pipeline.pin (pcfgs (F := F)) adm p) c
  | ⟨0, _⟩ => fun c => rdat0 (VW W) (Oc (F := F) c n) (Rc (F := F) c n) c
  | ⟨1, _⟩ => fun c => (dat2 (VW W) (Oc (F := F) c n) (Rc (F := F) c n) c).toR

/-- The projection's buffer among the TensorCore's, and the buffers after the first region at a result array `G`. -/
abbrev r7 : DevRef τ sig := Proc.devRef .tc (main_v7 : Ref sig .tc)
def W2 (d : Dev nD) (G : Buf (Elt F) ((d : Thread nD τ).loc main_v7)) : Valuation τ sig (Elt F) := Function.update (W d) r7 G

omit [FloatOps F] in
theorem W2_of_ne (d : Dev nD) (G) (b : Ref sig .tc) (hb : b ≠ main_v7) : W2 W d G (Proc.devRef .tc b) = W d (Proc.devRef .tc b) :=
  Function.update_of_ne (StableHlo.devRef_ne_of_ne hb) _ _
omit [FloatOps F] in
theorem W2_v7 (d : Dev nD) (G) : W2 W d G r7 = G := Function.update_self _ _ _

/-- The wait evidence for a region's staging cells: they sit at index `none`, below every handshake debt. -/
theorem hwaitsW (p : Fin 2) (c : Dev nD) :
    (levAts (K (F := F)).L (K (F := F)).lev : sProp 𝕄) ⊢ Pipeline.RDat.cellsWaits (Pipeline.pin (pcfgs (F := F)) adm) (rdatsW W n) (none : HIx 1) p c :=
  Pipeline.RDat.cellsWaits_intro (Pipeline.pin (pcfgs (F := F)) adm) (rdatsW W n) (none : HIx 1) p c
    fun w s t => (K (F := F)).mayWait_none (thr := (c : Thread nD τ)) _ (fun g => by
      match p with
      | ⟨0, _⟩ => exact Oc_none c n g
      | ⟨1, _⟩ => exact Oc_none c n g)

set_option maxHeartbeats 2000000 in
set_option backward.isDefEq.respectTransparency.types false in
/-- At the first region's exit: its two input arrays as entered, its result array at `G` and every other unscoped
    buffer as entered are the unscoped buffers at `W2 G`. -/
theorem exit0_bufs (c : Dev nD) (G : Buf (Elt F) ((c : Thread nD τ).loc main_v7)) :
    iprop(((cfg0.win 0).arr.view.loc (c : Thread nD τ) ↦[(cfg0.win 0).arr.view.set]{fullShare} VW W c (Pipeline.arrRef spec0 0))
        ∗ ((cfg0.win 1).arr.view.loc (c : Thread nD τ) ↦[(cfg0.win 1).arr.view.set]{fullShare} VW W c (Pipeline.arrRef spec0 1))
        ∗ ((cfg0.win 2).arr.view.loc (c : Thread nD τ) ↦[(cfg0.win 2).arr.view.set]{fullShare} G)
        ∗ Pipeline.unscopedRest (Ix := HIx 1) (Name := ℕ) (U := UU) (Lvl := ℕ) spec0 c (VW W c))
      ⊢ (held (c : Thread nD τ) (Pipeline.ucRefs τ sig) (W2 W c G) : sProp 𝕄) := by
  have e0 : W2 W c G (Proc.devRef .tc (Pipeline.arrRef spec0 (0 : Fin 3))) = W c (Proc.devRef .tc (Pipeline.arrRef spec0 (0 : Fin 3))) :=
    W2_of_ne W c G _ (by decide)
  have e1 : W2 W c G (Proc.devRef .tc (Pipeline.arrRef spec0 (1 : Fin 3))) = W c (Proc.devRef .tc (Pipeline.arrRef spec0 (1 : Fin 3))) :=
    W2_of_ne W c G _ (by decide)
  have e2 : W2 W c G (Proc.devRef .tc (Pipeline.arrRef spec0 (2 : Fin 3))) = G := W2_v7 W c G
  have er : Pipeline.unscopedRest (Ix := HIx 1) (Name := ℕ) (U := UU) (Lvl := ℕ) spec0 c (fun b => W2 W c G b) = Pipeline.unscopedRest spec0 c (VW W c) := by
    unfold Pipeline.unscopedRest
    exact bigSep_congr fun b hb =>
      congrArg (fun x : Buf (Elt F) ((c : Thread nD τ).loc b) => (((c : Thread nD τ).loc b) ↦{fullShare} x : sProp 𝕄))
        (W2_of_ne W c G b (fun e => (Finset.mem_sdiff.mp hb).2 (e ▸ Finset.mem_image.mpr ⟨2, Finset.mem_univ _, rfl⟩)))
  have hB : (held (c : Thread nD τ) (Pipeline.ucRefs τ sig) (W2 W c G) : sProp 𝕄)
      = iprop((((c : Thread nD τ).loc (Pipeline.arrRef spec0 (0 : Fin 3)) ↦{fullShare} W2 W c G (Proc.devRef .tc (Pipeline.arrRef spec0 (0 : Fin 3))))
          ∗ ((c : Thread nD τ).loc (Pipeline.arrRef spec0 (1 : Fin 3)) ↦{fullShare} W2 W c G (Proc.devRef .tc (Pipeline.arrRef spec0 (1 : Fin 3))))
          ∗ ((c : Thread nD τ).loc (Pipeline.arrRef spec0 (2 : Fin 3)) ↦{fullShare} W2 W c G (Proc.devRef .tc (Pipeline.arrRef spec0 (2 : Fin 3)))))
        ∗ Pipeline.unscopedRest (Ix := HIx 1) (Name := ℕ) (U := UU) (Lvl := ℕ) spec0 c (fun b => W2 W c G b)) := by
    rw [← Pipeline.unscopedBufs_held c (W2 W c G),
      Pipeline.unscopedBufs_split (Pipeline.pin (pcfgs (F := F)) adm) 0 launch0.win.arr_unscoped launch0.win.arr_inj c, bigSep_W0]
    rfl
  have s0 : (cfg0.win 0).arr.view.set = Finset.univ := (launch0.arr_whole 0).set_eq_univ
  have s1 : (cfg0.win 1).arr.view.set = Finset.univ := (launch0.arr_whole 1).set_eq_univ
  have s2 : (cfg0.win 2).arr.view.set = Finset.univ := (launch0.arr_whole 2).set_eq_univ
  rw [hB, er, e0, e1, e2, s0, s1, s2]
  iintro ⟨H5, H6, H7, Hr⟩
  isplitl [H5 H6 H7]
  · isplitl [H5]; · iexact H5
    isplitl [H6]; · iexact H6
    iexact H7
  · iexact Hr

set_option backward.isDefEq.respectTransparency.types false in
/-- REGION 0 over the thread state: entered from every unscoped buffer at `W`, left at `W2 G` for SOME result array
    `G` the pipeline's write-backs may leave. -/
def reg0 : Pipeline.RDat.RegionSeg (pcfgs (F := F)) adm (rdatsW W n) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := body_obligation0 (VW W) (Oc (F := F) c n) (Rc (F := F) c n) c
  hwaits c := hwaitsW W n 0 c
  pre c := iprop(held (c : Thread nD τ) (Pipeline.ucRefs τ sig) (W c) ∗ Rd (F := F) c n)
  post c := iprop(∃ G, ⌜(rdat0 (F := F) (U := UU) (VW W) (Oc (F := F) c n) (Rc (F := F) c n) c).ArrAt 2 cfg0.N G⌝
    ∗ held (c : Thread nD τ) (Pipeline.ucRefs τ sig) (W2 W c G) ∗ Rd (F := F) c n)
  X c := iprop(∃ r, prngReg c r)
  Y c := iprop(∃ r, prngReg c r)
  Z c := Pipeline.unscopedRest (Ix := HIx 1) (Name := ℕ) (U := UU) (Lvl := ℕ) spec0 c (VW W c)
  hentry c := by
    rw [Pipeline.ownSems0_none]
    have hsplit := Pipeline.RDat.arrays_of_unscopedBufs (p := 0) (pcfgs (F := F)) adm (rdatsW W n) launch0.win launch0.arr_whole c
      ((rdatsW W n 0 c).share_full fun _ => rfl) (VW W c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W', %hW, HO⟩; iexists W'; isplitr; · ipureintro; exact fun p hp => Or.inl (hW p hp)
      iexact HO
    isplitl [Hp]; · iexact Hp
    iexact Hrest
  hin c := by
    rw [show (rdatsW W n 0 c).Φ 0 = ΦH spec0 c from rfl]; unfold ΦH
    iintro ⟨Hp, -, Hr⟩
    isplitl [Hr]; · iexact Hr
    iexact Hp
  hout c := by
    rw [Pipeline.ownSems0_none, show (rdatsW W n 0 c).Φ (Fin.last _) = ΦH spec0 c from rfl]; unfold ΦH
    iintro ⟨Hr, Hp⟩
    isplitl [Hp]; · iexact Hp
    isplitr; · iempintro
    iexact Hr
  hexit c := by
    iintro ⟨Ha, HO, HY, Hrest⟩
    ihave Ha0 := (Entails.of_eq (show (rdatsW W n 0 c).arraysAt (Pipeline.pin (pcfgs (F := F)) adm 0).N
      = (rdat0 (F := F) (U := UU) (VW W) (Oc (F := F) c n) (Rc (F := F) c n) c).arraysAt cfg0.N from rfl)) $$ Ha
    ihave Ha' := (arraysAt0 (F := F) (U := UU) (VW W) (Oc (F := F) c n) (Rc (F := F) c n) c) $$ Ha0
    icases Ha' with ⟨H5, H6, ⟨%G, %hG, H7⟩⟩
    imodintro
    iexists G
    isplitr; · ipureintro; exact hG
    isplitl [H5 H6 H7 Hrest]
    · iapply (exit0_bufs W c G)
      isplitl [H5]; · iexact H5
      isplitl [H6]; · iexact H6
      isplitl [H7]; · iexact H7
      iexact Hrest
    isplitl [HY]; · iexact HY
    unfold Pipeline.RDat.owesAt Pipeline.owesWithin
    icases HO with ⟨%W', %hW, HO⟩; iexists W'
    isplitr; · ipureintro; exact wbelow_of_bound c n _ W' hW
    iexact HO

end Cert.KernelIdeal.KS

end
-- ==== Proof.KReg2.lean ====
/-
  The second TensorCore region (the ten gathered planes summed onto side·w + b, then the logistic) as a segment of
  @main inside the SparseCore program, at any entry contents `W` and before call `n`: left with its result array at
  what the pipeline library computes from the entry contents, every other buffer as entered.
-/
import proofs.«204616_g36739150250405_cont_8to1_b_1211_24_alg».proof.Proof.KSetup
import proofs.«204616_g36739150250405_cont_8to1_b_1211_24_alg».proof.Proof.KReg0

noncomputable section

namespace Cert.KernelIdeal.KS

open Cert.KernelIdeal Cert.KernelIdeal.Gen Cert.KernelIdeal.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Idealize.ShloMosaic.TcCoe
open Cert.KernelIdeal.TcReg

variable {F : FTy → Type} [FloatOps F]

local notation "𝕄" => MT nD τ sig (HIx 1) (Elt F) ℕ UU ℕ

variable (W : Dev nD → Valuation τ sig (Elt F)) (n : ℕ)

/-- The second region's result buffer among the TensorCore's, and the buffers after the region. -/
abbrev r20 : DevRef τ sig := Proc.devRef .tc (main_v20 : Ref sig .tc)
def W6 (c : Dev nD) : Valuation τ sig (Elt F) :=
  Function.update (W c) r20 ((dat2 (F := F) (U := UU) (VW W) (Oc (F := F) c n) (Rc (F := F) c n) c).arrAt 3 cfg2.N)

theorem W6_of_ne (c : Dev nD) (b : Ref sig .tc) (hb : b ≠ main_v20) : W6 W n c (Proc.devRef .tc b) = W c (Proc.devRef .tc b) :=
  Function.update_of_ne (StableHlo.devRef_ne_of_ne hb) _ _

set_option maxHeartbeats 2000000 in
set_option backward.isDefEq.respectTransparency.types false in
/-- At the second region's exit: its arrays at what the pipeline leaves and every other unscoped buffer as entered
    are the unscoped buffers at `W6`. -/
theorem exit2_bufs [∀ e, Nonempty (Elt F e)] (c : Dev nD) :
    iprop((dat2 (F := F) (U := UU) (VW W) (Oc (F := F) c n) (Rc (F := F) c n) c).arrays
          ((dat2 (F := F) (U := UU) (VW W) (Oc (F := F) c n) (Rc (F := F) c n) c).arrAt · cfg2.N)
        ∗ Pipeline.unscopedRest (Ix := HIx 1) (Name := ℕ) (U := UU) (Lvl := ℕ) spec2 c (VW W c))
      ⊢ (held (c : Thread nD τ) (Pipeline.ucRefs τ sig) (W6 W n c) : sProp 𝕄) := by
  have e0 : W6 W n c (Proc.devRef .tc (Pipeline.arrRef spec2 (0 : Fin 4))) = W c (Proc.devRef .tc (Pipeline.arrRef spec2 (0 : Fin 4))) :=
    W6_of_ne W n c _ (by decide)
  have e1 : W6 W n c (Proc.devRef .tc (Pipeline.arrRef spec2 (1 : Fin 4))) = W c (Proc.devRef .tc (Pipeline.arrRef spec2 (1 : Fin 4))) :=
    W6_of_ne W n c _ (by decide)
  have e2 : W6 W n c (Proc.devRef .tc (Pipeline.arrRef spec2 (2 : Fin 4))) = W c (Proc.devRef .tc (Pipeline.arrRef spec2 (2 : Fin 4))) :=
    W6_of_ne W n c _ (by decide)
  have e3 : W6 W n c (Proc.devRef .tc (Pipeline.arrRef spec2 (3 : Fin 4)))
      = (dat2 (F := F) (U := UU) (VW W) (Oc (F := F) c n) (Rc (F := F) c n) c).arrAt 3 cfg2.N := Function.update_self _ _ _
  have er : Pipeline.unscopedRest (Ix := HIx 1) (Name := ℕ) (U := UU) (Lvl := ℕ) spec2 c (fun b => W6 W n c b) = Pipeline.unscopedRest spec2 c (VW W c) := by
    unfold Pipeline.unscopedRest
    exact bigSep_congr fun b hb =>
      congrArg (fun x : Buf (Elt F) ((c : Thread nD τ).loc b) => (((c : Thread nD τ).loc b) ↦{fullShare} x : sProp 𝕄))
        (W6_of_ne W n c b (fun e => (Finset.mem_sdiff.mp hb).2 (e ▸ Finset.mem_image.mpr ⟨3, Finset.mem_univ _, rfl⟩)))
  have hB : (held (c : Thread nD τ) (Pipeline.ucRefs τ sig) (W6 W n c) : sProp 𝕄)
      = iprop((((c : Thread nD τ).loc (Pipeline.arrRef spec2 (0 : Fin 4)) ↦{fullShare} W6 W n c (Proc.devRef .tc (Pipeline.arrRef spec2 (0 : Fin 4))))
          ∗ ((c : Thread nD τ).loc (Pipeline.arrRef spec2 (1 : Fin 4)) ↦{fullShare} W6 W n c (Proc.devRef .tc (Pipeline.arrRef spec2 (1 : Fin 4))))
          ∗ ((c : Thread nD τ).loc (Pipeline.arrRef spec2 (2 : Fin 4)) ↦{fullShare} W6 W n c (Proc.devRef .tc (Pipeline.arrRef spec2 (2 : Fin 4))))
          ∗ ((c : Thread nD τ).loc (Pipeline.arrRef spec2 (3 : Fin 4)) ↦{fullShare} W6 W n c (Proc.devRef .tc (Pipeline.arrRef spec2 (3 : Fin 4)))))
        ∗ Pipeline.unscopedRest (Ix := HIx 1) (Name := ℕ) (U := UU) (Lvl := ℕ) spec2 c (fun b => W6 W n c b)) := by
    rw [← Pipeline.unscopedBufs_held c (W6 W n c),
      Pipeline.unscopedBufs_split (Pipeline.pin (pcfgs (F := F)) adm) 1 launch2.win.arr_unscoped launch2.win.arr_inj c, bigSep_W2]
    rfl
  have hA : ((dat2 (F := F) (U := UU) (VW W) (Oc (F := F) c n) (Rc (F := F) c n) c).arrays
        ((dat2 (F := F) (U := UU) (VW W) (Oc (F := F) c n) (Rc (F := F) c n) c).arrAt · cfg2.N) : sProp 𝕄)
      = iprop(((c : Thread nD τ).loc (Pipeline.arrRef spec2 (0 : Fin 4)) ↦{fullShare} W c (Proc.devRef .tc (Pipeline.arrRef spec2 (0 : Fin 4))))
          ∗ ((c : Thread nD τ).loc (Pipeline.arrRef spec2 (1 : Fin 4)) ↦{fullShare} W c (Proc.devRef .tc (Pipeline.arrRef spec2 (1 : Fin 4))))
          ∗ ((c : Thread nD τ).loc (Pipeline.arrRef spec2 (2 : Fin 4)) ↦{fullShare} W c (Proc.devRef .tc (Pipeline.arrRef spec2 (2 : Fin 4))))
          ∗ ((c : Thread nD τ).loc (Pipeline.arrRef spec2 (3 : Fin 4)) ↦{fullShare}
              (dat2 (F := F) (U := UU) (VW W) (Oc (F := F) c n) (Rc (F := F) c n) c).arrAt 3 cfg2.N)) := by
    have s0 : (cfg2.win 0).arr.view.set = Finset.univ := (launch2.arr_whole 0).set_eq_univ
    have s1 : (cfg2.win 1).arr.view.set = Finset.univ := (launch2.arr_whole 1).set_eq_univ
    have s2 : (cfg2.win 2).arr.view.set = Finset.univ := (launch2.arr_whole 2).set_eq_univ
    have s3 : (cfg2.win 3).arr.view.set = Finset.univ := (launch2.arr_whole 3).set_eq_univ
    unfold Pipeline.Dat.arrays
    rw [bigSep_W2, s0, s1, s2, s3,
      (dat2 (F := F) (U := UU) (VW W) (Oc (F := F) c n) (Rc (F := F) c n) c).share_full (fun _ => rfl) 0,
      (dat2 (F := F) (U := UU) (VW W) (Oc (F := F) c n) (Rc (F := F) c n) c).share_full (fun _ => rfl) 1,
      (dat2 (F := F) (U := UU) (VW W) (Oc (F := F) c n) (Rc (F := F) c n) c).share_full (fun _ => rfl) 2,
      (dat2 (F := F) (U := UU) (VW W) (Oc (F := F) c n) (Rc (F := F) c n) c).share_full (fun _ => rfl) 3]
    beta_reduce
    rw [(dat2 (F := F) (U := UU) (VW W) (Oc (F := F) c n) (Rc (F := F) c n) c).arrAt_in 0 rfl,
      (dat2 (F := F) (U := UU) (VW W) (Oc (F := F) c n) (Rc (F := F) c n) c).arrAt_in 1 rfl,
      (dat2 (F := F) (U := UU) (VW W) (Oc (F := F) c n) (Rc (F := F) c n) c).arrAt_in 2 rfl]
    all_goals rfl
  rw [hB, hA, er, e0, e1, e2, e3]

set_option backward.isDefEq.respectTransparency.types false in
/-- REGION 2 over the thread state: entered from every unscoped buffer at `W`, left at `W6`. -/
def reg2 [∀ e, Nonempty (Elt F e)] : Pipeline.RDat.RegionSeg (pcfgs (F := F)) adm (rdatsW W n) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (VW W) (Oc (F := F) c n) (Rc (F := F) c n) c).toR
  hwaits c := hwaitsW W n 1 c
  pre c := iprop(held (c : Thread nD τ) (Pipeline.ucRefs τ sig) (W c) ∗ Rd (F := F) c n)
  post c := iprop(held (c : Thread nD τ) (Pipeline.ucRefs τ sig) (W6 W n c) ∗ Rd (F := F) c n)
  X c := iprop(∃ r, prngReg c r)
  Y c := iprop(∃ r, prngReg c r)
  Z c := Pipeline.unscopedRest (Ix := HIx 1) (Name := ℕ) (U := UU) (Lvl := ℕ) spec2 c (VW W c)
  hentry c := by
    rw [Pipeline.ownSems0_none]
    have hsplit := Pipeline.RDat.arrays_of_unscopedBufs (p := 1) (pcfgs (F := F)) adm (rdatsW W n) launch2.win launch2.arr_whole c
      ((rdatsW W n 1 c).share_full fun _ => rfl) (VW W c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W', %hW, HO⟩; iexists W'; isplitr; · ipureintro; exact fun p hp => Or.inl (hW p hp)
      iexact HO
    isplitl [Hp]; · iexact Hp
    iexact Hrest
  hin c := by
    rw [show (rdatsW W n 1 c).Φ 0 = ΦH spec2 c from rfl]; unfold ΦH
    iintro ⟨Hp, -, Hr⟩
    isplitl [Hr]; · iexact Hr
    iexact Hp
  hout c := by
    rw [Pipeline.ownSems0_none, show (rdatsW W n 1 c).Φ (Fin.last _) = ΦH spec2 c from rfl]; unfold ΦH
    iintro ⟨Hr, Hp⟩
    isplitl [Hp]; · iexact Hp
    isplitr; · iempintro
    iexact Hr
  hexit c := by
    iintro ⟨Ha, HO, HY, Hrest⟩
    ihave Ha0 := (Entails.of_eq (show (rdatsW W n 1 c).arraysAt (Pipeline.pin (pcfgs (F := F)) adm 1).N
      = (dat2 (F := F) (U := UU) (VW W) (Oc (F := F) c n) (Rc (F := F) c n) c).arrays
          ((dat2 (F := F) (U := UU) (VW W) (Oc (F := F) c n) (Rc (F := F) c n) c).arrAt · cfg2.N) from
      (dat2 (F := F) (U := UU) (VW W) (Oc (F := F) c n) (Rc (F := F) c n) c).toR_arraysAt_eq cfg2.N)) $$ Ha
    imodintro
    isplitl [Ha0 Hrest]
    · iapply (exit2_bufs W n c)
      isplitl [Ha0]; · iexact Ha0
      iexact Hrest
    isplitl [HY]; · iexact HY
    unfold Pipeline.RDat.owesAt Pipeline.owesWithin
    icases HO with ⟨%W', %hW, HO⟩; iexists W'
    isplitr; · ipureintro; exact wbelow_of_bound c n _ W' hW
    iexact HO

end Cert.KernelIdeal.KS

end
-- ==== Proof.ScTilePay.lean ====
/-
  The SparseCore call of the program, as the launch theorem sees it: the program's configuration, what the
  handshakes carry (the record of payloads), and the statements of the tile obligation and of the split of a
  SparseCore's operands among its sixteen tiles.

  The kernel: tile (core h, subcore s) with s < 10 copies row s of the projected table (an array of 16 rows of
  106496 words) into its own scratch, then, for each of the two halves t of its 8192 index words, copies the 4096
  indices, gathers the 4096 words of the row they name, and writes them to the half t of row (s, h) of the result.
  The result is therefore ONE function of the two operands: at (s, h, n) it is the table's row s at the index word
  at (s, h, n) (`Part`).
-/
import Idealize.ShloMosaic.Lib.SparseCore.Launch
import Idealize.ShloMosaic.Lib.SparseCore.Ops
import Idealize.ShloMosaic.Lib.Pipeline.Kit
import Idealize.ShloMosaic.Lib.Tactic
import Idealize.ShloMosaic.Lib.ValueIdx
import proofs.«204616_g36739150250405_cont_8to1_b_1211_24_alg».proof.Proof.Gen.KernelIdeal

noncomputable section

namespace Cert.Proof.ScTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open PCS

variable {F : FTy → Type} [FloatOps F]

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: any algebra with a copy of the transfers' counters -/

variable {U : Type} [URA U] [CountersIn U]

local notation "𝕄" => MT nD τ sig (HIx 1) (Elt F) ℕ U ℕ

/-! ## The operands when the call starts, and where each word of the result comes from -/

abbrev ptLoc (d : Dev nD) : Loc nD τ sig := (SparseCore.T d).loc main_v7
abbrev itLoc (d : Dev nD) : Loc nD τ sig := (SparseCore.T d).loc main_v10
abbrev outLoc (d : Dev nD) : Loc nD τ sig := (SparseCore.T d).loc main_v11

-- `IT`: the index words when the call starts. `Ag`: any property of the projected table's contents, carried through
-- the call unchanged (the call only reads the table).
variable (IT : (d : Dev nD) → Buf (Elt F) (itLoc d))
variable (Ag : (d : Dev nD) → Buf (Elt F) (ptLoc d) → Prop)

/-- The element of the table the result's element `j = (s, h, n)` is a copy of: row `s`, at the column the index word
    at `j` names (the word's value reduced below the row's length: the word itself when it is in range). -/
def gat (d : Dev nD) (j : S10x2x8192.Idx) : S16x106496.Idx :=
  ix2 (⟨(j 0).val, Nat.lt_of_lt_of_le (j 0).isLt (by decide)⟩ : Fin 16)
    (⟨(IT d j).toNat % 106496, Nat.mod_lt _ (by decide)⟩ : Fin 106496)

theorem gat_row (d : Dev nD) (j : S10x2x8192.Idx) : ((gat IT d j 0 : Fin 16) : ℕ) = (j 0).val := rfl
theorem gat_col (d : Dev nD) (j : S10x2x8192.Idx) : ((gat IT d j 1 : Fin 106496) : ℕ) = (IT d j).toNat % 106496 := rfl
theorem gat_apply (d : Dev nD) (a : Fin 10) (b : Fin 2) (c : Fin 8192) :
    gat IT d (ix3 a b c) = ix2 (⟨a.val, Nat.lt_of_lt_of_le a.isLt (by decide)⟩ : Fin 16)
      (⟨(IT d (ix3 a b c)).toNat % 106496, Nat.mod_lt _ (by decide)⟩ : Fin 106496) := rfl

/-- The result the call leaves when the table holds `PT`: ONE function of the whole array's index. -/
def gatF (d : Dev nD) (PT : Buf (Elt F) (ptLoc d)) : Buf (Elt F) (outLoc d) := fun j => PT (gat IT d j)

theorem gatF_apply (d : Dev nD) (PT : Buf (Elt F) (ptLoc d)) (j : S10x2x8192.Idx) : gatF IT d PT j = PT (gat IT d j) := rfl

/-! ## Shares: the two SparseCores read the operands at the two halves of the whole share -/

/-- SparseCore `c`'s read share of an operand: the left half of the whole share for SparseCore 0, the right half for
    SparseCore 1. -/
def q2 (c : ℕ) : PosShare TreeShare := if c = 0 then (fullShare : PosShare TreeShare).left else (fullShare : PosShare TreeShare).right

theorem q2_zero : q2 0 = (fullShare : PosShare TreeShare).left := if_pos rfl
theorem q2_one : q2 1 = (fullShare : PosShare TreeShare).right := if_neg Nat.one_ne_zero

/-- An operand held whole is its two read shares. -/
theorem split_share {ℓ : Loc nD τ sig} {I : Finset (Idx ℓ)} (f : Buf (Elt F) ℓ) :
    (ℓ ↦[I]{fullShare} f : sProp 𝕄) ⊣⊢ iprop((ℓ ↦[I]{q2 0} f) ∗ ℓ ↦[I]{q2 1} f) := by
  rw [q2_zero, q2_one]; exact pointsTo_share (PosShare.mem_left_op_right _)

/-- Two shares of one location held at two contents: the contents are the same. -/
theorem share_agree {ℓ : Loc nD τ sig} {q₁ q₂ : PosShare TreeShare} (f g : Buf (Elt F) ℓ) :
    iprop((ℓ ↦{q₁} f) ∗ ℓ ↦{q₂} g) ⊢ (iprop(⌜g = f⌝ ∗ (ℓ ↦{q₁} f) ∗ ℓ ↦{q₂} g) : sProp 𝕄) := by
  iintro ⟨Hf, Hg⟩
  ihave Ha := (persistent_entails_right (pointsTo_agree (ℓ := ℓ) (I := Finset.univ) (J := Finset.univ) (q₁ := q₁) (q₂ := q₂) (f := f) (g := g))) $$ [Hf Hg]
  · isplitl [Hf] <;> iassumption
  icases Ha with ⟨%ha, Hf, Hg⟩
  isplitr
  · ipureintro; exact funext fun i => ((ha i (Finset.mem_inter.mpr ⟨Finset.mem_univ _, Finset.mem_univ _⟩)).1).symm
  isplitl [Hf] <;> iassumption

/-- Two shares of one location held at two contents join at the first contents. -/
theorem join_share {ℓ : Loc nD τ sig} {q q₁ q₂ : PosShare TreeShare} (h : q ∈ q₁ ·? q₂) (f g : Buf (Elt F) ℓ) :
    iprop((ℓ ↦{q₁} f) ∗ ℓ ↦{q₂} g) ⊢ (ℓ ↦{q} f : sProp 𝕄) := by
  refine (share_agree f g).trans ?_
  iintro ⟨%hg, H⟩
  subst hg
  exact (pointsTo_share h).2

/-- The two SparseCores' read shares of the table, whatever contents each came back at, are the table whole at
    the first one's; the contents were the same. -/
theorem join_v7 (d : Dev nD) (f g : Buf (Elt F) (ptLoc d)) :
    iprop((ptLoc d ↦{q2 0} f) ∗ ptLoc d ↦{q2 1} g) ⊢ (iprop(⌜g = f⌝ ∗ ptLoc d ↦{fullShare} f) : sProp 𝕄) := by
  refine (share_agree f g).trans ?_
  iintro ⟨%hg, H⟩
  subst hg
  isplitr
  · ipureintro; rfl
  · exact (split_share g).2

theorem split_v7 (d : Dev nD) (f : Buf (Elt F) (ptLoc d)) :
    (ptLoc d ↦{fullShare} f : sProp 𝕄) ⊣⊢ iprop((ptLoc d ↦{q2 0} f) ∗ ptLoc d ↦{q2 1} f) := split_share f
theorem split_v10 (d : Dev nD) (f : Buf (Elt F) (itLoc d)) :
    (itLoc d ↦{fullShare} f : sProp 𝕄) ⊣⊢ iprop((itLoc d ↦{q2 0} f) ∗ itLoc d ↦{q2 1} f) := split_share f

/-! ## The result's elements, by SparseCore and by tile -/

/-- The elements of the result SparseCore `c` writes: those whose middle coordinate is `c`. -/
def slab (c : ℕ) : Finset S10x2x8192.Idx := Finset.univ.filter fun j => (j 1).val = c

theorem mem_slab {c : ℕ} {j : S10x2x8192.Idx} : j ∈ slab c ↔ (j 1).val = c := by
  unfold slab; rw [Finset.mem_filter]; exact ⟨fun h => h.2, fun h => ⟨Finset.mem_univ _, h⟩⟩

theorem slab_cover : slab 0 ∪ slab 1 = Finset.univ := by
  ext j
  have h2 : (j 1).val < 2 := (j 1).isLt
  simp only [Finset.mem_union, mem_slab, Finset.mem_univ, iff_true]
  omega

theorem slab_disj : Disjoint (slab 0) (slab 1) :=
  Finset.disjoint_left.mpr fun j h0 h1 => by
    rw [mem_slab] at h0 h1; omega

/-- A tile's grid coordinates, as the body table builds them. -/
def coordsV (c : Fin (grid1.bound 0)) (s : Fin (grid1.bound 1)) : grid1.Coords :=
  fun | 0 => c | 1 => s | ⟨_ + 2, h⟩ => absurd h (Nat.not_lt.2 (Nat.le_add_left _ _))

/-- The arrays as a tile's memrefs. -/
abbrev outW : Memref sig .scVector .hbm S10x2x8192 .f32 := Memref.whole main_v11_scv
abbrev ptW : Memref sig .scVector .hbm S16x106496 .f32 := Memref.whole main_v7_scv
abbrev itW : Memref sig .scVector .hbm S10x2x8192 .i32 := Memref.whole main_v10_scv

/-- The two 4096-word pieces of the result a working tile writes, spelt as the program slices them. -/
abbrev piece0 (L : grid1.Coords) (h : k1_cond1 L = 1#1) : Memref sig .scVector .hbm S4096 .f32 :=
  ((outW).slice (Rect.unit (s := S10x2x8192) (k1_off5 L) S1x1x4096.size (k1_off5_inb L h)) (fun _ => rfl)).squeeze S4096 squeezes_S1x1x4096_S4096
abbrev piece1 (L : grid1.Coords) (h : k1_cond1 L = 1#1) : Memref sig .scVector .hbm S4096 .f32 :=
  ((outW).slice (Rect.unit (s := S10x2x8192) (k1_off23 L) S1x1x4096.size (k1_off23_inb L h)) (fun _ => rfl)).squeeze S4096 squeezes_S1x1x4096_S4096

/-- The elements of piece `t` of the tile at `L`: the slice memref's own element set for a working tile, none for an
    idle one. -/
def pieceSet (L : grid1.Coords) (t : Fin 2) : Finset S10x2x8192.Idx :=
  if h : k1_cond1 L = 1#1 then (if t = 0 then (piece0 L h).view.set else (piece1 L h).view.set) else ∅

theorem pieceSet_zero (L : grid1.Coords) (h : k1_cond1 L = 1#1) : pieceSet L 0 = (piece0 L h).view.set := by
  unfold pieceSet; rw [dif_pos h, if_pos rfl]
theorem pieceSet_one (L : grid1.Coords) (h : k1_cond1 L = 1#1) : pieceSet L 1 = (piece1 L h).view.set := by
  unfold pieceSet; rw [dif_pos h, if_neg (by decide)]
theorem pieceSet_idle (L : grid1.Coords) (h : ¬ k1_cond1 L = 1#1) (t : Fin 2) : pieceSet L t = ∅ := by
  unfold pieceSet; rw [dif_neg h]

/-- The grid coordinates of tile `i` of SparseCore `c` of the call. -/
abbrev crd (c : Fin ((K (F := F)).nCore 0)) (i : Fin ((K (F := F)).nSub 0)) : grid1.Coords :=
  coordsV ⟨c.val, c.isLt⟩ ⟨i.val, i.isLt⟩

/-- Tile `i`'s read share of an operand its SparseCore holds at `q`. -/
abbrev tq (q : PosShare TreeShare) (i : Fin ((K (F := F)).nSub 0)) : PosShare TreeShare := Transfers.shareTok q 16 ⟨i.val, i.isLt⟩

/-! ## What the handshakes carry -/

/-- The call hands SparseCore `c` a read share of the two operands (the table at some contents with the carried
    property) and its slab of the result; each tile a read share of the operands and its two pieces of the result; the
    pieces and the slab come back holding, at each element, the table's word `gat` names. -/
def P : (K (F := F)).Pay (nD := nD) (Val := Elt F) (Name := ℕ) (U := U) where
  st := fun q d c => match q with
    | 0 => iprop(∃ PT, ⌜Ag d PT⌝ ∗ (ptLoc d ↦{q2 c.val} PT) ∗ (itLoc d ↦{q2 c.val} IT d) ∗ ∃ f, outLoc d ↦[slab c.val]{fullShare} f)
  dn := fun q d c => match q with
    | 0 => iprop(∃ PT f, ⌜Ag d PT ∧ ∀ j ∈ slab c.val, f j = PT (gat IT d j)⌝ ∗ (ptLoc d ↦{q2 c.val} PT) ∗ (itLoc d ↦{q2 c.val} IT d)
        ∗ outLoc d ↦[slab c.val]{fullShare} f)
  go := fun q d c i => match q with
    | 0 => iprop(∃ PT, ⌜Ag d PT⌝ ∗ (ptLoc d ↦{tq (F := F) (q2 c.val) i} PT) ∗ (itLoc d ↦{tq (F := F) (q2 c.val) i} IT d)
        ∗ (∃ f, outLoc d ↦[pieceSet (crd (F := F) c i) 0]{fullShare} f) ∗ ∃ f, outLoc d ↦[pieceSet (crd (F := F) c i) 1]{fullShare} f)
  td := fun q d c i => match q with
    | 0 => iprop(∃ PT, ⌜Ag d PT⌝ ∗ (ptLoc d ↦{tq (F := F) (q2 c.val) i} PT) ∗ (itLoc d ↦{tq (F := F) (q2 c.val) i} IT d)
        ∗ (outLoc d ↦[pieceSet (crd (F := F) c i) 0]{fullShare} gatF IT d PT) ∗ outLoc d ↦[pieceSet (crd (F := F) c i) 1]{fullShare} gatF IT d PT)
  x := fun _ _ => iprop(emp)

instance P_storable : (P (F := F) (U := U) IT Ag).IsStorable where
  st q d c := match q with | 0 => by unfold P; infer_instance
  dn q d c := match q with | 0 => by unfold P; infer_instance
  go q d c i := match q with | 0 => by unfold P; infer_instance
  td q d c i := match q with | 0 => by unfold P; infer_instance

theorem P_st (d : Dev nD) (c : Fin ((K (F := F)).nCore 0)) :
    (P (F := F) (U := U) IT Ag).st 0 d c
      = iprop(∃ PT, ⌜Ag d PT⌝ ∗ (ptLoc d ↦{q2 c.val} PT) ∗ (itLoc d ↦{q2 c.val} IT d) ∗ ∃ f, outLoc d ↦[slab c.val]{fullShare} f) := rfl
theorem P_dn (d : Dev nD) (c : Fin ((K (F := F)).nCore 0)) :
    (P (F := F) (U := U) IT Ag).dn 0 d c
      = iprop(∃ PT f, ⌜Ag d PT ∧ ∀ j ∈ slab c.val, f j = PT (gat IT d j)⌝ ∗ (ptLoc d ↦{q2 c.val} PT) ∗ (itLoc d ↦{q2 c.val} IT d)
        ∗ outLoc d ↦[slab c.val]{fullShare} f) := rfl
theorem P_go (d : Dev nD) (c : Fin ((K (F := F)).nCore 0)) (i : Fin ((K (F := F)).nSub 0)) :
    (P (F := F) (U := U) IT Ag).go 0 d c i
      = iprop(∃ PT, ⌜Ag d PT⌝ ∗ (ptLoc d ↦{tq (F := F) (q2 c.val) i} PT) ∗ (itLoc d ↦{tq (F := F) (q2 c.val) i} IT d)
        ∗ (∃ f, outLoc d ↦[pieceSet (crd (F := F) c i) 0]{fullShare} f) ∗ ∃ f, outLoc d ↦[pieceSet (crd (F := F) c i) 1]{fullShare} f) := rfl
theorem P_td (d : Dev nD) (c : Fin ((K (F := F)).nCore 0)) (i : Fin ((K (F := F)).nSub 0)) :
    (P (F := F) (U := U) IT Ag).td 0 d c i
      = iprop(∃ PT, ⌜Ag d PT⌝ ∗ (ptLoc d ↦{tq (F := F) (q2 c.val) i} PT) ∗ (itLoc d ↦{tq (F := F) (q2 c.val) i} IT d)
        ∗ (outLoc d ↦[pieceSet (crd (F := F) c i) 0]{fullShare} gatF IT d PT) ∗ outLoc d ↦[pieceSet (crd (F := F) c i) 1]{fullShare} gatF IT d PT) := rfl
theorem P_x (q : Fin 1) (thr : Thread nD τ) : (P (F := F) (U := U) IT Ag).x q thr = iprop(emp) := rfl

/-- Every index word names a column of the table's rows (the body's checks ask exactly this). -/
def InRange : Prop := ∀ (d : Dev nD) (j : S10x2x8192.Idx), (IT d j).toNat < 106496

/-! ## The obligations (proved in the modules that import this one) -/

/-- The statement of the tile obligation. -/
abbrev TileStmt : Prop := (K (F := F)).TileObl (D (F := F)) 𝒱 (P (F := F) (U := U) IT Ag) v₀ 0
/-- The statement of the split of a SparseCore's operands among its tiles. -/
abbrev SplitStmt : Prop := (K (F := F)).VecSplit' (P (F := F) (U := U) IT Ag) 0

end Cert.Proof.ScTile

end
-- ==== Proof.KSc.lean ====
/-
  The SparseCore call as a step of @main on the TensorCore: the table's projection and the index array go out to the
  two SparseCores as read shares, the result array as its two slabs; they come back with every result word the
  projection's word its index names.
-/
import proofs.«204616_g36739150250405_cont_8to1_b_1211_24_alg».proof.Proof.KSetup
import proofs.«204616_g36739150250405_cont_8to1_b_1211_24_alg».proof.Proof.KReg0
import proofs.«204616_g36739150250405_cont_8to1_b_1211_24_alg».proof.Proof.ScTilePay
import Idealize.ShloMosaic.Lib.Pipeline.Frame

noncomputable section

namespace Cert.KernelIdeal.KS

open Cert.KernelIdeal Cert.KernelIdeal.Gen Cert.KernelIdeal.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Idealize.ShloMosaic.TcCoe
open Cert.Proof.ScTile (ptLoc itLoc outLoc q2 slab slab_cover slab_disj gat split_v7 split_v10 join_v7 join_share split_share mem_slab)

variable {F : FTy → Type} [FloatOps F]

local notation "𝕄" => MT nD τ sig (HIx 1) (Elt F) ℕ UU ℕ

variable (IT : (d : Dev nD) → Buf (Elt F) (itLoc d)) (Ag : (d : Dev nD) → Buf (Elt F) (ptLoc d) → Prop)

/-- What the handshakes of the one SparseCore call carry. -/
abbrev PP : (K (F := F)).Pay (nD := nD) (Val := Elt F) (Name := ℕ) (U := UU) := Cert.Proof.ScTile.P (F := F) (U := UU) IT Ag

/-- The call's three arrays among the TensorCore's buffers. -/
abbrev r10 : DevRef τ sig := Proc.devRef .tc (main_v10 : Ref sig .tc)
abbrev r11 : DevRef τ sig := Proc.devRef .tc (main_v11 : Ref sig .tc)
abbrev T3 : Finset (DevRef τ sig) := {r7, r10, r11}

theorem T3_sub : T3 ⊆ Pipeline.ucRefs τ sig := by decide

omit [FloatOps F] in
theorem held_T3 (d : Dev nD) (W : Valuation τ sig (Elt F)) :
    (held (T d) T3 W : sProp 𝕄) = iprop((ptLoc d ↦{fullShare} W r7) ∗ (itLoc d ↦{fullShare} W r10) ∗ outLoc d ↦{fullShare} W r11) := by
  unfold held T3
  rw [SparseCore.bigSep_insert' (by decide), SparseCore.bigSep_insert' (by decide), bigSep_singleton]

omit [FloatOps F] in
/-- The result array whole is its two slabs. -/
theorem split_v11 (d : Dev nD) (f : Buf (Elt F) (outLoc d)) :
    (outLoc d ↦{fullShare} f : sProp 𝕄) ⊣⊢ iprop((outLoc d ↦[slab 0]{fullShare} f) ∗ outLoc d ↦[slab 1]{fullShare} f) := by
  have h : (outLoc d ↦[slab 0 ∪ slab 1]{fullShare} f : sProp 𝕄) ⊣⊢ iprop((outLoc d ↦[slab 0]{fullShare} f) ∗ outLoc d ↦[slab 1]{fullShare} f) :=
    pointsTo_union slab_disj
  rw [slab_cover] at h
  exact h

omit [FloatOps F] in
/-- The two slabs, each at its own contents, are the array whole at the contents that are each slab's on it. -/
theorem join_v11 (d : Dev nD) (f g : Buf (Elt F) (outLoc d)) :
    iprop((outLoc d ↦[slab 0]{fullShare} f) ∗ outLoc d ↦[slab 1]{fullShare} g) ⊢ (outLoc d ↦{fullShare} ((slab 1).piecewise g f) : sProp 𝕄) := by
  have h : iprop((outLoc d ↦[slab 0]{fullShare} f) ∗ outLoc d ↦[slab 1]{fullShare} g) ⊢ (outLoc d ↦[slab 0 ∪ slab 1]{fullShare} ((slab 1).piecewise g f) : sProp 𝕄) :=
    pointsTo_join slab_disj
  rw [slab_cover] at h
  exact h

/-- The two SparseCores of the call, one by one. -/
theorem bigSep_cores (Φ : Fin ((K (F := F)).nCore 0) → sProp 𝕄) : bigSep Finset.univ Φ = iprop(Φ ⟨0, (show 0 < 2 by decide)⟩ ∗ Φ ⟨1, (show 1 < 2 by decide)⟩) := by
  show bigSep (Finset.univ : Finset (Fin 2)) Φ = _
  rw [show (Finset.univ : Finset (Fin 2)) = {0, 1} by decide, SparseCore.bigSep_insert' (by decide), bigSep_singleton]
  rfl

/-- What the call hands the two SparseCores, and what it gets back, spelt out. -/
theorem st_eq (d : Dev nD) : (bigSep Finset.univ fun c : Fin ((K (F := F)).nCore 0) => (PP IT Ag).st 0 d c)
    = iprop((∃ PT, ⌜Ag d PT⌝ ∗ (ptLoc d ↦{q2 0} PT) ∗ (itLoc d ↦{q2 0} IT d) ∗ ∃ f, outLoc d ↦[slab 0]{fullShare} f)
        ∗ (∃ PT, ⌜Ag d PT⌝ ∗ (ptLoc d ↦{q2 1} PT) ∗ (itLoc d ↦{q2 1} IT d) ∗ ∃ f, outLoc d ↦[slab 1]{fullShare} f)) := by
  rw [bigSep_cores]; rfl
theorem dn_eq (d : Dev nD) : (bigSep Finset.univ fun c : Fin ((K (F := F)).nCore 0) => (PP IT Ag).dn 0 d c)
    = iprop((∃ PT f, ⌜Ag d PT ∧ ∀ j ∈ slab 0, f j = PT (gat IT d j)⌝ ∗ (ptLoc d ↦{q2 0} PT) ∗ (itLoc d ↦{q2 0} IT d) ∗ outLoc d ↦[slab 0]{fullShare} f)
        ∗ (∃ PT f, ⌜Ag d PT ∧ ∀ j ∈ slab 1, f j = PT (gat IT d j)⌝ ∗ (ptLoc d ↦{q2 1} PT) ∗ (itLoc d ↦{q2 1} IT d) ∗ outLoc d ↦[slab 1]{fullShare} f)) := by
  rw [bigSep_cores]; rfl

omit [FloatOps F] in
/-- The three arrays after the call: the projection and the result at their new contents, the index array as it was. -/
theorem held_T3_upd (d : Dev nD) (W : Valuation τ sig (Elt F)) (PT : Buf (Elt F) (ptLoc d)) (f : Buf (Elt F) (outLoc d)) :
    (held (T d) T3 (Function.update (Function.update W r7 PT) r11 f) : sProp 𝕄)
      = iprop((ptLoc d ↦{fullShare} PT) ∗ (itLoc d ↦{fullShare} W r10) ∗ outLoc d ↦{fullShare} f) := by
  have e7 : Function.update (Function.update W r7 PT) r11 f r7 = PT :=
    (Function.update_of_ne (show r7 ≠ r11 by decide) _ _).trans (Function.update_self _ _ _)
  have e10 : Function.update (Function.update W r7 PT) r11 f r10 = W r10 :=
    (Function.update_of_ne (show r10 ≠ r11 by decide) _ _).trans (Function.update_of_ne (show r10 ≠ r7 by decide) _ _)
  have e11 : Function.update (Function.update W r7 PT) r11 f r11 = f := Function.update_self _ _ _
  rw [held_T3, e7, e10, e11]

omit [FloatOps F] in
/-- Every other buffer is untouched by the call. -/
theorem held_rest_upd (d : Dev nD) (W : Valuation τ sig (Elt F)) (PT : Buf (Elt F) (ptLoc d)) (f : Buf (Elt F) (outLoc d)) :
    (held (T d) (Pipeline.ucRefs τ sig \ T3) (Function.update (Function.update W r7 PT) r11 f) : sProp 𝕄)
      = held (T d) (Pipeline.ucRefs τ sig \ T3) W :=
  bigSep_congr fun b hb => by
    have hb' := (Finset.mem_sdiff.mp hb).2
    have h11 : b ≠ r11 := fun e => hb' (by rw [e]; decide)
    have h7 : b ≠ r7 := fun e => hb' (by rw [e]; decide)
    rw [Function.update_of_ne h11, Function.update_of_ne h7]

/-- THE SPARSECORE CALL on the TensorCore of `d`, from its buffers at `W` with the projection satisfying `Ag` and the
    index array at `IT d`: afterwards the projection is at some contents satisfying `Ag` and every word of the result is
    that projection's word at the row and the column its index word names. -/
theorem sc_step (κ : GSem nD τ sig → ℕ) (d : Dev nD) (W : Valuation τ sig (Elt F)) (hAg : Ag d (W r7)) (hIT : W r10 = IT d)
    (Φ : PUnit → sProp 𝕄) :
    iprop((K (F := F)).ctx EH (PP IT Ag) κ ∗ (K (F := F)).tcSt EH d 0 ∗ held (T d) (Pipeline.ucRefs τ sig) W
        ∗ (iprop((K (F := F)).tcSt EH d 1 ∗ ∃ (PT : Buf (Elt F) (ptLoc d)) (f : Buf (Elt F) (outLoc d)), ⌜Ag d PT ∧ ∀ j, f j = PT (gat IT d j)⌝
            ∗ held (T d) (Pipeline.ucRefs τ sig) (Function.update (Function.update W r7 PT) r11 f)) -∗ Φ ⟨⟩))
      ⊢ wp frame (wpE ((K (F := F)).defs (D (F := F))) 𝒱 (T d) none) Set.univ ((sc (F := F)).run d 0) Φ := by
  rw [StableHlo.held_sub_split (T d) T3_sub W, held_T3, hIT]
  iintro ⟨#Hctx, Hst, ⟨⟨H7, H10, H11⟩, Hrest⟩, Hk⟩
  ihave H7' := (split_v7 d _).1 $$ H7
  icases H7' with ⟨H7a, H7b⟩
  ihave H10' := (split_v10 d _).1 $$ H10
  icases H10' with ⟨H10a, H10b⟩
  ihave H11' := (split_v11 d _).1 $$ H11
  icases H11' with ⟨H11a, H11b⟩
  iapply ((K (F := F)).wp_run (D (F := F)) 𝒱 (EH := EH) (P := PP IT Ag) κ d 0) $$ [Hst H7a H7b H10a H10b H11a H11b Hrest Hk]
  isplitr; · iexact Hctx
  isplitl [Hst]; · iexact Hst
  isplitl [H7a H7b H10a H10b H11a H11b]
  · iapply (Entails.of_eq (st_eq IT Ag d).symm)
    isplitl [H7a H10a H11a]
    · iexists _; isplitr; · ipureintro; exact hAg
      isplitl [H7a]; · iexact H7a
      isplitl [H10a]; · iexact H10a
      iexists _; iexact H11a
    · iexists _; isplitr; · ipureintro; exact hAg
      isplitl [H7b]; · iexact H7b
      isplitl [H10b]; · iexact H10b
      iexists _; iexact H11b
  iintro ⟨Hst, Hdn⟩
  ihave Hdn' := (Entails.of_eq (dn_eq IT Ag d)) $$ Hdn
  icases Hdn' with ⟨⟨%PT0, %f0, %h0, H7a, H10a, H11a⟩, ⟨%PT1, %f1, %h1, H7b, H10b, H11b⟩⟩
  ihave H7 := (join_v7 d PT0 PT1) $$ [H7a H7b]
  · isplitl [H7a] <;> iassumption
  icases H7 with ⟨%hPT, H7⟩
  subst hPT
  ihave H10 := (split_v10 d _).2 $$ [H10a H10b]
  · isplitl [H10a] <;> iassumption
  ihave H11 := (join_v11 d f0 f1) $$ [H11a H11b]
  · isplitl [H11a] <;> iassumption
  iapply Hk
  isplitl [Hst]; · iexact Hst
  iexists PT1; iexists ((slab 1).piecewise f1 f0)
  isplitr
  · ipureintro
    refine ⟨h0.1, fun j => ?_⟩
    by_cases hj : j ∈ slab 1
    · rw [Finset.piecewise_eq_of_mem _ _ _ hj]; exact h1.2 j hj
    · rw [Finset.piecewise_eq_of_notMem _ _ _ hj]
      refine h0.2 j ?_
      have := Finset.mem_univ j; rw [← slab_cover, Finset.mem_union] at this
      exact this.resolve_right hj
  · iapply (Entails.of_eq (StableHlo.held_sub_split (T d) T3_sub _).symm)
    isplitl [H7 H10 H11]
    · iapply (Entails.of_eq (held_T3_upd d W PT1 _).symm)
      isplitl [H7]; · iexact H7
      isplitl [H10]; · rw [hIT]; iexact H10
      iexact H11
    · iapply (Entails.of_eq (held_rest_upd d W PT1 _).symm)
      iexact Hrest

end Cert.KernelIdeal.KS

end
-- ==== Proof.KVals.lean ====
/-
  The TensorCore's buffer contents at every boundary of @main: a fold from the launch memory through the four host
  stretches, the first region (its result array `G` one of the contents the pipeline may leave), the SparseCore call
  (the projection back at `PT`, the gathered array at `f`) and the second region.
-/
import proofs.«204616_g36739150250405_cont_8to1_b_1211_24_alg».proof.Proof.KSetup
import proofs.«204616_g36739150250405_cont_8to1_b_1211_24_alg».proof.Proof.KReg2
import proofs.«204616_g36739150250405_cont_8to1_b_1211_24_alg».proof.Proof.KSc

noncomputable section

namespace Cert.KernelIdeal.KS

open Cert.KernelIdeal Cert.KernelIdeal.Gen Cert.KernelIdeal.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Idealize.ShloMosaic.TcCoe
open Cert.KernelIdeal.TcReg
open Cert.Proof.ScTile (ptLoc itLoc outLoc gat)

variable {F : FTy → Type} [FloatOps F]

local notation "𝕄" => MT nD τ sig (HIx 1) (Elt F) ℕ UU ℕ

variable (m : (ℓ : Loc nD τ sig) → Buf (Elt F) ℓ) (d : Dev nD)

/-- At launch, and after the first host stretch (the weight rows padded, the table transposed). -/
abbrev W0 : Valuation τ sig (Elt F) := fun b => m (d, b)
abbrev W1 : Valuation τ sig (Elt F) := StableHlo.after ops0 (W0 m d)

variable (G : Buf (Elt F) ((d : Thread nD τ).loc main_v7))

/-- After the first region (result array `G`) and the second host stretch (the index columns stacked and split by core). -/
def W3 : Valuation τ sig (Elt F) := StableHlo.after ops1 (W2 (fun _ => W1 m d) d G)

/-- The index array the SparseCore call reads: it does not depend on what the first region left. -/
def ITm : Buf (Elt F) (itLoc d) := StableHlo.after ops1 (W1 m d) r10

variable (PT : Buf (Elt F) (ptLoc d)) (f : Buf (Elt F) (outLoc d))

/-- After the SparseCore call, and after the third host stretch. -/
def W4 : Valuation τ sig (Elt F) := Function.update (Function.update (W3 m d G) r7 PT) r11 f
def W5 : Valuation τ sig (Elt F) := StableHlo.after ops2 (W4 m d G PT f)

/-- After the second region (entered after the one SparseCore call), and at the return. -/
def W6v : Valuation τ sig (Elt F) := W6 (fun _ => W5 m d G PT f) 1 d
def W7 : Valuation τ sig (Elt F) := StableHlo.after ops3 (W6v m d G PT f)

end Cert.KernelIdeal.KS

end
-- ==== Proof.KStmt.lean ====
/-
  The statement of the kernel program's run: every weakly fair execution of the device's threads terminates, and on
  every device the final memory holds, at every unscoped TensorCore buffer, the fold's last contents for SOME result
  array of the first region, projection and gathered array the run passed through.
-/
import proofs.«204616_g36739150250405_cont_8to1_b_1211_24_alg».proof.Proof.KSetup
import proofs.«204616_g36739150250405_cont_8to1_b_1211_24_alg».proof.Proof.KVals

noncomputable section

namespace Cert.KernelIdeal.KS

open Cert.KernelIdeal Cert.KernelIdeal.Gen Cert.KernelIdeal.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Idealize.ShloMosaic.TcCoe
open Cert.KernelIdeal.TcReg
open Cert.Proof.ScTile (ptLoc itLoc outLoc gat)

variable {F : FTy → Type} [FloatOps F]

local notation "𝕄" => MT nD τ sig (HIx 1) (Elt F) ℕ UU ℕ

variable (m : (ℓ : Loc nD τ sig) → Buf (Elt F) ℓ) (ρ : Dev nD → PrngReg)
variable (Ag : (d : Dev nD) → Buf (Elt F) (ptLoc d) → Prop)

/-- The index array of the SparseCore call on every device. -/
abbrev ITf : (d : Dev nD) → Buf (Elt F) (itLoc d) := fun d => ITm m d

/-- What every final state satisfies. -/
def RunPost : PUnit × MemSt nD τ sig (Elt F) → Prop := fun r =>
  ∀ d : Dev nD, ∃ (G : Buf (Elt F) ((d : Thread nD τ).loc main_v7)) (PT : Buf (Elt F) (ptLoc d)) (f : Buf (Elt F) (outLoc d)),
    (Ag d PT ∧ ∀ j, f j = PT (gat (ITf m) d j)) ∧ ∀ b ∈ Pipeline.ucRefs τ sig, r.2.mem (d, b) = W7 m d G PT f b

/-- The run. -/
def RunStmt : Prop :=
  θ_run (Cert.KernelIdeal.defs (F := F)) (Cert.KernelIdeal.threads (F := F)) ⟨m, fun _ => 0, ρ⟩ (RunPost m Ag)

end Cert.KernelIdeal.KS

end
-- ==== Proof.KValueG.lean ====
/-
  What no stretch of host operations and no call of @main writes: each argument array is read back as launched
  from every boundary of the fold, the projected table passes through the second stretch untouched, and the index
  array that stretch builds reads the two index arguments only.
-/
import proofs.«204616_g36739150250405_cont_8to1_b_1211_24_alg».proof.Proof.KVals

noncomputable section

namespace Cert.KernelIdeal.KS

open Cert.KernelIdeal Cert.KernelIdeal.Gen Cert.KernelIdeal.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Idealize.ShloMosaic.TcCoe
open Idealize.ShloMosaic.ValueIdx
open Cert.KernelIdeal.TcReg
open Cert.Proof.ScTile (ptLoc itLoc outLoc gat)
open scoped BigOperators

/-- A buffer no operation of a host stretch writes keeps its contents through the stretch. -/
local macro "keep_through " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-! ## What no stretch and no call writes: the arguments, and the two operands of the SparseCore call -/

section Generic
variable {F : FTy → Type} [FloatOps F]
variable (m : (ℓ : Loc nD τ sig) → Buf (Elt F) ℓ) (d : Dev nD)
variable (G : Buf (Elt F) ((d : Thread nD τ).loc main_v7))
variable (PT : Buf (Elt F) (ptLoc d)) (f : Buf (Elt F) (outLoc d))

theorem W1_arg0 : W1 m d (Proc.devRef .tc main_arg0) = m ((d : Thread nD τ).loc main_arg0) :=
  (by keep_through ops0 : StableHlo.after ops0 (W0 m d) (Proc.devRef .tc main_arg0) = W0 m d (Proc.devRef .tc main_arg0))

theorem W1_arg1 : W1 m d (Proc.devRef .tc main_arg1) = m ((d : Thread nD τ).loc main_arg1) :=
  (by keep_through ops0 : StableHlo.after ops0 (W0 m d) (Proc.devRef .tc main_arg1) = W0 m d (Proc.devRef .tc main_arg1))

theorem W1_arg2 : W1 m d (Proc.devRef .tc main_arg2) = m ((d : Thread nD τ).loc main_arg2) :=
  (by keep_through ops0 : StableHlo.after ops0 (W0 m d) (Proc.devRef .tc main_arg2) = W0 m d (Proc.devRef .tc main_arg2))

theorem W1_arg3 : W1 m d (Proc.devRef .tc main_arg3) = m ((d : Thread nD τ).loc main_arg3) :=
  (by keep_through ops0 : StableHlo.after ops0 (W0 m d) (Proc.devRef .tc main_arg3) = W0 m d (Proc.devRef .tc main_arg3))

theorem W1_arg4 : W1 m d (Proc.devRef .tc main_arg4) = m ((d : Thread nD τ).loc main_arg4) :=
  (by keep_through ops0 : StableHlo.after ops0 (W0 m d) (Proc.devRef .tc main_arg4) = W0 m d (Proc.devRef .tc main_arg4))

theorem W1_arg5 : W1 m d (Proc.devRef .tc main_arg5) = m ((d : Thread nD τ).loc main_arg5) :=
  (by keep_through ops0 : StableHlo.after ops0 (W0 m d) (Proc.devRef .tc main_arg5) = W0 m d (Proc.devRef .tc main_arg5))

theorem W4_arg0 : W4 m d G PT f (Proc.devRef .tc main_arg0) = m ((d : Thread nD τ).loc main_arg0) :=
  calc W4 m d G PT f (Proc.devRef .tc main_arg0)
    _ = W3 m d G (Proc.devRef .tc main_arg0) :=
        (Function.update_of_ne (StableHlo.devRef_ne_of_ne (by decide)) _ _).trans
          (Function.update_of_ne (StableHlo.devRef_ne_of_ne (by decide)) _ _)
    _ = W2 (fun _ => W1 m d) d G (Proc.devRef .tc main_arg0) := by unfold W3; keep_through ops1
    _ = W1 m d (Proc.devRef .tc main_arg0) := W2_of_ne _ d G main_arg0 (by decide)
    _ = W0 m d (Proc.devRef .tc main_arg0) := by keep_through ops0
    _ = m ((d : Thread nD τ).loc main_arg0) := rfl

theorem W7_arg0 : W7 m d G PT f (Proc.devRef .tc main_arg0) = m ((d : Thread nD τ).loc main_arg0) :=
  calc W7 m d G PT f (Proc.devRef .tc main_arg0)
    _ = W6v m d G PT f (Proc.devRef .tc main_arg0) := by unfold W7; keep_through ops3
    _ = W5 m d G PT f (Proc.devRef .tc main_arg0) := W6_of_ne _ 1 d main_arg0 (by decide)
    _ = W4 m d G PT f (Proc.devRef .tc main_arg0) := by unfold W5; keep_through ops2
    _ = m ((d : Thread nD τ).loc main_arg0) := W4_arg0 m d G PT f

theorem W4_arg1 : W4 m d G PT f (Proc.devRef .tc main_arg1) = m ((d : Thread nD τ).loc main_arg1) :=
  calc W4 m d G PT f (Proc.devRef .tc main_arg1)
    _ = W3 m d G (Proc.devRef .tc main_arg1) :=
        (Function.update_of_ne (StableHlo.devRef_ne_of_ne (by decide)) _ _).trans
          (Function.update_of_ne (StableHlo.devRef_ne_of_ne (by decide)) _ _)
    _ = W2 (fun _ => W1 m d) d G (Proc.devRef .tc main_arg1) := by unfold W3; keep_through ops1
    _ = W1 m d (Proc.devRef .tc main_arg1) := W2_of_ne _ d G main_arg1 (by decide)
    _ = W0 m d (Proc.devRef .tc main_arg1) := by keep_through ops0
    _ = m ((d : Thread nD τ).loc main_arg1) := rfl

theorem W7_arg1 : W7 m d G PT f (Proc.devRef .tc main_arg1) = m ((d : Thread nD τ).loc main_arg1) :=
  calc W7 m d G PT f (Proc.devRef .tc main_arg1)
    _ = W6v m d G PT f (Proc.devRef .tc main_arg1) := by unfold W7; keep_through ops3
    _ = W5 m d G PT f (Proc.devRef .tc main_arg1) := W6_of_ne _ 1 d main_arg1 (by decide)
    _ = W4 m d G PT f (Proc.devRef .tc main_arg1) := by unfold W5; keep_through ops2
    _ = m ((d : Thread nD τ).loc main_arg1) := W4_arg1 m d G PT f

theorem W4_arg2 : W4 m d G PT f (Proc.devRef .tc main_arg2) = m ((d : Thread nD τ).loc main_arg2) :=
  calc W4 m d G PT f (Proc.devRef .tc main_arg2)
    _ = W3 m d G (Proc.devRef .tc main_arg2) :=
        (Function.update_of_ne (StableHlo.devRef_ne_of_ne (by decide)) _ _).trans
          (Function.update_of_ne (StableHlo.devRef_ne_of_ne (by decide)) _ _)
    _ = W2 (fun _ => W1 m d) d G (Proc.devRef .tc main_arg2) := by unfold W3; keep_through ops1
    _ = W1 m d (Proc.devRef .tc main_arg2) := W2_of_ne _ d G main_arg2 (by decide)
    _ = W0 m d (Proc.devRef .tc main_arg2) := by keep_through ops0
    _ = m ((d : Thread nD τ).loc main_arg2) := rfl

theorem W7_arg2 : W7 m d G PT f (Proc.devRef .tc main_arg2) = m ((d : Thread nD τ).loc main_arg2) :=
  calc W7 m d G PT f (Proc.devRef .tc main_arg2)
    _ = W6v m d G PT f (Proc.devRef .tc main_arg2) := by unfold W7; keep_through ops3
    _ = W5 m d G PT f (Proc.devRef .tc main_arg2) := W6_of_ne _ 1 d main_arg2 (by decide)
    _ = W4 m d G PT f (Proc.devRef .tc main_arg2) := by unfold W5; keep_through ops2
    _ = m ((d : Thread nD τ).loc main_arg2) := W4_arg2 m d G PT f

theorem W4_arg3 : W4 m d G PT f (Proc.devRef .tc main_arg3) = m ((d : Thread nD τ).loc main_arg3) :=
  calc W4 m d G PT f (Proc.devRef .tc main_arg3)
    _ = W3 m d G (Proc.devRef .tc main_arg3) :=
        (Function.update_of_ne (StableHlo.devRef_ne_of_ne (by decide)) _ _).trans
          (Function.update_of_ne (StableHlo.devRef_ne_of_ne (by decide)) _ _)
    _ = W2 (fun _ => W1 m d) d G (Proc.devRef .tc main_arg3) := by unfold W3; keep_through ops1
    _ = W1 m d (Proc.devRef .tc main_arg3) := W2_of_ne _ d G main_arg3 (by decide)
    _ = W0 m d (Proc.devRef .tc main_arg3) := by keep_through ops0
    _ = m ((d : Thread nD τ).loc main_arg3) := rfl

theorem W7_arg3 : W7 m d G PT f (Proc.devRef .tc main_arg3) = m ((d : Thread nD τ).loc main_arg3) :=
  calc W7 m d G PT f (Proc.devRef .tc main_arg3)
    _ = W6v m d G PT f (Proc.devRef .tc main_arg3) := by unfold W7; keep_through ops3
    _ = W5 m d G PT f (Proc.devRef .tc main_arg3) := W6_of_ne _ 1 d main_arg3 (by decide)
    _ = W4 m d G PT f (Proc.devRef .tc main_arg3) := by unfold W5; keep_through ops2
    _ = m ((d : Thread nD τ).loc main_arg3) := W4_arg3 m d G PT f

theorem W4_arg4 : W4 m d G PT f (Proc.devRef .tc main_arg4) = m ((d : Thread nD τ).loc main_arg4) :=
  calc W4 m d G PT f (Proc.devRef .tc main_arg4)
    _ = W3 m d G (Proc.devRef .tc main_arg4) :=
        (Function.update_of_ne (StableHlo.devRef_ne_of_ne (by decide)) _ _).trans
          (Function.update_of_ne (StableHlo.devRef_ne_of_ne (by decide)) _ _)
    _ = W2 (fun _ => W1 m d) d G (Proc.devRef .tc main_arg4) := by unfold W3; keep_through ops1
    _ = W1 m d (Proc.devRef .tc main_arg4) := W2_of_ne _ d G main_arg4 (by decide)
    _ = W0 m d (Proc.devRef .tc main_arg4) := by keep_through ops0
    _ = m ((d : Thread nD τ).loc main_arg4) := rfl

theorem W7_arg4 : W7 m d G PT f (Proc.devRef .tc main_arg4) = m ((d : Thread nD τ).loc main_arg4) :=
  calc W7 m d G PT f (Proc.devRef .tc main_arg4)
    _ = W6v m d G PT f (Proc.devRef .tc main_arg4) := by unfold W7; keep_through ops3
    _ = W5 m d G PT f (Proc.devRef .tc main_arg4) := W6_of_ne _ 1 d main_arg4 (by decide)
    _ = W4 m d G PT f (Proc.devRef .tc main_arg4) := by unfold W5; keep_through ops2
    _ = m ((d : Thread nD τ).loc main_arg4) := W4_arg4 m d G PT f

theorem W4_arg5 : W4 m d G PT f (Proc.devRef .tc main_arg5) = m ((d : Thread nD τ).loc main_arg5) :=
  calc W4 m d G PT f (Proc.devRef .tc main_arg5)
    _ = W3 m d G (Proc.devRef .tc main_arg5) :=
        (Function.update_of_ne (StableHlo.devRef_ne_of_ne (by decide)) _ _).trans
          (Function.update_of_ne (StableHlo.devRef_ne_of_ne (by decide)) _ _)
    _ = W2 (fun _ => W1 m d) d G (Proc.devRef .tc main_arg5) := by unfold W3; keep_through ops1
    _ = W1 m d (Proc.devRef .tc main_arg5) := W2_of_ne _ d G main_arg5 (by decide)
    _ = W0 m d (Proc.devRef .tc main_arg5) := by keep_through ops0
    _ = m ((d : Thread nD τ).loc main_arg5) := rfl

theorem W7_arg5 : W7 m d G PT f (Proc.devRef .tc main_arg5) = m ((d : Thread nD τ).loc main_arg5) :=
  calc W7 m d G PT f (Proc.devRef .tc main_arg5)
    _ = W6v m d G PT f (Proc.devRef .tc main_arg5) := by unfold W7; keep_through ops3
    _ = W5 m d G PT f (Proc.devRef .tc main_arg5) := W6_of_ne _ 1 d main_arg5 (by decide)
    _ = W4 m d G PT f (Proc.devRef .tc main_arg5) := by unfold W5; keep_through ops2
    _ = m ((d : Thread nD τ).loc main_arg5) := W4_arg5 m d G PT f

/-- The second stretch does not touch the projection: it is what the first region left. -/
theorem W3_r7 : W3 m d G r7 = G := by
  unfold W3
  exact (by keep_through ops1 : StableHlo.after ops1 (W2 (fun _ => W1 m d) d G) (Proc.devRef .tc main_v7) = _).trans (W2_v7 _ d G)

/-- The index array the second stretch builds, as a term of the two index arguments' contents. -/
theorem ops1_r10 (Vv : Valuation τ sig (Elt F)) :
    (StableHlo.after ops1 Vv (Proc.devRef .tc main_v10) : IVec S10x2x8192 32)
      = shapeCast S10x2x8192 (transpose S10x16384 [1, 0]
          (concatenate S16384x10 1 [⟨S16384x5, Vv (Proc.devRef .tc main_arg0)⟩, ⟨S16384x5, Vv (Proc.devRef .tc main_arg1)⟩]
            concatenates_S16384x5_S16384x5_S16384x10_d1) transposes_S16384x10_S10x16384_1_0) shapeCasts_S10x16384_S10x2x8192 := by
  simp only [ops1]
  after_results
  try rfl

/-- It reads the index arguments only, so it does not depend on what the first region left. -/
theorem W3_r10 : W3 m d G r10 = ITm m d := by
  unfold W3 ITm
  refine (ops1_r10 _).trans (Eq.trans ?_ (ops1_r10 _).symm)
  rw [W2_of_ne _ d G main_arg0 (by decide), W2_of_ne _ d G main_arg1 (by decide)]

end Generic

end Cert.KernelIdeal.KS

end
-- ==== Proof.TcArrAt.lean ====
import Idealize.ShloMosaic.Lib.Pipeline.Value
import Idealize.ShloMosaic.PureOps.Ideal

noncomputable section

namespace Cert.KernelIdeal.TcValue

open Idealize.ShloMosaic Idealize.ShloMosaic.TcCoe Idealize.SL.Sem
open Idealize.SL Idealize.SL.RA
open Idealize.ShloMosaic.Pipeline (Dat RDat Cfg)

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {cfg : Cfg sig Λ₀} {c : Dev nD} (rd : RDat τ Val Ix Name U Lvl cfg c)

/-- An element read as the extended real it is (gives a factor its type, so that the product is the extended reals'). -/
abbrev er (x : EReal) : EReal := x

/-- A property of every element every write-back may write — of the moved part of any contents the body may leave at
    a flushing point — is a property of every element some flushing block below `n` covers, of any contents the array
    may hold after the write-backs below `n`: an element several points cover holds the last one's value. -/
theorem arrAt_forall_of_leaves (w : Fin cfg.W)
    (P : ((cfg.win w).arr.view.loc (c.tc : Thread nD τ)).2.ty.Idx → Val ((cfg.win w).arr.view.loc (c.tc : Thread nD τ)).2.ty.elt → Prop)
    (hP : ∀ t, (cfg.win w).flush t = true → ∀ X, rd.Leaves w t X → ∀ y : ((cfg.win w).xblock (cfg.grid.coords t)).Idx,
      P (((cfg.win w).blk t).view.emb y)
        (_root_.cast (congrArg Val ((cfg.win w).blk t).view.elt_eq.symm) ((cfg.win w).cut (cfg.grid.coords t) X y))) :
    ∀ (n : Nat) (G : Buf Val ((cfg.win w).arr.view.loc (c.tc : Thread nD τ))), rd.ArrAt w n G →
      ∀ (t : Fin cfg.N) (i : ((cfg.win w).arr.view.loc (c.tc : Thread nD τ)).2.ty.Idx),
        t.val < n → (cfg.win w).flush t = true → i ∈ ((cfg.win w).blk t).view.set → P i (G i)
  | 0, _, _, _, _, ht, _, _ => absurd ht (Nat.not_lt_zero _)
  | n + 1, G, hG, t, i, ht, hf, hi => by
    simp only [RDat.ArrAt] at hG
    by_cases hn : n < cfg.N
    swap
    · rw [dif_neg hn] at hG
      exact arrAt_forall_of_leaves w P hP n G hG t i (by have := t.isLt; omega) hf hi
    rw [dif_pos hn] at hG
    by_cases hfn : (cfg.win w).flush ⟨n, hn⟩ = true
    · rw [if_pos hfn] at hG
      obtain ⟨G₀, X, hG₀, hX, rfl⟩ := hG
      by_cases hin : i ∈ ((cfg.win w).blk ⟨n, hn⟩).view.set
      · obtain ⟨y, -, rfl⟩ := Finset.mem_map.mp hin
        rw [View.write_emb_of_mem _ _ (Finset.mem_univ y)]
        exact hP _ hfn X hX y
      · rw [View.write_of_not_mem _ _ _ (by rwa [View.setOn_univ])]
        have htn : t.val ≠ n := fun e => hin (by have : t = ⟨n, hn⟩ := Fin.ext e; exact this ▸ hi)
        exact arrAt_forall_of_leaves w P hP n G₀ hG₀ t i (by omega) hf hi
    · rw [if_neg hfn] at hG
      have htn : t.val ≠ n := fun e => hfn (by have : t = ⟨n, hn⟩ := Fin.ext e; exact this ▸ hf)
      exact arrAt_forall_of_leaves w P hP n G hG t i (by omega) hf hi

end Cert.KernelIdeal.TcValue

end
-- ==== Proof.TcValue0.lean ====
import proofs.«204616_g36739150250405_cont_8to1_b_1211_24_alg».proof.Proof.TcRegion0
import proofs.«204616_g36739150250405_cont_8to1_b_1211_24_alg».proof.Proof.TcArrAt
import Idealize.ShloMosaic.Lib.Pipeline.Value
import Idealize.ShloMosaic.Lib.ValueIdx
import Idealize.ShloMosaic.PureOps.Ideal.Laws

set_option maxRecDepth 16384

noncomputable section

namespace Cert.KernelIdeal.TcValue

open Cert.KernelIdeal Cert.KernelIdeal.Gen Cert.KernelIdeal.TcReg
open Idealize.ShloMosaic Idealize.ShloMosaic.TcCoe Idealize.SL.Sem Idealize.ShloMosaic.ValueIdx
open Idealize.SL Idealize.SL.RA
open Idealize.ShloMosaic.Pipeline (Dat RDat)
open Idealize.ShloMosaic.SparseCore.Cfg (HIx)
open scoped BigOperators

variable {U : Type} [URA U]

variable (V : (c : Dev nD) → (b : Ref sig .tc) → Buf (Elt Ideal) ((c : Thread nD τ).loc b))
variable (O : CellTallies nD τ sig (HIx 1)) (Rc : Set (SemLoc sig × HIx 1))

/-! # The projection's payload at an index -/

theorem hz0 : (![0, 0] : Fin 2 → Nat) = fun _ => 0 := funext fun a => by fin_cases a <;> rfl

/-- The product's operand indices at output index `i` and contraction index `q`: the weight at (row of `i`, `q`),
    the table block at (`q`, column of `i`). -/
theorem lhs0_0 (i : S16x8192.Idx) (q : dot_S16x64_S64x8192_S16x8192_1_0_0_1_n_n.contr.Idx) : (dot_S16x64_S64x8192_S16x8192_1_0_0_1_n_n.lhsIdx i q 0).val = (i 0).val := by
  unfold DotDims.lhsIdx
  rw [dif_neg (show ¬(0 : Fin S16x64.rank) ∈ dot_S16x64_S64x8192_S16x8192_1_0_0_1_n_n.lhsBatch by decide), dif_pos (show (0 : Fin S16x64.rank) ∈ dot_S16x64_S64x8192_S16x8192_1_0_0_1_n_n.lhsNonContracting by decide)]
  rfl
theorem lhs0_1 (i : S16x8192.Idx) (q : dot_S16x64_S64x8192_S16x8192_1_0_0_1_n_n.contr.Idx) : (dot_S16x64_S64x8192_S16x8192_1_0_0_1_n_n.lhsIdx i q 1).val = (q ⟨0, by decide⟩).val :=
  dot_S16x64_S64x8192_S16x8192_1_0_0_1_n_n.lhsIdx_val_of_single rfl i q
theorem rhs0_0 (i : S16x8192.Idx) (q : dot_S16x64_S64x8192_S16x8192_1_0_0_1_n_n.contr.Idx) : (dot_S16x64_S64x8192_S16x8192_1_0_0_1_n_n.rhsIdx i q 0).val = (q ⟨0, by decide⟩).val :=
  dot_S16x64_S64x8192_S16x8192_1_0_0_1_n_n.rhsIdx_val_of_single rfl i q
theorem rhs0_1 (i : S16x8192.Idx) (q : dot_S16x64_S64x8192_S16x8192_1_0_0_1_n_n.contr.Idx) : (dot_S16x64_S64x8192_S16x8192_1_0_0_1_n_n.rhsIdx i q 1).val = (i 1).val := by
  unfold DotDims.rhsIdx
  rw [dif_neg (show ¬(1 : Fin S64x8192.rank) ∈ dot_S16x64_S64x8192_S16x8192_1_0_0_1_n_n.rhsBatch by decide), dif_pos (show (1 : Fin S64x8192.rank) ∈ dot_S16x64_S64x8192_S16x8192_1_0_0_1_n_n.rhsNonContracting by decide)]
  rfl

set_option pp.maxSteps 20000 in
set_option pp.deepTerms false in
/-- What the body leaves in the result's buffer, at an index: the row of the weight block times the column of the
    table block, summed over the 64 coordinates. -/
theorem out0_2_at (x0 : Vec Ideal S16x64 .f32) (x1 : Vec Ideal S64x8192 .f32) (k : Fin 16) (j : Fin 8192) :
    (out0_2 (F := Ideal) x0 x1 (ix2 k j) : EReal) = ∑ d : Fin 64, er (x0 (ix2 k d)) * er (x1 (ix2 d j)) := by
  unfold out0_2
  rw [View.canon_unit_zero hz0]
  unfold k0_pay1
  refine (Ideal.matmul_constant_zero_apply dot_S16x64_S64x8192_S16x8192_1_0_0_1_n_n none _ _ (ix2 k j)).trans ?_
  rw [← Equiv.sum_comp (contrEquiv1 dot_S16x64_S64x8192_S16x8192_1_0_0_1_n_n 64 rfl rfl).symm]
  refine Finset.sum_congr rfl fun d _ => ?_
  have hk := contrEquiv1_symm_val dot_S16x64_S64x8192_S16x8192_1_0_0_1_n_n 64 rfl rfl d
  have el : dot_S16x64_S64x8192_S16x8192_1_0_0_1_n_n.lhsIdx (ix2 k j) ((contrEquiv1 dot_S16x64_S64x8192_S16x8192_1_0_0_1_n_n 64 rfl rfl).symm d) = (ix2 k d : S16x64.Idx) := funext fun a => Fin.ext (by
    match a with
    | ⟨0, _⟩ => exact lhs0_0 _ _
    | ⟨1, _⟩ => exact (lhs0_1 _ _).trans hk)
  have er' : dot_S16x64_S64x8192_S16x8192_1_0_0_1_n_n.rhsIdx (ix2 k j) ((contrEquiv1 dot_S16x64_S64x8192_S16x8192_1_0_0_1_n_n 64 rfl rfl).symm d) = (ix2 d j : S64x8192.Idx) := funext fun a => Fin.ext (by
    match a with
    | ⟨0, _⟩ => exact (rhs0_0 _ _).trans hk
    | ⟨1, _⟩ => exact rhs0_1 _ _)
  rw [el, er']
  have h0 : (shapeCast S16x64 (View.ld (Val := Elt Ideal) x0 rW0) shapeCasts_S16x64_S16x64 (ix2 k d) : EReal) = x0 (ix2 k d) :=
    (congrFun (shapeCast_self (View.ld (Val := Elt Ideal) x0 rW0) shapeCasts_S16x64_S16x64) (ix2 k d)).trans
      (congrFun (View.ld_unit_zero (Val := Elt Ideal) hz0 inb_S16x64_S16x64_0_0 x0) (ix2 k d))
  have h1 : (shapeCast S64x8192 (View.ld (Val := Elt Ideal) x1 rE0) shapeCasts_S64x8192_S64x8192 (ix2 d j) : EReal) = x1 (ix2 d j) :=
    (congrFun (shapeCast_self (View.ld (Val := Elt Ideal) x1 rE0) shapeCasts_S64x8192_S64x8192) (ix2 d j)).trans
      (congrFun (View.ld_unit_zero (Val := Elt Ideal) hz0 inb_S64x8192_S64x8192_0_0 x1) (ix2 d j))
  exact congrArg₂ (fun x y : EReal => x * y) h0 h1

/-! # From blocks to the array -/

/-- The printed index maps and the table window's cut, decided over the thirteen points: the weight window stays at
    block (0, 0); the table and result windows are at column block `t`; the table block's columns inside the table are
    all 8192 but for the last point's 1696. -/
theorem idx0_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_1.xsize (grid0.coords t) (0 : Fin 2) = 64
    ∧ win0_1.xsize (grid0.coords t) (1 : Fin 2) = min 8192 (100000 - 8192 * t.val) :=
  (by decide +kernel : ∀ t : Fin grid0.N, _)

/-- The weight block at an index is the weight array there. -/
theorem iblk0_0_at (c : Dev nD) (t : Fin cfg0.N) (k : Fin 16) (d : Fin 64) :
    (iblk0 (F := Ideal) V c 0 t (ix2 k d) : EReal) = V c main_v5 (ix2 k d) := by
  obtain ⟨e0, e1, -⟩ := idx0_facts t
  show V c main_v5 (((cfg0.win 0).blk t).view.emb (ix2 k d)) = V c main_v5 (ix2 k d)
  refine congrArg (V c main_v5) (funext fun a => Fin.ext ?_)
  match a with
  | ⟨0, _⟩ => show win0_0.index t (0 : Fin 2) * 16 + 1 * k.val = k.val; omega
  | ⟨1, _⟩ => show win0_0.index t (1 : Fin 2) * 64 + 1 * d.val = d.val; omega

/-- The table window's buffer as fetched, at a column inside the table, is the table there — whatever filled the
    buffer out past the table's end. -/
theorem tblk0_at (c : Dev nD) (t : Fin cfg0.N) (d' : S64x8192.Idx → Elt Ideal .f32) (d : Fin 64) (j : Fin 8192)
    (h : 8192 * t.val + j.val < 100000) :
    (tblk0 (F := Ideal) V c t d' (ix2 d j) : EReal) = V c main_v6 (ix2 d (⟨8192 * t.val + j.val, h⟩ : Fin 100000)) := by
  obtain ⟨-, -, e2, e3, -, -, e6, e7⟩ := idx0_facts t
  have hm : (cfg0.win 1).moved (cfg0.grid.coords t) (ix2 d j) = true :=
    ((cfg0.win 1).moved_iff _ _).mpr fun a => by
      match a with
      | ⟨0, _⟩ => show d.val < win0_1.xsize (grid0.coords t) (0 : Fin 2); rw [e6]; exact d.isLt
      | ⟨1, _⟩ => show j.val < win0_1.xsize (grid0.coords t) (1 : Fin 2); rw [e7]; omega
  unfold tblk0 Pipeline.Window.fill
  rw [dif_pos hm]
  show V c main_v6 (((cfg0.win 1).blk t).view.emb _) = V c main_v6 _
  refine congrArg (V c main_v6) (funext fun a => Fin.ext ?_)
  match a with
  | ⟨0, _⟩ => show win0_1.index t (0 : Fin 2) * 64 + 1 * d.val = d.val; omega
  | ⟨1, _⟩ => show win0_1.index t (1 : Fin 2) * 8192 + 1 * j.val = 8192 * t.val + j.val; omega

/-- What a point may write back, at a column inside the table: the projection there. -/
theorem leaves0_2_at (c : Dev nD) (t : Fin cfg0.N) (X : S16x8192.Idx → Elt Ideal .f32)
    (hX : (rdat0 (F := Ideal) (U := U) V O Rc c).Leaves 2 t X) (k : Fin 16) (j : Fin 8192) (h : 8192 * t.val + j.val < 100000) :
    (X (ix2 k j) : EReal) = ∑ d : Fin 64, er (V c main_v5 (ix2 k d)) * er (V c main_v6 (ix2 d (⟨8192 * t.val + j.val, h⟩ : Fin 100000))) := by
  obtain ⟨Y, -, hR⟩ := hX
  obtain ⟨d', rfl⟩ : R0_2 V c t Y X := hR
  refine (out0_2_at _ _ k j).trans ?_
  exact Finset.sum_congr rfl fun d _ => congrArg₂ (fun x y : EReal => x * y) (iblk0_0_at V c t k d) (tblk0_at V c t d' d j h)

/-- THE RESULT ARRAY after the run, on the columns inside the table: the projection of the table's column on the
    weight's row. Nothing is claimed of the columns past the table's end. -/
theorem v0 (c : Dev nD) (G : Buf (Elt Ideal) ((cfg0.win 2).arr.view.loc (c.tc : Thread nD τ)))
    (hG : (rdat0 (F := Ideal) (U := U) V O Rc c).ArrAt 2 cfg0.N G) (k : Fin 16) (v : Fin 106496) (hv : v.val < 100000) :
    (G (ix2 k v) : EReal) = ∑ d : Fin 64, er (V c main_v5 (ix2 k d)) * er (V c main_v6 (ix2 d (⟨v.val, hv⟩ : Fin 100000))) := by
  have hN : grid0.N = 13 := N_0
  let t : Fin cfg0.N := ⟨v.val / 8192, by show v.val / 8192 < grid0.N; omega⟩
  obtain ⟨-, -, -, -, e4, e5, -⟩ := idx0_facts t
  have ht : t.val = v.val / 8192 := rfl
  let y : ((cfg0.win 2).xblock (cfg0.grid.coords t)).Idx := (ix2 k (⟨v.val % 8192, Nat.mod_lt _ (by decide)⟩ : Fin 8192) : S16x8192.Idx)
  have e : ((cfg0.win 2).blk t).view.emb y = (ix2 k v : S16x106496.Idx) :=
    funext fun a => Fin.ext (by
      match a with
      | ⟨0, _⟩ => show win0_2.index t (0 : Fin 2) * 16 + 1 * k.val = k.val; omega
      | ⟨1, _⟩ => show win0_2.index t (1 : Fin 2) * 8192 + 1 * (v.val % 8192) = v.val; omega)
  have key := arrAt_forall_of_leaves (rdat0 (F := Ideal) (U := U) V O Rc c) 2
    (fun (i : S16x106496.Idx) (x : EReal) => ∀ (k : Fin 16) (v : Fin 106496) (hv : v.val < 100000), k.val = (i 0).val → v.val = (i 1).val →
      x = ∑ d : Fin 64, er (V c main_v5 (ix2 k d)) * er (V c main_v6 (ix2 d (⟨v.val, hv⟩ : Fin 100000))))
    (fun t _ X hX y k v hv hk hvv => by
      obtain ⟨-, -, -, -, e4, e5, -⟩ := idx0_facts t
      have h0 : ((((cfg0.win 2).blk t).view.emb y) 0).val = win0_2.index t (0 : Fin 2) * 16 + 1 * (y 0).val := rfl
      have h1 : ((((cfg0.win 2).blk t).view.emb y) 1).val = win0_2.index t (1 : Fin 2) * 8192 + 1 * (y 1).val := rfl
      have hy1 : (y 1).val < 8192 := (y 1).isLt
      have hx : (cfg0.win 2).xinj (cfg0.grid.coords t) y = (ix2 k (⟨(y 1).val, hy1⟩ : Fin 8192) : S16x8192.Idx) :=
        funext fun a => Fin.ext (by
          match a with
          | ⟨0, _⟩ => show (y 0).val = k.val; omega
          | ⟨1, _⟩ => rfl)
      have hlt : 8192 * t.val + (y 1).val < 100000 := by omega
      have hfin : (⟨8192 * t.val + (y 1).val, hlt⟩ : Fin 100000) = ⟨v.val, hv⟩ := Fin.ext (by show 8192 * t.val + (y 1).val = v.val; omega)
      show X ((cfg0.win 2).xinj (cfg0.grid.coords t) y) = _
      rw [hx, ← hfin]
      exact leaves0_2_at V O Rc c t X hX k ⟨(y 1).val, hy1⟩ hlt)
    cfg0.N G hG t (((cfg0.win 2).blk t).view.emb y) t.isLt (flush0_2 t) (View.emb_mem_set _ _)
  rw [e] at key
  exact key k v hv rfl rfl

end Cert.KernelIdeal.TcValue

end
-- ==== Proof.TcValue2.lean ====
import proofs.«204616_g36739150250405_cont_8to1_b_1211_24_alg».proof.Proof.TcRegion2
import proofs.«204616_g36739150250405_cont_8to1_b_1211_24_alg».proof.Proof.TcArrAt
import Idealize.ShloMosaic.Lib.Pipeline.Value
import Idealize.ShloMosaic.Lib.ValueIdx
import Idealize.ShloMosaic.PureOps.Ideal.Laws

set_option maxRecDepth 16384

noncomputable section

namespace Cert.KernelIdeal.TcValue

open Cert.KernelIdeal Cert.KernelIdeal.Gen Cert.KernelIdeal.TcReg
open Idealize.ShloMosaic Idealize.ShloMosaic.TcCoe Idealize.SL.Sem Idealize.ShloMosaic.ValueIdx
open Idealize.SL Idealize.SL.RA
open Idealize.ShloMosaic.Pipeline (Dat RDat)
open Idealize.ShloMosaic.SparseCore.Cfg (HIx)
open scoped BigOperators

variable {U : Type} [URA U]

variable (V : (c : Dev nD) → (b : Ref sig .tc) → Buf (Elt Ideal) ((c : Thread nD τ).loc b))
variable (O : CellTallies nD τ sig (HIx 1)) (Rc : Set (SemLoc sig × HIx 1))

/-! # The reduction's payload at an index -/

theorem hz2 : (![0, 0] : Fin 2 → Nat) = fun _ => 0 := funext fun a => by fin_cases a <;> rfl

/-- A [1,128,128] slab viewed [128,128] reads (0, a, b) at (a, b). -/
theorem drop_at (v : Vec Ideal S1x128x128 .f32) (a b : Fin 128) :
    shapeCast S128x128 v shapeCasts_S1x128x128_S128x128 (ix2 a b) = v (ix3 (0 : Fin 1) a b) :=
  shapeCast_apply v shapeCasts_S1x128x128_S128x128 (ix2 a b) (ix3 (0 : Fin 1) a b) (by
    rw [Shape.rowMajor_val_three, Shape.rowMajor_val_two]
    show ((0 * 128 + a.val) * 128 + b.val) = a.val * 128 + b.val
    omega)

/-- Slab `k` of the ten, loaded whole, reads (k, a, b) at (0, a, b). -/
theorem ld_slab (x0 : Vec Ideal S10x128x128 .f32) (k : Fin 10)
    (inb : ∀ a, (![k.val, 0, 0] : Fin 3 → Nat) a + S1x128x128.size a ≤ S10x128x128.size a) (a b : Fin 128) :
    View.ld (Val := Elt Ideal) x0 (Rect.unit (s := S10x128x128) ![k.val, 0, 0] S1x128x128.size inb) (ix3 (0 : Fin 1) a b) = x0 (ix3 k a b) := by
  show x0 _ = x0 _
  refine congrArg x0 (funext fun d => Fin.ext ?_)
  rw [show (Rect.unit (s := S10x128x128) ![k.val, 0, 0] S1x128x128.size inb).idx = (Rect.unit (s := S10x128x128) ![k.val, 0, 0] S1x128x128.size inb).emb from rfl, Rect.emb_apply]
  match d with
  | ⟨0, _⟩ => show k.val + 1 * 0 = k.val; omega
  | ⟨1, _⟩ => show 0 + 1 * a.val = a.val; omega
  | ⟨2, _⟩ => show 0 + 1 * b.val = b.val; omega

/-- Word `k` of the two in scalar memory, loaded as a one-word rectangle. -/
theorem ld_word (x2 : Vec Ideal S2 .f32) (k : Fin 2)
    (inb : ∀ a, (![k.val] : Fin 1 → Nat) a + S1.size a ≤ S2.size a) :
    View.ld (Val := Elt Ideal) x2 (Rect.unit (s := S2) ![k.val] S1.size inb) i1 = x2 (ix1 k) := by
  show x2 _ = x2 _
  refine congrArg x2 (funext fun d => Fin.ext ?_)
  rw [show (Rect.unit (s := S2) ![k.val] S1.size inb).idx = (Rect.unit (s := S2) ![k.val] S1.size inb).emb from rfl, Rect.emb_apply]
  match d with
  | ⟨0, _⟩ => show k.val + 1 * 0 = k.val; omega

set_option pp.maxSteps 20000 in
set_option pp.deepTerms false in
/-- What the body leaves in the result's buffer, at an index: side * w + b, the ten slabs added in order, the logistic. -/
theorem out2_3_at (x0 : Vec Ideal S10x128x128 .f32) (x1 : Vec Ideal S128x128 .f32) (x2 : Vec Ideal S2 .f32) (a b : Fin 128) :
    (out2_3 (F := Ideal) x0 x1 x2 (ix2 a b) : EReal) = Ideal.logistic ((x1 (ix2 a b) : EReal) * (x2 (ix1 (0 : Fin 2)) : EReal) + (x2 (ix1 (1 : Fin 2)) : EReal)
      + (x0 (ix3 (0 : Fin 10) a b) : EReal) + (x0 (ix3 (1 : Fin 10) a b) : EReal) + (x0 (ix3 (2 : Fin 10) a b) : EReal) + (x0 (ix3 (3 : Fin 10) a b) : EReal) + (x0 (ix3 (4 : Fin 10) a b) : EReal) + (x0 (ix3 (5 : Fin 10) a b) : EReal) + (x0 (ix3 (6 : Fin 10) a b) : EReal) + (x0 (ix3 (7 : Fin 10) a b) : EReal) + (x0 (ix3 (8 : Fin 10) a b) : EReal) + (x0 (ix3 (9 : Fin 10) a b) : EReal)) := by
  unfold out2_3
  rw [View.canon_unit_zero hz2]
  unfold k2_pay1 k2_pay2 k2_pay3
  dsimp only
  have hs : ∀ (k : Fin 10) (inb : ∀ a, (![k.val, 0, 0] : Fin 3 → Nat) a + S1x128x128.size a ≤ S10x128x128.size a),
      (shapeCast S128x128 (View.ld (Val := Elt Ideal) x0 (Rect.unit (s := S10x128x128) ![k.val, 0, 0] S1x128x128.size inb))
        shapeCasts_S1x128x128_S128x128 (ix2 a b) : EReal) = x0 (ix3 k a b) :=
    fun k inb => (drop_at _ a b).trans (ld_slab x0 k inb a b)
  have h1 : (shapeCast S128x128 (View.ld (Val := Elt Ideal) x1 rS2) shapeCasts_S128x128_S128x128 (ix2 a b) : EReal) = x1 (ix2 a b) :=
    (congrFun (shapeCast_self (View.ld (Val := Elt Ideal) x1 rS2) shapeCasts_S128x128_S128x128) (ix2 a b)).trans
      (congrFun (View.ld_unit_zero (Val := Elt Ideal) hz2 inb_S128x128_S128x128_0_0 x1) (ix2 a b))
  have hw0 : (View.ld (Val := Elt Ideal) x2 rB2_0 i1 : EReal) = x2 (ix1 (0 : Fin 2)) := ld_word x2 0 inb_S2_S1_0
  have hw1 : (View.ld (Val := Elt Ideal) x2 rB2_1 i1 : EReal) = x2 (ix1 (1 : Fin 2)) := ld_word x2 1 inb_S2_S1_1
  exact congrArg Ideal.logistic (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· * ·) h1 hw0) hw1) (hs (0 : Fin 10) inb_S10x128x128_S1x128x128_0_0_0)) (hs (1 : Fin 10) inb_S10x128x128_S1x128x128_1_0_0)) (hs (2 : Fin 10) inb_S10x128x128_S1x128x128_2_0_0)) (hs (3 : Fin 10) inb_S10x128x128_S1x128x128_3_0_0)) (hs (4 : Fin 10) inb_S10x128x128_S1x128x128_4_0_0)) (hs (5 : Fin 10) inb_S10x128x128_S1x128x128_5_0_0)) (hs (6 : Fin 10) inb_S10x128x128_S1x128x128_6_0_0)) (hs (7 : Fin 10) inb_S10x128x128_S1x128x128_7_0_0)) (hs (8 : Fin 10) inb_S10x128x128_S1x128x128_8_0_0)) (hs (9 : Fin 10) inb_S10x128x128_S1x128x128_9_0_0))

/-! # From the one block to the array -/

/-- The printed index maps of the reduction's windows at its one point: every block is its whole array. -/
theorem idx2_facts : ∀ t : Fin cfg2.N,
    win2_0.index t (0 : Fin 3) = 0 ∧ win2_0.index t (1 : Fin 3) = 0 ∧ win2_0.index t (2 : Fin 3) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0 :=
  (by decide +kernel : ∀ t : Fin grid2.N, _)

/-- The partial results' block at an index is the array there. -/
theorem iblk2_0_at (c : Dev nD) (t : Fin cfg2.N) (k : Fin 10) (a b : Fin 128) :
    (iblk2 (F := Ideal) V c 0 t (ix3 k a b) : EReal) = V c main_v12 (ix3 k a b) := by
  obtain ⟨e0, e1, e2, -⟩ := idx2_facts t
  show V c main_v12 (((cfg2.win 0).blk t).view.emb (ix3 k a b)) = V c main_v12 (ix3 k a b)
  refine congrArg (V c main_v12) (funext fun d => Fin.ext ?_)
  match d with
  | ⟨0, _⟩ => show win2_0.index t (0 : Fin 3) * 10 + 1 * k.val = k.val; omega
  | ⟨1, _⟩ => show win2_0.index t (1 : Fin 3) * 128 + 1 * a.val = a.val; omega
  | ⟨2, _⟩ => show win2_0.index t (2 : Fin 3) * 128 + 1 * b.val = b.val; omega

/-- The side flags' block at an index is the array there. -/
theorem iblk2_1_at (c : Dev nD) (t : Fin cfg2.N) (a b : Fin 128) :
    (iblk2 (F := Ideal) V c 1 t (ix2 a b) : EReal) = V c main_v13 (ix2 a b) := by
  obtain ⟨-, -, -, e0, e1, -⟩ := idx2_facts t
  show V c main_v13 (((cfg2.win 1).blk t).view.emb (ix2 a b)) = V c main_v13 (ix2 a b)
  refine congrArg (V c main_v13) (funext fun d => Fin.ext ?_)
  match d with
  | ⟨0, _⟩ => show win2_1.index t (0 : Fin 2) * 128 + 1 * a.val = a.val; omega
  | ⟨1, _⟩ => show win2_1.index t (1 : Fin 2) * 128 + 1 * b.val = b.val; omega

/-- The two words' block at an index is the array there. -/
theorem iblk2_2_at (c : Dev nD) (t : Fin cfg2.N) (k : Fin 2) :
    (iblk2 (F := Ideal) V c 2 t (ix1 k) : EReal) = V c main_v19 (ix1 k) := by
  obtain ⟨-, -, -, -, -, e0, -⟩ := idx2_facts t
  show V c main_v19 (((cfg2.win 2).blk t).view.emb (ix1 k)) = V c main_v19 (ix1 k)
  refine congrArg (V c main_v19) (funext fun d => Fin.ext ?_)
  match d with
  | ⟨0, _⟩ => show win2_2.index t (0 : Fin 1) * 2 + 1 * k.val = k.val; omega

/-- The reduction's result at (a, b): side * w + b, the ten partial results added in order, the logistic. -/
def red2 (c : Dev nD) (a b : Fin 128) : EReal :=
  Ideal.logistic (er (V c main_v13 (ix2 a b)) * er (V c main_v19 (ix1 (0 : Fin 2))) + er (V c main_v19 (ix1 (1 : Fin 2)))
    + er (V c main_v12 (ix3 (0 : Fin 10) a b)) + er (V c main_v12 (ix3 (1 : Fin 10) a b)) + er (V c main_v12 (ix3 (2 : Fin 10) a b)) + er (V c main_v12 (ix3 (3 : Fin 10) a b)) + er (V c main_v12 (ix3 (4 : Fin 10) a b)) + er (V c main_v12 (ix3 (5 : Fin 10) a b)) + er (V c main_v12 (ix3 (6 : Fin 10) a b)) + er (V c main_v12 (ix3 (7 : Fin 10) a b)) + er (V c main_v12 (ix3 (8 : Fin 10) a b)) + er (V c main_v12 (ix3 (9 : Fin 10) a b)))

/-- What the one point writes back, element by element, is the reduction's result. -/
theorem flushed2_3_at (c : Dev nD) (t : Fin cfg2.N) (y : ((cfg2.win 3).xblock (cfg2.grid.coords t)).Idx) (a b : Fin 128)
    (ha : a.val = (y 0).val) (hb : b.val = (y 1).val) :
    ((dat2 (F := Ideal) (U := U) V O Rc c).flushed 3 t y : EReal) = red2 V c a b := by
  have hx : (cfg2.win 3).xinj (cfg2.grid.coords t) y = (ix2 a b : S128x128.Idx) :=
    funext fun d => Fin.ext (by
      match d with
      | ⟨0, _⟩ => exact ha.symm
      | ⟨1, _⟩ => exact hb.symm)
  show (dat2 (F := Ideal) (U := U) V O Rc c).after 3 t ((cfg2.win 3).xinj (cfg2.grid.coords t) y) = _
  rw [after2_3, hx]
  refine (out2_3_at _ _ _ a b).trans ?_
  exact congrArg Ideal.logistic (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x * y) (iblk2_1_at V c t a b) (iblk2_2_at V c t (0 : Fin 2))) (iblk2_2_at V c t (1 : Fin 2))) (iblk2_0_at V c t (0 : Fin 10) a b)) (iblk2_0_at V c t (1 : Fin 10) a b)) (iblk2_0_at V c t (2 : Fin 10) a b)) (iblk2_0_at V c t (3 : Fin 10) a b)) (iblk2_0_at V c t (4 : Fin 10) a b)) (iblk2_0_at V c t (5 : Fin 10) a b)) (iblk2_0_at V c t (6 : Fin 10) a b)) (iblk2_0_at V c t (7 : Fin 10) a b)) (iblk2_0_at V c t (8 : Fin 10) a b)) (iblk2_0_at V c t (9 : Fin 10) a b))

/-- THE RESULT ARRAY after the run, at an index: the reduction's result there. -/
theorem v2 (c : Dev nD) (a b : Fin 128) :
    ((dat2 (F := Ideal) (U := U) V O Rc c).arrAt 3 cfg2.N (ix2 a b) : EReal) = red2 V c a b := by
  have e : ((cfg2.win 3).blk t2_0).view.emb (ix2 a b) = (ix2 a b : S128x128.Idx) := by
    obtain ⟨-, -, -, -, -, -, e0, e1⟩ := idx2_facts t2_0
    exact funext fun d => Fin.ext (by
      match d with
      | ⟨0, _⟩ => show win2_3.index t2_0 (0 : Fin 2) * 128 + 1 * a.val = a.val; omega
      | ⟨1, _⟩ => show win2_3.index t2_0 (1 : Fin 2) * 128 + 1 * b.val = b.val; omega)
  have key := (dat2 (F := Ideal) (U := U) V O Rc c).arrAt_forall_of_flushed 3
    (fun (i : S128x128.Idx) (x : EReal) => ∀ a b : Fin 128, a.val = (i 0).val → b.val = (i 1).val → x = red2 V c a b)
    (fun t _ y a' b' ha hb => by
      obtain ⟨-, -, -, -, -, -, e0, e1⟩ := idx2_facts t
      have h0 : ((((cfg2.win 3).blk t).view.emb y) 0).val = win2_3.index t (0 : Fin 2) * 128 + 1 * (y 0).val := rfl
      have h1 : ((((cfg2.win 3).blk t).view.emb y) 1).val = win2_3.index t (1 : Fin 2) * 128 + 1 * (y 1).val := rfl
      exact flushed2_3_at V O Rc c t y a' b' (by omega) (by omega))
    cfg2.N t2_0 (((cfg2.win 3).blk t2_0).view.emb (ix2 a b)) t2_0.isLt (flush2_3 t2_0) (View.emb_mem_set _ _)
  rw [e] at key
  exact key a b rfl rfl

end Cert.KernelIdeal.TcValue

end
-- ==== Proof.TcValue.lean ====
import proofs.«204616_g36739150250405_cont_8to1_b_1211_24_alg».proof.Proof.TcValue0
import proofs.«204616_g36739150250405_cont_8to1_b_1211_24_alg».proof.Proof.TcValue2
-- ==== Proof.Spec.lean ====
/-
  The function both programs compute, stated once over literal shapes and importing no program.

  Inputs: two index arrays `blue`, `red` of shape [16384, 5] (32-bit words naming rows of the table), a
  column `side` [16384], an embedding table `emb` [100000, 64], a weight column `W` [641, 1] and a bias [1].
  For sample `n` the ten words `idxAt blue red n s` (s = 0..4 from `blue`, s = 5..9 from `red`) each select a
  row of `emb`; slot `s` contributes the inner product of that row with rows 64·s .. 64·s+63 of `W`
  (`proj`); the side flag contributes `side n · W[640]`; the bias is added, and the result is passed
  through the logistic function 1 / (1 + e^(-x)) on the extended reals.
-/
import Idealize.ShloMosaic.PureOps.Ideal
import Idealize.ShloMosaic.Lib.ValueIdx

noncomputable section

open scoped BigOperators

namespace Cert.Spec

open Idealize.ShloMosaic Idealize.ShloMosaic.ValueIdx

/-- The table row a 32-bit index word names: its value as a natural number, reduced below the table's
    100000 rows (for a word in range, the word itself). -/
def row (w : BitVec 32) : Fin 100000 := ⟨w.toNat % 100000, Nat.mod_lt _ (by decide)⟩

/-- The index word of slot `s` of sample `n`: slots 0..4 are `blue`'s five columns, slots 5..9 `red`'s. -/
def idxAt (blue red : IVec ⟨2, ![16384, 5]⟩ 32) (n : Fin 16384) (s : Fin 10) : BitVec 32 :=
  if h : s.val < 5 then blue (ix2 n (⟨s.val, h⟩ : Fin 5))
  else red (ix2 n (⟨s.val - 5, by omega⟩ : Fin 5))

/-- Slot `s`'s contribution when it selects table row `v`: the inner product of `emb`'s row `v` with the
    64 weights `W[64·s .. 64·s + 63]`. -/
def proj (W : FVec Ideal ⟨2, ![641, 1]⟩ .f32) (emb : FVec Ideal ⟨2, ![100000, 64]⟩ .f32) (s : Fin 10)
    (v : Fin 100000) : EReal :=
  ∑ d : Fin 64, W (ix2 (⟨64 * s.val + d.val, by omega⟩ : Fin 641) (0 : Fin 1)) * emb (ix2 v d)

/-- The pre-activation of sample `n`: side flag times the last weight, plus the bias, plus the ten
    slots' contributions, as one left-nested sum in this order. -/
def pre (blue red : IVec ⟨2, ![16384, 5]⟩ 32) (side : FVec Ideal ⟨1, ![16384]⟩ .f32)
    (emb : FVec Ideal ⟨2, ![100000, 64]⟩ .f32) (W : FVec Ideal ⟨2, ![641, 1]⟩ .f32)
    (bias : FVec Ideal ⟨1, ![1]⟩ .f32) (n : Fin 16384) : EReal :=
  side (ix1 n) * W (ix2 (⟨640, by decide⟩ : Fin 641) (0 : Fin 1)) + bias (ix1 (0 : Fin 1))
    + proj W emb 0 (row (idxAt blue red n 0)) + proj W emb 1 (row (idxAt blue red n 1)) + proj W emb 2 (row (idxAt blue red n 2)) + proj W emb 3 (row (idxAt blue red n 3)) + proj W emb 4 (row (idxAt blue red n 4))
    + proj W emb 5 (row (idxAt blue red n 5)) + proj W emb 6 (row (idxAt blue red n 6)) + proj W emb 7 (row (idxAt blue red n 7)) + proj W emb 8 (row (idxAt blue red n 8)) + proj W emb 9 (row (idxAt blue red n 9))

/-- The result array [16384, 1]: the logistic function of each sample's pre-activation. -/
def G (blue red : IVec ⟨2, ![16384, 5]⟩ 32) (side : FVec Ideal ⟨1, ![16384]⟩ .f32)
    (emb : FVec Ideal ⟨2, ![100000, 64]⟩ .f32) (W : FVec Ideal ⟨2, ![641, 1]⟩ .f32)
    (bias : FVec Ideal ⟨1, ![1]⟩ .f32) : FVec Ideal ⟨2, ![16384, 1]⟩ .f32 :=
  fun i => Ideal.logistic (pre blue red side emb W bias (i 0))

end Cert.Spec

end
-- ==== Proof.KValue.lean ====
/-
  The kernel's value, as pure mathematics over the TensorCore's buffer contents at @main's boundaries.

  No stretch of host operations and no call writes an argument array, so each argument is read back as launched.
  The first stretch pads the first 640 weights to sixteen rows of 64 (row k < 10 holds weights 64·k .. 64·k + 63) and
  transposes the table; the first region leaves, at row k and a column v inside the table, the inner product of weight
  row k with table row v; the second stretch lays the ten index words of sample n = 8192·h + i at (s, h, i); the
  SparseCore call copies, to (s, h, i), the projected table's row s at the column that index word names; the third
  stretch views the result as ten planes [128, 128], the side flags as one, and sets the last weight and the bias
  beside them; the second region adds, at (a, b), side·w + bias and the ten planes in order and applies the logistic
  function; the last operation lays the [128, 128] result out as [16384, 1]. For n = 128·a + b this is the
  specification's pre-activation of sample n, term by term in the same order.
-/
import proofs.«204616_g36739150250405_cont_8to1_b_1211_24_alg».proof.Proof.KValueG
import proofs.«204616_g36739150250405_cont_8to1_b_1211_24_alg».proof.Proof.TcValue
import proofs.«204616_g36739150250405_cont_8to1_b_1211_24_alg».proof.Proof.Spec
import Idealize.ShloMosaic.Lib.Pipeline.Value
import Idealize.ShloMosaic.Lib.IdealHost

noncomputable section

namespace Cert.KernelIdeal.KS

open Cert.KernelIdeal Cert.KernelIdeal.Gen Cert.KernelIdeal.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Idealize.ShloMosaic.TcCoe
open Idealize.ShloMosaic.ValueIdx
open Cert.KernelIdeal.TcReg
open Cert.Proof.ScTile (ptLoc itLoc outLoc gat)
open scoped BigOperators

/-! ## A scatter of whole rows at a literal start, read at an index -/

section Scatter

/-- A fold whose steps either set the value at `i` to `v` (a hit) or leave it (a miss) ends at `v` there, when
    some step is a hit or the start already holds `v`. -/
theorem foldl_point {ι κ α : Type} (step : (κ → α) → ι → (κ → α)) (i : κ) (v : α) (hit : ι → Prop)
    (h_hit : ∀ r n, hit n → step r n i = v) (h_miss : ∀ r n, ¬ hit n → step r n i = r i) :
    ∀ (L : List ι) (x : κ → α), ((∃ n ∈ L, hit n) ∨ x i = v) → L.foldl step x i = v
  | [], x, h => by
    rcases h with ⟨n, hn, -⟩ | h
    · exact absurd hn List.not_mem_nil
    · exact h
  | a :: L, x, h => by
    rw [List.foldl_cons]
    by_cases ha : hit a
    · exact foldl_point step i v hit h_hit h_miss L _ (Or.inr (h_hit x a ha))
    · refine foldl_point step i v hit h_hit h_miss L _ ?_
      rcases h with ⟨n, hn, hh⟩ | h
      · rcases List.mem_cons.mp hn with rfl | hn'
        · exact absurd hh ha
        · exact Or.inl ⟨n, hn', hh⟩
      · exact Or.inr ((h_miss x a ha).trans h)

/-- With the one start index zero, update element (k, dd) of the ten rows lands at element (k, dd) of the sixteen. -/
theorem resultIdx_rows (idx : IVec S1 32) (hidx : idx (ix1 (0 : Fin 1)) = 0#32) (k : Fin 10) (dd : Fin 64) :
    scatter_S16x64_S1_S10x64_01_n_0_0.resultIdx? (ix2 k dd) idx
      = some (ix2 (⟨k.val, Nat.lt_of_lt_of_le k.isLt (by decide)⟩ : Fin 16) dd) := by
  have hs0 : scatter_S16x64_S1_S10x64_01_n_0_0.start (ix2 k dd) idx 0 = 0 := by
    unfold ScatterDims.start
    rw [dif_pos (show (0 : Fin 2) ∈ scatter_S16x64_S1_S10x64_01_n_0_0.scatterDimsToOperandDims from List.mem_singleton.mpr rfl)]
    have hsi : scatter_S16x64_S1_S10x64_01_n_0_0.siIdx (ix2 k dd) ⟨List.idxOf (0 : Fin 2) scatter_S16x64_S1_S10x64_01_n_0_0.scatterDimsToOperandDims,
        List.idxOf_lt_length_iff.2 (List.mem_singleton.mpr rfl)⟩ = ix1 (0 : Fin 1) := by
      funext b; refine Fin.ext ?_
      match b with
      | ⟨0, _⟩ => rfl
    rw [hsi, hidx]
    decide
  have hs1 : scatter_S16x64_S1_S10x64_01_n_0_0.start (ix2 k dd) idx 1 = 0 := by
    unfold ScatterDims.start
    rw [dif_neg (show (1 : Fin 2) ∉ scatter_S16x64_S1_S10x64_01_n_0_0.scatterDimsToOperandDims from by decide)]
  have hw0 : scatter_S16x64_S1_S10x64_01_n_0_0.window (ix2 k dd) 0 = k.val := by
    unfold ScatterDims.window
    rw [dif_pos (show (0 : Fin 2) ∈ scatter_S16x64_S1_S10x64_01_n_0_0.sKept from by decide)]
    rfl
  have hw1 : scatter_S16x64_S1_S10x64_01_n_0_0.window (ix2 k dd) 1 = dd.val := by
    unfold ScatterDims.window
    rw [dif_pos (show (1 : Fin 2) ∈ scatter_S16x64_S1_S10x64_01_n_0_0.sKept from by decide)]
    rfl
  have hk := k.isLt
  have hd := dd.isLt
  have hall : ∀ a : Fin S16x64.rank, 0 ≤ scatter_S16x64_S1_S10x64_01_n_0_0.start (ix2 k dd) idx a + scatter_S16x64_S1_S10x64_01_n_0_0.window (ix2 k dd) a
      ∧ scatter_S16x64_S1_S10x64_01_n_0_0.start (ix2 k dd) idx a + scatter_S16x64_S1_S10x64_01_n_0_0.window (ix2 k dd) a < S16x64.size a := by
    intro a
    match a with
    | ⟨0, _⟩ =>
      show 0 ≤ scatter_S16x64_S1_S10x64_01_n_0_0.start (ix2 k dd) idx 0 + scatter_S16x64_S1_S10x64_01_n_0_0.window (ix2 k dd) 0
        ∧ scatter_S16x64_S1_S10x64_01_n_0_0.start (ix2 k dd) idx 0 + scatter_S16x64_S1_S10x64_01_n_0_0.window (ix2 k dd) 0 < (16 : Nat)
      rw [hs0, hw0]; omega
    | ⟨1, _⟩ =>
      show 0 ≤ scatter_S16x64_S1_S10x64_01_n_0_0.start (ix2 k dd) idx 1 + scatter_S16x64_S1_S10x64_01_n_0_0.window (ix2 k dd) 1
        ∧ scatter_S16x64_S1_S10x64_01_n_0_0.start (ix2 k dd) idx 1 + scatter_S16x64_S1_S10x64_01_n_0_0.window (ix2 k dd) 1 < (64 : Nat)
      rw [hs1, hw1]; omega
  unfold ScatterDims.resultIdx?
  rw [dif_pos hall]
  refine congrArg some (funext fun a => Fin.ext ?_)
  match a with
  | ⟨0, _⟩ =>
    show (scatter_S16x64_S1_S10x64_01_n_0_0.start (ix2 k dd) idx 0 + scatter_S16x64_S1_S10x64_01_n_0_0.window (ix2 k dd) 0).toNat = k.val
    rw [hs0, hw0]; omega
  | ⟨1, _⟩ =>
    show (scatter_S16x64_S1_S10x64_01_n_0_0.start (ix2 k dd) idx 1 + scatter_S16x64_S1_S10x64_01_n_0_0.window (ix2 k dd) 1).toNat = dd.val
    rw [hs1, hw1]; omega

/-- The scatter that writes the ten rows over the first ten of sixteen, read at (k, dd), k < 10: the update's
    element there. -/
theorem scatter_rows {α : Type} (x : S16x64.Idx → α) (idx : IVec S1 32) (hidx : idx (ix1 (0 : Fin 1)) = 0#32)
    (upd : S10x64.Idx → α) (k : Fin 10) (dd : Fin 64) :
    Host.scatter scatter_S16x64_S1_S10x64_01_n_0_0 (fun _ b => b) x idx upd (ix2 (⟨k.val, Nat.lt_of_lt_of_le k.isLt (by decide)⟩ : Fin 16) dd)
      = upd (ix2 k dd) := by
  unfold Host.scatter
  refine foldl_point _ _ _ (fun n => S10x64.rowMajor.symm n = ix2 k dd) ?_ ?_ _ _
    (Or.inl ⟨S10x64.rowMajor (ix2 k dd), List.mem_finRange _, Equiv.symm_apply_apply _ _⟩)
  · intro r n hn
    dsimp only
    rw [hn, resultIdx_rows idx hidx k dd]
    dsimp only
    rw [if_pos rfl]
  · intro r n hn
    dsimp only
    generalize S10x64.rowMajor.symm n = j at hn ⊢
    obtain ⟨k', dd', rfl⟩ : ∃ (k' : Fin 10) (dd' : Fin 64), j = ix2 k' dd' := ⟨j 0, j 1, eq_ix2 j⟩
    rw [resultIdx_rows idx hidx k' dd']
    dsimp only
    rw [if_neg]
    intro e
    refine hn ?_
    have e0 := Fin.val_eq_of_eq (congrFun e 0)
    have e0' : k.val = k'.val := e0
    have e1 := congrFun e 1
    have e1' : dd = dd' := e1
    rw [e1', show k' = k from Fin.ext e0'.symm]

end Scatter

/-! ## The host stretches read at an index -/

section Reads
variable {F : FTy → Type} [FloatOps F]
variable (m : (ℓ : Loc nD τ sig) → Buf (Elt F) ℓ) (d : Dev nD)
variable (G : Buf (Elt F) ((d : Thread nD τ).loc main_v7))
variable (PT : Buf (Elt F) (ptLoc d)) (f : Buf (Elt F) (outLoc d))

/-- A reshape between two one-element shapes reads the one element. -/
theorem shapeCast_one {s t : Shape} {α : Type} (hs : s.numel = 1) (ht : t.numel = 1) (x : s.Idx → α)
    (h : s.ShapeCasts t) (j : t.Idx) (k : s.Idx) : shapeCast t x h j = x k :=
  shapeCast_apply x h j k (by have a := (s.rowMajor k).isLt; have b := (t.rowMajor j).isLt; omega)

/-- Position (s, h, i) of a [10, 2, 8192] array is position (s, a, b) of a [10, 128, 128] one when 8192·h + i = 128·a + b. -/
theorem plane_arith (s h i a b : Nat) (hn : h * 8192 + i = a * 128 + b) :
    (s * 2 + h) * 8192 + i = (s * 128 + a) * 128 + b := by
  have e1 : (s * 2 + h) * 8192 + i = s * 16384 + (h * 8192 + i) := by ring
  have e2 : (s * 128 + a) * 128 + b = s * 16384 + (a * 128 + b) := by ring
  rw [e1, e2, hn]

/-- The transposed table at (dd, v) is the table at (v, dd). -/
theorem W1_v6_at (dd : Fin 64) (v : Fin 100000) :
    (W1 m d (Proc.devRef .tc main_v6) : FVec F S64x100000 .f32) (ix2 dd v)
      = ((m ((d : Thread nD τ).loc main_arg3)) : FVec F S100000x64 .f32) (ix2 v dd) := by
  have e : (W1 m d (Proc.devRef .tc main_v6) : FVec F S64x100000 .f32)
      = transpose S64x100000 [1, 0] (m ((d : Thread nD τ).loc main_arg3)) transposes_S100000x64_S64x100000_1_0 := by
    show StableHlo.after ops0 (W0 m d) (Proc.devRef .tc main_v6) = _
    simp only [ops0]
    after_results
    try rfl
  rw [e]
  exact transpose_apply _ _ _ _ (ix2 v dd) (fun b => match b with | ⟨0, _⟩ => rfl | ⟨1, _⟩ => rfl)

/-- Row k < 10 of the padded weight rows holds the weights 64·k .. 64·k + 63. -/
theorem W1_v5_at (k : Fin 10) (dd : Fin 64) (hk16 : k.val < 16) (hc : 64 * k.val + dd.val < 641) :
    (W1 m d (Proc.devRef .tc main_v5) : FVec F S16x64 .f32) (ix2 (⟨k.val, hk16⟩ : Fin 16) dd)
      = ((m ((d : Thread nD τ).loc main_arg4)) : FVec F S641x1 .f32) (ix2 (⟨64 * k.val + dd.val, hc⟩ : Fin 641) (0 : Fin 1)) := by
  have e : (W1 m d (Proc.devRef .tc main_v5) : FVec F S16x64 .f32)
      = Host.scatter scatter_S16x64_S1_S10x64_01_n_0_0 (fun _ b => b)
          (broadcastInDim S16x64 ![] bcast_S_S16x64 (constant S_ .f32 0x00000000#32))
          (broadcastInDim S1 ![] bcast_S_S1 (constantI S_ 32 0#32))
          (shapeCast S10x64 (shapeCast S640 (extractStridedSlice S640x1 ![0, 0] (m ((d : Thread nD τ).loc main_arg4)) slices_S641x1_S640x1_0_0)
            shapeCasts_S640x1_S640) shapeCasts_S640_S10x64) := by
    show StableHlo.after ops0 (W0 m d) (Proc.devRef .tc main_v5) = _
    simp only [ops0]
    after_results
    try rfl
  have hkk := k.isLt
  have hdd := dd.isLt
  rw [e]
  refine (scatter_rows _ _ rfl _ k dd).trans ?_
  refine (shapeCast_apply _ _ (ix2 k dd) (ix1 (⟨64 * k.val + dd.val, by omega⟩ : Fin 640)) (by
    rw [Shape.rowMajor_val_one, Shape.rowMajor_val_two]
    show 64 * k.val + dd.val = k.val * 64 + dd.val
    omega)).trans ?_
  refine (shapeCast_apply _ _ (ix1 (⟨64 * k.val + dd.val, by omega⟩ : Fin 640))
    (ix2 (⟨64 * k.val + dd.val, by omega⟩ : Fin 640) (0 : Fin 1)) (by
    rw [Shape.rowMajor_val_two, Shape.rowMajor_val_one]
    show (64 * k.val + dd.val) * 1 + 0 = 64 * k.val + dd.val
    omega)).trans ?_
  exact extractStridedSlice_apply _ _ _ _ (ix2 (⟨64 * k.val + dd.val, hc⟩ : Fin 641) (0 : Fin 1))
    (fun a => match a with
      | ⟨0, _⟩ => by show 64 * k.val + dd.val = 0 + (64 * k.val + dd.val); omega
      | ⟨1, _⟩ => rfl)

/-- The index array the SparseCore call reads, at (s, h, i): slot s of sample n = 8192·h + i. -/
theorem ITm_at (s : Fin 10) (h : Fin 2) (i : Fin 8192) (n : Fin 16384) (hn : n.val = h.val * 8192 + i.val) :
    (ITm m d : IVec S10x2x8192 32) (ix3 s h i) = Cert.Spec.idxAt (m ((d : Thread nD τ).loc main_arg0)) (m ((d : Thread nD τ).loc main_arg1)) n s := by
  have hs := s.isLt
  unfold ITm
  refine (congrFun (ops1_r10 (W1 m d)) (ix3 s h i)).trans ?_
  refine (shapeCast_apply _ _ (ix3 s h i) (ix2 s n) (by
    rw [Shape.rowMajor_val_two, Shape.rowMajor_val_three]
    show s.val * 16384 + n.val = (s.val * 2 + h.val) * 8192 + i.val
    rw [hn]; ring)).trans ?_
  refine (transpose_apply _ _ _ (ix2 s n) (ix2 n s) (fun b => match b with | ⟨0, _⟩ => rfl | ⟨1, _⟩ => rfl)).trans ?_
  unfold Cert.Spec.idxAt
  by_cases h5 : s.val < 5
  · rw [dif_pos h5]
    refine Eq.trans (concatenate_apply_piece (t := S16384x10) (1 : Fin 2) _ _ (ix2 n s) 0 (by show 0 < 2; decide)
      S16384x5 _ rfl rfl 0 rfl (ix2 n (⟨s.val, h5⟩ : Fin 5))
      (fun b hb => match b, hb with
        | ⟨0, _⟩, _ => rfl
        | ⟨1, _⟩, hb => absurd rfl hb)
      (by show 0 + s.val = s.val; omega)) ?_
    exact congrFun (W1_arg0 m d) _
  · rw [dif_neg h5]
    refine Eq.trans (concatenate_apply_piece (t := S16384x10) (1 : Fin 2) _ _ (ix2 n s) 1 (by show 1 < 2; decide)
      S16384x5 _ rfl rfl 5 rfl (ix2 n (⟨s.val - 5, by omega⟩ : Fin 5))
      (fun b hb => match b, hb with
        | ⟨0, _⟩, _ => rfl
        | ⟨1, _⟩, hb => absurd rfl hb)
      (by show 5 + (s.val - 5) = s.val; omega)) ?_
    exact congrFun (W1_arg1 m d) _

/-- The gathered planes as the second region reads them: plane s at (a, b) is the call's result at (s, h, i),
    8192·h + i = 128·a + b. -/
theorem W5_v12_at (s : Fin 10) (a b : Fin 128) (h : Fin 2) (i : Fin 8192) (hn : h.val * 8192 + i.val = a.val * 128 + b.val) :
    (W5 m d G PT f (Proc.devRef .tc main_v12) : FVec F S10x128x128 .f32) (ix3 s a b)
      = (f : FVec F S10x2x8192 .f32) (ix3 s h i) := by
  have e : (W5 m d G PT f (Proc.devRef .tc main_v12) : FVec F S10x128x128 .f32)
      = shapeCast S10x128x128 (W4 m d G PT f (Proc.devRef .tc main_v11)) shapeCasts_S10x2x8192_S10x128x128 := by
    unfold W5
    simp only [ops2]
    after_results
    try rfl
  have e11 : W4 m d G PT f (Proc.devRef .tc main_v11) = f := by
    unfold W4
    exact Function.update_self _ _ _
  rw [e, e11]
  exact shapeCast_apply _ _ (ix3 s a b) (ix3 s h i) (by
    rw [Shape.rowMajor_val_three, Shape.rowMajor_val_three]
    show (s.val * 2 + h.val) * 8192 + i.val = (s.val * 128 + a.val) * 128 + b.val
    exact plane_arith s.val h.val i.val a.val b.val hn)

/-- The side flags as the second region reads them. -/
theorem W5_v13_at (a b : Fin 128) (n : Fin 16384) (hn : n.val = a.val * 128 + b.val) :
    (W5 m d G PT f (Proc.devRef .tc main_v13) : FVec F S128x128 .f32) (ix2 a b)
      = ((m ((d : Thread nD τ).loc main_arg2)) : FVec F S16384 .f32) (ix1 n) := by
  have e : (W5 m d G PT f (Proc.devRef .tc main_v13) : FVec F S128x128 .f32)
      = shapeCast S128x128 (W4 m d G PT f (Proc.devRef .tc main_arg2)) shapeCasts_S16384_S128x128 := by
    unfold W5
    simp only [ops2]
    after_results
    try rfl
  rw [e, W4_arg2]
  exact shapeCast_apply _ _ (ix2 a b) (ix1 n) (by
    rw [Shape.rowMajor_val_one, Shape.rowMajor_val_two]
    show n.val = a.val * 128 + b.val
    omega)

/-- The two words the second region reads: the last weight and the bias. -/
theorem W5_v19_eq :
    (W5 m d G PT f (Proc.devRef .tc main_v19) : FVec F S2 .f32)
      = concatenate S2 0
          [⟨S1, broadcastInDim S1 ![] bcast_S_S1 (shapeCast S_ (extractStridedSlice S1x1 ![640, 0]
              (W4 m d G PT f (Proc.devRef .tc main_arg4)) slices_S641x1_S1x1_640_0) shapeCasts_S1x1_S_)⟩,
           ⟨S1, broadcastInDim S1 ![] bcast_S_S1 (shapeCast S_ (W4 m d G PT f (Proc.devRef .tc main_arg5)) shapeCasts_S1_S_)⟩]
          concatenates_S1_S1_S2_d0 := by
  unfold W5
  simp only [ops2]
  after_results
  try rfl

theorem W5_v19_0 :
    (W5 m d G PT f (Proc.devRef .tc main_v19) : FVec F S2 .f32) (ix1 (0 : Fin 2))
      = ((m ((d : Thread nD τ).loc main_arg4)) : FVec F S641x1 .f32) (ix2 (⟨640, by decide⟩ : Fin 641) (0 : Fin 1)) := by
  rw [W5_v19_eq, W4_arg4]
  refine Eq.trans (concatenate_apply_piece (t := S2) (0 : Fin 1) _ _ (ix1 (0 : Fin 2)) 0 (by show 0 < 2; decide)
    S1 _ rfl rfl 0 rfl (ix1 (0 : Fin 1)) (fun b hb => absurd (Subsingleton.elim _ _) hb) (by rfl)) ?_
  refine (broadcastInDim_scalar_apply _ _ _).trans ?_
  refine (shapeCast_one (by decide) (by decide) _ _ ix0 (ix2 (0 : Fin 1) (0 : Fin 1))).trans ?_
  exact extractStridedSlice_apply _ _ _ _ (ix2 (⟨640, by decide⟩ : Fin 641) (0 : Fin 1))
    (fun a => match a with | ⟨0, _⟩ => rfl | ⟨1, _⟩ => rfl)

theorem W5_v19_1 :
    (W5 m d G PT f (Proc.devRef .tc main_v19) : FVec F S2 .f32) (ix1 (1 : Fin 2))
      = ((m ((d : Thread nD τ).loc main_arg5)) : FVec F S1 .f32) (ix1 (0 : Fin 1)) := by
  rw [W5_v19_eq, W4_arg5]
  refine Eq.trans (concatenate_apply_piece (t := S2) (0 : Fin 1) _ _ (ix1 (1 : Fin 2)) 1 (by show 1 < 2; decide)
    S1 _ rfl rfl 1 rfl (ix1 (0 : Fin 1)) (fun b hb => absurd (Subsingleton.elim _ _) hb) (by rfl)) ?_
  refine (broadcastInDim_scalar_apply _ _ _).trans ?_
  exact shapeCast_one (by decide) (by decide) _ _ ix0 (ix1 (0 : Fin 1))

/-- The result as @main returns it: the second region's array, row-major. -/
theorem W7_v21_at [∀ e, Nonempty (Elt F e)] (n : Fin 16384) (q : Fin 1) (a b : Fin 128) (hn : n.val = a.val * 128 + b.val) :
    (W7 m d G PT f (Proc.devRef .tc main_v21) : FVec F S16384x1 .f32) (ix2 n q)
      = (dat2 (F := F) (U := UU) (VW fun _ => W5 m d G PT f) (Oc (F := F) d 1) (Rc (F := F) d 1) d).arrAt 3 cfg2.N (ix2 a b) := by
  have e : (W7 m d G PT f (Proc.devRef .tc main_v21) : FVec F S16384x1 .f32)
      = shapeCast S16384x1 (W6v m d G PT f (Proc.devRef .tc main_v20)) shapeCasts_S128x128_S16384x1 := by
    unfold W7
    simp only [ops3]
    after_results
    try rfl
  have e20 : W6v m d G PT f (Proc.devRef .tc main_v20)
      = (dat2 (F := F) (U := UU) (VW fun _ => W5 m d G PT f) (Oc (F := F) d 1) (Rc (F := F) d 1) d).arrAt 3 cfg2.N := by
    unfold W6v W6
    exact Function.update_self _ _ _
  have hq : q.val = 0 := by have := q.isLt; omega
  rw [e, e20]
  exact shapeCast_apply _ _ (ix2 n q) (ix2 a b) (by
    rw [Shape.rowMajor_val_two, Shape.rowMajor_val_two]
    show a.val * 128 + b.val = n.val * 1 + q.val
    omega)

end Reads

/-! ## The value -/

section IdealValue
open Cert.KernelIdeal.TcValue (er red2)
variable (m : (ℓ : Loc nD τ sig) → Buf (Elt Ideal) ℓ) (d : Dev nD)
variable (G : Buf (Elt Ideal) ((d : Thread nD τ).loc main_v7))
variable (PT : Buf (Elt Ideal) (ptLoc d)) (f : Buf (Elt Ideal) (outLoc d))

/-- What the SparseCore call needs of the projected table: on the columns inside the embedding table, row k at
    column v is the inner product of the padded weight row k with the table's row v. Nothing is asked of the
    columns past the table's end. -/
def AgI (PT : Buf (Elt Ideal) (ptLoc d)) : Prop :=
  ∀ (k : Fin 16) (v : Fin 106496) (hv : v.val < 100000),
    (PT (ix2 k v) : EReal) = ∑ dd : Fin 64, er (W1 m d (Proc.devRef .tc main_v5) (ix2 k dd))
      * er (W1 m d (Proc.devRef .tc main_v6) (ix2 dd (⟨v.val, hv⟩ : Fin 100000)))

/-- Any array the first region may leave has that property. -/
theorem ag_of_arrAt (O : CellTallies nD τ sig (HIx 1)) (Rc' : Set (SemLoc sig × HIx 1))
    (hG : (rdat0 (F := Ideal) (U := UU) (VW fun _ => W1 m d) O Rc' d).ArrAt 2 cfg0.N G) : AgI m d G :=
  fun k v hv => Cert.KernelIdeal.TcValue.v0 (VW fun _ => W1 m d) O Rc' d G hG k v hv

/-- THE KERNEL'S RESULT: with every index word below the table's height, the projected table as the first region
    leaves it and the gathered array as the SparseCore call leaves it, @main returns the specification of the six
    argument arrays. -/
theorem value (hlt : ∀ j, (ITm m d j).toNat < 100000) (hPT : AgI m d PT)
    (hf : ∀ j, f j = PT (gat (fun d => ITm m d) d j)) :
    W7 m d G PT f (Proc.devRef .tc main_v21) = Cert.Spec.G (m ((d : Thread nD τ).loc main_arg0)) (m ((d : Thread nD τ).loc main_arg1)) (m ((d : Thread nD τ).loc main_arg2)) (m ((d : Thread nD τ).loc main_arg3)) (m ((d : Thread nD τ).loc main_arg4)) (m ((d : Thread nD τ).loc main_arg5)) := by
  funext i
  obtain ⟨n, q, rfl⟩ : ∃ (n : Fin 16384) (q : Fin 1), i = ix2 n q := ⟨i 0, i 1, eq_ix2 i⟩
  have hnlt := n.isLt
  obtain ⟨a, ha⟩ : ∃ a : Fin 128, a.val = n.val / 128 := ⟨⟨n.val / 128, by omega⟩, rfl⟩
  obtain ⟨b, hb⟩ : ∃ b : Fin 128, b.val = n.val % 128 := ⟨⟨n.val % 128, by omega⟩, rfl⟩
  obtain ⟨h, hh⟩ : ∃ h : Fin 2, h.val = n.val / 8192 := ⟨⟨n.val / 8192, by omega⟩, rfl⟩
  obtain ⟨i', hi'⟩ : ∃ i' : Fin 8192, i'.val = n.val % 8192 := ⟨⟨n.val % 8192, by omega⟩, rfl⟩
  have hab : n.val = a.val * 128 + b.val := by omega
  have hhi : n.val = h.val * 8192 + i'.val := by omega
  refine (W7_v21_at m d G PT f n q a b hab).trans ?_
  refine (Cert.KernelIdeal.TcValue.v2 (U := UU) (VW fun _ => W5 m d G PT f) (Oc (F := Ideal) d 1) (Rc (F := Ideal) d 1) d a b).trans ?_
  show red2 (VW fun _ => W5 m d G PT f) d a b = Ideal.logistic (Cert.Spec.pre (m ((d : Thread nD τ).loc main_arg0)) (m ((d : Thread nD τ).loc main_arg1)) (m ((d : Thread nD τ).loc main_arg2)) (m ((d : Thread nD τ).loc main_arg3)) (m ((d : Thread nD τ).loc main_arg4)) (m ((d : Thread nD τ).loc main_arg5)) n)
  have h13 := W5_v13_at m d G PT f a b n hab
  have h190 := W5_v19_0 m d G PT f
  have h191 := W5_v19_1 m d G PT f
  have plane : ∀ s : Fin 10, @Eq EReal ((W5 m d G PT f (Proc.devRef .tc main_v12) : FVec Ideal S10x128x128 .f32) (ix3 s a b))
      (Cert.Spec.proj (m ((d : Thread nD τ).loc main_arg4)) (m ((d : Thread nD τ).loc main_arg3)) s (Cert.Spec.row (Cert.Spec.idxAt (m ((d : Thread nD τ).loc main_arg0)) (m ((d : Thread nD τ).loc main_arg1)) n s))) := by
    intro s
    have hs := s.isLt
    rw [W5_v12_at m d G PT f s a b h i' (by omega), hf, Cert.Proof.ScTile.gat_apply]
    have hw := hlt (ix3 s h i')
    have hIT := ITm_at m d s h i' n hhi
    have hv : (ITm m d (ix3 s h i')).toNat % 106496 < 100000 := by rw [Nat.mod_eq_of_lt (by omega)]; exact hw
    rw [hPT _ (⟨(ITm m d (ix3 s h i')).toNat % 106496, Nat.mod_lt _ (by decide)⟩ : Fin 106496) hv]
    unfold Cert.Spec.proj
    have hrow : (⟨(ITm m d (ix3 s h i')).toNat % 106496, hv⟩ : Fin 100000)
        = Cert.Spec.row (Cert.Spec.idxAt (m ((d : Thread nD τ).loc main_arg0)) (m ((d : Thread nD τ).loc main_arg1)) n s) := by
      rw [← hIT]
      refine Fin.ext ?_
      show (ITm m d (ix3 s h i')).toNat % 106496 = (ITm m d (ix3 s h i')).toNat % 100000
      rw [Nat.mod_eq_of_lt (by omega), Nat.mod_eq_of_lt hw]
    rw [← hrow]
    refine Finset.sum_congr rfl fun dd _ => ?_
    have hdd := dd.isLt
    exact congrArg₂ (fun x y : EReal => x * y) (W1_v5_at m d s dd (by omega) (by omega)) (W1_v6_at m d dd _)
  unfold red2 Cert.Spec.pre
  exact congrArg Ideal.logistic (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x * y) h13 h190) h191) (plane 0)) (plane 1)) (plane 2)) (plane 3)) (plane 4)) (plane 5)) (plane 6)) (plane 7)) (plane 8)) (plane 9))

end IdealValue

end Cert.KernelIdeal.KS

end
-- ==== Proof.KPre.lean ====
/-
  The index ranges out of the precondition, for the program's own index array.

  The precondition is a conjunction of "all" reductions that evaluates to 1; two of its conjuncts say that every word
  of the two index arrays lies in [0, 99999] as a signed integer (the float conjuncts are dropped here: nothing below
  depends on the float instance). The array the gather reads its indices from is the two index arrays stacked by
  columns, transposed and split in two: each of its words is a word of one of them, so each is below 100000.
-/
import proofs.«204616_g36739150250405_cont_8to1_b_1211_24_alg».proof.Proof.KSetup
import Idealize.ShloMosaic.Lib.ReduceAll
import Idealize.ShloMosaic.Lib.ValueIdx

noncomputable section

namespace Cert.KernelIdeal.KS

open Cert.KernelIdeal Cert.KernelIdeal.Gen
open Idealize.ShloMosaic Idealize.SL.Sem Idealize.ShloMosaic.ValueIdx

variable {F : FTy → Type} [FloatOps F]

/-- The rank-0 shape has one index. -/
instance subsingleton_S_ : Subsingleton Cert.Pre_input_domain.S_.Idx := ⟨fun a b => funext fun d => d.elim0⟩

/-- The precondition read back at the two index arrays: every word, read unsigned, is below 100000. -/
theorem lt_of_pre [Cert.Pre_input_domain.Facts]
    (a0 a1 : IVec Cert.Pre_input_domain.S16384x5 32) (a2 : FVec F Cert.Pre_input_domain.S16384 .f32)
    (a3 : FVec F Cert.Pre_input_domain.S100000x64 .f32) (a4 : FVec F Cert.Pre_input_domain.S641x1 .f32)
    (a5 : FVec F Cert.Pre_input_domain.S1 .f32)
    (h : Cert.Pre_input_domain.fn (F := F) a0 a1 a2 a3 a4 a5 = fun _ => 1#1) :
    (∀ i, (a0 i).toNat < 100000) ∧ (∀ i, (a1 i).toNat < 100000) := by
  have h0 := congrFun h ix0
  dsimp only [Cert.Pre_input_domain.fn, Cert.Pre_input_domain.fn_part1] at h0
  obtain ⟨h1, hred⟩ := IntOp.andi_eq_one.1 h0
  obtain ⟨-, hblue⟩ := IntOp.andi_eq_one.1 h1
  have hz : (0#32 : BitVec 32).toInt = 0 := by decide
  have hm : (99999#32 : BitVec 32).toInt = 99999 := by decide
  have key : ∀ w : BitVec 32, (0#32 : BitVec 32).toInt ≤ w.toInt → w.toInt ≤ (99999#32 : BitVec 32).toInt → w.toNat < 100000 := by
    intro w h1 h2
    rw [hz] at h1; rw [hm] at h2
    have := BitVec.toInt_eq_toNat_cond w
    have hlt : w.toNat < 2 ^ 32 := w.isLt
    split at this <;> omega
  constructor
  · intro i
    obtain ⟨hge, hle⟩ := IntOp.andi_eq_one.1 (Host.reduce_andi_all _ _ _ _ ix0 hblue i)
    exact key _ (IntOp.cmpi_sge.1 hge) (IntOp.cmpi_sle.1 hle)
  · intro i
    obtain ⟨hge, hle⟩ := IntOp.andi_eq_one.1 (Host.reduce_andi_all _ _ _ _ ix0 hred i)
    exact key _ (IntOp.cmpi_sge.1 hge) (IntOp.cmpi_sle.1 hle)

/-- A property of every element of every piece is a property of every element of their concatenation. -/
theorem concatenate_forall {α : Type} {t : Shape} (a : Fin t.rank) (xs : List ((s : Shape) × (s.Idx → α)))
    (h : Shape.Concatenates (xs.map (·.1)) t a) (P : α → Prop) (hP : ∀ p ∈ xs, ∀ i, P (p.2 i)) (j : t.Idx) :
    P (concatenate t a xs h j) := by
  unfold concatenate
  exact hP _ (List.getElem_mem _) _

variable (m : (ℓ : Loc nD τ sig) → Buf (Elt F) ℓ) (d : Dev nD)

/-- The index array the gather reads, as the second host stretch leaves it from the launch memory: the two index
    arrays stacked by columns, transposed, split in two. -/
theorem it_eq :
    (StableHlo.after (ops1 (F := F)) (StableHlo.after (ops0 (F := F)) (fun b => m (d, b))) (Proc.devRef .tc (main_v10 : Ref sig .tc)) : IVec S10x2x8192 32)
      = shapeCast S10x2x8192 (transpose S10x16384 [1, 0]
          (concatenate S16384x10 1 [⟨S16384x5, (m (d, Proc.devRef .tc (main_arg0 : Ref sig .tc)) : IVec S16384x5 32)⟩,
            ⟨S16384x5, (m (d, Proc.devRef .tc (main_arg1 : Ref sig .tc)) : IVec S16384x5 32)⟩] concatenates_S16384x5_S16384x5_S16384x10_d1)
          transposes_S16384x10_S10x16384_1_0) shapeCasts_S10x16384_S10x2x8192 := by
  unfold ops1 ops0
  after_results
  rfl

/-- Every word of the index array the gather reads is below 100000, under the precondition. -/
theorem it_lt [Cert.Pre_input_domain.Facts]
    (hpre : Cert.Pre_input_domain.fn (F := F) (m ((d.tc : Thread nD τ).loc main_arg0)) (m ((d.tc : Thread nD τ).loc main_arg1))
      (m ((d.tc : Thread nD τ).loc main_arg2)) (m ((d.tc : Thread nD τ).loc main_arg3)) (m ((d.tc : Thread nD τ).loc main_arg4))
      (m ((d.tc : Thread nD τ).loc main_arg5)) = fun _ => 1#1) (j : S10x2x8192.Idx) :
    ((StableHlo.after (ops1 (F := F)) (StableHlo.after (ops0 (F := F)) (fun b => m (d, b))) (Proc.devRef .tc (main_v10 : Ref sig .tc)) : IVec S10x2x8192 32) j).toNat < 100000 := by
  obtain ⟨hb, hr⟩ := lt_of_pre _ _ _ _ _ _ hpre
  rw [it_eq]
  unfold shapeCast transpose
  refine concatenate_forall _ _ _ (fun w : BitVec 32 => w.toNat < 100000) (fun p hp i => ?_) _
  rcases List.mem_cons.mp hp with rfl | hp
  · exact hb i
  · rcases List.mem_cons.mp hp with rfl | hp
    · exact hr i
    · exact absurd hp List.not_mem_nil

end Cert.KernelIdeal.KS

end
-- ==== Proof.KPreV.lean ====
/-
  The index array the SparseCore call reads holds words below 100000, under the precondition.
-/
import proofs.«204616_g36739150250405_cont_8to1_b_1211_24_alg».proof.Proof.KPre
import proofs.«204616_g36739150250405_cont_8to1_b_1211_24_alg».proof.Proof.KVals

noncomputable section

namespace Cert.KernelIdeal.KS

open Cert.KernelIdeal Cert.KernelIdeal.Gen
open Idealize.ShloMosaic Idealize.SL.Sem

variable {F : FTy → Type} [FloatOps F]

/-- Every word of the index array the gather reads is below 100000, under the precondition. -/
theorem ITm_lt [Cert.Pre_input_domain.Facts] (m : (ℓ : Loc nD τ sig) → Buf (Elt F) ℓ) (d : Dev nD)
    (hpre : Cert.Pre_input_domain.fn (F := F) (m ((d.tc : Thread nD τ).loc main_arg0)) (m ((d.tc : Thread nD τ).loc main_arg1))
      (m ((d.tc : Thread nD τ).loc main_arg2)) (m ((d.tc : Thread nD τ).loc main_arg3)) (m ((d.tc : Thread nD τ).loc main_arg4))
      (m ((d.tc : Thread nD τ).loc main_arg5)) = fun _ => 1#1) :
    ∀ j : S10x2x8192.Idx, ((ITm m d : IVec S10x2x8192 32) j).toNat < 100000 :=
  fun j => it_lt m d hpre j

end Cert.KernelIdeal.KS

end
-- ==== Proof.RefRun.lean ====
/-
  The reference program's run, written out: @main is a straight line of 62 host operations once its two
  calls of the table-lookup function (and that function's call of the select helper) are unfolded at their
  call sites, so every weakly fair execution terminates with the result buffer at the operations' composed
  pure term of the six argument arrays, and the arguments unchanged.

  `take table idx` is the lookup function as one pure term: an index word below zero is shifted up by the
  table's height, the word is tested against the range [0, 99999], the rows are gathered, and a row whose
  word failed the test is replaced by the not-a-number constant. `out` is @main over it: the two lookups
  flattened to [16384, 320], the side column, their concatenation [16384, 641], the contraction with the
  weight column, the bias, and 1 / (1 + exp (-x)).
-/
import proofs.«204616_g36739150250405_cont_8to1_b_1211_24_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Facts]
open Facts₀ Facts

/-! ## The pure terms -/

/-- The index words after the lookup's normalisation: a word below zero has the table's height added. -/
def norm (idx : IVec S16384x5 32) : IVec S16384x5 32 :=
  select (cmpi .slt idx (broadcastInDim S16384x5 ![] bcast_S_S16384x5 (constantI S_ 32 0#32)))
    (addi idx (broadcastInDim S16384x5 ![] bcast_S_S16384x5 (constantI S_ 32 100000#32))) idx

/-- The normalised words as start indices [16384, 5, 1]. -/
def starts (idx : IVec S16384x5 32) : IVec S16384x5x1 32 :=
  broadcastInDim S16384x5x1 ![0, 1] bcast_S16384x5_S16384x5x1_0_1 (norm idx)

/-- The in-range mask [16384, 5]: the start index lies in [0, 99999]. -/
def inRange (idx : IVec S16384x5 32) : IVec S16384x5 1 :=
  Host.reduce IntOp.andi
    (andi (cmpi .sge (starts idx) (broadcastInDim S16384x5x1 ![] bcast_S_S16384x5x1 (constantI S_ 32 0#32)))
      (cmpi .sle (starts idx) (broadcastInDim S16384x5x1 ![0, 1, 2] bcast_S1x1x1_S16384x5x1_0_1_2
        (broadcastInDim S1x1x1 ![2] bcast_S1_S1x1x1_2 (constantI S1 32 99999#32)))))
    (constantI S_ 1 1#1) reducesTo_S16384x5x1_S16384x5_d2 h_S_

/-- The lookup function on a table and an index array. -/
def take (table : FVec F S100000x64 .f32) (idx : IVec S16384x5 32) : FVec F S16384x5x64 .f32 :=
  select (broadcastInDim S16384x5x64 ![0, 1] bcast_S16384x5_S16384x5x64_0_1 (inRange idx))
    (Host.gather gather_S100000x64_S16384x5x1_S16384x5x64_2_0_n_n_0_2_164 table (starts idx))
    (broadcastInDim S16384x5x64 ![] bcast_S_S16384x5x64 (constant S_ .f32 0x7FC00000#32))

/-- The concatenated feature rows [16384, 641]. -/
def feats (blue red : IVec S16384x5 32) (side : FVec F S16384 .f32) (table : FVec F S100000x64 .f32) :
    FVec F S16384x641 .f32 :=
  concatenate S16384x641 1
    [⟨S16384x320, shapeCast S16384x320 (take table blue) shapeCasts_S16384x5x64_S16384x320⟩,
     ⟨S16384x320, shapeCast S16384x320 (take table red) shapeCasts_S16384x5x64_S16384x320⟩,
     ⟨S16384x1, broadcastInDim S16384x1 ![0] bcast_S16384_S16384x1_0 side⟩]
    concatenates_S16384x320_S16384x320_S16384x1_S16384x641_d1

/-- The pre-activation column [16384, 1]: the contraction with the weights, plus the bias. -/
def lin (blue red : IVec S16384x5 32) (side : FVec F S16384 .f32) (table : FVec F S100000x64 .f32)
    (W : FVec F S641x1 .f32) (bias : FVec F S1 .f32) : FVec F S16384x1 .f32 :=
  addf (Host.dotGeneral dot_S16384x641_S641x1_S16384x1_1_0_0_1_n_n none (feats blue red side table) W)
    (broadcastInDim S16384x1 ![0, 1] bcast_S1x1_S16384x1_0_1 (broadcastInDim S1x1 ![1] bcast_S1_S1x1_1 bias))

/-- @main's result as one pure term of the six arguments. -/
def out (blue red : IVec S16384x5 32) (side : FVec F S16384 .f32) (table : FVec F S100000x64 .f32)
    (W : FVec F S641x1 .f32) (bias : FVec F S1 .f32) : FVec F S16384x1 .f32 :=
  Host.divf (broadcastInDim S16384x1 ![] bcast_S_S16384x1 (constant S_ .f32 0x3F800000#32))
    (addf (broadcastInDim S16384x1 ![] bcast_S_S16384x1 (constant S_ .f32 0x3F800000#32))
      (Host.exp (Host.negf (lin blue red side table W bias))))

/-! ## The program as a list of operations -/

/-- @main's 62 operations in order, the calls unfolded: the lookup function is 23 operations (its call of
    the select helper one of them), run first into `main_call0`'s buffers on `main_arg0` and then into
    `main_call1`'s on `main_arg1`, each followed by the reshape; then @main's own fourteen. -/
abbrev ops : List (HloOp τ sig (Elt F)) :=
  [ TRef.nullary main_call0.c (constantI S_ 32 0#32),
    TRef.unary main_call0.c main_call0.v0 (broadcastInDim S16384x5 ![] bcast_S_S16384x5),
    TRef.binary (.of main_arg0) main_call0.v0 main_call0.v1 (cmpi .slt),
    TRef.nullary main_call0.c_0 (constantI S_ 32 100000#32),
    TRef.unary main_call0.c_0 main_call0.v2 (broadcastInDim S16384x5 ![] bcast_S_S16384x5),
    TRef.binary (.of main_arg0) main_call0.v2 main_call0.v3 addi,
    TRef.ternary main_call0.v1 main_call0.v3 (.of main_arg0) main_call0.call0.v0 select,
    TRef.unary main_call0.call0.v0 main_call0.v5 (broadcastInDim S16384x5x1 ![0, 1] bcast_S16384x5_S16384x5x1_0_1),
    TRef.nullary main_call0.c_1 (constantI S1 32 99999#32),
    TRef.nullary main_call0.c_2 (constantI S_ 32 0#32),
    TRef.unary main_call0.c_2 main_call0.v6 (broadcastInDim S16384x5x1 ![] bcast_S_S16384x5x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S16384x5x1 ![0, 1, 2] bcast_S1x1x1_S16384x5x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x5x1_S16384x5_d2 h_S_),
    TRef.binary (.of main_arg3) main_call0.v5 main_call0.v13 (fun x i => Host.gather gather_S100000x64_S16384x5x1_S16384x5x64_2_0_n_n_0_2_164 x i),
    TRef.unary main_call0.v12 main_call0.v14 (broadcastInDim S16384x5x64 ![0, 1] bcast_S16384x5_S16384x5x64_0_1),
    TRef.nullary main_call0.cst (constant S_ .f32 0x7FC00000#32),
    TRef.unary main_call0.cst main_call0.v15 (broadcastInDim S16384x5x64 ![] bcast_S_S16384x5x64),
    TRef.ternary main_call0.v14 main_call0.v13 main_call0.v15 main_call0.v16 select,
    reshape main_v0 main_v1 rfl shapeCasts_S16384x5x64_S16384x320,
    TRef.nullary main_call1.c (constantI S_ 32 0#32),
    TRef.unary main_call1.c main_call1.v0 (broadcastInDim S16384x5 ![] bcast_S_S16384x5),
    TRef.binary (.of main_arg1) main_call1.v0 main_call1.v1 (cmpi .slt),
    TRef.nullary main_call1.c_0 (constantI S_ 32 100000#32),
    TRef.unary main_call1.c_0 main_call1.v2 (broadcastInDim S16384x5 ![] bcast_S_S16384x5),
    TRef.binary (.of main_arg1) main_call1.v2 main_call1.v3 addi,
    TRef.ternary main_call1.v1 main_call1.v3 (.of main_arg1) main_call1.call0.v0 select,
    TRef.unary main_call1.call0.v0 main_call1.v5 (broadcastInDim S16384x5x1 ![0, 1] bcast_S16384x5_S16384x5x1_0_1),
    TRef.nullary main_call1.c_1 (constantI S1 32 99999#32),
    TRef.nullary main_call1.c_2 (constantI S_ 32 0#32),
    TRef.unary main_call1.c_2 main_call1.v6 (broadcastInDim S16384x5x1 ![] bcast_S_S16384x5x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S16384x5x1 ![0, 1, 2] bcast_S1x1x1_S16384x5x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x5x1_S16384x5_d2 h_S_),
    TRef.binary (.of main_arg3) main_call1.v5 main_call1.v13 (fun x i => Host.gather gather_S100000x64_S16384x5x1_S16384x5x64_2_0_n_n_0_2_164 x i),
    TRef.unary main_call1.v12 main_call1.v14 (broadcastInDim S16384x5x64 ![0, 1] bcast_S16384x5_S16384x5x64_0_1),
    TRef.nullary main_call1.cst (constant S_ .f32 0x7FC00000#32),
    TRef.unary main_call1.cst main_call1.v15 (broadcastInDim S16384x5x64 ![] bcast_S_S16384x5x64),
    TRef.ternary main_call1.v14 main_call1.v13 main_call1.v15 main_call1.v16 select,
    reshape main_v2 main_v3 rfl shapeCasts_S16384x5x64_S16384x320,
    unary main_arg2 main_v4 (broadcastInDim S16384x1 ![0] bcast_S16384_S16384x1_0 : (⟨S16384, .f32⟩ : BufTy).Contents (Elt F) → (⟨S16384x1, .f32⟩ : BufTy).Contents (Elt F)),
    nary ![main_v1, main_v3, main_v4] main_v5 (fun u => concatenate S16384x641 1 [⟨S16384x320, u 0⟩, ⟨S16384x320, u 1⟩, ⟨S16384x1, u 2⟩] concatenates_S16384x320_S16384x320_S16384x1_S16384x641_d1),
    binary main_v5 main_arg4 main_v6 ((fun l r => Host.dotGeneral dot_S16384x641_S641x1_S16384x1_1_0_0_1_n_n none l r) : (⟨S16384x641, .f32⟩ : BufTy).Contents (Elt F) → (⟨S641x1, .f32⟩ : BufTy).Contents (Elt F) → (⟨S16384x1, .f32⟩ : BufTy).Contents (Elt F)),
    unary main_arg5 main_v7 (broadcastInDim S1x1 ![1] bcast_S1_S1x1_1 : (⟨S1, .f32⟩ : BufTy).Contents (Elt F) → (⟨S1x1, .f32⟩ : BufTy).Contents (Elt F)),
    unary main_v7 main_v8 (broadcastInDim S16384x1 ![0, 1] bcast_S1x1_S16384x1_0_1 : (⟨S1x1, .f32⟩ : BufTy).Contents (Elt F) → (⟨S16384x1, .f32⟩ : BufTy).Contents (Elt F)),
    binary main_v6 main_v8 main_v9 (addf : (⟨S16384x1, .f32⟩ : BufTy).Contents (Elt F) → (⟨S16384x1, .f32⟩ : BufTy).Contents (Elt F) → (⟨S16384x1, .f32⟩ : BufTy).Contents (Elt F)),
    unary main_v9 main_v10 (Host.negf : (⟨S16384x1, .f32⟩ : BufTy).Contents (Elt F) → (⟨S16384x1, .f32⟩ : BufTy).Contents (Elt F)),
    unary main_v10 main_v11 (Host.exp : (⟨S16384x1, .f32⟩ : BufTy).Contents (Elt F) → (⟨S16384x1, .f32⟩ : BufTy).Contents (Elt F)),
    nullary main_cst (constant S_ .f32 0x3F800000#32),
    unary main_cst main_v12 (broadcastInDim S16384x1 ![] bcast_S_S16384x1 : (⟨S_, .f32⟩ : BufTy).Contents (Elt F) → (⟨S16384x1, .f32⟩ : BufTy).Contents (Elt F)),
    binary main_v12 main_v11 main_v13 (addf : (⟨S16384x1, .f32⟩ : BufTy).Contents (Elt F) → (⟨S16384x1, .f32⟩ : BufTy).Contents (Elt F) → (⟨S16384x1, .f32⟩ : BufTy).Contents (Elt F)),
    nullary main_cst_0 (constant S_ .f32 0x3F800000#32),
    unary main_cst_0 main_v14 (broadcastInDim S16384x1 ![] bcast_S_S16384x1 : (⟨S_, .f32⟩ : BufTy).Contents (Elt F) → (⟨S16384x1, .f32⟩ : BufTy).Contents (Elt F)),
    binary main_v14 main_v13 main_v15 (Host.divf : (⟨S16384x1, .f32⟩ : BufTy).Contents (Elt F) → (⟨S16384x1, .f32⟩ : BufTy).Contents (Elt F) → (⟨S16384x1, .f32⟩ : BufTy).Contents (Elt F)) ]

-- sixty-two binds re-associated: the rewrite under the chain recurses once per statement
set_option maxRecDepth 4096 in
set_option maxHeartbeats 2000000 in
/-- @main is that straight line: the two functions' definitions unfolded at their calls, both sides are one
    chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., unary_bufs_sub .., nary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- A three-operand operation's result with each operand's contents at its own reference, so that the
    rewriting of buffer contents goes on inside the operands. -/
theorem nary3_result' {Val : EltTy → Type} {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) := by
  rw [nary_result]; congr 1; funext k; fin_cases k <;> rfl

/-- Every buffer after the whole line, from any memory with zero counters. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What the line leaves in the result buffer and in the arguments -/

attribute [local irreducible] Host.reduce Host.gather concatenate shapeCast broadcastInDim in
set_option maxRecDepth 8192 in
set_option maxHeartbeats 2000000 in
/-- The fold at the result buffer is `out` of the arguments' contents: each operation's result at its own buffer is
    its function's value and at any other buffer what was there; the typed references' casts are the identity at
    these literal references. The shape operations are kept folded meanwhile: the equation never looks inside them. -/
theorem out_eq (V : Valuation τ sig (Elt F)) :
    after ops V (main_v15 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  simp (disch := decide) only [after_cons, after_nil,
    nullary_result', unary_result', binary_result', ternary_result', reshape_result', nary3_result',
    nullary_result_ne', unary_result_ne', binary_result_ne', ternary_result_ne', reshape_result_ne', nary_result_ne']
  rfl

theorem arg0_eq (V : Valuation τ sig (Elt F)) :
    after ops V (main_arg0 : DevRef τ sig) = V (main_arg0 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

theorem arg1_eq (V : Valuation τ sig (Elt F)) :
    after ops V (main_arg1 : DevRef τ sig) = V (main_arg1 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

theorem arg2_eq (V : Valuation τ sig (Elt F)) :
    after ops V (main_arg2 : DevRef τ sig) = V (main_arg2 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

theorem arg3_eq (V : Valuation τ sig (Elt F)) :
    after ops V (main_arg3 : DevRef τ sig) = V (main_arg3 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

theorem arg4_eq (V : Valuation τ sig (Elt F)) :
    after ops V (main_arg4 : DevRef τ sig) = V (main_arg4 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

theorem arg5_eq (V : Valuation τ sig (Elt F)) :
    after ops V (main_arg5 : DevRef τ sig) = V (main_arg5 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

/-- On the device, for any float values, from any memory with zero counters: every weakly fair execution of @main
    terminates with the result buffer at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v15).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_all m ρ)

end Cert.ReferenceIdeal.RefRun

end
-- ==== Proof.RefIndex.lean ====
/-
  The reference's stages read at one index, at the extended reals.

  An index word `w` with 0 ≤ w ≤ 99999 (read signed) is left alone by the lookup's normalisation, passes its
  range test, and the gather reads the table's row `w`; so one element of a lookup is one element of the
  table. A column `c` of the concatenated feature row belongs to slot `c / 64` of the first index array
  (c < 320), of the second (320 ≤ c < 640), or is the side flag (c = 640). The contraction over the 641
  columns is then ten inner products of 64 terms and one last product.
-/
import proofs.«204616_g36739150250405_cont_8to1_b_1211_24_alg».proof.Proof.RefRun
import proofs.«204616_g36739150250405_cont_8to1_b_1211_24_alg».proof.Proof.Spec
import Idealize.ShloMosaic.Lib.Pipeline.Value
import Idealize.ShloMosaic.Lib.IdealHost
import Idealize.ShloMosaic.Lib.ReduceAll
import Idealize.ShloMosaic.PureOps.Ideal.Laws

noncomputable section

open scoped BigOperators

namespace Cert.ReferenceIdeal.RefIndex

open Cert.ReferenceIdeal Cert.ReferenceIdeal.RefRun Idealize.ShloMosaic Idealize.ShloMosaic.ValueIdx

variable {F : FTy → Type} [FloatOps F] [Facts]
open Facts₀ Facts

/-! ## Index words in range -/

/-- An index word that names a row of the table: between 0 and 99999 as a signed integer. -/
def InRange (w : BitVec 32) : Prop := 0 ≤ w.toInt ∧ w.toInt ≤ 99999

/-- Such a word's signed value is its unsigned one, below the table's height. -/
theorem toNat_of_inRange {w : BitVec 32} (h : InRange w) : w.toInt.toNat = w.toNat ∧ w.toNat ≤ 99999 := by
  obtain ⟨h0, h1⟩ := h
  have hc := BitVec.toInt_eq_toNat_cond w
  have hlt := w.isLt
  constructor <;> (split at hc <;> omega)

/-- The row it names is the start index the gather clamps it to. -/
theorem row_of_inRange {w : BitVec 32} (h : InRange w) (hlt : min w.toInt.toNat 99999 < 100000) :
    (⟨min w.toInt.toNat 99999, hlt⟩ : Fin 100000) = Cert.Spec.row w := by
  obtain ⟨e, hle⟩ := toNat_of_inRange h
  refine Fin.ext ?_
  show min w.toInt.toNat 99999 = w.toNat % 100000
  omega

/-! ## The lookup at an index -/

/-- A word in range is not below zero: the normalisation keeps it. -/
theorem norm_apply (idx : IVec S16384x5 32) (i : S16384x5.Idx) (h : InRange (idx i)) : RefRun.norm idx i = idx i := by
  unfold RefRun.norm
  rw [select_apply]
  have hc : cmpi .slt idx (broadcastInDim S16384x5 ![] bcast_S_S16384x5 (constantI S_ 32 0#32)) i = 0#1 := by
    refine eq_zero_of_ne_one ?_
    show ¬ IntOp.cmpi .slt (idx i) 0#32 = 1#1
    rw [IntOp.cmpi_slt]
    have h0 := h.1
    have hz : (0#32 : BitVec 32).toInt = 0 := by decide
    omega
  rw [hc, select_zero]

/-- The start indices are the normalised words with a unit axis added. -/
theorem starts_apply (idx : IVec S16384x5 32) (n : Fin 16384) (s : Fin 5) (z : Fin 1) :
    starts idx (ix3 n s z) = RefRun.norm idx (ix2 n s) := by
  unfold starts
  exact broadcastInDim_apply _ _ _ _ (ix2 n s) (fun a => match a with | ⟨0, _⟩ => rfl | ⟨1, _⟩ => rfl)

/-- A left fold by `and` from 1 over words that are all 1 is 1. -/
theorem foldl_andi_one {ι : Type} (f : ι → BitVec 1) (l : List ι) (h : ∀ n ∈ l, f n = 1#1) :
    l.foldl (fun r n => IntOp.andi r (f n)) 1#1 = 1#1 := by
  induction l with
  | nil => rfl
  | cons a l ih =>
    rw [List.foldl_cons, h a List.mem_cons_self, show IntOp.andi 1#1 1#1 = 1#1 from by decide]
    exact ih fun n hn => h n (List.mem_cons_of_mem _ hn)

/-- With every word in range the range test passes everywhere. -/
theorem inRange_apply (idx : IVec S16384x5 32) (h : ∀ i, InRange (idx i)) (j : S16384x5.Idx) : inRange idx j = 1#1 := by
  unfold inRange Host.reduce
  refine foldl_andi_one _ _ fun m _ => ?_
  generalize S16384x5x1.rowMajor.symm m = i3
  obtain ⟨a, b, c, rfl⟩ : ∃ (a : Fin 16384) (b : Fin 5) (c : Fin 1), i3 = ix3 a b c := ⟨i3 0, i3 1, i3 2, eq_ix3 i3⟩
  show IntOp.andi (IntOp.cmpi .sge (starts idx (ix3 a b c)) 0#32) (IntOp.cmpi .sle (starts idx (ix3 a b c)) 99999#32) = 1#1
  rw [starts_apply, norm_apply _ _ (h _)]
  have hz : (0#32 : BitVec 32).toInt = 0 := by decide
  have hm : (99999#32 : BitVec 32).toInt = 99999 := by decide
  exact IntOp.andi_eq_one.2 ⟨IntOp.cmpi_sge.2 (by rw [hz]; exact (h _).1), IntOp.cmpi_sle.2 (by rw [hm]; exact (h _).2)⟩

/-- The gather of table rows read at (n, s, d): the table at the row the start index (n, s, 0) names, read
    signed and clamped into [0, 99999], column d. -/
theorem gather_apply {α : Type} (table : S100000x64.Idx → α) (st : IVec S16384x5x1 32) (n : Fin 16384) (s : Fin 5)
    (d : Fin 64) (hlt : min (st (ix3 n s (0 : Fin 1))).toInt.toNat 99999 < 100000) :
    Host.gather gather_S100000x64_S16384x5x1_S16384x5x64_2_0_n_n_0_2_164 table st (ix3 n s d)
      = table (ix2 (⟨min (st (ix3 n s (0 : Fin 1))).toInt.toNat 99999, hlt⟩ : Fin 100000) d) := by
  unfold Host.gather
  refine congrArg table ?_
  funext a
  refine Fin.ext ?_
  match a with
  | ⟨0, _⟩ =>
    show gather_S100000x64_S16384x5x1_S16384x5x64_2_0_n_n_0_2_164.start (ix3 n s d) st 0 + gather_S100000x64_S16384x5x1_S16384x5x64_2_0_n_n_0_2_164.batchCoord (ix3 n s d) 0 + gather_S100000x64_S16384x5x1_S16384x5x64_2_0_n_n_0_2_164.offCoord (ix3 n s d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100000x64_S16384x5x1_S16384x5x64_2_0_n_n_0_2_164.startIndexMap from List.mem_singleton.mpr rfl)]
    have hsi : gather_S100000x64_S16384x5x1_S16384x5x64_2_0_n_n_0_2_164.siIdx (ix3 n s d) ⟨List.idxOf (0 : Fin 2) gather_S100000x64_S16384x5x1_S16384x5x64_2_0_n_n_0_2_164.startIndexMap,
        List.idxOf_lt_length_iff.2 (List.mem_singleton.mpr rfl)⟩ = ix3 n s (0 : Fin 1) := by
      funext b; refine Fin.ext ?_
      match b with
      | ⟨0, _⟩ => rfl
      | ⟨1, _⟩ => rfl
      | ⟨2, _⟩ => rfl
    rw [hsi]
    rfl
  | ⟨1, _⟩ =>
    show gather_S100000x64_S16384x5x1_S16384x5x64_2_0_n_n_0_2_164.start (ix3 n s d) st 1 + gather_S100000x64_S16384x5x1_S16384x5x64_2_0_n_n_0_2_164.batchCoord (ix3 n s d) 1 + gather_S100000x64_S16384x5x1_S16384x5x64_2_0_n_n_0_2_164.offCoord (ix3 n s d) 1 = d.val
    rw [GatherDims.batchCoord_eq_zero _ _ _ List.not_mem_nil]
    have hst : gather_S100000x64_S16384x5x1_S16384x5x64_2_0_n_n_0_2_164.start (ix3 n s d) st 1 = 0 := by
      unfold GatherDims.start
      rw [dif_neg (show (1 : Fin 2) ∉ gather_S100000x64_S16384x5x1_S16384x5x64_2_0_n_n_0_2_164.startIndexMap from by decide)]
    have hoff : gather_S100000x64_S16384x5x1_S16384x5x64_2_0_n_n_0_2_164.offCoord (ix3 n s d) 1 = d.val := by
      unfold GatherDims.offCoord
      rw [dif_pos (show (1 : Fin 2) ∈ gather_S100000x64_S16384x5x1_S16384x5x64_2_0_n_n_0_2_164.sKept from by decide)]
      rfl
    rw [hst, hoff]
    omega

/-- One element of a lookup, every index word in range: the table at the word's row. -/
theorem take_apply (table : FVec F S100000x64 .f32) (idx : IVec S16384x5 32) (h : ∀ i, InRange (idx i))
    (n : Fin 16384) (s : Fin 5) (d : Fin 64) :
    take table idx (ix3 n s d) = table (ix2 (Cert.Spec.row (idx (ix2 n s))) d) := by
  unfold take
  rw [select_apply]
  have hm : broadcastInDim S16384x5x64 ![0, 1] bcast_S16384x5_S16384x5x64_0_1 (inRange idx) (ix3 n s d) = 1#1 := by
    rw [broadcastInDim_apply _ _ _ _ (ix2 n s) (fun a => match a with | ⟨0, _⟩ => rfl | ⟨1, _⟩ => rfl)]
    exact inRange_apply idx h _
  rw [hm, select_one, gather_apply table (starts idx) n s d (by omega)]
  refine congrArg table ?_
  have hs : starts idx (ix3 n s (0 : Fin 1)) = idx (ix2 n s) := by rw [starts_apply, norm_apply _ _ (h _)]
  have hr := row_of_inRange (h (ix2 n s)) (by omega)
  rw [← hr]
  refine congrArg (fun r : Fin 100000 => ix2 r d) (Fin.ext ?_)
  show min (starts idx (ix3 n s (0 : Fin 1))).toInt.toNat 99999 = min (idx (ix2 n s)).toInt.toNat 99999
  rw [hs]

/-! ## The feature row at a column -/

/-- Column 64·s + d (s < 5) is slot s of the first index array: element d of the table row its word names. -/
theorem feats_blue (blue red : IVec S16384x5 32) (side : FVec F S16384 .f32) (table : FVec F S100000x64 .f32)
    (hb : ∀ i, InRange (blue i)) (n : Fin 16384) (s : Fin 5) (d : Fin 64) (hc : 64 * s.val + d.val < 641) :
    feats blue red side table (ix2 n (⟨64 * s.val + d.val, hc⟩ : Fin 641))
      = table (ix2 (Cert.Spec.row (blue (ix2 n s))) d) := by
  unfold feats
  refine Eq.trans (concatenate_apply_piece (t := S16384x641) (1 : Fin 2) _ _ _ 0 (by show 0 < 3; decide) S16384x320 _ rfl rfl 0 rfl
    (ix2 n (⟨64 * s.val + d.val, by omega⟩ : Fin 320))
    (fun b hb => match b, hb with
      | ⟨0, _⟩, _ => rfl
      | ⟨1, _⟩, hb => absurd rfl hb)
    (by show 0 + (64 * s.val + d.val) = 64 * s.val + d.val; omega)) ?_
  refine Eq.trans (shapeCast_apply _ _ _ (ix3 n s d) (by
    rw [Shape.rowMajor_val_three, Shape.rowMajor_val_two]
    show (n.val * 5 + s.val) * 64 + d.val = n.val * 320 + (64 * s.val + d.val)
    omega)) ?_
  exact take_apply table blue hb n s d

/-- Column 320 + 64·s + d (s < 5) is slot s of the second index array. -/
theorem feats_red (blue red : IVec S16384x5 32) (side : FVec F S16384 .f32) (table : FVec F S100000x64 .f32)
    (hr : ∀ i, InRange (red i)) (n : Fin 16384) (s : Fin 5) (d : Fin 64) (hc : 320 + (64 * s.val + d.val) < 641) :
    feats blue red side table (ix2 n (⟨320 + (64 * s.val + d.val), hc⟩ : Fin 641))
      = table (ix2 (Cert.Spec.row (red (ix2 n s))) d) := by
  unfold feats
  refine Eq.trans (concatenate_apply_piece (t := S16384x641) (1 : Fin 2) _ _ _ 1 (by show 1 < 3; decide) S16384x320 _ rfl rfl 320 rfl
    (ix2 n (⟨64 * s.val + d.val, by omega⟩ : Fin 320))
    (fun b hb => match b, hb with
      | ⟨0, _⟩, _ => rfl
      | ⟨1, _⟩, hb => absurd rfl hb)
    (by show 320 + (64 * s.val + d.val) = 320 + (64 * s.val + d.val); rfl)) ?_
  refine Eq.trans (shapeCast_apply _ _ _ (ix3 n s d) (by
    rw [Shape.rowMajor_val_three, Shape.rowMajor_val_two]
    show (n.val * 5 + s.val) * 64 + d.val = n.val * 320 + (64 * s.val + d.val)
    omega)) ?_
  exact take_apply table red hr n s d

/-- Column 640 is the side flag. -/
theorem feats_side (blue red : IVec S16384x5 32) (side : FVec F S16384 .f32) (table : FVec F S100000x64 .f32)
    (n : Fin 16384) :
    feats blue red side table (ix2 n (⟨640, by decide⟩ : Fin 641)) = side (ix1 n) := by
  unfold feats
  refine Eq.trans (concatenate_apply_piece (t := S16384x641) (1 : Fin 2) _ _ _ 2 (by show 2 < 3; decide) S16384x1 _ rfl rfl 640 rfl
    (ix2 n (0 : Fin 1))
    (fun b hb => match b, hb with
      | ⟨0, _⟩, _ => rfl
      | ⟨1, _⟩, hb => absurd rfl hb)
    (by rfl)) ?_
  exact broadcastInDim_apply _ _ _ _ (ix1 n) (fun a => match a with | ⟨0, _⟩ => rfl)

/-! ## The contraction with the weight column -/

/-- The contraction over the 641 columns read at (n, q): the sum over the columns of feature times weight. -/
theorem dot_apply (X : FVec Ideal S16384x641 .f32) (W : FVec Ideal S641x1 .f32) (n : Fin 16384) (q : Fin 1) :
    Host.dotGeneral dot_S16384x641_S641x1_S16384x1_1_0_0_1_n_n none X W (ix2 n q) = ∑ c : Fin 641, X (ix2 n c) * W (ix2 c q) := by
  simp only [Host.dotGeneral]
  rw [Ideal.dotGeneral_apply]
  refine (Equiv.sum_comp (contrEquiv1 dot_S16384x641_S641x1_S16384x1_1_0_0_1_n_n 641 rfl rfl).symm _).symm.trans ?_
  refine Finset.sum_congr rfl fun c _ => ?_
  have hl : dot_S16384x641_S641x1_S16384x1_1_0_0_1_n_n.lhsIdx (ix2 n q) ((contrEquiv1 dot_S16384x641_S641x1_S16384x1_1_0_0_1_n_n 641 rfl rfl).symm c) = ix2 n c := by
    funext a; refine Fin.ext ?_
    match a with
    | ⟨0, _⟩ => rfl
    | ⟨1, _⟩ => exact (dot_S16384x641_S641x1_S16384x1_1_0_0_1_n_n.lhsIdx_val_of_single rfl _ _).trans (contrEquiv1_symm_val dot_S16384x641_S641x1_S16384x1_1_0_0_1_n_n 641 rfl rfl c)
  have hr : dot_S16384x641_S641x1_S16384x1_1_0_0_1_n_n.rhsIdx (ix2 n q) ((contrEquiv1 dot_S16384x641_S641x1_S16384x1_1_0_0_1_n_n 641 rfl rfl).symm c) = ix2 c q := by
    funext a; refine Fin.ext ?_
    match a with
    | ⟨0, _⟩ => exact (dot_S16384x641_S641x1_S16384x1_1_0_0_1_n_n.rhsIdx_val_of_single rfl _ _).trans (contrEquiv1_symm_val dot_S16384x641_S641x1_S16384x1_1_0_0_1_n_n 641 rfl rfl c)
    | ⟨1, _⟩ => rfl
  rw [hl, hr]

/-- The first 640 columns as ten slots of 64: column 64·s + d is element d of slot s. -/
def slotEquiv : Fin 10 × Fin 64 ≃ Fin 640 where
  toFun p := ⟨64 * p.1.val + p.2.val, by have := p.1.isLt; have := p.2.isLt; omega⟩
  invFun c := (⟨c.val / 64, by have := c.isLt; omega⟩, ⟨c.val % 64, Nat.mod_lt _ (by decide)⟩)
  left_inv p := by
    obtain ⟨s, d⟩ := p
    refine Prod.ext (Fin.ext ?_) (Fin.ext ?_)
    · show (64 * s.val + d.val) / 64 = s.val
      have := d.isLt; omega
    · show (64 * s.val + d.val) % 64 = d.val
      have := d.isLt; omega
  right_inv c := Fin.ext (by show 64 * (c.val / 64) + c.val % 64 = c.val; omega)

/-- A sum over the 641 columns is the sum over the ten slots of the sums over their 64 elements, plus the
    last column's term. -/
theorem sum_641 {M : Type} [AddCommMonoid M] (f : Fin 641 → M) :
    ∑ c, f c = (∑ s : Fin 10, ∑ d : Fin 64,
        f ⟨64 * s.val + d.val, by have := s.isLt; have := d.isLt; omega⟩) + f ⟨640, by decide⟩ := by
  rw [Fin.sum_univ_castSucc]
  refine congrArg₂ (· + ·) ?_ rfl
  exact (Equiv.sum_comp slotEquiv fun c : Fin 640 => f c.castSucc).symm.trans (Fintype.sum_prod_type _)

/-- A sum over ten slots, written out left-nested. -/
theorem sum_univ_ten {M : Type} [AddCommMonoid M] (f : Fin 10 → M) :
    ∑ i, f i = f 0 + f 1 + f 2 + f 3 + f 4 + f 5 + f 6 + f 7 + f 8 + f 9 := by
  rw [Fin.sum_univ_castSucc, Fin.sum_univ_castSucc, Fin.sum_univ_eight]
  rfl

/-- Slot s's 64 columns contract to the inner product of its table row with its 64 weights. -/
theorem slot_sum (blue red : IVec S16384x5 32) (side : FVec Ideal S16384 .f32) (table : FVec Ideal S100000x64 .f32)
    (W : FVec Ideal S641x1 .f32) (hb : ∀ i, InRange (blue i)) (hr : ∀ i, InRange (red i)) (n : Fin 16384) (s : Fin 10) :
    (∑ d : Fin 64,
        feats blue red side table (ix2 n (⟨64 * s.val + d.val, by have := s.isLt; have := d.isLt; omega⟩ : Fin 641))
          * W (ix2 (⟨64 * s.val + d.val, by have := s.isLt; have := d.isLt; omega⟩ : Fin 641) (0 : Fin 1)))
      = Cert.Spec.proj W table s (Cert.Spec.row (Cert.Spec.idxAt blue red n s)) := by
  unfold Cert.Spec.proj
  refine Finset.sum_congr rfl fun d _ => ?_
  rw [mul_comm]
  refine congrArg (W (ix2 (⟨64 * s.val + d.val, _⟩ : Fin 641) (0 : Fin 1)) * ·) ?_
  by_cases h5 : s.val < 5
  · rw [Cert.Spec.idxAt, dif_pos h5]
    exact feats_blue blue red side table hb n ⟨s.val, h5⟩ d _
  · rw [Cert.Spec.idxAt, dif_neg h5]
    have hs := s.isLt
    have hd := d.isLt
    have e : (⟨64 * s.val + d.val, by omega⟩ : Fin 641) = ⟨320 + (64 * (s.val - 5) + d.val), by omega⟩ :=
      Fin.ext (by show 64 * s.val + d.val = 320 + (64 * (s.val - 5) + d.val); omega)
    rw [e]
    exact feats_red blue red side table hr n ⟨s.val - 5, by omega⟩ d _

/-! ## The result at an index -/

/-- The pre-activation of sample n is the specification's. -/
theorem lin_apply (blue red : IVec S16384x5 32) (side : FVec Ideal S16384 .f32) (table : FVec Ideal S100000x64 .f32)
    (W : FVec Ideal S641x1 .f32) (bias : FVec Ideal S1 .f32) (hb : ∀ i, InRange (blue i)) (hr : ∀ i, InRange (red i))
    (n : Fin 16384) (q : Fin 1) :
    lin blue red side table W bias (ix2 n q) = Cert.Spec.pre blue red side table W bias n := by
  obtain rfl : q = 0 := Subsingleton.elim _ _
  unfold lin
  rw [addf_apply, dot_apply, sum_641]
  have hbias : broadcastInDim S16384x1 ![0, 1] bcast_S1x1_S16384x1_0_1 (broadcastInDim S1x1 ![1] bcast_S1_S1x1_1 bias)
      (ix2 n (0 : Fin 1)) = bias (ix1 (0 : Fin 1)) := by
    refine Eq.trans (broadcastInDim_apply _ _ _ _ (ix2 (0 : Fin 1) (0 : Fin 1))
      (fun a => match a with | ⟨0, _⟩ => rfl | ⟨1, _⟩ => rfl)) ?_
    exact broadcastInDim_apply _ _ _ _ (ix1 (0 : Fin 1)) (fun a => match a with | ⟨0, _⟩ => rfl)
  rw [hbias, Finset.sum_congr rfl fun s _ => slot_sum blue red side table W hb hr n s, sum_univ_ten, feats_side]
  unfold Cert.Spec.pre
  abel

/-- The word 0x3F800000 is the number one. -/
theorem ofBits_one : Ideal.ofBits .f32 0x3F800000#32 = 1 := by
  simp [Ideal.ofBits, Ideal.ieee, -EReal.coe_mul]; norm_num

/-- The host's spelling negate, exponential, one plus, one over is the logistic function. -/
theorem logistic_spelled (x : Ideal .f32) :
    FloatOps.hostDivf (F := Ideal) (φ := .f32) (1 : Ideal .f32)
      (FloatOps.addf (F := Ideal) (φ := .f32) (1 : Ideal .f32)
        (FloatOps.hostUnary (F := Ideal) (φ := .f32) .exp (FloatOps.hostNegf (F := Ideal) (φ := .f32) x)))
      = Ideal.logistic x := rfl

/-- One element of the reference's result is the specification's. -/
theorem out_apply (blue red : IVec S16384x5 32) (side : FVec Ideal S16384 .f32) (table : FVec Ideal S100000x64 .f32)
    (W : FVec Ideal S641x1 .f32) (bias : FVec Ideal S1 .f32) (hb : ∀ i, InRange (blue i)) (hr : ∀ i, InRange (red i))
    (n : Fin 16384) (q : Fin 1) :
    out blue red side table W bias (ix2 n q) = Ideal.logistic (Cert.Spec.pre blue red side table W bias n) := by
  rw [← lin_apply blue red side table W bias hb hr n q]
  have e1 : out blue red side table W bias (ix2 n q)
      = FloatOps.hostDivf (F := Ideal) (φ := .f32) (Ideal.ofBits .f32 0x3F800000#32)
          (FloatOps.addf (F := Ideal) (φ := .f32) (Ideal.ofBits .f32 0x3F800000#32)
            (FloatOps.hostUnary (F := Ideal) (φ := .f32) .exp
              (FloatOps.hostNegf (F := Ideal) (φ := .f32) (lin blue red side table W bias (ix2 n q))))) := rfl
  rw [e1, ofBits_one]
  generalize lin blue red side table W bias (ix2 n q) = x
  exact logistic_spelled x

/-- The reference's result is the specification, every index word in range. -/
theorem out_eq (blue red : IVec S16384x5 32) (side : FVec Ideal S16384 .f32) (table : FVec Ideal S100000x64 .f32)
    (W : FVec Ideal S641x1 .f32) (bias : FVec Ideal S1 .f32) (hb : ∀ i, InRange (blue i)) (hr : ∀ i, InRange (red i)) :
    out blue red side table W bias = Cert.Spec.G blue red side table W bias := by
  funext i
  obtain ⟨n, q, rfl⟩ : ∃ (n : Fin 16384) (q : Fin 1), i = ix2 n q := ⟨i 0, i 1, eq_ix2 i⟩
  exact out_apply blue red side table W bias hb hr n q

end Cert.ReferenceIdeal.RefIndex

end
-- ==== Proof.RefValue.lean ====
/-
  The reference computes the specification.

  The precondition says, besides the finiteness of the float inputs, that every word of the two index arrays
  lies in [0, 99999] as a signed integer (it is a conjunction of "all" reductions that evaluates to 1). Under
  it the reference's result term is the specification `Cert.Spec.G` of the six argument arrays, element by
  element; with the reference's run this gives: every weakly fair execution terminates with the result buffer
  at `G` of the arguments' launch contents, and the arguments unchanged.
-/
import proofs.«204616_g36739150250405_cont_8to1_b_1211_24_alg».proof.Defs
import proofs.«204616_g36739150250405_cont_8to1_b_1211_24_alg».proof.Proof.RefIndex
import Idealize.ShloMosaic.Lib.ReduceAll

noncomputable section

namespace Cert.ReferenceIdeal.RefValue

open Idealize.ShloMosaic Idealize.SL.Sem Idealize.ShloMosaic.ValueIdx

/-- The rank-0 shape has one index. -/
instance : Subsingleton Cert.Pre_input_domain.S_.Idx := ⟨fun a b => funext fun d => d.elim0⟩

/-- The precondition read back at the two index arrays: every word lies in [0, 99999]. -/
theorem inRange_of_pre [Cert.Pre_input_domain.Facts]
    (a0 a1 : IVec Cert.Pre_input_domain.S16384x5 32) (a2 : FVec Ideal Cert.Pre_input_domain.S16384 .f32)
    (a3 : FVec Ideal Cert.Pre_input_domain.S100000x64 .f32) (a4 : FVec Ideal Cert.Pre_input_domain.S641x1 .f32)
    (a5 : FVec Ideal Cert.Pre_input_domain.S1 .f32)
    (h : Cert.Pre_input_domain.fn (F := Ideal) a0 a1 a2 a3 a4 a5 = fun _ => 1#1) :
    (∀ i, RefIndex.InRange (a0 i)) ∧ (∀ i, RefIndex.InRange (a1 i)) := by
  have h0 := congrFun h ix0
  dsimp only [Cert.Pre_input_domain.fn, Cert.Pre_input_domain.fn_part1] at h0
  obtain ⟨h1, hred⟩ := IntOp.andi_eq_one.1 h0
  obtain ⟨-, hblue⟩ := IntOp.andi_eq_one.1 h1
  have hz : (0#32 : BitVec 32).toInt = 0 := by decide
  have hm : (99999#32 : BitVec 32).toInt = 99999 := by decide
  constructor
  · intro i
    obtain ⟨hge, hle⟩ := IntOp.andi_eq_one.1 (Host.reduce_andi_all _ _ _ _ ix0 hblue i)
    have h1 : (0#32 : BitVec 32).toInt ≤ (a0 i).toInt := IntOp.cmpi_sge.1 hge
    have h2 : (a0 i).toInt ≤ (99999#32 : BitVec 32).toInt := IntOp.cmpi_sle.1 hle
    exact ⟨by omega, by omega⟩
  · intro i
    obtain ⟨hge, hle⟩ := IntOp.andi_eq_one.1 (Host.reduce_andi_all _ _ _ _ ix0 hred i)
    have h1 : (0#32 : BitVec 32).toInt ≤ (a1 i).toInt := IntOp.cmpi_sge.1 hge
    have h2 : (a1 i).toInt ≤ (99999#32 : BitVec 32).toInt := IntOp.cmpi_sle.1 hle
    exact ⟨by omega, by omega⟩

/-- Under the precondition every weakly fair execution of the reference terminates with its result buffer at
    the specification of the argument arrays, and the arguments unchanged. -/
theorem run [Cert.ReferenceIdeal.Facts] [Cert.Pre_input_domain.Facts]
    (m : (ℓ : Loc Cert.ReferenceIdeal.nD Cert.ReferenceIdeal.τ Cert.ReferenceIdeal.sig) → Buf (Elt Ideal) ℓ) (g : Dev Cert.ReferenceIdeal.nD → PrngReg)
    (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v15) = Cert.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)) :=
  (θ_run (Cert.ReferenceIdeal.defs (F := Ideal)) _ _).mono (fun _ h c => ⟨(h c).1.trans (by
      obtain ⟨hb, hr⟩ := inRange_of_pre _ _ _ _ _ _ (hpre c)
      exact RefIndex.out_eq _ _ _ _ _ _ hb hr), (h c).2⟩)
    (RefRun.run (F := Ideal) m g)

end Cert.ReferenceIdeal.RefValue

end
-- ==== Proof.KClaims.lean ====
/-
  The certificate's claims about the idealized kernel, from the statement of its run.

  The run ends, on every device, with every unscoped TensorCore buffer at the last contents of the fold through
  @main's stretches and calls, for some result of the first region, projected table and gathered array the run
  passed through. No stretch and no call writes an argument, so the arguments end as launched (the frame); and the
  result buffer holds the specification of the argument arrays, which is also what the reference returns from a
  memory that agrees on the arguments (the two programs compute the same function).
-/
import proofs.«204616_g36739150250405_cont_8to1_b_1211_24_alg».proof.Proof.KStmt
import proofs.«204616_g36739150250405_cont_8to1_b_1211_24_alg».proof.Proof.KValue
import proofs.«204616_g36739150250405_cont_8to1_b_1211_24_alg».proof.Proof.KPreV
import proofs.«204616_g36739150250405_cont_8to1_b_1211_24_alg».proof.Proof.RefValue
import proofs.«204616_g36739150250405_cont_8to1_b_1211_24_alg».proof.Proof.Gen.Pre_input_domain

noncomputable section

namespace Cert.Proof.Claims

open Idealize.ShloMosaic Idealize.SL.Sem
open Cert.KernelIdeal.KS
open Cert.Proof.ScTile (ptLoc itLoc outLoc gat)

section Frame
variable {F : FTy → Type} [FloatOps F]

/-- The arguments end as launched: each is an unscoped TensorCore buffer that nothing writes. -/
theorem frame_of_run (m : (ℓ : Loc Cert.KernelIdeal.nD Cert.KernelIdeal.τ Cert.KernelIdeal.sig) → Buf (Elt F) ℓ) (ρ : Dev Cert.KernelIdeal.nD → PrngReg)
    (Ag : (d : Dev Cert.KernelIdeal.nD) → Buf (Elt F) (ptLoc d) → Prop) (h : RunStmt m ρ Ag) :
    θ_run (Cert.KernelIdeal.defs (F := F)) (Cert.KernelIdeal.threads (F := F)) ⟨m, fun _ => 0, ρ⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run (Cert.KernelIdeal.defs (F := F)) _ _).mono (fun r hr c => by
    obtain ⟨G, PT, f, -, hb⟩ := hr c
    exact ⟨(hb _ (show Proc.devRef .tc (Cert.KernelIdeal.main_arg0 : Ref Cert.KernelIdeal.sig .tc) ∈ Pipeline.ucRefs Cert.KernelIdeal.τ Cert.KernelIdeal.sig from by decide)).trans (W7_arg0 m c G PT f),
      (hb _ (show Proc.devRef .tc (Cert.KernelIdeal.main_arg1 : Ref Cert.KernelIdeal.sig .tc) ∈ Pipeline.ucRefs Cert.KernelIdeal.τ Cert.KernelIdeal.sig from by decide)).trans (W7_arg1 m c G PT f),
      (hb _ (show Proc.devRef .tc (Cert.KernelIdeal.main_arg2 : Ref Cert.KernelIdeal.sig .tc) ∈ Pipeline.ucRefs Cert.KernelIdeal.τ Cert.KernelIdeal.sig from by decide)).trans (W7_arg2 m c G PT f),
      (hb _ (show Proc.devRef .tc (Cert.KernelIdeal.main_arg3 : Ref Cert.KernelIdeal.sig .tc) ∈ Pipeline.ucRefs Cert.KernelIdeal.τ Cert.KernelIdeal.sig from by decide)).trans (W7_arg3 m c G PT f),
      (hb _ (show Proc.devRef .tc (Cert.KernelIdeal.main_arg4 : Ref Cert.KernelIdeal.sig .tc) ∈ Pipeline.ucRefs Cert.KernelIdeal.τ Cert.KernelIdeal.sig from by decide)).trans (W7_arg4 m c G PT f),
      (hb _ (show Proc.devRef .tc (Cert.KernelIdeal.main_arg5 : Ref Cert.KernelIdeal.sig .tc) ∈ Pipeline.ucRefs Cert.KernelIdeal.τ Cert.KernelIdeal.sig from by decide)).trans (W7_arg5 m c G PT f)⟩) h

end Frame

/-- The reference runs and leaves its arguments unchanged. -/
theorem frame_ri : Cert.frame_ReferenceIdeal (hReferenceIdeal := Cert.ReferenceIdeal.Gen.facts) (hPre_input_domain := Cert.Pre_input_domain.Gen.facts) :=
  fun m g hpre => (θ_run (Cert.ReferenceIdeal.defs (F := Ideal)) _ _).mono (fun _ h c => (h c).2) (Cert.ReferenceIdeal.RefValue.run m g hpre)

/-- The idealized kernel's frame, and its agreement with the reference, from the statement of its run. -/
theorem claims_of_run
    (hrun : ∀ (m : (ℓ : Loc Cert.KernelIdeal.nD Cert.KernelIdeal.τ Cert.KernelIdeal.sig) → Buf (Elt Ideal) ℓ) (ρ : Dev Cert.KernelIdeal.nD → PrngReg),
      Cert.Pre_KernelIdeal (hPre_input_domain := Cert.Pre_input_domain.Gen.facts) m → RunStmt (F := Ideal) m ρ (AgI m)) :
    Cert.frame_KernelIdeal (hKernelIdeal := Cert.KernelIdeal.Gen.facts) (hPre_input_domain := Cert.Pre_input_domain.Gen.facts)
      ∧ Cert.algebraic_KernelIdeal_ReferenceIdeal (hKernelIdeal := Cert.KernelIdeal.Gen.facts) (hReferenceIdeal := Cert.ReferenceIdeal.Gen.facts)
          (hPre_input_domain := Cert.Pre_input_domain.Gen.facts) := by
  refine ⟨fun m g hpre => frame_of_run m g (AgI m) (hrun m g hpre), fun m g m' g' hpre hagree => ?_⟩
  have hpre' : Cert.Pre_ReferenceIdeal (hPre_input_domain := Cert.Pre_input_domain.Gen.facts) m' := fun c => by
    rw [(hagree c).1, (hagree c).2.1, (hagree c).2.2.1, (hagree c).2.2.2.1, (hagree c).2.2.2.2.1, (hagree c).2.2.2.2.2]
    exact hpre c
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run (Cert.KernelIdeal.defs (F := Ideal)) _ _).mono (fun r hr c => by
      obtain ⟨G, PT, f, ⟨hAg, hf⟩, hb⟩ := hr c
      exact ⟨(hb _ (show Proc.devRef .tc (Cert.KernelIdeal.main_v21 : Ref Cert.KernelIdeal.sig .tc) ∈ Pipeline.ucRefs Cert.KernelIdeal.τ Cert.KernelIdeal.sig from by decide)).trans (value m c G PT f (ITm_lt m c (hpre c)) hAg hf),
        (hb _ (show Proc.devRef .tc (Cert.KernelIdeal.main_arg0 : Ref Cert.KernelIdeal.sig .tc) ∈ Pipeline.ucRefs Cert.KernelIdeal.τ Cert.KernelIdeal.sig from by decide)).trans (W7_arg0 m c G PT f),
        (hb _ (show Proc.devRef .tc (Cert.KernelIdeal.main_arg1 : Ref Cert.KernelIdeal.sig .tc) ∈ Pipeline.ucRefs Cert.KernelIdeal.τ Cert.KernelIdeal.sig from by decide)).trans (W7_arg1 m c G PT f),
        (hb _ (show Proc.devRef .tc (Cert.KernelIdeal.main_arg2 : Ref Cert.KernelIdeal.sig .tc) ∈ Pipeline.ucRefs Cert.KernelIdeal.τ Cert.KernelIdeal.sig from by decide)).trans (W7_arg2 m c G PT f),
        (hb _ (show Proc.devRef .tc (Cert.KernelIdeal.main_arg3 : Ref Cert.KernelIdeal.sig .tc) ∈ Pipeline.ucRefs Cert.KernelIdeal.τ Cert.KernelIdeal.sig from by decide)).trans (W7_arg3 m c G PT f),
        (hb _ (show Proc.devRef .tc (Cert.KernelIdeal.main_arg4 : Ref Cert.KernelIdeal.sig .tc) ∈ Pipeline.ucRefs Cert.KernelIdeal.τ Cert.KernelIdeal.sig from by decide)).trans (W7_arg4 m c G PT f),
        (hb _ (show Proc.devRef .tc (Cert.KernelIdeal.main_arg5 : Ref Cert.KernelIdeal.sig .tc) ∈ Pipeline.ucRefs Cert.KernelIdeal.τ Cert.KernelIdeal.sig from by decide)).trans (W7_arg5 m c G PT f)⟩) (hrun m g hpre)
  · exact (θ_run (Cert.ReferenceIdeal.defs (F := Ideal)) _ _).mono (fun r h c => ⟨by
      rw [(h c).1, (hagree c).1, (hagree c).2.1, (hagree c).2.2.1, (hagree c).2.2.2.1, (hagree c).2.2.2.2.1, (hagree c).2.2.2.2.2],
      (h c).2⟩) (Cert.ReferenceIdeal.RefValue.run m' g' hpre')

end Cert.Proof.Claims

end
-- ==== Proof.KSteps.lean ====
/-
  The steps of @main on the TensorCore, each as one entailment over the thread state: a stretch of host operations,
  the first region, the second region.
-/
import proofs.«204616_g36739150250405_cont_8to1_b_1211_24_alg».proof.Proof.KSetup
import proofs.«204616_g36739150250405_cont_8to1_b_1211_24_alg».proof.Proof.KStmt

noncomputable section

namespace Cert.KernelIdeal.KS

open Cert.KernelIdeal Cert.KernelIdeal.Gen Cert.KernelIdeal.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Idealize.ShloMosaic.TcCoe
open Cert.KernelIdeal.TcReg
open Cert.Proof.ScTile (ptLoc itLoc outLoc gat)

variable {F : FTy → Type} [FloatOps F]

local notation "𝕄" => MT nD τ sig (HIx 1) (Elt F) ℕ UU ℕ

/-- What the TensorCore owes the handshakes before call `n`, its recorded pairs bounded. -/
abbrev Rowes (d : Dev nD) (n : ℕ) : sProp 𝕄 :=
  iprop(∃ W, ⌜(K (F := F)).WBelow (T d) W (8 * n)⌝ ∗ owes (T d) (Oc (F := F) d n) W)

set_option maxHeartbeats 1000000 in
set_option backward.isDefEq.respectTransparency.types false in
/-- A stretch of host operations at the head of the TensorCore's program, over its unscoped buffers. -/
theorem host_step (d : Dev nD) (ops : List (HloOp τ sig (Elt F))) (hsub : ∀ op ∈ ops, op.bufs ⊆ Pipeline.ucRefs τ sig)
    (hfresh : ∀ op ∈ ops, op.fresh = ∅) (W : Valuation τ sig (Elt F)) {β : Type}
    (k : PUnit → Prog (TpuEff nD τ sig (Elt F) (SparseCore.Sig (ΛP (F := F)) 1) .tc) β) (Φ : β → sProp 𝕄) :
    iprop(boundary (T d) ∗ held (T d) (Pipeline.ucRefs τ sig) W
        ∗ (iprop(boundary (T d) ∗ held (T d) (Pipeline.ucRefs τ sig) (StableHlo.after ops W))
            -∗ wp frame (wpE ((K (F := F)).defs (D (F := F))) 𝒱 (T d) none) Set.univ (k ⟨⟩) Φ))
      ⊢ wp frame (wpE ((K (F := F)).defs (D (F := F))) 𝒱 (T d) none) Set.univ (StableHlo.seq ops >>= k) Φ := by
  iintro ⟨Hb, Hh, Hk⟩
  iapply (wp_seq 𝒱 none Set.univ d (Pipeline.ucRefs τ sig) k ops hsub hfresh W) $$ [Hb Hh]
  · isplitl [Hb] <;> iassumption
  iexact Hk

variable (m : (ℓ : Loc nD τ sig) → Buf (Elt F) ℓ) (ρ : Dev nD → PrngReg)

/-- What the launch deals the TensorCore, its unscoped buffers read as the fold's first contents. -/
theorem tcRes_eq (d : Dev nD) : ((K (F := F)).tcRes m ρ d : sProp 𝕄)
    = iprop(boundary (T d) ∗ held (T d) (Pipeline.ucRefs τ sig) (W0 m d) ∗ (K (F := F)).tcSems0 d ∗ prngReg d (ρ d)) := by
  unfold SparseCore.Cfg.tcRes
  rw [← Pipeline.unscopedBufs_held d (W0 m d)]

set_option maxHeartbeats 4000000 in
set_option backward.isDefEq.respectTransparency.types false in
/-- The first region as a step of @main, from the thread state at contents `W` before call `n`. -/
theorem reg0_step [∀ e, Nonempty (Elt F e)] (d : Dev nD) (W : Valuation τ sig (Elt F)) (n : ℕ) (Φ : PUnit → sProp 𝕄) :
    iprop(boundary (T d) ∗ held (T d) (Pipeline.ucRefs τ sig) W ∗ (∃ r, prngReg d r) ∗ Rowes (F := F) d n
        ∗ levAts (K (F := F)).L (K (F := F)).lev
        ∗ Pipeline.cellsGhost (Pipeline.pin (pcfgs (F := F)) adm) EP 0 d ∗ Pipeline.toksInit (Pipeline.pin (pcfgs (F := F)) adm) EP 0 d
        ∗ (iprop(boundary (T d) ∗ ∃ G, ⌜(rdat0 (F := F) (U := UU) (VW fun _ => W) (Oc (F := F) d n) (Rc (F := F) d n) d).ArrAt 2 cfg0.N G⌝
              ∗ held (T d) (Pipeline.ucRefs τ sig) (W2 (fun _ => W) d G) ∗ (∃ r, prngReg d r) ∗ Rowes (F := F) d n) -∗ Φ ⟨⟩))
      ⊢ wp frame (wpE ((K (F := F)).defs (D (F := F))) 𝒱 (T d) none) Set.univ
          (Prog.lift (.customCall (SparseCore.inner (Pipeline.entry (0 : Fin 2))) ())) Φ := by
  iintro ⟨Hb, Hh, Hp, HO, Hlev, Hcg, Htk, Hk⟩
  iapply (region_stepR (rdatsW (fun _ => W) n) (reg0 (fun _ => W) n) d Φ)
  isplitl [Hk]; · iexact Hk
  isplitl [Hb]; · iexact Hb
  isplitl [Hh Hp HO]
  · iapply (show iprop(held (T d) (Pipeline.ucRefs τ sig) W ∗ ((∃ r, prngReg d r) ∗ Rowes (F := F) d n)) ⊢ (reg0 (fun _ => W) n).pre d from .rfl)
    isplitl [Hh]; · iexact Hh
    isplitl [Hp]; · iexact Hp
    iexact HO
  isplitl [Hlev]; · iexact Hlev
  isplitl [Hcg] <;> iassumption

set_option maxHeartbeats 4000000 in
set_option backward.isDefEq.respectTransparency.types false in
/-- The second region as a step of @main, from the thread state at contents `W` before call `n`. -/
theorem reg2_step [∀ e, Nonempty (Elt F e)] (d : Dev nD) (W : Valuation τ sig (Elt F)) (n : ℕ) (Φ : PUnit → sProp 𝕄) :
    iprop(boundary (T d) ∗ held (T d) (Pipeline.ucRefs τ sig) W ∗ (∃ r, prngReg d r) ∗ Rowes (F := F) d n
        ∗ levAts (K (F := F)).L (K (F := F)).lev
        ∗ Pipeline.cellsGhost (Pipeline.pin (pcfgs (F := F)) adm) EP 1 d ∗ Pipeline.toksInit (Pipeline.pin (pcfgs (F := F)) adm) EP 1 d
        ∗ (iprop(boundary (T d) ∗ held (T d) (Pipeline.ucRefs τ sig) (W6 (fun _ => W) n d) ∗ (∃ r, prngReg d r) ∗ Rowes (F := F) d n) -∗ Φ ⟨⟩))
      ⊢ wp frame (wpE ((K (F := F)).defs (D (F := F))) 𝒱 (T d) none) Set.univ
          (Prog.lift (.customCall (SparseCore.inner (Pipeline.entry (1 : Fin 2))) ())) Φ := by
  iintro ⟨Hb, Hh, Hp, HO, Hlev, Hcg, Htk, Hk⟩
  iapply (region_stepR (rdatsW (fun _ => W) n) (reg2 (fun _ => W) n) d Φ)
  isplitl [Hk]; · iexact Hk
  isplitl [Hb]; · iexact Hb
  isplitl [Hh Hp HO]
  · iapply (show iprop(held (T d) (Pipeline.ucRefs τ sig) W ∗ ((∃ r, prngReg d r) ∗ Rowes (F := F) d n)) ⊢ (reg2 (fun _ => W) n).pre d from .rfl)
    isplitl [Hh]; · iexact Hh
    isplitl [Hp]; · iexact Hp
    iexact HO
  isplitl [Hlev]; · iexact Hlev
  isplitl [Hcg] <;> iassumption

end Cert.KernelIdeal.KS

end
-- ==== Proof.KLaunch.lean ====
/-
  The launch's ghost state (the handshakes' rounds, the two pipelines' staging cells' rounds and duty tokens, no
  counter yet), the TensorCore's handshake state with its debts set apart, and what @main leaves the claim.
-/
import proofs.«204616_g36739150250405_cont_8to1_b_1211_24_alg».proof.Proof.KSetup
import proofs.«204616_g36739150250405_cont_8to1_b_1211_24_alg».proof.Proof.KStmt

noncomputable section

namespace Cert.KernelIdeal.KS

open Cert.KernelIdeal Cert.KernelIdeal.Gen Cert.KernelIdeal.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Idealize.ShloMosaic.TcCoe
open Cert.KernelIdeal.TcReg
open Cert.Proof.ScTile (ptLoc itLoc outLoc gat)

variable {F : FTy → Type} [FloatOps F]

local notation "𝕄" => MT nD τ sig (HIx 1) (Elt F) ℕ UU ℕ

variable (m : (ℓ : Loc nD τ sig) → Buf (Elt F) ℓ) (ρ : Dev nD → PrngReg)
variable (Ag : (d : Dev nD) → Buf (Elt F) (ptLoc d) → Prop)

/-- What the handshakes of the one SparseCore call carry. -/
abbrev PPm : (K (F := F)).Pay (nD := nD) (Val := Elt F) (Name := ℕ) (U := UU) := PP (ITf m) Ag

/-! ## The launch element -/

/-- The launch element: the handshakes' rounds, the staging cells' rounds, no counter yet. -/
def u₀ : UU := (initOf (K (F := F)).hsCells (K (F := F)).hsToks,
  (initOf (Pipeline.cells (Pipeline.pin (pcfgs (F := F)) adm) cinj) (Pipeline.launchToks (Pipeline.pin (pcfgs (F := F)) adm) cinj), 1))

/-- What the launch leaves the TensorCore of `d` beyond its handshake state: both pipelines' cells' ghost state and
    duty tokens. -/
abbrev Gd (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (PPm m Ag).x q thr) := by
  have hG : (bigSep Finset.univ fun d : Dev nD => Gd (F := F) d)
      = iprop((bigSep Finset.univ fun c : Dev nD => bigSep Finset.univ fun p : Fin 2 => Pipeline.cellsGhost (Pipeline.pin (pcfgs (F := F)) adm) EP p c)
          ∗ (bigSep Finset.univ fun c : Dev nD => bigSep Finset.univ fun p : Fin 2 => (Pipeline.toksInit (Pipeline.pin (pcfgs (F := F)) adm) EP p c : sProp 𝕄))) := by
    rw [← bigSep_sep']
  have hX : (bigSep Finset.univ fun thr : Thread nD τ => bigSep Finset.univ fun q : Fin 1 => (PPm m Ag).x q thr) = (iprop(emp) : sProp 𝕄) := by
    show (bigSep Finset.univ fun _ : Thread nD τ => bigSep Finset.univ fun _ : Fin 1 => (iprop(emp) : sProp 𝕄)) = _
    rw [bigSep_congr fun _ _ => bigSep_emp' _, bigSep_emp']
  rw [hG, hX]
  unfold u₀
  iintro Hu
  ihave H := (ownU_pair _ _) $$ Hu
  icases H with ⟨HH, HR⟩
  ihave HP := (show BI.own (embR (A := UH) (initOf (Pipeline.cells (Pipeline.pin (pcfgs (F := F)) adm) cinj) (Pipeline.launchToks (Pipeline.pin (pcfgs (F := F)) adm) cinj), (1 : Counters)))
      ⊢ (BI.own (EP (F := F) (initOf (Pipeline.cells (Pipeline.pin (pcfgs (F := F)) adm) cinj) (Pipeline.launchToks (Pipeline.pin (pcfgs (F := F)) adm) cinj))) : sProp 𝕄) from .rfl) $$ HR
  imod (Pipeline.fund_ghost (Pipeline.pin (pcfgs (F := F)) adm) EP cinj) $$ HP with ⟨Hcg, Htk⟩
  imodintro
  isplitl [HH]; · iexact HH
  isplitl [Hcg Htk]
  · isplitl [Hcg] <;> iassumption
  iempintro

/-! ## The TensorCore's handshake state, its debts apart -/

/-- The TensorCore's handshake state before call `n` but for what it owes. -/
def tcTail (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
theorem tcSt_eq (d : Dev nD) (n : ℕ) : ((K (F := F)).tcSt EH d n : sProp 𝕄)
    = iprop((∃ W, ⌜(K (F := F)).WBelow (T d) W (8 * n)⌝ ∗ owes (T d) (Oc (F := F) d n) W) ∗ tcTail (F := F) d n) := rfl

omit [FloatOps F] in
/-- The two pipelines, one by one. -/
theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-! ## @main -/

/-- What @main leaves the claim on device `d`: every unscoped buffer at the fold's last contents, for SOME result array
    `G` of the first region, projection `PT` and gathered array `f` the run may have passed through. -/
def FIN (d : Dev nD) : sProp 𝕄 :=
  iprop(∃ (G : Buf (Elt F) ((d : Thread nD τ).loc main_v7)) (PT : Buf (Elt F) (ptLoc d)) (f : Buf (Elt F) (outLoc d)),
    ⌜Ag d PT ∧ ∀ j, f j = PT (gat (ITf m) d j)⌝ ∗ held (T d) (Pipeline.ucRefs τ sig) (W7 m d G PT f))

end Cert.KernelIdeal.KS

end
-- ==== Proof.KMain.lean ====
/-
  @main on the TensorCore inside the SparseCore launch theorem, stretch by stretch — host operations, the first region,
  host operations, the SparseCore call, host operations, the second region, the last operation — each entered from
  what the one before it left; the TensorCore's handshake state goes in before call 0 and comes out after it.
-/
import proofs.«204616_g36739150250405_cont_8to1_b_1211_24_alg».proof.Proof.KSetup
import proofs.«204616_g36739150250405_cont_8to1_b_1211_24_alg».proof.Proof.KSteps
import proofs.«204616_g36739150250405_cont_8to1_b_1211_24_alg».proof.Proof.KLaunch
import proofs.«204616_g36739150250405_cont_8to1_b_1211_24_alg».proof.Proof.KValueG

noncomputable section

namespace Cert.KernelIdeal.KS

open Cert.KernelIdeal Cert.KernelIdeal.Gen Cert.KernelIdeal.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Idealize.ShloMosaic.TcCoe
open Cert.KernelIdeal.TcReg
open Cert.Proof.ScTile (ptLoc itLoc outLoc gat)

variable {F : FTy → Type} [FloatOps F]

local notation "𝕄" => MT nD τ sig (HIx 1) (Elt F) ℕ UU ℕ

variable (m : (ℓ : Loc nD τ sig) → Buf (Elt F) ℓ) (ρ : Dev nD → PrngReg)
variable (Ag : (d : Dev nD) → Buf (Elt F) (ptLoc d) → Prop)

set_option maxHeartbeats 4000000 in
set_option backward.isDefEq.respectTransparency.types false in
theorem hmain [∀ e, Nonempty (Elt F e)]
    (hAg0 : ∀ d G, (rdat0 (F := F) (U := UU) (VW fun _ => W1 m d) (Oc (F := F) d 0) (Rc (F := F) d 0) d).ArrAt 2 cfg0.N G → Ag d G)
    (κ : GSem nD τ sig → ℕ) (d : Dev nD) :
    iprop((K (F := F)).ctx EH (PPm m Ag) κ ∗ (K (F := F)).tcSt EH d 0 ∗ (K (F := F)).tcRes m ρ d ∗ Gd (F := F) d)
      ⊢ wp frame (wpE ((K (F := F)).defs (D (F := F))) 𝒱 (T d) none) Set.univ (main (F := F) d)
          fun _ => iprop((K (F := F)).tcSt EH d 1 ∗ FIN m Ag d) := by
  rw [main_eq, tcSt_eq, tcRes_eq]
  iintro ⟨#Hctx, ⟨Howes, Htail⟩, ⟨Hb, Hheld, -, Hprng⟩, ⟨Hcg, Htk⟩⟩
  ihave Hcg' := (Entails.of_eq (bigSep_two _)) $$ Hcg
  icases Hcg' with ⟨Hcg0, Hcg1⟩
  ihave Htk' := (Entails.of_eq (bigSep_two _)) $$ Htk
  icases Htk' with ⟨Htk0, Htk1⟩
  -- the first host stretch
  iapply (host_step d ops0 ops0_sub ops0_fresh (W0 m d) _ _)
  isplitl [Hb]; · iexact Hb
  isplitl [Hheld]; · iexact Hheld
  iintro ⟨Hb, Hheld⟩
  -- the first region
  rw [wp_bind]
  ihave Hlev := (SparseCore.Cfg.ctx_levAts κ) $$ Hctx
  iapply (reg0_step d (W1 m d) 0 _)
  isplitl [Hb]; · iexact Hb
  isplitl [Hheld]; · iexact Hheld
  isplitl [Hprng]; · iexists _; iexact Hprng
  isplitl [Howes]; · iexact Howes
  isplitl [Hlev]; · iexact Hlev
  isplitl [Hcg0]; · iexact Hcg0
  isplitl [Htk0]; · iexact Htk0
  iintro ⟨Hb, ⟨%G, %hG, Hheld, Hprng, Howes⟩⟩
  -- the second host stretch
  iapply (host_step d ops1 ops1_sub ops1_fresh (W2 (fun _ => W1 m d) d G) _ _)
  isplitl [Hb]; · iexact Hb
  isplitl [Hheld]; · iexact Hheld
  iintro ⟨Hb, Hheld⟩
  -- the SparseCore call
  rw [wp_bind]
  iapply (sc_step (ITf m) Ag κ d (W3 m d G) (by rw [W3_r7]; exact hAg0 d G hG) (W3_r10 m d G) _)
  isplitr; · iexact Hctx
  isplitl [Howes Htail]
  · iapply (Entails.of_eq (tcSt_eq d 0).symm); isplitl [Howes] <;> iassumption
  isplitl [Hheld]; · iexact Hheld
  iintro ⟨Hst, ⟨%PT, %f, %hf, Hheld⟩⟩
  ihave Hst' := (Entails.of_eq (tcSt_eq d 1)) $$ Hst
  icases Hst' with ⟨Howes, Htail⟩
  -- the third host stretch
  iapply (host_step d ops2 ops2_sub ops2_fresh (W4 m d G PT f) _ _)
  isplitl [Hb]; · iexact Hb
  isplitl [Hheld]; · iexact Hheld
  iintro ⟨Hb, Hheld⟩
  -- the second region
  rw [wp_bind]
  ihave Hlev := (SparseCore.Cfg.ctx_levAts κ) $$ Hctx
  iapply (reg2_step d (W5 m d G PT f) 1 _)
  isplitl [Hb]; · iexact Hb
  isplitl [Hheld]; · iexact Hheld
  isplitl [Hprng]; · iexact Hprng
  isplitl [Howes]; · iexact Howes
  isplitl [Hlev]; · iexact Hlev
  isplitl [Hcg1]; · iexact Hcg1
  isplitl [Htk1]; · iexact Htk1
  iintro ⟨Hb, Hheld, Hprng, Howes⟩
  -- the last operation
  iapply (host_step d ops3 ops3_sub ops3_fresh (W6v m d G PT f) _ _)
  isplitl [Hb]; · iexact Hb
  isplitl [Hheld]; · iexact Hheld
  iintro ⟨Hb, Hheld⟩
  rw [wp_pure]; imodintro
  isplitl [Howes Htail]
  · iapply (Entails.of_eq (tcSt_eq d 1).symm); isplitl [Howes] <;> iassumption
  unfold FIN
  iexists G; iexists PT; iexists f
  isplitr; · ipureintro; exact hf
  iexact Hheld

end Cert.KernelIdeal.KS

end
-- ==== Proof.KRead.lean ====
/-
  Reading a set of held buffers against a final state: buffers held whole at contents `V`, together with the state
  interpretation of a physical state, pin that state's memory at those buffers to `V` — a plain entailment, no update.
-/
import proofs.«204616_g36739150250405_cont_8to1_b_1211_24_alg».proof.Proof.KSetup

noncomputable section

namespace Cert.KernelIdeal.KS

open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} {U : Type} [URA U]

/-- The buffers `S` of thread `c`'s device, held whole at `V`, under the state interpretation of `s'`: the memory of
    `s'` at each of them is `V`'s. -/
theorem held_read (c : Thread nD τ) (S : Finset (DevRef τ sig)) (V : Valuation τ sig (Elt F)) (s' : Phys nD τ sig (Elt F)) :
    iprop(StableHlo.held c S V ∗ SI s') ⊢ (⌜∀ b ∈ S, s'.mem.mem (c.1, b) = V b⌝ : sProp (MT nD τ sig (HIx 1) (Elt F) ℕ U ℕ)) := by
  unfold StableHlo.held
  exact sep_comm.1.trans (SI_pointsTo_bufs_agree (c := c.1) (qs := fun _ => fullShare) S)

end Cert.KernelIdeal.KS

end
-- ==== Proof.ScTileBody.lean ====
/-
  The tile obligation of the SparseCore call: one tile's task, run at a symbolic tile.

  A working tile (subcore s < 10 of core h) copies row s of the table into its scratch in four pieces, then twice
  (once per half t of its 8192 index words): copies the 4096 index words in, gathers in a loop of 16 trips of 16
  sixteen-lane indexed loads, and copies the 4096 gathered words out to its piece of the result. Every copy has its own
  semaphore and is waited for at once. An idle tile (s ≥ 10) does nothing.
-/
import proofs.«204616_g36739150250405_cont_8to1_b_1211_24_alg».proof.Proof.ScTilePay
import proofs.«204616_g36739150250405_cont_8to1_b_1211_24_alg».proof.Proof.Gen.KernelIdeal.Skeleton

noncomputable section

namespace Cert.Proof.ScTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open PCS

variable {F : FTy → Type} [FloatOps F]
variable {U : Type} [URA U] [CountersIn U]

local notation "𝕄" => MT nD τ sig (HIx 1) (Elt F) ℕ U ℕ

variable (IT : (d : Dev nD) → Buf (Elt F) (itLoc d))
variable (Ag : (d : Dev nD) → Buf (Elt F) (ptLoc d) → Prop)

section Tile

variable (d : Dev nD) (L : grid1.Coords)

abbrev cV (L : grid1.Coords) : Fin τ.nSC := (L 0).castLE hcore1
abbrev jV (L : grid1.Coords) : Fin τ.nSub := (L 1).castLE hsub1
/-- The tile's thread. -/
abbrev thr : Thread nD τ := V d (cV L) (jV L)

/-- The tile's three scratch buffers: the table's row, the index words, the gathered words. -/
abbrev colW : Memref sig .scVector .vmem S106496 .f32 := Memref.whole cc1_scratch0
abbrev idxW : Memref sig .scVector .vmem S4096 .i32 := Memref.whole cc1_scratch1
abbrev accW : Memref sig .scVector .vmem S4096 .f32 := Memref.whole cc1_scratch2

abbrev cell0 : GSem nD τ sig := (thr d L, .dma cc1_scoped0.sem)
abbrev cell1 : GSem nD τ sig := (thr d L, .dma cc1_scoped1.sem)
abbrev cell2 : GSem nD τ sig := (thr d L, .dma cc1_scoped2.sem)
abbrev cell3 : GSem nD τ sig := (thr d L, .dma cc1_scoped3.sem)
abbrev cell4 : GSem nD τ sig := (thr d L, .dma cc1_scoped4.sem)
abbrev cell5 : GSem nD τ sig := (thr d L, .dma cc1_scoped5.sem)
abbrev cell6 : GSem nD τ sig := (thr d L, .dma cc1_scoped6.sem)
abbrev cell7 : GSem nD τ sig := (thr d L, .dma cc1_scoped7.sem)

omit [FloatOps F] in
theorem cell_ne {s s' : DmaSem sig} (h : s ≠ s') : ((thr d L, SemLoc.dma s) : GSem nD τ sig) ≠ (thr d L, SemLoc.dma s') :=
  fun e => h (SemLoc.dma.inj (Prod.mk.inj e).2)

omit [FloatOps F] in
theorem ownSems0_V :
    (ownSems0 (thr d L) : sProp 𝕄)
      = iprop(semVal (cell0 d L) 0 ∗ semVal (cell1 d L) 0 ∗ semVal (cell2 d L) 0 ∗ semVal (cell3 d L) 0 ∗ semVal (cell4 d L) 0 ∗ semVal (cell5 d L) 0 ∗ semVal (cell6 d L) 0 ∗ semVal (cell7 d L) 0
          ∗ bigSep (((((((((ownCells (thr d L)).erase (cell0 d L)).erase (cell1 d L)).erase (cell2 d L)).erase (cell3 d L)).erase (cell4 d L)).erase (cell5 d L)).erase (cell6 d L)).erase (cell7 d L)) fun g => semVal g 0) := by
  unfold SparseCore.Cfg.ownSems0
  rw [SparseCore.bigSep_erase' ((mem_ownCells (g := cell0 d L)).mpr ⟨rfl, by show (SemLoc.dma cc1_scoped0.sem : SemLoc sig).isScoped .scVector = true; decide⟩),
    SparseCore.bigSep_erase' (Finset.mem_erase.mpr ⟨cell_ne d L (show (cc1_scoped1.sem : DmaSem sig) ≠ cc1_scoped0.sem by decide), (mem_ownCells (g := cell1 d L)).mpr ⟨rfl, by show (SemLoc.dma cc1_scoped1.sem : SemLoc sig).isScoped .scVector = true; decide⟩⟩),
    SparseCore.bigSep_erase' (Finset.mem_erase.mpr ⟨cell_ne d L (show (cc1_scoped2.sem : DmaSem sig) ≠ cc1_scoped1.sem by decide), Finset.mem_erase.mpr ⟨cell_ne d L (show (cc1_scoped2.sem : DmaSem sig) ≠ cc1_scoped0.sem by decide), (mem_ownCells (g := cell2 d L)).mpr ⟨rfl, by show (SemLoc.dma cc1_scoped2.sem : SemLoc sig).isScoped .scVector = true; decide⟩⟩⟩),
    SparseCore.bigSep_erase' (Finset.mem_erase.mpr ⟨cell_ne d L (show (cc1_scoped3.sem : DmaSem sig) ≠ cc1_scoped2.sem by decide), Finset.mem_erase.mpr ⟨cell_ne d L (show (cc1_scoped3.sem : DmaSem sig) ≠ cc1_scoped1.sem by decide), Finset.mem_erase.mpr ⟨cell_ne d L (show (cc1_scoped3.sem : DmaSem sig) ≠ cc1_scoped0.sem by decide), (mem_ownCells (g := cell3 d L)).mpr ⟨rfl, by show (SemLoc.dma cc1_scoped3.sem : SemLoc sig).isScoped .scVector = true; decide⟩⟩⟩⟩),
    SparseCore.bigSep_erase' (Finset.mem_erase.mpr ⟨cell_ne d L (show (cc1_scoped4.sem : DmaSem sig) ≠ cc1_scoped3.sem by decide), Finset.mem_erase.mpr ⟨cell_ne d L (show (cc1_scoped4.sem : DmaSem sig) ≠ cc1_scoped2.sem by decide), Finset.mem_erase.mpr ⟨cell_ne d L (show (cc1_scoped4.sem : DmaSem sig) ≠ cc1_scoped1.sem by decide), Finset.mem_erase.mpr ⟨cell_ne d L (show (cc1_scoped4.sem : DmaSem sig) ≠ cc1_scoped0.sem by decide), (mem_ownCells (g := cell4 d L)).mpr ⟨rfl, by show (SemLoc.dma cc1_scoped4.sem : SemLoc sig).isScoped .scVector = true; decide⟩⟩⟩⟩⟩),
    SparseCore.bigSep_erase' (Finset.mem_erase.mpr ⟨cell_ne d L (show (cc1_scoped5.sem : DmaSem sig) ≠ cc1_scoped4.sem by decide), Finset.mem_erase.mpr ⟨cell_ne d L (show (cc1_scoped5.sem : DmaSem sig) ≠ cc1_scoped3.sem by decide), Finset.mem_erase.mpr ⟨cell_ne d L (show (cc1_scoped5.sem : DmaSem sig) ≠ cc1_scoped2.sem by decide), Finset.mem_erase.mpr ⟨cell_ne d L (show (cc1_scoped5.sem : DmaSem sig) ≠ cc1_scoped1.sem by decide), Finset.mem_erase.mpr ⟨cell_ne d L (show (cc1_scoped5.sem : DmaSem sig) ≠ cc1_scoped0.sem by decide), (mem_ownCells (g := cell5 d L)).mpr ⟨rfl, by show (SemLoc.dma cc1_scoped5.sem : SemLoc sig).isScoped .scVector = true; decide⟩⟩⟩⟩⟩⟩),
    SparseCore.bigSep_erase' (Finset.mem_erase.mpr ⟨cell_ne d L (show (cc1_scoped6.sem : DmaSem sig) ≠ cc1_scoped5.sem by decide), Finset.mem_erase.mpr ⟨cell_ne d L (show (cc1_scoped6.sem : DmaSem sig) ≠ cc1_scoped4.sem by decide), Finset.mem_erase.mpr ⟨cell_ne d L (show (cc1_scoped6.sem : DmaSem sig) ≠ cc1_scoped3.sem by decide), Finset.mem_erase.mpr ⟨cell_ne d L (show (cc1_scoped6.sem : DmaSem sig) ≠ cc1_scoped2.sem by decide), Finset.mem_erase.mpr ⟨cell_ne d L (show (cc1_scoped6.sem : DmaSem sig) ≠ cc1_scoped1.sem by decide), Finset.mem_erase.mpr ⟨cell_ne d L (show (cc1_scoped6.sem : DmaSem sig) ≠ cc1_scoped0.sem by decide), (mem_ownCells (g := cell6 d L)).mpr ⟨rfl, by show (SemLoc.dma cc1_scoped6.sem : SemLoc sig).isScoped .scVector = true; decide⟩⟩⟩⟩⟩⟩⟩),
    SparseCore.bigSep_erase' (Finset.mem_erase.mpr ⟨cell_ne d L (show (cc1_scoped7.sem : DmaSem sig) ≠ cc1_scoped6.sem by decide), Finset.mem_erase.mpr ⟨cell_ne d L (show (cc1_scoped7.sem : DmaSem sig) ≠ cc1_scoped5.sem by decide), Finset.mem_erase.mpr ⟨cell_ne d L (show (cc1_scoped7.sem : DmaSem sig) ≠ cc1_scoped4.sem by decide), Finset.mem_erase.mpr ⟨cell_ne d L (show (cc1_scoped7.sem : DmaSem sig) ≠ cc1_scoped3.sem by decide), Finset.mem_erase.mpr ⟨cell_ne d L (show (cc1_scoped7.sem : DmaSem sig) ≠ cc1_scoped2.sem by decide), Finset.mem_erase.mpr ⟨cell_ne d L (show (cc1_scoped7.sem : DmaSem sig) ≠ cc1_scoped1.sem by decide), Finset.mem_erase.mpr ⟨cell_ne d L (show (cc1_scoped7.sem : DmaSem sig) ≠ cc1_scoped0.sem by decide), (mem_ownCells (g := cell7 d L)).mpr ⟨rfl, by show (SemLoc.dma cc1_scoped7.sem : SemLoc sig).isScoped .scVector = true; decide⟩⟩⟩⟩⟩⟩⟩⟩)]

omit [FloatOps F] in
/-- The three scratch buffers are among the subcore's own: they are them, at some contents, and the rest. -/
theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-- What the tile is handed, at a read share `q` of the operands. -/
def GO (q : PosShare TreeShare) : sProp 𝕄 :=
  iprop(∃ PT, ⌜Ag d PT⌝ ∗ (ptLoc d ↦{q} PT) ∗ (itLoc d ↦{q} IT d)
    ∗ (∃ f, outLoc d ↦[pieceSet L 0]{fullShare} f) ∗ ∃ f, outLoc d ↦[pieceSet L 1]{fullShare} f)
/-- What it hands back. -/
def TD (q : PosShare TreeShare) : sProp 𝕄 :=
  iprop(∃ PT, ⌜Ag d PT⌝ ∗ (ptLoc d ↦{q} PT) ∗ (itLoc d ↦{q} IT d)
    ∗ (outLoc d ↦[pieceSet L 0]{fullShare} gatF IT d PT) ∗ outLoc d ↦[pieceSet L 1]{fullShare} gatF IT d PT)

omit [FloatOps F] in
theorem pts_empty_intro (g : Buf (Elt F) (outLoc d)) : (iprop(emp) : sProp 𝕄) ⊢ (outLoc d ↦[(∅ : Finset S10x2x8192.Idx)]{fullShare} g : sProp 𝕄) :=
  Entails.of_eq pointsTo_empty.symm

/-- An idle tile (subcore 10 or above): the branch not taken; its two pieces are empty. -/
theorem tile_idle (hL : ¬ k1_cond1 L = 1#1) (q : PosShare TreeShare) (O : CellTallies nD τ sig (HIx 1)) (W : Waits sig (HIx 1)) :
    (iprop(levAts (K (F := F)).L (K (F := F)).lev ∗ emp ∗ GO IT Ag d L q
        ∗ scopedBufs (thr d L) ∗ scopedSems0 (thr d L) ∗ owes (thr d L) O W) : sProp 𝕄)
      ⊢ wp frame (wpE (defs₀ (F := F)) 𝒱₀ (thr d L) none) Set.univ
          (cc1__sc L ptW (Memref.isWhole_whole _) itW (Memref.isWhole_whole _) outW (Memref.isWhole_whole _) colW (Memref.isWhole_whole _) idxW (Memref.isWhole_whole _) accW (Memref.isWhole_whole _) cc1_scoped0 cc1_scoped1 cc1_scoped2 cc1_scoped3 cc1_scoped4 cc1_scoped5 cc1_scoped6 cc1_scoped7)
          fun _ => iprop(TD IT Ag d L q ∗ scopedBufs (thr d L) ∗ scopedSems0 (thr d L)
            ∗ ∃ W', ⌜∀ p ∈ W', p ∈ W ∨ p.2 = none⌝ ∗ owes (thr d L) O W') := by
  have k1_h1 : ¬ k1_cond1 L = 1#1 := hL
  simp only [cc1__sc_eq_skeleton]; unfold cc1__sc_skel
  unfold GO TD
  rw [pieceSet_idle L hL, pieceSet_idle L hL]
  simp only [pointsTo_empty]
  iintro ⟨-, -, ⟨%PT, %hAg, Hpt, Hit, -, -⟩, Hsb, Hss, HO⟩
  sl_exec
  sl_step
  isplitl [Hpt Hit]
  · iexists PT; isplitr; · ipureintro; exact hAg
    isplitl [Hpt]; · iexact Hpt
    isplitl [Hit]; · iexact Hit
    isplitr
    · iapply (pts_empty_intro (F := F) d _); iempintro
    · iapply (pts_empty_intro (F := F) d _); iempintro
  isplitl [Hsb]; · iexact Hsb
  isplitl [Hss]; · iexact Hss
  iexists W; isplitr
  · ipureintro; exact fun p hp => .inl hp
  · iexact HO

omit [FloatOps F] in
theorem pts_pt (q : PosShare TreeShare) (f : Buf (Elt F) (ptLoc d)) :
    ((ptW).view.loc (thr d L) ↦{q} f : sProp 𝕄) = ptLoc d ↦{q} f := rfl
omit [FloatOps F] in
theorem pts_it (q : PosShare TreeShare) (f : Buf (Elt F) (itLoc d)) :
    ((itW).view.loc (thr d L) ↦{q} f : sProp 𝕄) = itLoc d ↦{q} f := rfl
omit [FloatOps F] in
theorem pts_piece0 (h : k1_cond1 L = 1#1) (f : Buf (Elt F) (outLoc d)) :
    ((piece0 L h).view.loc (thr d L) ↦[(piece0 L h).view.set]{fullShare} f : sProp 𝕄) = outLoc d ↦[pieceSet L 0]{fullShare} f := by
  rw [pieceSet_zero L h]
omit [FloatOps F] in
theorem pts_piece1 (h : k1_cond1 L = 1#1) (f : Buf (Elt F) (outLoc d)) :
    ((piece1 L h).view.loc (thr d L) ↦[(piece1 L h).view.set]{fullShare} f : sProp 𝕄) = outLoc d ↦[pieceSet L 1]{fullShare} f := by
  rw [pieceSet_one L h]
omit [FloatOps F] in
theorem pts_col (f : Buf (Elt F) ((thr d L).loc cc1_scratch0)) :
    ((colW).view.loc (thr d L) ↦{fullShare} f : sProp 𝕄) = (thr d L).loc cc1_scratch0 ↦{fullShare} f := rfl
omit [FloatOps F] in
theorem pts_idx (f : Buf (Elt F) ((thr d L).loc cc1_scratch1)) :
    ((idxW).view.loc (thr d L) ↦{fullShare} f : sProp 𝕄) = (thr d L).loc cc1_scratch1 ↦{fullShare} f := rfl
omit [FloatOps F] in
theorem pts_acc (f : Buf (Elt F) ((thr d L).loc cc1_scratch2)) :
    ((accW).view.loc (thr d L) ↦{fullShare} f : sProp 𝕄) = (thr d L).loc cc1_scratch2 ↦{fullShare} f := rfl

/-! ### What the scratch buffers hold -/

omit [FloatOps F] in
theorem sRow_lt : (L 1).val < 16 := (L 1).isLt
omit [FloatOps F] in
theorem hCore_lt : (L 0).val < 2 := (L 0).isLt

/-- Row `s` of the table: what the first scratch holds after the four copies. -/
def colF (PT : Buf (Elt F) (ptLoc d)) : Buf (Elt F) ((thr d L).loc cc1_scratch0) :=
  fun (j : S106496.Idx) => PT (ix2 (⟨(L 1).val, sRow_lt L⟩ : Fin 16) (⟨(j 0).val, (j 0).isLt⟩ : Fin 106496))

/-! ### The views' placements, by coordinates -/

omit [FloatOps F] in
/-- A working tile's subcore is below 10. -/
theorem cond_lt : ∀ L : grid1.Coords, k1_cond1 L = 1#1 → (L 1).val < 10 := by decide +kernel

omit [FloatOps F] in
theorem trips1 : Scf.trips k1_t1_loop.lb k1_t1_loop.ub k1_t1_loop.st = 16 := by decide +kernel
omit [FloatOps F] in
theorem trips2 : Scf.trips k1_t2_loop.lb k1_t2_loop.ub k1_t2_loop.st = 16 := by decide +kernel

/-- The four quarter-rows of the table's row the tile copies, spelt as the program slices them. -/
abbrev rowP1 (L : grid1.Coords) (h : k1_cond1 L = 1#1) : Memref sig .scVector .hbm S26624 .f32 :=
  ((ptW).slice (Rect.unit (s := S16x106496) (k1_off1 L) S1x26624.size (k1_off1_inb L h)) (fun _ => rfl)).squeeze S26624 squeezes_S1x26624_S26624
abbrev rowP2 (L : grid1.Coords) (h : k1_cond1 L = 1#1) : Memref sig .scVector .hbm S26624 .f32 :=
  ((ptW).slice (Rect.unit (s := S16x106496) (k1_off2 L) S1x26624.size (k1_off2_inb L h)) (fun _ => rfl)).squeeze S26624 squeezes_S1x26624_S26624
abbrev rowP3 (L : grid1.Coords) (h : k1_cond1 L = 1#1) : Memref sig .scVector .hbm S26624 .f32 :=
  ((ptW).slice (Rect.unit (s := S16x106496) (k1_off3 L) S1x26624.size (k1_off3_inb L h)) (fun _ => rfl)).squeeze S26624 squeezes_S1x26624_S26624
abbrev rowP4 (L : grid1.Coords) (h : k1_cond1 L = 1#1) : Memref sig .scVector .hbm S26624 .f32 :=
  ((ptW).slice (Rect.unit (s := S16x106496) (k1_off4 L) S1x26624.size (k1_off4_inb L h)) (fun _ => rfl)).squeeze S26624 squeezes_S1x26624_S26624
/-- The two halves of the tile's row of index words, spelt as the program slices them. -/
abbrev ip0 (L : grid1.Coords) (h : k1_cond1 L = 1#1) : Memref sig .scVector .hbm S4096 .i32 :=
  ((itW).slice (Rect.unit (s := S10x2x8192) (k1_off5 L) S1x1x4096.size (k1_off5_inb L h)) (fun _ => rfl)).squeeze S4096 squeezes_S1x1x4096_S4096
abbrev ip1 (L : grid1.Coords) (h : k1_cond1 L = 1#1) : Memref sig .scVector .hbm S4096 .i32 :=
  ((itW).slice (Rect.unit (s := S10x2x8192) (k1_off23 L) S1x1x4096.size (k1_off23_inb L h)) (fun _ => rfl)).squeeze S4096 squeezes_S1x1x4096_S4096

omit [FloatOps F] in
/-- Where a quarter-row's word `x` sits in the table: row `s`, column the quarter's offset plus `x`. -/
theorem emb_row (off : Fin 2 → ℕ) (inb : ∀ a, off a + S1x26624.size a ≤ S16x106496.size a) (o : ℕ) (ho : off = ![(L 1).val, o])
    (x : S26624.Idx) (hx : o + (x 0).val < 106496) :
    (((ptW).slice (Rect.unit (s := S16x106496) off S1x26624.size inb) (fun _ => rfl)).squeeze S26624 squeezes_S1x26624_S26624).view.emb x
      = (ix2 (⟨(L 1).val, sRow_lt L⟩ : Fin 16) (⟨o + (x 0).val, hx⟩ : Fin 106496) : S16x106496.Idx) := by
  subst ho
  show (Rect.unit (s := S16x106496) ![(L 1).val, o] S1x26624.size inb).emb (Shape.reshapeEquiv squeezes_S1x26624_S26624.numel_eq x) = _
  rw [Shape.reshapeEquiv_cons_one]
  funext a
  match a with
  | ⟨0, _⟩ => apply Fin.ext; show (L 1).val + 1 * 0 = (L 1).val; omega
  | ⟨1, _⟩ => apply Fin.ext; show o + 1 * (x 0).val = o + (x 0).val; omega

omit [FloatOps F] in
/-- A piece's elements all lie in the tile's row of the result. -/
theorem emb3_axis0 (off : Fin 3 → ℕ) (inb : ∀ a, off a + S1x1x4096.size a ≤ S10x2x8192.size a) (ho : off 0 = (L 1).val) (y : S4096.Idx) :
    ((((outW).slice (Rect.unit (s := S10x2x8192) off S1x1x4096.size inb) (fun _ => rfl)).squeeze S4096 squeezes_S1x1x4096_S4096).view.emb y 0).val
      = (L 1).val := by
  have hz : ((Shape.reshapeEquiv squeezes_S1x1x4096_S4096.numel_eq y) 0).val < 1 := ((Shape.reshapeEquiv squeezes_S1x1x4096_S4096.numel_eq y) 0).isLt
  show off 0 + 1 * ((Shape.reshapeEquiv squeezes_S1x1x4096_S4096.numel_eq y) 0).val = (L 1).val
  omega

/-! ### What lands in the scratch buffers, and what goes out -/

/-- The index words of the first half, as the tile's memref reads them. -/
def idxF0 (h : k1_cond1 L = 1#1) : Buf (Elt F) ((thr d L).loc cc1_scratch1) :=
  fun (j : S4096.Idx) => IT d ((ip0 L h).view.emb j)
/-- The index words of the second half. -/
def idxF1 (h : k1_cond1 L = 1#1) : Buf (Elt F) ((thr d L).loc cc1_scratch1) :=
  fun (j : S4096.Idx) => IT d ((ip1 L h).view.emb j)

omit [FloatOps F] in
theorem idx_value0 (h : k1_cond1 L = 1#1) (fi : Buf (Elt F) ((thr d L).loc cc1_scratch1)) (j : S4096.Idx) :
    (idxW).view.write (Elt F) fi (ReadAs.same.apply (View.read (Elt F) (ip0 L h).view (IT d))) Finset.univ j = idxF0 IT d L h j :=
  (congrFun (View.write_whole_univ (cc1_scratch1 : Ref sig .scVector) fi _) j).trans ((View.read_apply _ _).trans (cast_eq _ _))
omit [FloatOps F] in
theorem idx_value1 (h : k1_cond1 L = 1#1) (fi : Buf (Elt F) ((thr d L).loc cc1_scratch1)) (j : S4096.Idx) :
    (idxW).view.write (Elt F) fi (ReadAs.same.apply (View.read (Elt F) (ip1 L h).view (IT d))) Finset.univ j = idxF1 IT d L h j :=
  (congrFun (View.write_whole_univ (cc1_scratch1 : Ref sig .scVector) fi _) j).trans ((View.read_apply _ _).trans (cast_eq _ _))

omit [FloatOps F] in
/-- A landed quarter-row is the row's words at the quarter's columns. -/
theorem row_piece (PT : Buf (Elt F) (ptLoc d)) (off : Fin 2 → ℕ) (inb : ∀ a, off a + S1x26624.size a ≤ S16x106496.size a) (o : ℕ)
    (ho : off = ![(L 1).val, o]) (inb' : ∀ a, (![o] : Fin 1 → ℕ) a + S26624.size a ≤ S106496.size a) (x : S26624.Idx) :
    ReadAs.same.apply (View.read (Elt F)
        (((ptW).slice (Rect.unit (s := S16x106496) off S1x26624.size inb) (fun _ => rfl)).squeeze S26624 squeezes_S1x26624_S26624).view PT) x
      = colF d L PT ((Rect.unit (s := S106496) ![o] S26624.size inb').emb x) := by
  have hx26 : (x 0).val < 26624 := (x 0).isLt
  have hb : o + 26624 ≤ 106496 := inb' 0
  show View.read (Elt F) (((ptW).slice (Rect.unit (s := S16x106496) off S1x26624.size inb) (fun _ => rfl)).squeeze S26624 squeezes_S1x26624_S26624).view PT x = _
  rw [View.read_apply, cast_eq, emb_row L off inb o ho x (by omega)]
  unfold colF
  congr 1
  funext a
  match a with
  | ⟨0, _⟩ => rfl
  | ⟨1, _⟩ => apply Fin.ext; show o + (x 0).val = o + 1 * (x 0).val; omega

omit [FloatOps F] in
theorem mem_unit1 (o : ℕ) (inb : ∀ a, (![o] : Fin 1 → ℕ) a + S26624.size a ≤ S106496.size a) (j : S106496.Idx)
    (h1 : o ≤ (j 0).val) (h2 : (j 0).val < o + 26624) : j ∈ (Rect.unit (s := S106496) ![o] S26624.size inb).set :=
  Rect.mem_set_unit.mpr fun a => match a with | ⟨0, _⟩ => ⟨h1, h2⟩

set_option maxRecDepth 16384 in
set_option maxHeartbeats 2000000 in
/-- The first scratch after the four copies: row `s` of the table. -/
theorem col_value (h : k1_cond1 L = 1#1) (PT : Buf (Elt F) (ptLoc d)) (j : S106496.Idx) :
    (colW).view.read (Elt F) ((colW).view.writes (Elt F) (colW).view.junk
        [⟨Rect.unit (s := S106496) ![79872] S26624.size inb_S106496_S26624_79872, ReadAs.same.apply (View.read (Elt F) (rowP4 L h).view PT)⟩,
          ⟨Rect.unit (s := S106496) ![53248] S26624.size inb_S106496_S26624_53248, ReadAs.same.apply (View.read (Elt F) (rowP3 L h).view PT)⟩,
          ⟨Rect.unit (s := S106496) ![26624] S26624.size inb_S106496_S26624_26624, ReadAs.same.apply (View.read (Elt F) (rowP2 L h).view PT)⟩,
          ⟨Rect.unit (s := S106496) ![0] S26624.size inb_S106496_S26624_0, ReadAs.same.apply (View.read (Elt F) (rowP1 L h).view PT)⟩]) j
      = colF d L PT j := by
  have hj : (j 0).val < 106496 := (j 0).isLt
  refine View.read_writes_apply_of_pieces (colW).view _ (colF d L PT) _
    (List.forall_mem_cons.mpr ⟨fun x => row_piece d L PT (k1_off4 L) (k1_off4_inb L h) 79872 (k1_off4_eq L) inb_S106496_S26624_79872 x,
      List.forall_mem_cons.mpr ⟨fun x => row_piece d L PT (k1_off3 L) (k1_off3_inb L h) 53248 (k1_off3_eq L) inb_S106496_S26624_53248 x,
        List.forall_mem_cons.mpr ⟨fun x => row_piece d L PT (k1_off2 L) (k1_off2_inb L h) 26624 (k1_off2_eq L) inb_S106496_S26624_26624 x,
          List.forall_mem_cons.mpr ⟨fun x => row_piece d L PT (k1_off1 L) (k1_off1_inb L h) 0 (k1_off1_eq L) inb_S106496_S26624_0 x,
            fun _ hh => absurd hh List.not_mem_nil⟩⟩⟩⟩) j ?_
  · by_cases h3 : 79872 ≤ (j 0).val
    · exact ⟨_, List.mem_cons_self, mem_unit1 79872 inb_S106496_S26624_79872 j h3 (by omega)⟩
    by_cases h2 : 53248 ≤ (j 0).val
    · exact ⟨_, List.mem_cons_of_mem _ List.mem_cons_self, mem_unit1 53248 inb_S106496_S26624_53248 j h2 (by omega)⟩
    by_cases h1 : 26624 ≤ (j 0).val
    · exact ⟨_, List.mem_cons_of_mem _ (List.mem_cons_of_mem _ List.mem_cons_self), mem_unit1 26624 inb_S106496_S26624_26624 j h1 (by omega)⟩
    · exact ⟨_, List.mem_cons_of_mem _ (List.mem_cons_of_mem _ (List.mem_cons_of_mem _ List.mem_cons_self)), mem_unit1 0 inb_S106496_S26624_0 j (by omega) (by omega)⟩

variable {d L} in
/-- The gathered word at position `j`: the row's word at the index word at `j`. -/
def gw (cf : Buf (Elt F) ((thr d L).loc cc1_scratch0)) (xf : Buf (Elt F) ((thr d L).loc cc1_scratch1))
    (hx : ∀ j : S4096.Idx, (xf j).toNat < 106496) (j : S4096.Idx) : Elt F .f32 :=
  cf (ix1 (⟨(xf j).toNat, hx j⟩ : Fin 106496))

variable {d L} in
/-- The third scratch after `n` sixteen-lane gathers: the first `16 n` words gathered, the rest as they were. -/
def accN (cf : Buf (Elt F) ((thr d L).loc cc1_scratch0)) (xf : Buf (Elt F) ((thr d L).loc cc1_scratch1))
    (hx : ∀ j : S4096.Idx, (xf j).toNat < 106496) (a0 : Buf (Elt F) ((thr d L).loc cc1_scratch2)) (n : ℕ) :
    Buf (Elt F) ((thr d L).loc cc1_scratch2) :=
  fun (j : S4096.Idx) => if (j 0).val < 16 * n then gw cf xf hx j else a0 j

omit [FloatOps F] in
/-- Contents that agree everywhere are the same points-to. -/
theorem pts_congr {ℓ : Loc nD τ sig} {q : PosShare TreeShare} {f g : Buf (Elt F) ℓ} (h : ∀ j, f j = g j) :
    (ℓ ↦{q} f : sProp 𝕄) ⊢ (ℓ ↦{q} g : sProp 𝕄) := Entails.of_eq (pointsTo_congr fun i _ => h i)

omit [FloatOps F] in
/-- Contents that agree on the elements held are the same points-to. -/
theorem pts_congr_on {ℓ : Loc nD τ sig} {I : Finset (Idx ℓ)} {q : PosShare TreeShare} {f g : Buf (Elt F) ℓ} (h : ∀ j ∈ I, f j = g j) :
    (ℓ ↦[I]{q} f : sProp 𝕄) ⊢ (ℓ ↦[I]{q} g : sProp 𝕄) := Entails.of_eq (pointsTo_congr h)

variable {d L} in
omit [FloatOps F] in
/-- Before any gather the third scratch is as it was. -/
theorem accN_zero (cf : Buf (Elt F) ((thr d L).loc cc1_scratch0)) (xf : Buf (Elt F) ((thr d L).loc cc1_scratch1))
    (hx : ∀ j : S4096.Idx, (xf j).toNat < 106496) (a0 : Buf (Elt F) ((thr d L).loc cc1_scratch2)) :
    ∀ j, a0 j = accN cf xf hx a0 (16 * 0) j := fun j => by
  unfold accN; rw [if_neg (by omega)]

omit [FloatOps F] in
/-- A half-row of index words and the piece of the result it is gathered into sit at the same elements of their arrays. -/
theorem emb_ip0 (h : k1_cond1 L = 1#1) (y : S4096.Idx) : (ip0 L h).view.emb y = (piece0 L h).view.emb y := rfl
omit [FloatOps F] in
theorem emb_ip1 (h : k1_cond1 L = 1#1) (y : S4096.Idx) : (ip1 L h).view.emb y = (piece1 L h).view.emb y := rfl

set_option maxHeartbeats 4000000 in
/-- What a copy-out leaves in a piece of the result: at each element, the table's word `gat` names. -/
theorem out_value (hin : InRange IT) (PT : Buf (Elt F) (ptLoc d)) (off : Fin 3 → ℕ) (inb : ∀ a, off a + S1x1x4096.size a ≤ S10x2x8192.size a)
    (ho : off 0 = (L 1).val) (g0 : Buf (Elt F) (outLoc d)) (xf : Buf (Elt F) ((thr d L).loc cc1_scratch1))
    (hxb : ∀ j : S4096.Idx, (xf j).toNat < 106496) (a0 : Buf (Elt F) ((thr d L).loc cc1_scratch2))
    (hxf : ∀ y : S4096.Idx, xf y = IT d ((((outW).slice (Rect.unit (s := S10x2x8192) off S1x1x4096.size inb) (fun _ => rfl)).squeeze S4096 squeezes_S1x1x4096_S4096).view.emb y))
    (N : ℕ) (hN : 4096 ≤ 16 * N) :
    ∀ i ∈ (((outW).slice (Rect.unit (s := S10x2x8192) off S1x1x4096.size inb) (fun _ => rfl)).squeeze S4096 squeezes_S1x1x4096_S4096).view.set,
      (((outW).slice (Rect.unit (s := S10x2x8192) off S1x1x4096.size inb) (fun _ => rfl)).squeeze S4096 squeezes_S1x1x4096_S4096).view.writes (Elt F) g0
          [⟨Rect.whole S4096, ReadAs.same.apply (View.read (Elt F) (accW).view (accN (colF d L PT) xf hxb a0 N))⟩] i
        = gatF IT d PT i := by
  intro i hi
  obtain ⟨y, -, rfl⟩ := Finset.mem_map.mp hi
  have hy : (y 0).val < 4096 := (y 0).isLt
  have e1 := View.read_writes_cons_emb (((outW).slice (Rect.unit (s := S10x2x8192) off S1x1x4096.size inb) (fun _ => rfl)).squeeze S4096 squeezes_S1x1x4096_S4096).view
    g0 (Rect.whole S4096) (ReadAs.same.apply (View.read (Elt F) (accW).view (accN (colF d L PT) xf hxb a0 N))) [] y
  rw [Rect.emb_whole_apply, View.read_apply, cast_eq] at e1
  refine e1.trans ?_
  show accN (colF d L PT) xf hxb a0 N y = _
  unfold accN
  rw [if_pos (by omega)]
  show PT (ix2 (⟨(L 1).val, sRow_lt L⟩ : Fin 16) (⟨(xf y).toNat, hxb y⟩ : Fin 106496)) = PT (gat IT d _)
  refine congrArg PT ?_
  funext a
  match a with
  | ⟨0, _⟩ => exact Fin.ext (emb3_axis0 L off inb ho y).symm
  | ⟨1, _⟩ =>
    apply Fin.ext
    show (xf y).toNat = (IT d _).toNat % 106496
    rw [Nat.mod_eq_of_lt (hin d _)]
    exact congrArg BitVec.toNat (hxf y)

omit [FloatOps F] in
/-- A wait at the kernels' index recorded keeps the record within the launch's bound. -/
theorem ins_ok {W W' : Waits sig (HIx 1)} (s : SemLoc sig) (h : ∀ p ∈ W', p ∈ W ∨ p.2 = none) :
    ∀ p ∈ insert ((s, none) : SemLoc sig × HIx 1) W', p ∈ W ∨ p.2 = none := by
  intro p hp
  rcases Finset.mem_insert.mp hp with rfl | hp
  · exact .inr rfl
  · exact h p hp

/-! ### One sixteen-lane gather, once -/

omit [FloatOps F] in
theorem vec1 {a b : ℕ} (h : a = b) : (![a] : Fin 1 → ℕ) = ![b] := by rw [h]

omit [FloatOps F] in
/-- Index words below the row's length pass the body's check on a loaded index vector. -/
theorem chk_ok (v : IVec S16 32) (hv : ∀ x, (v x).toNat < 106496) :
    ∀ a x, ((![v] : Fin 1 → IVec S16 32) a x).toNat < S106496.size a := by
  intro a x
  obtain rfl : a = 0 := Subsingleton.elim _ _
  exact hv x

variable {d L} in
/-- The three scratch buffers after `n` gathers. -/
def scr (cf : Buf (Elt F) ((thr d L).loc cc1_scratch0)) (xf : Buf (Elt F) ((thr d L).loc cc1_scratch1))
    (hx : ∀ j : S4096.Idx, (xf j).toNat < 106496) (a0 : Buf (Elt F) ((thr d L).loc cc1_scratch2)) (n : ℕ) : sProp 𝕄 :=
  iprop(((colW).view.loc (thr d L) ↦{fullShare} cf) ∗ ((idxW).view.loc (thr d L) ↦{fullShare} xf)
    ∗ ((accW).view.loc (thr d L) ↦{fullShare} accN cf xf hx a0 n))

omit [FloatOps F] in
theorem pts_col_acc (f : Buf (Elt F) ((thr d L).loc cc1_scratch0)) :
    (((colW).access (.whole S106496)).loc (thr d L) ↦{fullShare} f : sProp 𝕄) = ((colW).view.loc (thr d L) ↦{fullShare} f) := rfl
omit [FloatOps F] in
theorem pts_acc_acc (r : Rect S4096) (f : Buf (Elt F) ((thr d L).loc cc1_scratch2)) :
    (((accW).access r).loc (thr d L) ↦{fullShare} f : sProp 𝕄) = ((accW).view.loc (thr d L) ↦{fullShare} f) := rfl

variable {d L} in
/-- The sixteen words a gather stores are the gathered words of their positions; the rest is unchanged. -/
theorem acc_step (cf : Buf (Elt F) ((thr d L).loc cc1_scratch0)) (xf : Buf (Elt F) ((thr d L).loc cc1_scratch1))
    (hx : ∀ j : S4096.Idx, (xf j).toNat < 106496) (a0 : Buf (Elt F) ((thr d L).loc cc1_scratch2)) (n : ℕ)
    (inbI inbA : ∀ a, (![16 * n] : Fin 1 → ℕ) a + S16.size a ≤ S4096.size a)
    (h : ∀ a x, ((![(idxW).view.readAt (Elt F) (Rect.unit (s := S4096) ![16 * n] S16.size inbI).toLoadRect xf] : Fin 1 → IVec S16 32) a x).toNat < S106496.size a)
    :
    (((accW).access (Rect.unit (s := S4096) ![16 * n] S16.size inbA)).write (Elt F) (accN cf xf hx a0 n)
        (loadIdx (((colW).access (.whole S106496)).read (Elt F) cf)
          ![(idxW).view.readAt (Elt F) (Rect.unit (s := S4096) ![16 * n] S16.size inbI).toLoadRect xf] h) Finset.univ
        : Buf (Elt F) ((thr d L).loc cc1_scratch2))
      = accN cf xf hx a0 (n + 1) := by
  funext j
  have hj4 : (j 0).val < 4096 := (j 0).isLt
  by_cases hin' : 16 * n ≤ (j 0).val ∧ (j 0).val < 16 * n + 16
  · let x : S16.Idx := ix1 (⟨(j 0).val - 16 * n, by omega⟩ : Fin 16)
    have hxe : ((accW).access (Rect.unit (s := S4096) ![16 * n] S16.size inbA)).emb x = j := by
      funext (a : Fin 1); obtain rfl : a = 0 := Subsingleton.elim _ _
      apply Fin.ext; show 16 * n + 1 * ((j 0).val - 16 * n) = (j 0).val; omega
    have hxi : (Rect.unit (s := S4096) ![16 * n] S16.size inbI).toLoadRect.idx x = j := by
      funext (a : Fin 1); obtain rfl : a = 0 := Subsingleton.elim _ _
      apply Fin.ext; show 16 * n + 1 * ((j 0).val - 16 * n) = (j 0).val; omega
    have e1 : loadIdx (((colW).access (.whole S106496)).read (Elt F) cf)
          ![(idxW).view.readAt (Elt F) (Rect.unit (s := S4096) ![16 * n] S16.size inbI).toLoadRect xf] h x
        = cf (ix1 (⟨(xf j).toNat, hx j⟩ : Fin 106496)) := by
      show ((colW).access (.whole S106496)).read (Elt F) cf (idxAt _ h x) = _
      rw [View.read_apply, cast_eq]
      congr 1
      show (Rect.whole S106496).emb (idxAt _ h x) = _
      rw [Rect.emb_whole_apply]
      funext (a : Fin 1); obtain rfl : a = 0 := Subsingleton.elim _ _
      apply Fin.ext
      show (xf ((Rect.unit (s := S4096) ![16 * n] S16.size inbI).toLoadRect.idx x)).toNat = (xf j).toNat
      rw [hxi]
    rw [← hxe, View.write_emb_of_mem _ _ (Finset.mem_univ x), cast_eq, hxe, e1]
    unfold accN gw
    rw [if_pos (by omega)]
  · have hnm : j ∉ ((accW).access (Rect.unit (s := S4096) ![16 * n] S16.size inbA)).setOn Finset.univ := by
      intro hm
      obtain ⟨x, -, hxx⟩ := Finset.mem_map.mp hm
      have h0 : (j 0).val = 16 * n + 1 * (x 0).val := by rw [← hxx]; rfl
      have hx16 : (x 0).val < 16 := (x 0).isLt
      omega
    rw [View.write_of_not_mem _ _ _ hnm]
    unfold accN
    by_cases h1 : (j 0).val < 16 * n
    · rw [if_pos h1, if_pos (by omega)]
    · rw [if_neg h1, if_neg (by omega)]

variable {d L} in
/-- One gather at the head of a program: load sixteen index words, check them, load the row's words they name, (load
    and) store them at the same sixteen positions of the third scratch. -/
theorem gather_step {α : Type} (cf : Buf (Elt F) ((thr d L).loc cc1_scratch0)) (xf : Buf (Elt F) ((thr d L).loc cc1_scratch1))
    (hx : ∀ j : S4096.Idx, (xf j).toNat < 106496) (a0 : Buf (Elt F) ((thr d L).loc cc1_scratch2)) (n : ℕ)
    (offI offA : Fin 1 → ℕ) (inbI : ∀ a, offI a + S16.size a ≤ S4096.size a) (inbA : ∀ a, offA a + S16.size a ≤ S4096.size a)
    (hoI : offI = ![16 * n]) (hoA : offA = ![16 * n]) (n' : ℕ) (hn' : n' = n + 1)
    (C : IVec S16 32 → Prop) (dec : ∀ v, Decidable (C v))
    (hC : ∀ v, C v → ∀ a x, ((![v] : Fin 1 → IVec S16 32) a x).toNat < S106496.size a)
    (hCok : ∀ v : IVec S16 32, (∀ x, (v x).toNat < 106496) → C v)
    {hlI : (idxW).view.LoadsAt (Rect.unit (s := S4096) offI S16.size inbI).toLoadRect}
    {hl5 : (colW).view.Loads}
    {hlA : (accW).view.LoadsAt (Rect.unit (s := S4096) offA S16.size inbA).toLoadRect}
    {hst : ((accW).access (Rect.unit (s := S4096) offA S16.size inbA)).Stores Finset.univ}
    {hm : (Finset.univ : Finset (Rect.unit (s := S4096) offA S16.size inbA).shape.Idx) = Finset.univ ∨ ∀ a, (Rect.unit (s := S4096) offA S16.size inbA).stride a = 1}
    {k : PUnit → Prog (TpuEff nD τ sig (Elt F) Λ₀ (.scVector (cV L) (jV L))) α} {Q : α → sProp 𝕄} :
    scr (F := F) (U := U) cf xf hx a0 n
      ⊢ iprop((scr (F := F) (U := U) cf xf hx a0 n' -∗ wp frame (wpE (defs₀ (F := F)) 𝒱₀ (thr d L) none) Set.univ (k ⟨⟩) Q)
        -∗ wp frame (wpE (defs₀ (F := F)) 𝒱₀ (thr d L) none) Set.univ
          (.op (.load idxW (Rect.unit (s := S4096) offI S16.size inbI).toLoadRect hlI) fun (v9 : Vec F S16 .i32) =>
            .op (.assume (C v9) (dec v9)) fun hw =>
              SparseCore.vectorLoadIdx colW ![v9] (hC v9 hw.down) hl5 >>= fun (v10 : Vec F S16 .f32) =>
                .op (.load accW (Rect.unit (s := S4096) offA S16.size inbA).toLoadRect hlA) fun _ =>
                  .op (.store accW (Rect.unit (s := S4096) offA S16.size inbA) v10 Finset.univ hst hm) k) Q) := by
  subst hoI hoA hn'
  unfold scr
  iintro ⟨Hc, Hi, Ha⟩ Hk
  iapply (wp_load 𝒱₀ (thr d L) none Set.univ (m := idxW) (S := Finset.univ) (Finset.subset_univ _)) $$ Hi; iintro Hi
  iapply (wp_assume 𝒱₀ (thr d L) none Set.univ (hCok _ (fun x => hx _)))
  ihave Hc' := (Entails.of_eq (pts_col_acc (F := F) d L _).symm) $$ Hc
  iapply (SparseCore.wp_vectorLoadIdx 𝒱₀ (thr d L) none Set.univ (base := colW) (S := Finset.univ) (q := fullShare) (Finset.subset_univ _)) $$ Hc'; iintro Hc'
  iapply (wp_load 𝒱₀ (thr d L) none Set.univ (m := accW) (S := Finset.univ) (Finset.subset_univ _)) $$ Ha; iintro Ha
  ihave Ha' := (Entails.of_eq (pts_acc_acc (F := F) d L (Rect.unit (s := S4096) ![16 * n] S16.size inbA) _).symm) $$ Ha
  iapply (wp_store 𝒱₀ (thr d L) none Set.univ (m := accW) (r := Rect.unit (s := S4096) ![16 * n] S16.size inbA) (Mk := Finset.univ) (S := Finset.univ) (Finset.subset_univ _)) $$ Ha'; iintro Ha'
  iapply Hk
  isplitl [Hc']; · iexact Hc'
  isplitl [Hi]; · iexact Hi
  ihave Ha2 := (Entails.of_eq (pts_acc_acc (F := F) d L (Rect.unit (s := S4096) ![16 * n] S16.size inbA) _)) $$ Ha'
  ihave Ha3 := (Entails.of_eq (congrArg (fun f => (((accW).view.loc (thr d L) ↦{fullShare} f) : sProp 𝕄)) (acc_step (F := F) cf xf hx a0 n inbI inbA _))) $$ Ha2
  iexact Ha3

/-- A working tile. -/
theorem tile_work (hF : (K (F := F)).Facts) (hin : InRange IT) (hL : k1_cond1 L = 1#1) (q : PosShare TreeShare)
    (O : CellTallies nD τ sig (HIx 1)) (W : Waits sig (HIx 1)) (hO : ∀ g, O g none = 0) :
    (iprop(levAts (K (F := F)).L (K (F := F)).lev ∗ emp ∗ GO IT Ag d L q
        ∗ scopedBufs (thr d L) ∗ scopedSems0 (thr d L) ∗ owes (thr d L) O W) : sProp 𝕄)
      ⊢ wp frame (wpE (defs₀ (F := F)) 𝒱₀ (thr d L) none) Set.univ
          (cc1__sc L ptW (Memref.isWhole_whole _) itW (Memref.isWhole_whole _) outW (Memref.isWhole_whole _) colW (Memref.isWhole_whole _) idxW (Memref.isWhole_whole _) accW (Memref.isWhole_whole _) cc1_scoped0 cc1_scoped1 cc1_scoped2 cc1_scoped3 cc1_scoped4 cc1_scoped5 cc1_scoped6 cc1_scoped7)
          fun _ => iprop(TD IT Ag d L q ∗ scopedBufs (thr d L) ∗ scopedSems0 (thr d L)
            ∗ ∃ W', ⌜∀ p ∈ W', p ∈ W ∨ p.2 = none⌝ ∗ owes (thr d L) O W') := by
  have k1_h1 : k1_cond1 L = 1#1 := hL
  simp only [cc1__sc_eq_skeleton]; unfold cc1__sc_skel
  unfold GO TD
  rw [(K (F := F)).scopedBufs_V hF d (cV L) (jV L), SparseCore.Cfg.scopedSems0_V (Val := Elt F) d (cV L) (jV L), ownSems0_V, ownBufs_V]
  iintro ⟨#Hlv, -, ⟨%PT, %hAg, Hpt, Hit, ⟨%f0, Ho0⟩, ⟨%f1, Ho1⟩⟩, ⟨⟨%fc, Hc⟩, ⟨%fi, Hi⟩, ⟨%fa, Ha⟩, Hbufs⟩,
    ⟨Hs0, Hs1, Hs2, Hs3, Hs4, Hs5, Hs6, Hs7, Hsems⟩, HO⟩
  ihave Hmw := ((K (F := F)).mayWaits_none (thr := thr d L) hO) $$ Hlv
  ihave Hpt' := (Entails.of_eq (pts_pt (F := F) d L q _).symm) $$ Hpt
  ihave Hit' := (Entails.of_eq (pts_it (F := F) d L q _).symm) $$ Hit
  ihave Ho0' := (Entails.of_eq (pts_piece0 (F := F) d L hL _).symm) $$ Ho0
  ihave Ho1' := (Entails.of_eq (pts_piece1 (F := F) d L hL _).symm) $$ Ho1
  ihave Hc' := (Entails.of_eq (pts_col (F := F) d L _).symm) $$ Hc
  ihave Hi' := (Entails.of_eq (pts_idx (F := F) d L _).symm) $$ Hi
  ihave Ha' := (Entails.of_eq (pts_acc (F := F) d L _).symm) $$ Ha
  sl_exec
  have ht0 : (0 : ℕ) < 2 := by decide
  have ht1 : (1 : ℕ) < 2 := by decide
  have hx0 : ∀ j : S4096.Idx, ((idxF0 IT d L hL) j).toNat < 106496 := fun j => hin d _
  have hx1 : ∀ j : S4096.Idx, ((idxF1 IT d L hL) j).toNat < 106496 := fun j => hin d _
  ihave Hc := (pts_congr (F := F) (g := colF d L PT) ?hcol) $$ Hc'
  case hcol =>
    intro j
    exact (congrFun (View.read_whole (Val := Elt F) (cc1_scratch0 : Ref sig .scVector) _) j).symm.trans (col_value (F := F) d L hL PT j)
  ihave Hi := (pts_congr (F := F) (g := idxF0 IT d L hL) ?hidx) $$ Hi'
  case hidx => intro j; exact idx_value0 (F := F) IT d L hL fi j
  ihave Ha0 := (pts_congr (F := F) (accN_zero (colF d L PT) (idxF0 IT d L hL) hx0 fa)) $$ Ha'
  sl_for (fun (k : ℕ) (_ : PUnit) => scr (F := F) (U := U) (colF d L PT) (idxF0 IT d L hL) hx0 fa (16 * k)) $$ [Hc Hi Ha0]
  case region =>
    intro k _
    sl_respell []
    simp only [k1_part1_eq_skeleton, k1_part2_eq_skeleton, k1_part3_eq_skeleton, k1_part4_eq_skeleton]
    unfold k1_part1_skel k1_part2_skel k1_part3_skel k1_part4_skel
    simp only [Prog.lift, Prog.bind_op, Prog.bind_ret, Prog.pure_eq_ret, bind_assoc]
    iintro HR
    iapply (gather_step (F := F) (U := U) (colF d L PT) (idxF0 IT d L hL) hx0 fa (16 * k.val + 0) (k1_off6 k) (k1_off7 k 0#32) (k1_off6_inb L k k1_h1) (k1_off7_inb L k k1_h1 0) ((k1_off6_eq k).trans (vec1 (show 256 * k.val = 16 * (16 * k.val + 0) by omega))) ((k1_off7_eq k ⟨0, by decide⟩).trans (vec1 (show 256 * k.val + 16 * 0 = 16 * (16 * k.val + 0) by omega))) (16 * k.val + 1) (by omega)
      (k1_chk1 L) (k1_chk1.dec L) (fun v hw => k1_idx1_inb L v hw k1_h1) (fun v hv _ => chk_ok v hv)) $$ HR; iintro HR
    iapply (gather_step (F := F) (U := U) (colF d L PT) (idxF0 IT d L hL) hx0 fa (16 * k.val + 1) (k1_off7 k 1#32) (k1_off8 k 1#32) (k1_off7_inb L k k1_h1 1) (k1_off8_inb L k k1_h1 0) ((k1_off7_eq k ⟨1, by decide⟩).trans (vec1 (show 256 * k.val + 16 * 1 = 16 * (16 * k.val + 1) by omega))) ((k1_off8_eq k ⟨0, by decide⟩).trans (vec1 (show 256 * k.val + 16 * 0 + 16 = 16 * (16 * k.val + 1) by omega))) (16 * k.val + 2) (by omega)
      (k1_chk2 L) (k1_chk2.dec L) (fun v hw => k1_idx2_inb L v hw k1_h1) (fun v hv _ => chk_ok v hv)) $$ HR; iintro HR
    iapply (gather_step (F := F) (U := U) (colF d L PT) (idxF0 IT d L hL) hx0 fa (16 * k.val + 2) (k1_off8 k 2#32) (k1_off9 k 2#32) (k1_off8_inb L k k1_h1 1) (k1_off9_inb L k k1_h1 0) ((k1_off8_eq k ⟨1, by decide⟩).trans (vec1 (show 256 * k.val + 16 * 1 + 16 = 16 * (16 * k.val + 2) by omega))) ((k1_off9_eq k ⟨0, by decide⟩).trans (vec1 (show 256 * k.val + 16 * 0 + 32 = 16 * (16 * k.val + 2) by omega))) (16 * k.val + 3) (by omega)
      (k1_chk3 L) (k1_chk3.dec L) (fun v hw => k1_idx3_inb L v hw k1_h1) (fun v hv _ => chk_ok v hv)) $$ HR; iintro HR
    iapply (gather_step (F := F) (U := U) (colF d L PT) (idxF0 IT d L hL) hx0 fa (16 * k.val + 3) (k1_off9 k 3#32) (k1_off10 k 3#32) (k1_off9_inb L k k1_h1 1) (k1_off10_inb L k k1_h1 0) ((k1_off9_eq k ⟨1, by decide⟩).trans (vec1 (show 256 * k.val + 16 * 1 + 32 = 16 * (16 * k.val + 3) by omega))) ((k1_off10_eq k ⟨0, by decide⟩).trans (vec1 (show 256 * k.val + 16 * 0 + 48 = 16 * (16 * k.val + 3) by omega))) (16 * k.val + 4) (by omega)
      (k1_chk4 L) (k1_chk4.dec L) (fun v hw => k1_idx4_inb L v hw k1_h1) (fun v hv _ => chk_ok v hv)) $$ HR; iintro HR
    iapply (gather_step (F := F) (U := U) (colF d L PT) (idxF0 IT d L hL) hx0 fa (16 * k.val + 4) (k1_off10 k 4#32) (k1_off11 k 4#32) (k1_off10_inb L k k1_h1 1) (k1_off11_inb L k k1_h1 0) ((k1_off10_eq k ⟨1, by decide⟩).trans (vec1 (show 256 * k.val + 16 * 1 + 48 = 16 * (16 * k.val + 4) by omega))) ((k1_off11_eq k ⟨0, by decide⟩).trans (vec1 (show 256 * k.val + 16 * 0 + 64 = 16 * (16 * k.val + 4) by omega))) (16 * k.val + 5) (by omega)
      (k1_chk5 L) (k1_chk5.dec L) (fun v hw => k1_idx5_inb L v hw k1_h1) (fun v hv _ => chk_ok v hv)) $$ HR; iintro HR
    iapply (gather_step (F := F) (U := U) (colF d L PT) (idxF0 IT d L hL) hx0 fa (16 * k.val + 5) (k1_off11 k 5#32) (k1_off12 k 5#32) (k1_off11_inb L k k1_h1 1) (k1_off12_inb L k k1_h1 0) ((k1_off11_eq k ⟨1, by decide⟩).trans (vec1 (show 256 * k.val + 16 * 1 + 64 = 16 * (16 * k.val + 5) by omega))) ((k1_off12_eq k ⟨0, by decide⟩).trans (vec1 (show 256 * k.val + 16 * 0 + 80 = 16 * (16 * k.val + 5) by omega))) (16 * k.val + 6) (by omega)
      (k1_chk6 L) (k1_chk6.dec L) (fun v hw => k1_idx6_inb L v hw k1_h1) (fun v hv _ => chk_ok v hv)) $$ HR; iintro HR
    iapply (gather_step (F := F) (U := U) (colF d L PT) (idxF0 IT d L hL) hx0 fa (16 * k.val + 6) (k1_off12 k 6#32) (k1_off13 k 6#32) (k1_off12_inb L k k1_h1 1) (k1_off13_inb L k k1_h1 0) ((k1_off12_eq k ⟨1, by decide⟩).trans (vec1 (show 256 * k.val + 16 * 1 + 80 = 16 * (16 * k.val + 6) by omega))) ((k1_off13_eq k ⟨0, by decide⟩).trans (vec1 (show 256 * k.val + 16 * 0 + 96 = 16 * (16 * k.val + 6) by omega))) (16 * k.val + 7) (by omega)
      (k1_chk7 L) (k1_chk7.dec L) (fun v hw => k1_idx7_inb L v hw k1_h1) (fun v hv _ => chk_ok v hv)) $$ HR; iintro HR
    iapply (gather_step (F := F) (U := U) (colF d L PT) (idxF0 IT d L hL) hx0 fa (16 * k.val + 7) (k1_off13 k 7#32) (k1_off14 k 7#32) (k1_off13_inb L k k1_h1 1) (k1_off14_inb L k k1_h1 0) ((k1_off13_eq k ⟨1, by decide⟩).trans (vec1 (show 256 * k.val + 16 * 1 + 96 = 16 * (16 * k.val + 7) by omega))) ((k1_off14_eq k ⟨0, by decide⟩).trans (vec1 (show 256 * k.val + 16 * 0 + 112 = 16 * (16 * k.val + 7) by omega))) (16 * k.val + 8) (by omega)
      (k1_chk8 L) (k1_chk8.dec L) (fun v hw => k1_idx8_inb L v hw k1_h1) (fun v hv _ => chk_ok v hv)) $$ HR; iintro HR
    iapply (gather_step (F := F) (U := U) (colF d L PT) (idxF0 IT d L hL) hx0 fa (16 * k.val + 8) (k1_off14 k 8#32) (k1_off15 k 8#32) (k1_off14_inb L k k1_h1 1) (k1_off15_inb L k k1_h1 0) ((k1_off14_eq k ⟨1, by decide⟩).trans (vec1 (show 256 * k.val + 16 * 1 + 112 = 16 * (16 * k.val + 8) by omega))) ((k1_off15_eq k ⟨0, by decide⟩).trans (vec1 (show 256 * k.val + 16 * 0 + 128 = 16 * (16 * k.val + 8) by omega))) (16 * k.val + 9) (by omega)
      (k1_chk9 L) (k1_chk9.dec L) (fun v hw => k1_idx9_inb L v hw k1_h1) (fun v hv _ => chk_ok v hv)) $$ HR; iintro HR
    iapply (gather_step (F := F) (U := U) (colF d L PT) (idxF0 IT d L hL) hx0 fa (16 * k.val + 9) (k1_off15 k 9#32) (k1_off16 k 9#32) (k1_off15_inb L k k1_h1 1) (k1_off16_inb L k k1_h1 0) ((k1_off15_eq k ⟨1, by decide⟩).trans (vec1 (show 256 * k.val + 16 * 1 + 128 = 16 * (16 * k.val + 9) by omega))) ((k1_off16_eq k ⟨0, by decide⟩).trans (vec1 (show 256 * k.val + 16 * 0 + 144 = 16 * (16 * k.val + 9) by omega))) (16 * k.val + 10) (by omega)
      (k1_chk10 L) (k1_chk10.dec L) (fun v hw => k1_idx10_inb L v hw k1_h1) (fun v hv _ => chk_ok v hv)) $$ HR; iintro HR
    iapply (gather_step (F := F) (U := U) (colF d L PT) (idxF0 IT d L hL) hx0 fa (16 * k.val + 10) (k1_off16 k 10#32) (k1_off17 k 10#32) (k1_off16_inb L k k1_h1 1) (k1_off17_inb L k k1_h1 0) ((k1_off16_eq k ⟨1, by decide⟩).trans (vec1 (show 256 * k.val + 16 * 1 + 144 = 16 * (16 * k.val + 10) by omega))) ((k1_off17_eq k ⟨0, by decide⟩).trans (vec1 (show 256 * k.val + 16 * 0 + 160 = 16 * (16 * k.val + 10) by omega))) (16 * k.val + 11) (by omega)
      (k1_chk11 L) (k1_chk11.dec L) (fun v hw => k1_idx11_inb L v hw k1_h1) (fun v hv _ => chk_ok v hv)) $$ HR; iintro HR
    iapply (gather_step (F := F) (U := U) (colF d L PT) (idxF0 IT d L hL) hx0 fa (16 * k.val + 11) (k1_off17 k 11#32) (k1_off18 k 11#32) (k1_off17_inb L k k1_h1 1) (k1_off18_inb L k k1_h1 0) ((k1_off17_eq k ⟨1, by decide⟩).trans (vec1 (show 256 * k.val + 16 * 1 + 160 = 16 * (16 * k.val + 11) by omega))) ((k1_off18_eq k ⟨0, by decide⟩).trans (vec1 (show 256 * k.val + 16 * 0 + 176 = 16 * (16 * k.val + 11) by omega))) (16 * k.val + 12) (by omega)
      (k1_chk12 L) (k1_chk12.dec L) (fun v hw => k1_idx12_inb L v hw k1_h1) (fun v hv _ => chk_ok v hv)) $$ HR; iintro HR
    iapply (gather_step (F := F) (U := U) (colF d L PT) (idxF0 IT d L hL) hx0 fa (16 * k.val + 12) (k1_off18 k 12#32) (k1_off19 k 12#32) (k1_off18_inb L k k1_h1 1) (k1_off19_inb L k k1_h1 0) ((k1_off18_eq k ⟨1, by decide⟩).trans (vec1 (show 256 * k.val + 16 * 1 + 176 = 16 * (16 * k.val + 12) by omega))) ((k1_off19_eq k ⟨0, by decide⟩).trans (vec1 (show 256 * k.val + 16 * 0 + 192 = 16 * (16 * k.val + 12) by omega))) (16 * k.val + 13) (by omega)
      (k1_chk13 L) (k1_chk13.dec L) (fun v hw => k1_idx13_inb L v hw k1_h1) (fun v hv _ => chk_ok v hv)) $$ HR; iintro HR
    iapply (gather_step (F := F) (U := U) (colF d L PT) (idxF0 IT d L hL) hx0 fa (16 * k.val + 13) (k1_off19 k 13#32) (k1_off20 k 13#32) (k1_off19_inb L k k1_h1 1) (k1_off20_inb L k k1_h1 0) ((k1_off19_eq k ⟨1, by decide⟩).trans (vec1 (show 256 * k.val + 16 * 1 + 192 = 16 * (16 * k.val + 13) by omega))) ((k1_off20_eq k ⟨0, by decide⟩).trans (vec1 (show 256 * k.val + 16 * 0 + 208 = 16 * (16 * k.val + 13) by omega))) (16 * k.val + 14) (by omega)
      (k1_chk14 L) (k1_chk14.dec L) (fun v hw => k1_idx14_inb L v hw k1_h1) (fun v hv _ => chk_ok v hv)) $$ HR; iintro HR
    iapply (gather_step (F := F) (U := U) (colF d L PT) (idxF0 IT d L hL) hx0 fa (16 * k.val + 14) (k1_off20 k 14#32) (k1_off21 k 14#32) (k1_off20_inb L k k1_h1 1) (k1_off21_inb L k k1_h1 0) ((k1_off20_eq k ⟨1, by decide⟩).trans (vec1 (show 256 * k.val + 16 * 1 + 208 = 16 * (16 * k.val + 14) by omega))) ((k1_off21_eq k ⟨0, by decide⟩).trans (vec1 (show 256 * k.val + 16 * 0 + 224 = 16 * (16 * k.val + 14) by omega))) (16 * k.val + 15) (by omega)
      (k1_chk15 L) (k1_chk15.dec L) (fun v hw => k1_idx15_inb L v hw k1_h1) (fun v hv _ => chk_ok v hv)) $$ HR; iintro HR
    iapply (gather_step (F := F) (U := U) (colF d L PT) (idxF0 IT d L hL) hx0 fa (16 * k.val + 15) (k1_off21 k 15#32) (k1_off22 k) (k1_off21_inb L k k1_h1 1) (k1_off22_inb L k k1_h1) ((k1_off21_eq k ⟨1, by decide⟩).trans (vec1 (show 256 * k.val + 16 * 1 + 224 = 16 * (16 * k.val + 15) by omega))) ((k1_off22_eq k).trans (vec1 (show 256 * k.val + 240 = 16 * (16 * k.val + 15) by omega))) (16 * (k.val + 1)) (by omega)
      (k1_chk16 L) (k1_chk16.dec L) (fun v hw => k1_idx16_inb L v hw k1_h1) (fun v hv _ => chk_ok v hv)) $$ HR; iintro HR
    sl_step
    iexact HR
  · unfold scr
    isplitl [Hc]; · iexact Hc
    isplitl [Hi]; · iexact Hi
    iexact Ha0
  iintro %_ HR
  unfold scr
  icases HR with ⟨Hc, Hi, Ha⟩
  sl_exec
  ihave Hi2 := (pts_congr (F := F) (g := idxF1 IT d L hL) ?hidx2) $$ Hi
  case hidx2 => intro j; exact idx_value1 (F := F) IT d L hL _ j
  ihave Ha1 := (pts_congr (F := F) (accN_zero (colF d L PT) (idxF1 IT d L hL) hx1 (accN (colF d L PT) (idxF0 IT d L hL) hx0 fa (16 * Scf.trips k1_t1_loop.lb k1_t1_loop.ub k1_t1_loop.st)))) $$ Ha
  sl_for (fun (k : ℕ) (_ : PUnit) => scr (F := F) (U := U) (colF d L PT) (idxF1 IT d L hL) hx1 (accN (colF d L PT) (idxF0 IT d L hL) hx0 fa (16 * Scf.trips k1_t1_loop.lb k1_t1_loop.ub k1_t1_loop.st)) (16 * k)) $$ [Hc Hi2 Ha1]
  case region =>
    intro k _
    sl_respell [k1_t2_body]
    simp only [k1_part5_eq_skeleton, k1_part6_eq_skeleton, k1_part7_eq_skeleton, k1_part8_eq_skeleton]
    unfold k1_part5_skel k1_part6_skel k1_part7_skel k1_part8_skel
    simp only [Prog.lift, Prog.bind_op, Prog.bind_ret, Prog.pure_eq_ret, bind_assoc]
    iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 0) (k1_off24 k) (k1_off25 k 0#32) (k1_off24_inb L k k1_h1) (k1_off25_inb L k k1_h1 0) ((k1_off24_eq k).trans (vec1 (show 256 * k.val = 16 * (16 * k.val + 0) by omega))) ((k1_off25_eq k ⟨0, by decide⟩).trans (vec1 (show 256 * k.val + 16 * 0 = 16 * (16 * k.val + 0) by omega))) (16 * k.val + 1) (by omega)
      (k1_chk17 L) (k1_chk17.dec L) (fun v hw => k1_idx17_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 1) (k1_off25 k 1#32) (k1_off26 k 1#32) (k1_off25_inb L k k1_h1 1) (k1_off26_inb L k k1_h1 0) ((k1_off25_eq k ⟨1, by decide⟩).trans (vec1 (show 256 * k.val + 16 * 1 = 16 * (16 * k.val + 1) by omega))) ((k1_off26_eq k ⟨0, by decide⟩).trans (vec1 (show 256 * k.val + 16 * 0 + 16 = 16 * (16 * k.val + 1) by omega))) (16 * k.val + 2) (by omega)
      (k1_chk18 L) (k1_chk18.dec L) (fun v hw => k1_idx18_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 2) (k1_off26 k 2#32) (k1_off27 k 2#32) (k1_off26_inb L k k1_h1 1) (k1_off27_inb L k k1_h1 0) ((k1_off26_eq k ⟨1, by decide⟩).trans (vec1 (show 256 * k.val + 16 * 1 + 16 = 16 * (16 * k.val + 2) by omega))) ((k1_off27_eq k ⟨0, by decide⟩).trans (vec1 (show 256 * k.val + 16 * 0 + 32 = 16 * (16 * k.val + 2) by omega))) (16 * k.val + 3) (by omega)
      (k1_chk19 L) (k1_chk19.dec L) (fun v hw => k1_idx19_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 3) (k1_off27 k 3#32) (k1_off28 k 3#32) (k1_off27_inb L k k1_h1 1) (k1_off28_inb L k k1_h1 0) ((k1_off27_eq k ⟨1, by decide⟩).trans (vec1 (show 256 * k.val + 16 * 1 + 32 = 16 * (16 * k.val + 3) by omega))) ((k1_off28_eq k ⟨0, by decide⟩).trans (vec1 (show 256 * k.val + 16 * 0 + 48 = 16 * (16 * k.val + 3) by omega))) (16 * k.val + 4) (by omega)
      (k1_chk20 L) (k1_chk20.dec L) (fun v hw => k1_idx20_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 4) (k1_off28 k 4#32) (k1_off29 k 4#32) (k1_off28_inb L k k1_h1 1) (k1_off29_inb L k k1_h1 0) ((k1_off28_eq k ⟨1, by decide⟩).trans (vec1 (show 256 * k.val + 16 * 1 + 48 = 16 * (16 * k.val + 4) by omega))) ((k1_off29_eq k ⟨0, by decide⟩).trans (vec1 (show 256 * k.val + 16 * 0 + 64 = 16 * (16 * k.val + 4) by omega))) (16 * k.val + 5) (by omega)
      (k1_chk21 L) (k1_chk21.dec L) (fun v hw => k1_idx21_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 5) (k1_off29 k 5#32) (k1_off30 k 5#32) (k1_off29_inb L k k1_h1 1) (k1_off30_inb L k k1_h1 0) ((k1_off29_eq k ⟨1, by decide⟩).trans (vec1 (show 256 * k.val + 16 * 1 + 64 = 16 * (16 * k.val + 5) by omega))) ((k1_off30_eq k ⟨0, by decide⟩).trans (vec1 (show 256 * k.val + 16 * 0 + 80 = 16 * (16 * k.val + 5) by omega))) (16 * k.val + 6) (by omega)
      (k1_chk22 L) (k1_chk22.dec L) (fun v hw => k1_idx22_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 6) (k1_off30 k 6#32) (k1_off31 k 6#32) (k1_off30_inb L k k1_h1 1) (k1_off31_inb L k k1_h1 0) ((k1_off30_eq k ⟨1, by decide⟩).trans (vec1 (show 256 * k.val + 16 * 1 + 80 = 16 * (16 * k.val + 6) by omega))) ((k1_off31_eq k ⟨0, by decide⟩).trans (vec1 (show 256 * k.val + 16 * 0 + 96 = 16 * (16 * k.val + 6) by omega))) (16 * k.val + 7) (by omega)
      (k1_chk23 L) (k1_chk23.dec L) (fun v hw => k1_idx23_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 7) (k1_off31 k 7#32) (k1_off32 k 7#32) (k1_off31_inb L k k1_h1 1) (k1_off32_inb L k k1_h1 0) ((k1_off31_eq k ⟨1, by decide⟩).trans (vec1 (show 256 * k.val + 16 * 1 + 96 = 16 * (16 * k.val + 7) by omega))) ((k1_off32_eq k ⟨0, by decide⟩).trans (vec1 (show 256 * k.val + 16 * 0 + 112 = 16 * (16 * k.val + 7) by omega))) (16 * k.val + 8) (by omega)
      (k1_chk24 L) (k1_chk24.dec L) (fun v hw => k1_idx24_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 8) (k1_off32 k 8#32) (k1_off33 k 8#32) (k1_off32_inb L k k1_h1 1) (k1_off33_inb L k k1_h1 0) ((k1_off32_eq k ⟨1, by decide⟩).trans (vec1 (show 256 * k.val + 16 * 1 + 112 = 16 * (16 * k.val + 8) by omega))) ((k1_off33_eq k ⟨0, by decide⟩).trans (vec1 (show 256 * k.val + 16 * 0 + 128 = 16 * (16 * k.val + 8) by omega))) (16 * k.val + 9) (by omega)
      (k1_chk25 L) (k1_chk25.dec L) (fun v hw => k1_idx25_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 9) (k1_off33 k 9#32) (k1_off34 k 9#32) (k1_off33_inb L k k1_h1 1) (k1_off34_inb L k k1_h1 0) ((k1_off33_eq k ⟨1, by decide⟩).trans (vec1 (show 256 * k.val + 16 * 1 + 128 = 16 * (16 * k.val + 9) by omega))) ((k1_off34_eq k ⟨0, by decide⟩).trans (vec1 (show 256 * k.val + 16 * 0 + 144 = 16 * (16 * k.val + 9) by omega))) (16 * k.val + 10) (by omega)
      (k1_chk26 L) (k1_chk26.dec L) (fun v hw => k1_idx26_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 10) (k1_off34 k 10#32) (k1_off35 k 10#32) (k1_off34_inb L k k1_h1 1) (k1_off35_inb L k k1_h1 0) ((k1_off34_eq k ⟨1, by decide⟩).trans (vec1 (show 256 * k.val + 16 * 1 + 144 = 16 * (16 * k.val + 10) by omega))) ((k1_off35_eq k ⟨0, by decide⟩).trans (vec1 (show 256 * k.val + 16 * 0 + 160 = 16 * (16 * k.val + 10) by omega))) (16 * k.val + 11) (by omega)
      (k1_chk27 L) (k1_chk27.dec L) (fun v hw => k1_idx27_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 11) (k1_off35 k 11#32) (k1_off36 k 11#32) (k1_off35_inb L k k1_h1 1) (k1_off36_inb L k k1_h1 0) ((k1_off35_eq k ⟨1, by decide⟩).trans (vec1 (show 256 * k.val + 16 * 1 + 160 = 16 * (16 * k.val + 11) by omega))) ((k1_off36_eq k ⟨0, by decide⟩).trans (vec1 (show 256 * k.val + 16 * 0 + 176 = 16 * (16 * k.val + 11) by omega))) (16 * k.val + 12) (by omega)
      (k1_chk28 L) (k1_chk28.dec L) (fun v hw => k1_idx28_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 12) (k1_off36 k 12#32) (k1_off37 k 12#32) (k1_off36_inb L k k1_h1 1) (k1_off37_inb L k k1_h1 0) ((k1_off36_eq k ⟨1, by decide⟩).trans (vec1 (show 256 * k.val + 16 * 1 + 176 = 16 * (16 * k.val + 12) by omega))) ((k1_off37_eq k ⟨0, by decide⟩).trans (vec1 (show 256 * k.val + 16 * 0 + 192 = 16 * (16 * k.val + 12) by omega))) (16 * k.val + 13) (by omega)
      (k1_chk29 L) (k1_chk29.dec L) (fun v hw => k1_idx29_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 13) (k1_off37 k 13#32) (k1_off38 k 13#32) (k1_off37_inb L k k1_h1 1) (k1_off38_inb L k k1_h1 0) ((k1_off37_eq k ⟨1, by decide⟩).trans (vec1 (show 256 * k.val + 16 * 1 + 192 = 16 * (16 * k.val + 13) by omega))) ((k1_off38_eq k ⟨0, by decide⟩).trans (vec1 (show 256 * k.val + 16 * 0 + 208 = 16 * (16 * k.val + 13) by omega))) (16 * k.val + 14) (by omega)
      (k1_chk30 L) (k1_chk30.dec L) (fun v hw => k1_idx30_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 14) (k1_off38 k 14#32) (k1_off39 k 14#32) (k1_off38_inb L k k1_h1 1) (k1_off39_inb L k k1_h1 0) ((k1_off38_eq k ⟨1, by decide⟩).trans (vec1 (show 256 * k.val + 16 * 1 + 208 = 16 * (16 * k.val + 14) by omega))) ((k1_off39_eq k ⟨0, by decide⟩).trans (vec1 (show 256 * k.val + 16 * 0 + 224 = 16 * (16 * k.val + 14) by omega))) (16 * k.val + 15) (by omega)
      (k1_chk31 L) (k1_chk31.dec L) (fun v hw => k1_idx31_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 15) (k1_off39 k 15#32) (k1_off40 k) (k1_off39_inb L k k1_h1 1) (k1_off40_inb L k k1_h1) ((k1_off39_eq k ⟨1, by decide⟩).trans (vec1 (show 256 * k.val + 16 * 1 + 224 = 16 * (16 * k.val + 15) by omega))) ((k1_off40_eq k).trans (vec1 (show 256 * k.val + 240 = 16 * (16 * k.val + 15) by omega))) (16 * (k.val + 1)) (by omega)
      (k1_chk32 L) (k1_chk32.dec L) (fun v hw => k1_idx32_inb L v hw k1_h1) (fun v hv _ => chk_ok v hv)) $$ HR; iintro HR
    sl_step
    iexact HR
  · unfold scr
    isplitl [Hc]; · iexact Hc
    isplitl [Hi2]; · iexact Hi2
    iexact Ha1
  iintro %_ HR
  unfold scr
  icases HR with ⟨Hc, Hi, Ha⟩
  sl_exec
  sl_step
  ihave Ho0 := (Entails.of_eq (pts_piece0 (F := F) d L hL _)) $$ Ho0'
  ihave Ho0g := (pts_congr_on (F := F) (ℓ := outLoc d) (g := gatF IT d PT) ?hv0) $$ Ho0
  case hv0 =>
    intro i hi; rw [pieceSet_zero L hL] at hi
    exact out_value (F := F) IT d L hin PT (k1_off5 L) (k1_off5_inb L hL) (by rw [k1_off5_eq]; rfl) _ (idxF0 IT d L hL) hx0 fa (fun y => congrArg (IT d) (emb_ip0 L hL y)) _ (by rw [trips1]) i hi
  ihave Ho1 := (Entails.of_eq (pts_piece1 (F := F) d L hL _)) $$ Ho1'
  ihave Ho1g := (pts_congr_on (F := F) (ℓ := outLoc d) (g := gatF IT d PT) ?hv1) $$ Ho1
  case hv1 =>
    intro i hi; rw [pieceSet_one L hL] at hi
    exact out_value (F := F) IT d L hin PT (k1_off23 L) (k1_off23_inb L hL) (by rw [k1_off23_eq]; rfl) _ (idxF1 IT d L hL) hx1 _ (fun y => congrArg (IT d) (emb_ip1 L hL y)) _ (by rw [trips2]) i hi
  isplitl [Hpt' Hit' Ho0g Ho1g]
  · iexists PT; isplitr; · ipureintro; exact hAg
    isplitl [Hpt']; · iexact Hpt'
    isplitl [Hit']; · iexact Hit'
    isplitl [Ho0g]; · iexact Ho0g
    iexact Ho1g
  isplitl [Hc Hi Ha Hbufs]
  · isplitl [Hc]; · iexists _; iexact Hc
    isplitl [Hi]; · iexists _; iexact Hi
    isplitl [Ha]; · iexists _; iexact Ha
    iexact Hbufs
  isplitl [Hs0 Hs1 Hs2 Hs3 Hs4 Hs5 Hs6 Hs7 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    iexact Hsems
  iexists _
  isplitr
  rotate_left
  · iexact HO
  · ipureintro
    exact ins_ok _ (ins_ok _ (ins_ok _ (ins_ok _ (ins_ok _ (ins_ok _ (ins_ok _ (ins_ok _ (fun p hp => Or.inl hp))))))))

end Tile

/-! ## The launch theorem's obligation -/

theorem defs₀_vector (c : Fin τ.nSC) (s : Fin τ.nSub) :
    defs₀ (F := F) (.scVector c s) 1 ()
      = SparseCore.onTile hcore1 hsub1 (fun c s => cc1__sc (coordsV c s)
          ptW (Memref.isWhole_whole _) itW (Memref.isWhole_whole _) outW (Memref.isWhole_whole _)
          colW (Memref.isWhole_whole _) idxW (Memref.isWhole_whole _) accW (Memref.isWhole_whole _)
          cc1_scoped0 cc1_scoped1 cc1_scoped2 cc1_scoped3 cc1_scoped4 cc1_scoped5 cc1_scoped6 cc1_scoped7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile obligation: a working tile's task, or an idle tile's return. -/
theorem tileObl (hin : InRange IT) : TileStmt (F := F) (U := U) IT Ag := by
  intro d c i O W hO _ _
  -- this kernel owes nothing for a protocol of its own
  simp only [show (P (F := F) (U := U) IT Ag).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  by_cases hL : k1_cond1 (coordsV ⟨_, hc.1⟩ ⟨_, hc.2⟩) = 1#1
  · exact (tile_work IT Ag d (coordsV ⟨_, hc.1⟩ ⟨_, hc.2⟩) facts hin hL _ O W hO).trans (wp_mono frame _ _ fun _ => obl_post)
  · exact (tile_idle IT Ag d (coordsV ⟨_, hc.1⟩ ⟨_, hc.2⟩) hL _ O W).trans (wp_mono frame _ _ fun _ => obl_post)

end Cert.Proof.ScTile

end
-- ==== Proof.ScTileSplit.lean ====
/-
  The split of a SparseCore's operands among its sixteen tiles, and the gathering of their results.

  The SparseCore's read share of each operand is cut into sixteen read shares (and a remainder kept aside); its slab
  of the result — the elements whose middle coordinate is the SparseCore's — is the disjoint union of the working
  tiles' pieces: tile s < 10 holds the elements (s, c, n), n < 4096 in its first piece and 4096 ≤ n in its second.
-/
import proofs.«204616_g36739150250405_cont_8to1_b_1211_24_alg».proof.Proof.ScTilePay

noncomputable section

namespace Cert.Proof.ScTile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open PCS

variable {F : FTy → Type} [FloatOps F]
variable {U : Type} [URA U] [CountersIn U]

local notation "𝕄" => MT nD τ sig (HIx 1) (Elt F) ℕ U ℕ

variable (IT : (d : Dev nD) → Buf (Elt F) (itLoc d))
variable (Ag : (d : Dev nD) → Buf (Elt F) (ptLoc d) → Prop)

/-! ## The pieces' elements -/

omit [FloatOps F] in
/-- A tile works exactly when its subcore is below 10. -/
theorem cond_iff : ∀ L : grid1.Coords, (k1_cond1 L = 1#1 ↔ (L 1).val < 10) := by decide +kernel

omit [FloatOps F] in
theorem set_piece0 (L : grid1.Coords) (h : k1_cond1 L = 1#1) :
    (piece0 L h).view.set = (Rect.unit (s := S10x2x8192) (k1_off5 L) S1x1x4096.size (k1_off5_inb L h)).set := by
  show (((outW).view.slice (Rect.unit (s := S10x2x8192) (k1_off5 L) S1x1x4096.size (k1_off5_inb L h))).reshape S4096 squeezes_S1x1x4096_S4096.numel_eq).set = _
  rw [View.set_reshape]
  show ((View.whole (main_v11_scv : Ref sig .scVector)).slice _).set = _
  rw [View.set_slice]; exact Finset.map_refl
omit [FloatOps F] in
theorem set_piece1 (L : grid1.Coords) (h : k1_cond1 L = 1#1) :
    (piece1 L h).view.set = (Rect.unit (s := S10x2x8192) (k1_off23 L) S1x1x4096.size (k1_off23_inb L h)).set := by
  show (((outW).view.slice (Rect.unit (s := S10x2x8192) (k1_off23 L) S1x1x4096.size (k1_off23_inb L h))).reshape S4096 squeezes_S1x1x4096_S4096.numel_eq).set = _
  rw [View.set_reshape]
  show ((View.whole (main_v11_scv : Ref sig .scVector)).slice _).set = _
  rw [View.set_slice]; exact Finset.map_refl

omit [FloatOps F] in
/-- Membership in a piece, by coordinates. -/
theorem mem_pieceSet (L : grid1.Coords) (t : Fin 2) (j : S10x2x8192.Idx) :
    j ∈ pieceSet L t ↔ (L 1).val < 10 ∧ (j 0).val = (L 1).val ∧ (j 1).val = (L 0).val
      ∧ 4096 * t.val ≤ (j 2).val ∧ (j 2).val < 4096 * t.val + 4096 := by
  by_cases h : k1_cond1 L = 1#1
  · have hs := (cond_iff L).mp h
    have key (off : Fin 3 → ℕ) (inb : ∀ a, off a + S1x1x4096.size a ≤ S10x2x8192.size a) (o2 : ℕ)
        (ho : off = ![(L 1).val, (L 0).val, o2]) :
        j ∈ (Rect.unit (s := S10x2x8192) off S1x1x4096.size inb).set
          ↔ (j 0).val = (L 1).val ∧ (j 1).val = (L 0).val ∧ o2 ≤ (j 2).val ∧ (j 2).val < o2 + 4096 := by
      subst ho
      rw [Rect.mem_set_unit]
      constructor
      · intro hh
        have h0 := hh 0; have h1 := hh 1; have h2 := hh 2
        change (L 1).val ≤ (j 0).val ∧ (j 0).val < (L 1).val + 1 at h0
        change (L 0).val ≤ (j 1).val ∧ (j 1).val < (L 0).val + 1 at h1
        change o2 ≤ (j 2).val ∧ (j 2).val < o2 + 4096 at h2
        omega
      · rintro ⟨h0, h1, h2, h3⟩ a
        match a with
        | 0 => exact ⟨by show (L 1).val ≤ (j 0).val; omega, by show (j 0).val < (L 1).val + 1; omega⟩
        | 1 => exact ⟨by show (L 0).val ≤ (j 1).val; omega, by show (j 1).val < (L 0).val + 1; omega⟩
        | 2 => exact ⟨by show o2 ≤ (j 2).val; omega, by show (j 2).val < o2 + 4096; omega⟩
    rcases Fin.exists_fin_two.mp ⟨t, rfl⟩ with rfl | rfl
    · rw [pieceSet_zero L h, set_piece0, key _ _ 0 (k1_off5_eq L)]
      simp only [Fin.val_zero, Nat.mul_zero, Nat.zero_add]
      exact ⟨fun hh => ⟨hs, hh⟩, fun hh => hh.2⟩
    · rw [pieceSet_one L h, set_piece1, key _ _ 4096 (k1_off23_eq L)]
      simp only [Fin.val_one, Nat.mul_one]
      exact ⟨fun hh => ⟨hs, hh⟩, fun hh => hh.2⟩
  · rw [pieceSet_idle L h]
    have hs : ¬ (L 1).val < 10 := fun hh => h ((cond_iff L).mpr hh)
    simp only [Finset.notMem_empty, false_iff]
    exact fun hh => hs hh.1

/-! ## The slab is its tiles' pieces -/

omit [FloatOps F] in
theorem crd_zero (c : Fin ((K (F := F)).nCore 0)) (i : Fin ((K (F := F)).nSub 0)) : ((crd (F := F) c i) 0).val = c.val := rfl
omit [FloatOps F] in
theorem crd_one (c : Fin ((K (F := F)).nCore 0)) (i : Fin ((K (F := F)).nSub 0)) : ((crd (F := F) c i) 1).val = i.val := rfl

/-- A tile's two pieces. -/
abbrev K1 (c : Fin ((K (F := F)).nCore 0)) (i : Fin ((K (F := F)).nSub 0)) : Finset S10x2x8192.Idx :=
  pieceSet (crd (F := F) c i) 0 ∪ pieceSet (crd (F := F) c i) 1

omit [FloatOps F] in
theorem pieces_disj (L : grid1.Coords) : Disjoint (pieceSet L 0) (pieceSet L 1) :=
  Finset.disjoint_left.mpr fun j h0 h1 => by
    have a0 := (mem_pieceSet L 0 j).mp h0
    have a1 := (mem_pieceSet L 1 j).mp h1
    simp only [Fin.val_zero, Fin.val_one] at a0 a1
    omega

omit [FloatOps F] in
theorem mem_K1 (c : Fin ((K (F := F)).nCore 0)) (i : Fin ((K (F := F)).nSub 0)) (j : S10x2x8192.Idx) :
    j ∈ K1 (F := F) c i ↔ i.val < 10 ∧ (j 0).val = i.val ∧ (j 1).val = c.val := by
  unfold K1
  rw [Finset.mem_union, mem_pieceSet, mem_pieceSet, crd_zero, crd_one]
  simp only [Fin.val_zero, Fin.val_one]
  have h2 : (j 2).val < 8192 := (j 2).isLt
  constructor
  · rintro (h | h) <;> exact ⟨h.1, h.2.1, h.2.2.1⟩
  · rintro ⟨h0, h1, h2'⟩
    by_cases hj : (j 2).val < 4096
    · exact .inl ⟨h0, h1, h2', by omega, by omega⟩
    · exact .inr ⟨h0, h1, h2', by omega, by omega⟩

omit [FloatOps F] in
theorem K1_disj (c : Fin ((K (F := F)).nCore 0)) {i i' : Fin ((K (F := F)).nSub 0)} (h : i ≠ i') :
    Disjoint (K1 (F := F) c i) (K1 (F := F) c i') :=
  Finset.disjoint_left.mpr fun j h0 h1 => by
    have a0 := (mem_K1 c i j).mp h0
    have a1 := (mem_K1 c i' j).mp h1
    exact h (Fin.ext (by omega))

omit [FloatOps F] in
theorem K1_cover (c : Fin ((K (F := F)).nCore 0)) :
    (Finset.univ : Finset (Fin ((K (F := F)).nSub 0))).biUnion (K1 (F := F) c) = slab c.val := by
  ext j
  rw [Finset.mem_biUnion, mem_slab]
  constructor
  · rintro ⟨i, -, hi⟩; exact ((mem_K1 c i j).mp hi).2.2
  · intro hj
    have h0 : (j 0).val < 10 := (j 0).isLt
    exact ⟨⟨(j 0).val, by show (j 0).val < 16; omega⟩, Finset.mem_univ _, (mem_K1 c _ j).mpr ⟨h0, rfl, hj⟩⟩

/-- A SparseCore's slab of the result is its tiles' pieces. -/
theorem slab_pieces (d : Dev nD) (c : Fin ((K (F := F)).nCore 0)) (f : Buf (Elt F) (outLoc d)) :
    (outLoc d ↦[slab c.val]{fullShare} f : sProp 𝕄)
      = bigSep Finset.univ fun i : Fin ((K (F := F)).nSub 0) =>
          iprop((outLoc d ↦[pieceSet (crd (F := F) c i) 0]{fullShare} f) ∗ outLoc d ↦[pieceSet (crd (F := F) c i) 1]{fullShare} f) := by
  rw [← K1_cover (F := F) c]
  refine (pointsTo_biUnion (ℓ := outLoc d) (q := fullShare) (f := f) Finset.univ (K1 (F := F) c) (fun i _ i' _ h => K1_disj c h)).trans ?_
  exact bigSep_congr fun i _ =>
    BI.equiv_iff.mp ⟨(pointsTo_union (pieces_disj _)).1, (pointsTo_union (pieces_disj _)).2⟩

/-! ## The read shares -/

theorem toks_split {ℓ : Loc nD τ sig} (q : PosShare TreeShare) (f : Buf (Elt F) ℓ) :
    (ℓ ↦{q} f : sProp 𝕄)
      ⊢ iprop((ℓ ↦{Transfers.shareDrop q 16} f) ∗ bigSep Finset.univ fun i : Fin ((K (F := F)).nSub 0) => ℓ ↦{tq (F := F) q i} f) :=
  Transfers.pointsTo_toks_split q 16
theorem toks_join {ℓ : Loc nD τ sig} (q : PosShare TreeShare) (f : Buf (Elt F) ℓ) :
    iprop((ℓ ↦{Transfers.shareDrop q 16} f) ∗ bigSep Finset.univ fun i : Fin ((K (F := F)).nSub 0) => ℓ ↦{tq (F := F) q i} f)
      ⊢ (ℓ ↦{q} f : sProp 𝕄) :=
  Transfers.pointsTo_toks_join q 16

omit [FloatOps F] in
/-- A resource threaded through the summands of a `bigSep`. -/
theorem bigSep_thread {I : Type} (s : Finset I) (R : sProp 𝕄) (Φ Ψ : I → sProp 𝕄)
    (h : ∀ i, iprop(R ∗ Φ i) ⊢ iprop(R ∗ Ψ i)) : iprop(R ∗ bigSep s Φ) ⊢ iprop(R ∗ bigSep s Ψ) := by
  classical
  induction s using Finset.induction_on with
  | empty => exact .rfl
  | insert a s ha ih =>
    rw [SparseCore.bigSep_insert' ha, SparseCore.bigSep_insert' ha]
    iintro ⟨HR, Ha, Hs⟩
    ihave H1 := (h a) $$ [HR Ha]
    · isplitl [HR] <;> iassumption
    icases H1 with ⟨HR, Ha⟩
    ihave H2 := ih $$ [HR Hs]
    · isplitl [HR] <;> iassumption
    icases H2 with ⟨HR, Hs⟩
    isplitl [HR]; · iexact HR
    isplitl [Ha]; · iexact Ha
    iexact Hs

/-! ## The split -/

/-- The tiles' shares and pieces make the tiles' payloads. -/
theorem deal (d : Dev nD) (c : Fin ((K (F := F)).nCore 0)) (PT : Buf (Elt F) (ptLoc d)) (f : Buf (Elt F) (outLoc d)) (hAg : Ag d PT) :
    iprop((bigSep Finset.univ fun i : Fin ((K (F := F)).nSub 0) => ptLoc d ↦{tq (F := F) (q2 c.val) i} PT)
        ∗ (bigSep Finset.univ fun i : Fin ((K (F := F)).nSub 0) => itLoc d ↦{tq (F := F) (q2 c.val) i} IT d)
        ∗ bigSep Finset.univ fun i : Fin ((K (F := F)).nSub 0) =>
            iprop((outLoc d ↦[pieceSet (crd (F := F) c i) 0]{fullShare} f) ∗ outLoc d ↦[pieceSet (crd (F := F) c i) 1]{fullShare} f))
      ⊢ (bigSep Finset.univ fun i : Fin ((K (F := F)).nSub 0) => (P (F := F) (U := U) IT Ag).go 0 d c i : sProp 𝕄) := by
  have hpt : ∀ i : Fin ((K (F := F)).nSub 0),
      (iprop((ptLoc d ↦{tq (F := F) (q2 c.val) i} PT) ∗ (itLoc d ↦{tq (F := F) (q2 c.val) i} IT d)
        ∗ (outLoc d ↦[pieceSet (crd (F := F) c i) 0]{fullShare} f) ∗ outLoc d ↦[pieceSet (crd (F := F) c i) 1]{fullShare} f) : sProp 𝕄)
      ⊢ (P (F := F) (U := U) IT Ag).go 0 d c i := fun i => by
    rw [P_go]
    iintro ⟨Hp, Hi, Ho0, Ho1⟩
    iexists PT; isplitr; · ipureintro; exact hAg
    isplitl [Hp]; · iexact Hp
    isplitl [Hi]; · iexact Hi
    isplitl [Ho0]; · iexists f; iexact Ho0
    iexists f; iexact Ho1
  rw [← bigSep_sep', ← bigSep_sep']
  exact bigSep_mono fun i _ => hpt i

/-- The tiles' results and the remainders kept aside make the SparseCore's result. -/
theorem collect (d : Dev nD) (c : Fin ((K (F := F)).nCore 0)) (PT : Buf (Elt F) (ptLoc d)) :
    iprop((ptLoc d ↦{Transfers.shareDrop (q2 c.val) 16} PT) ∗ (itLoc d ↦{Transfers.shareDrop (q2 c.val) 16} IT d)
        ∗ bigSep Finset.univ fun i : Fin ((K (F := F)).nSub 0) => (P (F := F) (U := U) IT Ag).td 0 d c i)
      ⊢ (iprop((ptLoc d ↦{q2 c.val} PT) ∗ (itLoc d ↦{q2 c.val} IT d) ∗ outLoc d ↦[slab c.val]{fullShare} gatF IT d PT) : sProp 𝕄) := by
  have hthread := bigSep_thread (F := F) (U := U) (Finset.univ : Finset (Fin ((K (F := F)).nSub 0)))
    (ptLoc d ↦{Transfers.shareDrop (q2 c.val) 16} PT)
    (fun i => (P (F := F) (U := U) IT Ag).td 0 d c i)
    (fun i => iprop((ptLoc d ↦{tq (F := F) (q2 c.val) i} PT) ∗ (itLoc d ↦{tq (F := F) (q2 c.val) i} IT d)
      ∗ (outLoc d ↦[pieceSet (crd (F := F) c i) 0]{fullShare} gatF IT d PT) ∗ outLoc d ↦[pieceSet (crd (F := F) c i) 1]{fullShare} gatF IT d PT))
    (fun i => by
      rw [P_td]
      iintro ⟨HR, %PT', %hAg', Hp, Hi, Ho0, Ho1⟩
      ihave Ha := (share_agree (F := F) (U := U) PT PT') $$ [HR Hp]
      · isplitl [HR] <;> iassumption
      icases Ha with ⟨%he, HR, Hp⟩
      subst he
      isplitl [HR]; · iexact HR
      isplitl [Hp]; · iexact Hp
      isplitl [Hi]; · iexact Hi
      isplitl [Ho0]; · iexact Ho0
      iexact Ho1)
  iintro ⟨Hpr, Hir, Htd⟩
  ihave H := hthread $$ [Hpr Htd]
  · isplitl [Hpr] <;> iassumption
  icases H with ⟨Hpr, Hall⟩
  ihave Hall' := (Entails.of_eq (bigSep_sep' _ _ _)) $$ Hall
  icases Hall' with ⟨Hps, Hrest⟩
  ihave Hrest' := (Entails.of_eq (bigSep_sep' _ _ _)) $$ Hrest
  icases Hrest' with ⟨His, Hos⟩
  isplitl [Hpr Hps]
  · iapply (toks_join (F := F) (U := U) (q2 c.val) PT); isplitl [Hpr] <;> iassumption
  isplitl [Hir His]
  · iapply (toks_join (F := F) (U := U) (q2 c.val) (IT d)); isplitl [Hir] <;> iassumption
  iapply (Entails.of_eq (slab_pieces (F := F) (U := U) d c (gatF IT d PT)).symm); iexact Hos

theorem vecSplit : SplitStmt (F := F) (U := U) IT Ag := by
  intro d c
  rw [P_st, P_dn]
  iintro ⟨%PT, %hAg, Hpt, Hit, %f, Hout⟩
  ihave Hpt' := (toks_split (F := F) (U := U) (q2 c.val) PT) $$ Hpt
  icases Hpt' with ⟨Hptr, Hpts⟩
  ihave Hit' := (toks_split (F := F) (U := U) (q2 c.val) (IT d)) $$ Hit
  icases Hit' with ⟨Hitr, Hits⟩
  ihave Hout' := (Entails.of_eq (slab_pieces (F := F) (U := U) d c f)) $$ Hout
  imodintro
  isplitl [Hpts Hits Hout']
  · iapply (deal (F := F) (U := U) IT Ag d c PT f hAg)
    isplitl [Hpts]; · iexact Hpts
    isplitl [Hits]; · iexact Hits
    iexact Hout'
  iintro Htd
  ihave H := (collect (F := F) (U := U) IT Ag d c PT) $$ [Hptr Hitr Htd]
  · isplitl [Hptr]; · iexact Hptr
    isplitl [Hitr]; · iexact Hitr
    iexact Htd
  icases H with ⟨Hp, Hi, Ho⟩
  iexists PT; iexists (gatF IT d PT)
  isplitr; · ipureintro; exact ⟨hAg, fun j _ => rfl⟩
  isplitl [Hp]; · iexact Hp
  isplitl [Hi]; · iexact Hi
  iexact Ho

end Cert.Proof.ScTile

end
-- ==== Proof.KRun.lean ====
/-
  The kernel program's run from @main's obligation: the SparseCore launch theorem applied to the one vector-subcore
  call — no scalar kernel; the tile obligation and the split of a SparseCore's operands among its tiles; the launch
  element; what the final memory holds read off the buffers @main leaves held.
-/
import proofs.«204616_g36739150250405_cont_8to1_b_1211_24_alg».proof.Proof.KLaunch
import proofs.«204616_g36739150250405_cont_8to1_b_1211_24_alg».proof.Proof.KRead
import proofs.«204616_g36739150250405_cont_8to1_b_1211_24_alg».proof.Proof.ScTileBody
import proofs.«204616_g36739150250405_cont_8to1_b_1211_24_alg».proof.Proof.ScTileSplit

noncomputable section

namespace Cert.KernelIdeal.KS

open Cert.KernelIdeal Cert.KernelIdeal.Gen Cert.KernelIdeal.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Idealize.ShloMosaic.TcCoe
open Cert.KernelIdeal.TcReg
open Cert.Proof.ScTile (ptLoc itLoc outLoc gat)

variable {F : FTy → Type} [FloatOps F]

local notation "𝕄" => MT nD τ sig (HIx 1) (Elt F) ℕ UU ℕ

variable (m : (ℓ : Loc nD τ sig) → Buf (Elt F) ℓ) (ρ : Dev nD → PrngReg)
variable (Ag : (d : Dev nD) → Buf (Elt F) (ptLoc d) → Prop)

/-- What a final state satisfies on device `d`: for some result array of the first region, projection and gathered
    array, every unscoped buffer holds the fold's last contents. -/
def fq (d : Dev nD) (s' : Phys nD τ sig (Elt F)) : Prop :=
  ∃ (G : Buf (Elt F) ((d : Thread nD τ).loc main_v7)) (PT : Buf (Elt F) (ptLoc d)) (f : Buf (Elt F) (outLoc d)),
    (Ag d PT ∧ ∀ j, f j = PT (gat (ITf m) d j)) ∧ ∀ b ∈ Pipeline.ucRefs τ sig, s'.mem.mem (d, b) = W7 m d G PT f b

/-- The buffers @main leaves held pin the final memory. -/
theorem hfin (d : Dev nD) (s' : Phys nD τ sig (Elt F)) : iprop(FIN m Ag d ∗ SI s') ⊢ (⌜fq m Ag d s'⌝ : sProp 𝕄) := by
  unfold FIN
  iintro ⟨⟨%G, %PT, %f, %hf, Hheld⟩, HSI⟩
  ihave H := (held_read (F := F) (U := UU) (T d) (Pipeline.ucRefs τ sig) (W7 m d G PT f) s') $$ [Hheld HSI]
  · isplitl [Hheld] <;> iassumption
  icases H with %h
  ipureintro
  exact ⟨G, PT, f, hf, h⟩

/-- The run, from @main's obligation. -/
theorem run_of_hmain [∀ e, Nonempty (Elt F e)] (hin : Cert.Proof.ScTile.InRange (ITf m))
    (hmain : ∀ (κ : GSem nD τ sig → ℕ) (d : Dev nD),
      iprop((K (F := F)).ctx EH (PPm m Ag) κ ∗ (K (F := F)).tcSt EH d 0 ∗ (K (F := F)).tcRes m ρ d ∗ Gd (F := F) d)
        ⊢ wp frame (wpE ((K (F := F)).defs (D (F := F))) 𝒱 (T d) none) Set.univ (main (F := F) d)
            fun _ => iprop((K (F := F)).tcSt EH d 1 ∗ FIN m Ag d)) :
    RunStmt m ρ Ag := by
  unfold RunStmt
  exact SparseCore.Cfg.θ_run_sc (K := K (F := F)) (D := D (F := F)) (𝒱 := 𝒱) (EH := EH) (P := PPm m Ag) facts v₀
    (fun q hq => match q with | 0 => nomatch hq)
    (fun q _ => match q with | 0 => Cert.Proof.ScTile.tileObl (F := F) (U := UU) (ITf m) Ag hin)
    (fun q _ => match q with | 0 => SparseCore.Cfg.VecSplit.of_plain (Cert.Proof.ScTile.vecSplit (F := F) (U := UU) (ITf m) Ag))
    m ρ main (fun d => Gd (F := F) d) (FIN m Ag) (u₀ (F := F)) (sep_elim_left.trans (hu₀ m Ag)) hmain
    (fq m Ag) (hfin m Ag) (RunPost m Ag) (fun _ h => h)

end Cert.KernelIdeal.KS

end
-- ==== Proof.WKSetup.lean ====
/-
  The program as the SparseCore launch theorem reads it: the extended label table, the ghost state (the launch
  handshakes' rounds, the TensorCore pipelines' staging cells' rounds, the local transfers' counters), and @main cut
  into its four stretches of host operations around the two TensorCore regions and the SparseCore call.
-/
import proofs.«204616_g36739150250405_cont_8to1_b_1211_24_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«204616_g36739150250405_cont_8to1_b_1211_24_alg».proof.Proof.Gen.Kernel
import proofs.«204616_g36739150250405_cont_8to1_b_1211_24_alg».proof.Proof.Gen.Kernel.Launch
import proofs.«204616_g36739150250405_cont_8to1_b_1211_24_alg».proof.Proof.Gen.Kernel.Points

noncomputable section

namespace Cert.Kernel.KS

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state -/

abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## @main's host stretches -/

variable [FloatOps F]

/-- The nine operations before the first TensorCore region: the weight rows padded to sixteen, the table transposed. -/
def ops0 : List (HloOp τ sig (Elt F)) :=
  [
    StableHlo.unary main_arg4 main_v0 ((extractStridedSlice S640x1 ![0, 0] · slices_S641x1_S640x1_0_0) : (⟨S641x1, .f32⟩ : BufTy).Contents (Elt F) → (⟨S640x1, .f32⟩ : BufTy).Contents (Elt F)),
    StableHlo.reshape main_v0 main_v1 rfl shapeCasts_S640x1_S640,
    StableHlo.reshape main_v1 main_v2 rfl shapeCasts_S640_S10x64,
    StableHlo.nullary main_cst (constant S_ .f32 0x00000000#32),
    StableHlo.unary main_cst main_v3 (broadcastInDim S16x64 ![] bcast_S_S16x64 : (⟨S_, .f32⟩ : BufTy).Contents (Elt F) → (⟨S16x64, .f32⟩ : BufTy).Contents (Elt F)),
    StableHlo.nullary main_c (constantI S_ 32 0#32),
    StableHlo.unary main_c main_v4 (broadcastInDim S1 ![] bcast_S_S1 : (⟨S_, .i32⟩ : BufTy).Contents (Elt F) → (⟨S1, .i32⟩ : BufTy).Contents (Elt F)),
    StableHlo.ternary main_v3 main_v4 main_v2 main_v5 ((fun x i u => Host.scatter scatter_S16x64_S1_S10x64_01_n_0_0 (fun _ b => b) x i u) : (⟨S16x64, .f32⟩ : BufTy).Contents (Elt F) → (⟨S1, .i32⟩ : BufTy).Contents (Elt F) → (⟨S10x64, .f32⟩ : BufTy).Contents (Elt F) → (⟨S16x64, .f32⟩ : BufTy).Contents (Elt F)),
    StableHlo.unary main_arg3 main_v6 ((transpose S64x100000 [1, 0] · transposes_S100000x64_S64x100000_1_0) : (⟨S100000x64, .f32⟩ : BufTy).Contents (Elt F) → (⟨S64x100000, .f32⟩ : BufTy).Contents (Elt F))
  ]

/-- The three operations between the first region and the SparseCore call: the index columns stacked, transposed, split by core. -/
def ops1 : List (HloOp τ sig (Elt F)) :=
  [
    StableHlo.binary main_arg0 main_arg1 main_v8 ((fun a b => concatenate S16384x10 1 [⟨S16384x5, a⟩, ⟨S16384x5, b⟩] concatenates_S16384x5_S16384x5_S16384x10_d1) : (⟨S16384x5, .i32⟩ : BufTy).Contents (Elt F) → (⟨S16384x5, .i32⟩ : BufTy).Contents (Elt F) → (⟨S16384x10, .i32⟩ : BufTy).Contents (Elt F)),
    StableHlo.unary main_v8 main_v9 ((transpose S10x16384 [1, 0] · transposes_S16384x10_S10x16384_1_0) : (⟨S16384x10, .i32⟩ : BufTy).Contents (Elt F) → (⟨S10x16384, .i32⟩ : BufTy).Contents (Elt F)),
    StableHlo.reshape main_v9 main_v10 rfl shapeCasts_S10x16384_S10x2x8192
  ]

/-- The eight operations between the SparseCore call and the second region. -/
def ops2 : List (HloOp τ sig (Elt F)) :=
  [
    StableHlo.reshape main_v11 main_v12 rfl shapeCasts_S10x2x8192_S10x128x128,
    StableHlo.reshape main_arg2 main_v13 rfl shapeCasts_S16384_S128x128,
    StableHlo.unary main_arg4 main_v14 ((extractStridedSlice S1x1 ![640, 0] · slices_S641x1_S1x1_640_0) : (⟨S641x1, .f32⟩ : BufTy).Contents (Elt F) → (⟨S1x1, .f32⟩ : BufTy).Contents (Elt F)),
    StableHlo.reshape main_v14 main_v15 rfl shapeCasts_S1x1_S_,
    StableHlo.reshape main_arg5 main_v16 rfl shapeCasts_S1_S_,
    StableHlo.unary main_v15 main_v17 (broadcastInDim S1 ![] bcast_S_S1 : (⟨S_, .f32⟩ : BufTy).Contents (Elt F) → (⟨S1, .f32⟩ : BufTy).Contents (Elt F)),
    StableHlo.unary main_v16 main_v18 (broadcastInDim S1 ![] bcast_S_S1 : (⟨S_, .f32⟩ : BufTy).Contents (Elt F) → (⟨S1, .f32⟩ : BufTy).Contents (Elt F)),
    StableHlo.binary main_v17 main_v18 main_v19 ((fun a b => concatenate S2 0 [⟨S1, a⟩, ⟨S1, b⟩] concatenates_S1_S1_S2_d0) : (⟨S1, .f32⟩ : BufTy).Contents (Elt F) → (⟨S1, .f32⟩ : BufTy).Contents (Elt F) → (⟨S2, .f32⟩ : BufTy).Contents (Elt F))
  ]

/-- The one operation after the second region. -/
def ops3 : List (HloOp τ sig (Elt F)) :=
  [
    StableHlo.reshape main_v20 main_v21 rfl shapeCasts_S128x128_S16384x1
  ]

/-- @main is its four stretches around the three calls. -/
theorem main_eq (d : Dev nD) : main (F := F) d
    = (StableHlo.seq ops0 >>= fun _ => Prog.lift (.customCall (SparseCore.inner (Pipeline.entry 0)) ()) >>= fun _ =>
        StableHlo.seq ops1 >>= fun _ => (sc (F := F)).run d 0 >>= fun _ => StableHlo.seq ops2 >>= fun _ =>
        Prog.lift (.customCall (SparseCore.inner (Pipeline.entry 1)) ()) >>= fun _ => StableHlo.seq ops3 >>= fun _ => pure ⟨⟩) := by
  simp only [main, ops0, ops1, ops2, ops3, StableHlo.seq, bind_assoc, pure_bind]

end Cert.Kernel.KS

end
-- ==== Proof.WKRegion.lean ====
/-
  One TensorCore region entered from @main inside the SparseCore program: the region's step of the pipeline library,
  carried to the extended label table; once over exact proof data, once over relational proof data.
-/
import proofs.«204616_g36739150250405_cont_8to1_b_1211_24_alg».proof.Proof.WKSetup

noncomputable section

namespace Cert.Kernel.KS

open Cert.Kernel Cert.Kernel.Gen Cert.Kernel.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Idealize.ShloMosaic.TcCoe

variable {F : FTy → Type} [FloatOps F]

local notation "𝕄" => MT nD τ sig (HIx 1) (Elt F) ℕ UU ℕ

/-- The prefetched tables' admissible contents: no pipeline has a table. -/
abbrev adm : (p : Fin 2) → (pcfgs (F := F) p).Adm := fun p => (cfgs p).toPCfg_adm

/-- The program's staging cells are pairwise distinct, read at the pinned configurations. -/
theorem cinj : Function.Injective (Pipeline.cellOf (nD := nD) (τ := τ) (Pipeline.pin (pcfgs (F := F)) adm)) := cellOf_inj

set_option maxHeartbeats 4000000 in
set_option backward.isDefEq.respectTransparency.types false in
/-- A region's step under the program's own label table, at any level assignment. -/
theorem region_core [∀ e, Nonempty (Elt F e)] (L : GSem nD τ sig → Finset (HIx 1)) (lv : GSem nD τ sig → HIx 1 → ℕ)
    (pdats : (p : Fin 2) → (c : Dev nD) → Pipeline.Dat τ (Elt F) (HIx 1) ℕ UU ℕ (Pipeline.pin (pcfgs (F := F)) adm p) c)
    {p : Fin 2} (R : Pipeline.RegionSeg (pcfgs (F := F)) adm pdats (none : HIx 1) defs₀ 𝒱₀ L lv p)
    (d : Dev nD) (Q : PUnit → sProp 𝕄) :
    iprop((iprop(boundary (d.tc : Thread nD τ) ∗ R.post d) -∗ wp frame (wpE (Pipeline.defs (pcfgs (F := F)) defs₀) (Variants.lift 𝒱₀) (d.tc : Thread nD τ) none) Set.univ (.ret ⟨⟩) Q)
        ∗ boundary (d.tc : Thread nD τ) ∗ R.pre d ∗ levAts L lv
        ∗ Pipeline.cellsGhost (Pipeline.pin (pcfgs (F := F)) adm) EP p d ∗ Pipeline.toksInit (Pipeline.pin (pcfgs (F := F)) adm) EP p d)
      ⊢ wp frame (wpE (Pipeline.defs (pcfgs (F := F)) defs₀) (Variants.lift 𝒱₀) (d.tc : Thread nD τ) none) Set.univ
          (.op (.customCall (Pipeline.entry p) ()) fun _ => .ret ⟨⟩) Q :=
  Pipeline.RegionSeg.wp (pcfgs (F := F)) adm pdats (none : HIx 1) cinj EP defs₀ 𝒱₀ L lv R d none
    (fun _ h => nomatch h) (fun _ => .ret ⟨⟩) Q

set_option maxHeartbeats 4000000 in
set_option backward.isDefEq.respectTransparency.types false in
/-- The same over relational proof data (a window whose contents the data constrain without naming them). -/
theorem region_coreR [∀ e, Nonempty (Elt F e)] (L : GSem nD τ sig → Finset (HIx 1)) (lv : GSem nD τ sig → HIx 1 → ℕ)
    (rdats : (p : Fin 2) → (c : Dev nD) → Pipeline.RDat τ (Elt F) (HIx 1) ℕ UU ℕ (Pipeline.pin (pcfgs (F := F)) adm p) c)
    {p : Fin 2} (R : Pipeline.RDat.RegionSeg (pcfgs (F := F)) adm rdats (none : HIx 1) defs₀ 𝒱₀ L lv p)
    (d : Dev nD) (Q : PUnit → sProp 𝕄) :
    iprop((iprop(boundary (d.tc : Thread nD τ) ∗ R.post d) -∗ wp frame (wpE (Pipeline.defs (pcfgs (F := F)) defs₀) (Variants.lift 𝒱₀) (d.tc : Thread nD τ) none) Set.univ (.ret ⟨⟩) Q)
        ∗ boundary (d.tc : Thread nD τ) ∗ R.pre d ∗ levAts L lv
        ∗ Pipeline.cellsGhost (Pipeline.pin (pcfgs (F := F)) adm) EP p d ∗ Pipeline.toksInit (Pipeline.pin (pcfgs (F := F)) adm) EP p d)
      ⊢ wp frame (wpE (Pipeline.defs (pcfgs (F := F)) defs₀) (Variants.lift 𝒱₀) (d.tc : Thread nD τ) none) Set.univ
          (.op (.customCall (Pipeline.entry p) ()) fun _ => .ret ⟨⟩) Q :=
  Pipeline.RDat.RegionSeg.wp (pcfgs (F := F)) adm rdats (none : HIx 1) cinj EP defs₀ 𝒱₀ L lv R d none
    (fun _ h => nomatch h) (fun _ => .ret ⟨⟩) Q

/-- A continuation that is the return: its weakest precondition is its postcondition. -/
theorem ret_intro {Λ' : Labels} (defs' : Defs nD τ sig (Elt F) Λ') (𝒱' : Variants) (thr : Thread nD τ) (bd : Option 𝒱'.V) (X Rest : sProp 𝕄) (Q : PUnit → sProp 𝕄) :
    iprop((X -∗ Q ⟨⟩) ∗ Rest) ⊢ iprop((X -∗ wp frame (wpE defs' 𝒱' thr bd) Set.univ (.ret ⟨⟩) Q) ∗ Rest) := by
  iintro ⟨Hk, Hrest⟩
  isplitl [Hk]
  · iintro H; rw [wp_ret]; imodintro; iapply Hk; iexact H
  · iexact Hrest

/-- A region of @main as the extended program spells it: the pipeline's entry under the SparseCore layer of labels.
    From the boundary, the region's entry state, the level facts and the pipeline's launch ghost state it runs to the
    boundary and the region's exit state. -/
theorem region_step [∀ e, Nonempty (Elt F e)] (pdats : (p : Fin 2) → (c : Dev nD) → Pipeline.Dat τ (Elt F) (HIx 1) ℕ UU ℕ (Pipeline.pin (pcfgs (F := F)) adm p) c)
    {p : Fin 2} (R : Pipeline.RegionSeg (pcfgs (F := F)) adm pdats (none : HIx 1) defs₀ 𝒱₀ (K (F := F)).L (K (F := F)).lev p)
    (d : Dev nD) (Q : PUnit → sProp 𝕄) :
    iprop((iprop(boundary (d.tc : Thread nD τ) ∗ R.post d) -∗ Q ⟨⟩) ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ
          (Prog.lift (.customCall (SparseCore.inner (Pipeline.entry p)) ())) Q := by
  exact (ret_intro _ _ _ _ _ _ Q).trans ((region_core (K (F := F)).L (K (F := F)).lev pdats R d Q).trans
    ((K (F := F)).wp_liftProg (D (F := F)) 𝒱 (T d) Set.univ none (Prog.lift (.customCall (Pipeline.entry p) ())) Q))

/-- The same over relational proof data. -/
theorem region_stepR [∀ e, Nonempty (Elt F e)] (rdats : (p : Fin 2) → (c : Dev nD) → Pipeline.RDat τ (Elt F) (HIx 1) ℕ UU ℕ (Pipeline.pin (pcfgs (F := F)) adm p) c)
    {p : Fin 2} (R : Pipeline.RDat.RegionSeg (pcfgs (F := F)) adm rdats (none : HIx 1) defs₀ 𝒱₀ (K (F := F)).L (K (F := F)).lev p)
    (d : Dev nD) (Q : PUnit → sProp 𝕄) :
    iprop((iprop(boundary (d.tc : Thread nD τ) ∗ R.post d) -∗ Q ⟨⟩) ∗ boundary (d.tc : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (T d) none) Set.univ
          (Prog.lift (.customCall (SparseCore.inner (Pipeline.entry p)) ())) Q := by
  exact (ret_intro _ _ _ _ _ _ Q).trans ((region_coreR (K (F := F)).L (K (F := F)).lev rdats R d Q).trans
    ((K (F := F)).wp_liftProg (D (F := F)) 𝒱 (T d) Set.univ none (Prog.lift (.customCall (Pipeline.entry p) ())) Q))

end Cert.Kernel.KS

end
-- ==== Proof.WKHost.lean ====
/-
  @main's four stretches of host operations: each touches unscoped TensorCore buffers only and allocates nothing.
-/
import proofs.«204616_g36739150250405_cont_8to1_b_1211_24_alg».proof.Proof.WKSetup
import Idealize.ShloMosaic.Lib.Pipeline.Frame

noncomputable section

namespace Cert.Kernel.KS

open Cert.Kernel Cert.Kernel.Gen Cert.Kernel.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)

variable {F : FTy → Type} [FloatOps F]

local notation "𝕄" => MT nD τ sig (HIx 1) (Elt F) ℕ UU ℕ

theorem ops0_sub' : (ops0 : List (HloOp τ sig (Elt F))).Forall fun op => op.bufs ⊆ StableHlo.tcRefs τ sig := by
  simp only [ops0, List.Forall]; repeat' apply And.intro
  all_goals first | exact StableHlo.unary_bufs_sub .. | exact StableHlo.reshape_bufs_sub .. | exact StableHlo.nullary_bufs_sub .. | exact StableHlo.binary_bufs_sub .. | exact StableHlo.ternary_bufs_sub ..
theorem ops0_sub : ∀ op ∈ (ops0 : List (HloOp τ sig (Elt F))), op.bufs ⊆ Pipeline.ucRefs τ sig :=
  fun op h => Pipeline.sub_ucRefs op ((List.forall_iff_forall_mem.mp ops0_sub') op h)
theorem ops0_fresh' : (ops0 : List (HloOp τ sig (Elt F))).Forall fun op => op.fresh = ∅ := by
  simp only [ops0, List.Forall]; repeat' constructor
theorem ops0_fresh : ∀ op ∈ (ops0 : List (HloOp τ sig (Elt F))), op.fresh = ∅ :=
  fun op h => (List.forall_iff_forall_mem.mp ops0_fresh') op h

theorem ops1_sub' : (ops1 : List (HloOp τ sig (Elt F))).Forall fun op => op.bufs ⊆ StableHlo.tcRefs τ sig := by
  simp only [ops1, List.Forall]; repeat' apply And.intro
  all_goals first | exact StableHlo.unary_bufs_sub .. | exact StableHlo.reshape_bufs_sub .. | exact StableHlo.nullary_bufs_sub .. | exact StableHlo.binary_bufs_sub .. | exact StableHlo.ternary_bufs_sub ..
theorem ops1_sub : ∀ op ∈ (ops1 : List (HloOp τ sig (Elt F))), op.bufs ⊆ Pipeline.ucRefs τ sig :=
  fun op h => Pipeline.sub_ucRefs op ((List.forall_iff_forall_mem.mp ops1_sub') op h)
theorem ops1_fresh' : (ops1 : List (HloOp τ sig (Elt F))).Forall fun op => op.fresh = ∅ := by
  simp only [ops1, List.Forall]; repeat' constructor
theorem ops1_fresh : ∀ op ∈ (ops1 : List (HloOp τ sig (Elt F))), op.fresh = ∅ :=
  fun op h => (List.forall_iff_forall_mem.mp ops1_fresh') op h

theorem ops2_sub' : (ops2 : List (HloOp τ sig (Elt F))).Forall fun op => op.bufs ⊆ StableHlo.tcRefs τ sig := by
  simp only [ops2, List.Forall]; repeat' apply And.intro
  all_goals first | exact StableHlo.unary_bufs_sub .. | exact StableHlo.reshape_bufs_sub .. | exact StableHlo.nullary_bufs_sub .. | exact StableHlo.binary_bufs_sub .. | exact StableHlo.ternary_bufs_sub ..
theorem ops2_sub : ∀ op ∈ (ops2 : List (HloOp τ sig (Elt F))), op.bufs ⊆ Pipeline.ucRefs τ sig :=
  fun op h => Pipeline.sub_ucRefs op ((List.forall_iff_forall_mem.mp ops2_sub') op h)
theorem ops2_fresh' : (ops2 : List (HloOp τ sig (Elt F))).Forall fun op => op.fresh = ∅ := by
  simp only [ops2, List.Forall]; repeat' constructor
theorem ops2_fresh : ∀ op ∈ (ops2 : List (HloOp τ sig (Elt F))), op.fresh = ∅ :=
  fun op h => (List.forall_iff_forall_mem.mp ops2_fresh') op h

theorem ops3_sub' : (ops3 : List (HloOp τ sig (Elt F))).Forall fun op => op.bufs ⊆ StableHlo.tcRefs τ sig := by
  simp only [ops3, List.Forall]; repeat' apply And.intro
  all_goals first | exact StableHlo.unary_bufs_sub .. | exact StableHlo.reshape_bufs_sub .. | exact StableHlo.nullary_bufs_sub .. | exact StableHlo.binary_bufs_sub .. | exact StableHlo.ternary_bufs_sub ..
theorem ops3_sub : ∀ op ∈ (ops3 : List (HloOp τ sig (Elt F))), op.bufs ⊆ Pipeline.ucRefs τ sig :=
  fun op h => Pipeline.sub_ucRefs op ((List.forall_iff_forall_mem.mp ops3_sub') op h)
theorem ops3_fresh' : (ops3 : List (HloOp τ sig (Elt F))).Forall fun op => op.fresh = ∅ := by
  simp only [ops3, List.Forall]; repeat' constructor
theorem ops3_fresh : ∀ op ∈ (ops3 : List (HloOp τ sig (Elt F))), op.fresh = ∅ :=
  fun op h => (List.forall_iff_forall_mem.mp ops3_fresh') op h

end Cert.Kernel.KS

end
-- ==== Proof.WTcBase.lean ====
import proofs.«204616_g36739150250405_cont_8to1_b_1211_24_alg».proof.Proof.Gen.Kernel.Launch
import proofs.«204616_g36739150250405_cont_8to1_b_1211_24_alg».proof.Proof.Gen.Kernel.Skeleton
import proofs.«204616_g36739150250405_cont_8to1_b_1211_24_alg».proof.Proof.Gen.Kernel.Points
import Idealize.ShloMosaic.Lib.Pipeline.FrameBody
import Idealize.ShloMosaic.Lib.SparseCore.Cells
import Idealize.ShloMosaic.Lib.Tactic

set_option maxRecDepth 16384

noncomputable section

namespace Cert.Kernel.TcReg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.SparseCore.Cfg (HIx)

variable {F : FTy → Type} [FloatOps F]
variable {U : Type} [URA U]

local notation "𝕄" => MT nD τ sig (HIx 1) (Elt F) ℕ U ℕ

/-- A region's invariant on core `c`: the core's scoped buffers that stage no window of the region, each at some
    contents, and its generator register at some state (the body touches neither). -/
def ΦH {gr W : Nat} (win : Fin W → Pipeline.WinSpec sig gr) (c : Dev nD) : sProp 𝕄 :=
  iprop(Pipeline.scopedRest (Ix := HIx 1) (Name := ℕ) (U := U) (Lvl := ℕ) (Val := Elt F) win c ∗ ∃ r, prngReg c r)

end Cert.Kernel.TcReg

end
-- ==== Proof.WTcRegion0.lean ====
import proofs.«204616_g36739150250405_cont_8to1_b_1211_24_alg».proof.Proof.WTcBase

set_option maxRecDepth 16384

noncomputable section

namespace Cert.Kernel.TcReg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.SparseCore.Cfg (HIx)

variable {F : FTy → Type} [FloatOps F]
variable {U : Type} [URA U]

local notation "𝕄" => MT nD τ sig (HIx 1) (Elt F) ℕ U ℕ

-- the TensorCore's buffer contents when a region is entered: the parameter both regions' halves are stated at
variable (V : (c : Dev nD) → (b : Ref sig .tc) → Buf (Elt F) ((c : Thread nD τ).loc b))
-- what the TensorCore owes the handshakes during a region, and the bound on its recorded pairs: passed through unread
variable (O : CellTallies nD τ sig (HIx 1)) (Rc : Set (SemLoc sig × HIx 1))

/-! # Region 0: the projection, one matrix product per column block -/

/-- Window `w`'s block at point `t`, read off its array as the region finds it: the part inside the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The table window's staging buffer once the fetch at `t` has landed: the block on the columns inside the table,
    `d` (contents nothing names) on the columns past its end. -/
def tblk0 (c : Dev nD) (t : Fin cfg0.N) (d : S64x8192.Idx → Elt F .f32) : S64x8192.Idx → Elt F .f32 :=
  (cfg0.win 1).fill (cfg0.grid.coords t) d (iblk0 V c 1 t)

abbrev rW0 : Rect S16x64 := Rect.unit (s := S16x64) ![0, 0] S16x64.size inb_S16x64_S16x64_0_0
abbrev rE0 : Rect S64x8192 := Rect.unit (s := S64x8192) ![0, 0] S64x8192.size inb_S64x8192_S64x8192_0_0
abbrev rO0 : Rect S16x8192 := Rect.unit (s := S16x8192) ![0, 0] S16x8192.size inb_S16x8192_S16x8192_0_0

/-- The result window's staging buffer after the body, from what the two input buffers hold: its one whole store. -/
def out0_2 (x0 : Vec F S16x64 .f32) (x1 : Vec F S64x8192 .f32) : Vec F S16x8192 .f32 :=
  View.canon [⟨rO0, k0_pay1 (View.ld x0 rW0) (View.ld x1 rE0)⟩]

/-- What the body may leave in the result window's buffer at point `t`: the product of the weight block with the
    table block as fetched, whatever filled the latter out past the table's end. -/
def R0_2 (c : Dev nD) (t : Fin cfg0.N) (_Y X : S16x8192.Idx → Elt F .f32) : Prop :=
  ∃ d : S64x8192.Idx → Elt F .f32, X = out0_2 (iblk0 V c 0 t) (tblk0 V c t d)

/-- The relational proof data of pipeline 0 on core `c`: the arrays as the region finds them; the two input
    buffers left as found; the result's buffer at the product of what the inputs' hold (`R0_2`). -/
def rdat0 (c : Dev nD) : RDat τ (Elt F) (HIx 1) ℕ U ℕ cfg0 c where
  A w := V c (Pipeline.arrRef spec0 w)
  after w t Y X := match w with
    | ⟨0, _⟩ => X = Y
    | ⟨1, _⟩ => X = Y
    | ⟨2, _⟩ => R0_2 V c t Y X
  Φ _ := ΦH spec0 c
  q _ := fullShare
  owed _ := O
  recorded _ := Rc

/-! ## The body's triple -/

/-- The one store tiles the result's buffer, so it covers it. -/
theorem cover0_2 (p0 : Vec F S16x8192 .f32) (y : S16x8192.Idx) :
    ∃ pc ∈ ([⟨rO0, p0⟩] : List (View.Piece (Elt F) S16x8192 .f32)), y ∈ pc.1.set :=
  View.cover_of_tiled [⟨rO0, p0⟩] S16x8192.size (by rfl) y

set_option maxHeartbeats 1000000 in
/-- The body on whole staging memrefs, the inputs' at read contents `x0`, `x1` and the result's at anything, runs to
    the continuation holding the inputs' as they were and the result's at `out0_2 x0 x1`. -/
theorem sound_kernel0 (c : Dev nD) (E : Set ℕ) (i : grid0.Coords)
    (arg1 : Memref sig .tc .vmem S16x64 .f32) (harg1 : arg1.IsWhole) (arg2 : Memref sig .tc .vmem S64x8192 .f32) (harg2 : arg2.IsWhole)
    (arg3 : Memref sig .tc .vmem S16x8192 .f32) (harg3 : arg3.IsWhole)
    (x0 : Vec F S16x64 .f32) (x1 : Vec F S64x8192 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__proj_body i arg1 harg1 arg2 harg2 arg3 harg3) K := by
  simp only [cc0__proj_body_eq_skeleton]; unfold cc0__proj_body_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## What the body finds in the input windows' buffers -/

/-- A fetch of the weight window fills its buffer with the block: the window is uncut. -/
theorem fetched0_0 (c : Dev nD) (t : Fin cfg0.N) (d) : (rdat0 (F := F) (U := U) V O Rc c).fetched 0 t d = iblk0 V c 0 t := by
  unfold RDat.fetched RDat.blockOf iblk0; rfl

/-- The weight window's buffer holds its block at every point, fetched there or not: its index never moves and
    the body leaves the buffer as found. -/
theorem finds0_0 (c : Dev nD) (t : Fin cfg0.N) (Y) (h : (rdat0 (F := F) (U := U) V O Rc c).Finds 0 t Y) : Y = iblk0 V c 0 t := by
  obtain ⟨d, hd⟩ := Pipeline.RDat.finds_in_eq_fetched (rdat0 (F := F) (U := U) V O Rc c) 0 rfl (fun _ _ _ => rfl) (fun _ _ _ h => h) t Y h
  rw [hd]; exact fetched0_0 V O Rc c t d

/-- The table window is fetched at every point: its buffer holds the block on the columns inside the table and
    contents nothing names past its end. -/
theorem finds0_1 (c : Dev nD) (t : Fin cfg0.N) (Y) (h : (rdat0 (F := F) (U := U) V O Rc c).Finds 1 t Y) : ∃ d, Y = tblk0 V c t d :=
  ((rdat0 (F := F) (U := U) V O Rc c).finds_of_fetch (fetch0_1 t) Y).mp h

/-! ## The body obligation, at a generic point -/

/-- What the body is called with at point `t`, the windows one by one, at contents `Y`, -/
def bodyPre0 (c : Dev nD) (t : Fin cfg0.N) (Y : (w : Fin cfg0.W) → (cfg0.win w).block.Idx → Elt F (cfg0.win w).elt) : sProp 𝕄 :=
  iprop((rdat0 V O Rc c).Φ t.castSucc ∗ (rdat0 V O Rc c).owesAt (none : HIx 1) t.castSucc
    ∗ owns (c : Thread nD τ) (st0_0 t) fullShare (Y 0)
    ∗ owns (c : Thread nD τ) (st0_1 t) fullShare (Y 1)
    ∗ owns (c : Thread nD τ) (st0_2 t) fullShare (Y 2))

/-- and what it returns. -/
def bodyPost0 (c : Dev nD) (t : Fin cfg0.N) (Y : (w : Fin cfg0.W) → (cfg0.win w).block.Idx → Elt F (cfg0.win w).elt) : sProp 𝕄 :=
  iprop((rdat0 V O Rc c).Φ t.succ ∗ (rdat0 V O Rc c).owesAt (none : HIx 1) t.succ
    ∗ (∃ X : (cfg0.win 0).block.Idx → Elt F (cfg0.win 0).elt, ⌜(rdat0 (F := F) (U := U) V O Rc c).after 0 t (Y 0) X⌝ ∗ owns (c : Thread nD τ) (st0_0 t) fullShare X)
    ∗ (∃ X : (cfg0.win 1).block.Idx → Elt F (cfg0.win 1).elt, ⌜(rdat0 (F := F) (U := U) V O Rc c).after 1 t (Y 1) X⌝ ∗ owns (c : Thread nD τ) (st0_1 t) fullShare X)
    ∗ (∃ X : (cfg0.win 2).block.Idx → Elt F (cfg0.win 2).elt, ⌜(rdat0 (F := F) (U := U) V O Rc c).after 2 t (Y 2) X⌝ ∗ owns (c : Thread nD τ) (st0_2 t) fullShare X))

/-- The body at any point, on any contents the buffers may then hold: the invariant and the core's `owes` pass
    through unread; the inputs' buffers come back as found; the result's holds the product of what they hold,
    which is the product of the weight block with the table block as fetched. -/
theorem sound_body0 (c : Dev nD) (t : Fin cfg0.N) (Y : (w : Fin cfg0.W) → (cfg0.win w).block.Idx → Elt F (cfg0.win w).elt)
    (hY : ∀ w, (rdat0 (F := F) (U := U) V O Rc c).Finds w t (Y w)) :
    bodyPre0 (F := F) (U := U) V O Rc c t Y ⊢ wp frame (wpE (defs₀ (F := F)) Variants.none c none) Set.univ (bodyAt0 t) (fun _ => bodyPost0 V O Rc c t Y) := by
  have h0 := finds0_0 V O Rc c t (Y 0) (hY 0)
  obtain ⟨d1, h1⟩ := finds0_1 V O Rc c t (Y 1) (hY 1)
  unfold bodyPre0 bodyPost0 bodyAt0
  rw [show (rdat0 V O Rc c).Φ t.succ = (rdat0 V O Rc c).Φ t.castSucc from rfl,
    show (rdat0 V O Rc c).owesAt (none : HIx 1) t.succ = (rdat0 V O Rc c).owesAt (none : HIx 1) t.castSucc from rfl]
  iintro ⟨HΦ, Ho, H0, H1, H2⟩
  iapply (sound_kernel0 c Set.univ _ _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; exact rfl
    iexact H0
  isplitl [H1]
  · iexists (Y 1); isplitr; · ipureintro; exact rfl
    iexact H1
  iexists _; isplitr
  · ipureintro; exact ⟨d1, congrArg₂ out0_2 h0 h1⟩
  iexact H2

/-- The library's relational body obligation, at every point. -/
theorem body_obligation0 (c : Dev nD) :
    (rdat0 (F := F) (U := U) V O Rc c).BodyObligation (defs₀ (F := F)) Variants.none (none : HIx 1) Set.univ := fun t Y hY => by
  rw [bigSep_W0, bigSep_W0]
  exact sound_body0 V O Rc c t Y hY

end Cert.Kernel.TcReg

end
-- ==== Proof.WTcRegion2.lean ====
import proofs.«204616_g36739150250405_cont_8to1_b_1211_24_alg».proof.Proof.WTcBase

set_option maxRecDepth 16384

noncomputable section

namespace Cert.Kernel.TcReg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.SparseCore.Cfg (HIx)

variable {F : FTy → Type} [FloatOps F]
variable {U : Type} [URA U]

local notation "𝕄" => MT nD τ sig (HIx 1) (Elt F) ℕ U ℕ

-- the TensorCore's buffer contents when a region is entered: the parameter both regions' halves are stated at
variable (V : (c : Dev nD) → (b : Ref sig .tc) → Buf (Elt F) ((c : Thread nD τ).loc b))
-- what the TensorCore owes the handshakes during a region, and the bound on its recorded pairs: passed through unread
variable (O : CellTallies nD τ sig (HIx 1)) (Rc : Set (SemLoc sig × HIx 1))

/-! # Region 2: the reduction — side * w + b, the ten partial results added in order, the logistic -/

/-- Window `w`'s block at the one point, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rP2_0 : Rect S10x128x128 := Rect.unit (s := S10x128x128) ![0, 0, 0] S1x128x128.size inb_S10x128x128_S1x128x128_0_0_0
abbrev rP2_1 : Rect S10x128x128 := Rect.unit (s := S10x128x128) ![1, 0, 0] S1x128x128.size inb_S10x128x128_S1x128x128_1_0_0
abbrev rP2_2 : Rect S10x128x128 := Rect.unit (s := S10x128x128) ![2, 0, 0] S1x128x128.size inb_S10x128x128_S1x128x128_2_0_0
abbrev rP2_3 : Rect S10x128x128 := Rect.unit (s := S10x128x128) ![3, 0, 0] S1x128x128.size inb_S10x128x128_S1x128x128_3_0_0
abbrev rP2_4 : Rect S10x128x128 := Rect.unit (s := S10x128x128) ![4, 0, 0] S1x128x128.size inb_S10x128x128_S1x128x128_4_0_0
abbrev rP2_5 : Rect S10x128x128 := Rect.unit (s := S10x128x128) ![5, 0, 0] S1x128x128.size inb_S10x128x128_S1x128x128_5_0_0
abbrev rP2_6 : Rect S10x128x128 := Rect.unit (s := S10x128x128) ![6, 0, 0] S1x128x128.size inb_S10x128x128_S1x128x128_6_0_0
abbrev rP2_7 : Rect S10x128x128 := Rect.unit (s := S10x128x128) ![7, 0, 0] S1x128x128.size inb_S10x128x128_S1x128x128_7_0_0
abbrev rP2_8 : Rect S10x128x128 := Rect.unit (s := S10x128x128) ![8, 0, 0] S1x128x128.size inb_S10x128x128_S1x128x128_8_0_0
abbrev rP2_9 : Rect S10x128x128 := Rect.unit (s := S10x128x128) ![9, 0, 0] S1x128x128.size inb_S10x128x128_S1x128x128_9_0_0
abbrev rS2 : Rect S128x128 := Rect.unit (s := S128x128) ![0, 0] S128x128.size inb_S128x128_S128x128_0_0
abbrev rB2_0 : Rect S2 := Rect.unit (s := S2) ![0] S1.size inb_S2_S1_0
abbrev rB2_1 : Rect S2 := Rect.unit (s := S2) ![1] S1.size inb_S2_S1_1

/-- The one index of a one-word rectangle. -/
abbrev i1 : S1.Idx := Shape.Idx.first (numel1_S1.symm ▸ Nat.one_pos)

/-- The result window's staging buffer after the body, from what the three input buffers hold: its one whole store. -/
def out2_3 (x0 : Vec F S10x128x128 .f32) (x1 : Vec F S128x128 .f32) (x2 : Vec F S2 .f32) : Vec F S128x128 .f32 :=
  View.canon [⟨rS2, k2_pay1
    (k2_pay2 (View.ld x1 rS2) (View.ld x2 rB2_0 i1) (View.ld x2 rB2_1 i1)
      (View.ld x0 rP2_0) (View.ld x0 rP2_1) (View.ld x0 rP2_2) (View.ld x0 rP2_3) (View.ld x0 rP2_4) (View.ld x0 rP2_5) (View.ld x0 rP2_6))
    (k2_pay3 (View.ld x0 rP2_7)) (View.ld x0 rP2_8) (View.ld x0 rP2_9)⟩]

/-- The proof data of pipeline 1 (custom_call 2) on core `c`: the arrays as the region finds them; after the body
    each input's buffer at its block and the result's at `out2_3` of the input blocks. -/
def dat2 (c : Dev nD) : Dat τ (Elt F) (HIx 1) ℕ U ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := ΦH spec2 c
  q _ := fullShare
  owed _ := O
  recorded _ := Rc

/-! ## What the body finds in the input windows' buffers -/

/-- Input window 0's current staging buffer holds its block at the one point, for any proof data whose array is
    `V`'s and whose body leaves the block in place. -/
theorem before2_0_of {c : Dev nD} (dat : Dat τ (Elt F) (HIx 1) ℕ U ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at the one point, for any proof data whose array is
    `V`'s and whose body leaves the block in place. -/
theorem before2_1_of {c : Dev nD} (dat : Dat τ (Elt F) (HIx 1) ℕ U ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at the one point, for any proof data whose array is
    `V`'s and whose body leaves the block in place. -/
theorem before2_2_of {c : Dev nD} (dat : Dat τ (Elt F) (HIx 1) ℕ U ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's triple -/

/-- The one store tiles the result's buffer, so it covers it. -/
theorem cover2_3 (p0 : Vec F S128x128 .f32) (y : S128x128.Idx) :
    ∃ pc ∈ ([⟨rS2, p0⟩] : List (View.Piece (Elt F) S128x128 .f32)), y ∈ pc.1.set :=
  View.cover_of_tiled [⟨rS2, p0⟩] S128x128.size (by rfl) y

set_option maxHeartbeats 1000000 in
/-- The body on whole staging memrefs, the inputs' at read contents `x0`, `x1`, `x2` (the last in scalar memory) and
    the result's at anything, runs to the continuation holding the inputs' as they were and the result's at
    `out2_3 x0 x1 x2`. -/
theorem sound_kernel2 (c : Dev nD) (E : Set ℕ) (i : grid2.Coords)
    (arg1 : Memref sig .tc .vmem S10x128x128 .f32) (harg1 : arg1.IsWhole) (arg2 : Memref sig .tc .vmem S128x128 .f32) (harg2 : arg2.IsWhole)
    (arg3 : Memref sig .tc .smem S2 .f32) (harg3 : arg3.IsWhole) (arg4 : Memref sig .tc .vmem S128x128 .f32) (harg4 : arg4.IsWhole)
    (x0 : Vec F S10x128x128 .f32) (x1 : Vec F S128x128 .f32) (x2 : Vec F S2 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__reduce_body i arg1 harg1 arg2 harg2 arg3 harg3 arg4 harg4) K := by
  simp only [cc2__reduce_body_eq_skeleton]; unfold cc2__reduce_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data's fields -/

theorem A_eq2 (c : Dev nD) (w : Fin cfg2.W) : (dat2 (F := F) (U := U) V O Rc c).A w = V c (Pipeline.arrRef spec2 w) := by
  dsimp only [dat2]

theorem after2_0 (c : Dev nD) (t : Fin cfg2.N) : (dat2 (F := F) (U := U) V O Rc c).after 0 t = iblk2 V c 0 t := by dsimp only [dat2]
theorem after2_1 (c : Dev nD) (t : Fin cfg2.N) : (dat2 (F := F) (U := U) V O Rc c).after 1 t = iblk2 V c 1 t := by dsimp only [dat2]
theorem after2_2 (c : Dev nD) (t : Fin cfg2.N) : (dat2 (F := F) (U := U) V O Rc c).after 2 t = iblk2 V c 2 t := by dsimp only [dat2]
theorem after2_3 (c : Dev nD) (t : Fin cfg2.N) :
    (dat2 (F := F) (U := U) V O Rc c).after 3 t = out2_3 (iblk2 V c 0 t) (iblk2 V c 1 t) (iblk2 V c 2 t) := by dsimp only [dat2]

theorem before2_0 (c : Dev nD) (t : Fin cfg2.N) (d) : (dat2 (F := F) (U := U) V O Rc c).before 0 t d = iblk2 V c 0 t :=
  before2_0_of V (dat2 (F := F) (U := U) V O Rc c) (A_eq2 V O Rc c 0) (after2_0 V O Rc c) t d
theorem before2_1 (c : Dev nD) (t : Fin cfg2.N) (d) : (dat2 (F := F) (U := U) V O Rc c).before 1 t d = iblk2 V c 1 t :=
  before2_1_of V (dat2 (F := F) (U := U) V O Rc c) (A_eq2 V O Rc c 1) (after2_1 V O Rc c) t d
theorem before2_2 (c : Dev nD) (t : Fin cfg2.N) (d) : (dat2 (F := F) (U := U) V O Rc c).before 2 t d = iblk2 V c 2 t :=
  before2_2_of V (dat2 (F := F) (U := U) V O Rc c) (A_eq2 V O Rc c 2) (after2_2 V O Rc c) t d

/-! ## The body obligation, at the one point -/

/-- What the body is called with, the windows one by one, -/
def bodyPre2 (c : Dev nD) (t : Fin cfg2.N) : sProp 𝕄 :=
  iprop((dat2 (F := F) (U := U) V O Rc c).Φ t.castSucc ∗ (dat2 (F := F) (U := U) V O Rc c).owesAt (none : HIx 1) t.castSucc
    ∗ (∃ d, owns (c : Thread nD τ) (st2_0 t) fullShare ((dat2 (F := F) (U := U) V O Rc c).before 0 t d))
    ∗ (∃ d, owns (c : Thread nD τ) (st2_1 t) fullShare ((dat2 (F := F) (U := U) V O Rc c).before 1 t d))
    ∗ (∃ d, owns (c : Thread nD τ) (st2_2 t) fullShare ((dat2 (F := F) (U := U) V O Rc c).before 2 t d))
    ∗ (∃ d, owns (c : Thread nD τ) (st2_3 t) fullShare ((dat2 (F := F) (U := U) V O Rc c).before 3 t d)))

/-- and what it returns. -/
def bodyPost2 (c : Dev nD) (t : Fin cfg2.N) : sProp 𝕄 :=
  iprop((dat2 (F := F) (U := U) V O Rc c).Φ t.succ ∗ (dat2 (F := F) (U := U) V O Rc c).owesAt (none : HIx 1) t.succ
    ∗ owns (c : Thread nD τ) (st2_0 t) fullShare ((dat2 (F := F) (U := U) V O Rc c).after 0 t)
    ∗ owns (c : Thread nD τ) (st2_1 t) fullShare ((dat2 (F := F) (U := U) V O Rc c).after 1 t)
    ∗ owns (c : Thread nD τ) (st2_2 t) fullShare ((dat2 (F := F) (U := U) V O Rc c).after 2 t)
    ∗ owns (c : Thread nD τ) (st2_3 t) fullShare ((dat2 (F := F) (U := U) V O Rc c).after 3 t))

/-- The body at the point: the inputs' memrefs hold their blocks, so `sound_kernel2` applies; the invariant and the
    core's `owes` pass through unread. -/
theorem sound_body2 (c : Dev nD) (t : Fin cfg2.N) :
    bodyPre2 (F := F) (U := U) V O Rc c t ⊢ wp frame (wpE (defs₀ (F := F)) Variants.none c none) Set.univ (bodyAt2 t) (fun _ => bodyPost2 V O Rc c t) := by
  unfold bodyPre2 bodyPost2 bodyAt2
  simp only [before2_0, before2_1, before2_2]
  rw [show (dat2 (F := F) (U := U) V O Rc c).Φ t.succ = (dat2 (F := F) (U := U) V O Rc c).Φ t.castSucc from rfl,
    show (dat2 (F := F) (U := U) V O Rc c).owesAt (none : HIx 1) t.succ = (dat2 (F := F) (U := U) V O Rc c).owesAt (none : HIx 1) t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) :
    BodyObligation (dat2 (F := F) (U := U) V O Rc c) (defs₀ (F := F)) Variants.none (none : HIx 1) Set.univ := fun t => by
  rw [bigSep_W2, bigSep_W2]
  exact sound_body2 V O Rc c t

end Cert.Kernel.TcReg

end
-- ==== Proof.WTcArrays0.lean ====
import proofs.«204616_g36739150250405_cont_8to1_b_1211_24_alg».proof.Proof.WTcRegion0

set_option maxRecDepth 16384

noncomputable section

namespace Cert.Kernel.TcReg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Idealize.ShloMosaic.SparseCore.Cfg (HIx)

variable {F : FTy → Type} [FloatOps F]
variable {U : Type} [URA U]

local notation "𝕄" => MT nD τ sig (HIx 1) (Elt F) ℕ U ℕ

-- the TensorCore's buffer contents when a region is entered: the parameter both regions' halves are stated at
variable (V : (c : Dev nD) → (b : Ref sig .tc) → Buf (Elt F) ((c : Thread nD τ).loc b))
-- what the TensorCore owes the handshakes during a region, and the bound on its recorded pairs: passed through unread
variable (O : CellTallies nD τ sig (HIx 1)) (Rc : Set (SemLoc sig × HIx 1))

/-! # Region 0's arrays after the run: the two inputs as the region found them, the result at some contents the
write-backs may have left -/

theorem arraysAt0 (c : Dev nD) :
    (rdat0 (F := F) (U := U) V O Rc c).arraysAt cfg0.N ⊢ (iprop(
      ((cfg0.win 0).arr.view.loc (c.tc : Thread nD τ) ↦[(cfg0.win 0).arr.view.set]{fullShare} V c (Pipeline.arrRef spec0 0))
      ∗ ((cfg0.win 1).arr.view.loc (c.tc : Thread nD τ) ↦[(cfg0.win 1).arr.view.set]{fullShare} V c (Pipeline.arrRef spec0 1))
      ∗ ∃ G, ⌜(rdat0 (F := F) (U := U) V O Rc c).ArrAt 2 cfg0.N G⌝
          ∗ ((cfg0.win 2).arr.view.loc (c.tc : Thread nD τ) ↦[(cfg0.win 2).arr.view.set]{fullShare} G)) : sProp 𝕄) := by
  unfold RDat.arraysAt
  rw [bigSep_W0]
  iintro ⟨⟨%G0, %h0, H0⟩, ⟨%G1, %h1, H1⟩, ⟨%G2, %h2, H2⟩⟩
  rw [(rdat0 (F := F) (U := U) V O Rc c).ArrAt_in 0 rfl] at h0
  rw [(rdat0 (F := F) (U := U) V O Rc c).ArrAt_in 1 rfl] at h1
  subst h0; subst h1
  isplitl [H0]; · iexact H0
  isplitl [H1]; · iexact H1
  iexists G2; isplitr
  · ipureintro; exact h2
  iexact H2

end Cert.Kernel.TcReg

end
-- ==== Proof.WTcRegions.lean ====
import proofs.«204616_g36739150250405_cont_8to1_b_1211_24_alg».proof.Proof.WTcRegion0
import proofs.«204616_g36739150250405_cont_8to1_b_1211_24_alg».proof.Proof.WTcRegion2
import proofs.«204616_g36739150250405_cont_8to1_b_1211_24_alg».proof.Proof.WTcArrays0
-- ==== Proof.WKReg0.lean ====
/-
  The two TensorCore regions as segments of @main inside the SparseCore program, each at ANY entry contents `W` of the
  TensorCore's buffers and before SparseCore call `n` (the TensorCore owes the handshakes of the calls from `n` on
  throughout the region). This module: the shared thread state, the proof data family, and the first region (the
  projection of the table onto the weight rows), left with its result array at SOME contents the pipeline's
  write-backs may leave (its columns past the table's end are not determined).
-/
import proofs.«204616_g36739150250405_cont_8to1_b_1211_24_alg».proof.Proof.WKSetup
import proofs.«204616_g36739150250405_cont_8to1_b_1211_24_alg».proof.Proof.WKRegion
import proofs.«204616_g36739150250405_cont_8to1_b_1211_24_alg».proof.Proof.WKHost
import proofs.«204616_g36739150250405_cont_8to1_b_1211_24_alg».proof.Proof.WTcRegions
import Idealize.ShloMosaic.Lib.Pipeline.Frame

noncomputable section

namespace Cert.Kernel.KS

open Cert.Kernel Cert.Kernel.Gen Cert.Kernel.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Idealize.ShloMosaic.TcCoe
open Cert.Kernel.TcReg

variable {F : FTy → Type} [FloatOps F]

local notation "𝕄" => MT nD τ sig (HIx 1) (Elt F) ℕ UU ℕ

/-- What the TensorCore owes the launch handshakes before SparseCore call `n`, and the bound on its recorded pairs. -/
abbrev Oc (d : Dev nD) (n : ℕ) : CellTallies nD τ sig (HIx 1) := (K (F := F)).Otc d n
def Rc (d : Dev nD) (n : ℕ) : Set (SemLoc sig × HIx 1) := {p | (K (F := F)).lev (T d, p.1) p.2 ≤ 8 * n}

/-- What rides beside the buffers through every segment: the generator register at some state, and the core's debts
    to the handshakes with its recorded pairs bounded. -/
abbrev Rd (d : Dev nD) (n : ℕ) : sProp 𝕄 :=
  iprop((∃ r, prngReg d r) ∗ ∃ W, ⌜(K (F := F)).WBelow (T d) W (8 * n)⌝ ∗ owes (T d) (Oc (F := F) d n) W)

omit [FloatOps F] in
/-- The recorded pairs stay bounded through a region: the pipeline's own waits sit at index `none`, level zero. -/
theorem wbelow_of_bound (d : Dev nD) (n : ℕ) (cfg : Pipeline.Cfg sig Λ₀) (W : Waits sig (HIx 1))
    (h : (↑W : Set (SemLoc sig × HIx 1)) ⊆ Rc (F := F) d n ∪ cfg.waitPairs (none : HIx 1)) : (K (F := F)).WBelow (T d) W (8 * n) := by
  intro p hp
  rcases h hp with h | ⟨w, s, rfl⟩
  · exact h
  · exact Nat.zero_le _

omit [FloatOps F] in
/-- The handshake debts name no pair at index `none`. -/
theorem Oc_none (d : Dev nD) (n : ℕ) (g : GSem nD τ sig) : Oc (F := F) d n g none = 0 := by
  by_contra h
  have := SparseCore.Cfg.lev_of_Otc_pos (K := K (F := F)) (Nat.pos_of_ne_zero h)
  rw [SparseCore.Cfg.lev_none] at this; omega

variable (W : Dev nD → Valuation τ sig (Elt F)) (n : ℕ)

/-- The buffers read at the TensorCore's references (what the regions' proof data take). -/
abbrev VW : (c : Dev nD) → (b : Ref sig .tc) → Buf (Elt F) ((c : Thread nD τ).loc b) := fun c b => W c b

/-- Both pipelines' proof data at the entry contents `W`, before call `n`. -/
def rdatsW : (p : Fin 2) → (c : Dev nD) → Pipeline.RDat τ (Elt F) (HIx 1) ℕ UU ℕ (Pipeline.pin (pcfgs (F := F)) adm p) c
  | ⟨0, _⟩ => fun c => rdat0 (VW W) (Oc (F := F) c n) (Rc (F := F) c n) c
  | ⟨1, _⟩ => fun c => (dat2 (VW W) (Oc (F := F) c n) (Rc (F := F) c n) c).toR

/-- The projection's buffer among the TensorCore's, and the buffers after the first region at a result array `G`. -/
abbrev r7 : DevRef τ sig := Proc.devRef .tc (main_v7 : Ref sig .tc)
def W2 (d : Dev nD) (G : Buf (Elt F) ((d : Thread nD τ).loc main_v7)) : Valuation τ sig (Elt F) := Function.update (W d) r7 G

omit [FloatOps F] in
theorem W2_of_ne (d : Dev nD) (G) (b : Ref sig .tc) (hb : b ≠ main_v7) : W2 W d G (Proc.devRef .tc b) = W d (Proc.devRef .tc b) :=
  Function.update_of_ne (StableHlo.devRef_ne_of_ne hb) _ _
omit [FloatOps F] in
theorem W2_v7 (d : Dev nD) (G) : W2 W d G r7 = G := Function.update_self _ _ _

/-- The wait evidence for a region's staging cells: they sit at index `none`, below every handshake debt. -/
theorem hwaitsW (p : Fin 2) (c : Dev nD) :
    (levAts (K (F := F)).L (K (F := F)).lev : sProp 𝕄) ⊢ Pipeline.RDat.cellsWaits (Pipeline.pin (pcfgs (F := F)) adm) (rdatsW W n) (none : HIx 1) p c :=
  Pipeline.RDat.cellsWaits_intro (Pipeline.pin (pcfgs (F := F)) adm) (rdatsW W n) (none : HIx 1) p c
    fun w s t => (K (F := F)).mayWait_none (thr := (c : Thread nD τ)) _ (fun g => by
      match p with
      | ⟨0, _⟩ => exact Oc_none c n g
      | ⟨1, _⟩ => exact Oc_none c n g)

set_option maxHeartbeats 2000000 in
set_option backward.isDefEq.respectTransparency.types false in
/-- At the first region's exit: its two input arrays as entered, its result array at `G` and every other unscoped
    buffer as entered are the unscoped buffers at `W2 G`. -/
theorem exit0_bufs (c : Dev nD) (G : Buf (Elt F) ((c : Thread nD τ).loc main_v7)) :
    iprop(((cfg0.win 0).arr.view.loc (c : Thread nD τ) ↦[(cfg0.win 0).arr.view.set]{fullShare} VW W c (Pipeline.arrRef spec0 0))
        ∗ ((cfg0.win 1).arr.view.loc (c : Thread nD τ) ↦[(cfg0.win 1).arr.view.set]{fullShare} VW W c (Pipeline.arrRef spec0 1))
        ∗ ((cfg0.win 2).arr.view.loc (c : Thread nD τ) ↦[(cfg0.win 2).arr.view.set]{fullShare} G)
        ∗ Pipeline.unscopedRest (Ix := HIx 1) (Name := ℕ) (U := UU) (Lvl := ℕ) spec0 c (VW W c))
      ⊢ (held (c : Thread nD τ) (Pipeline.ucRefs τ sig) (W2 W c G) : sProp 𝕄) := by
  have e0 : W2 W c G (Proc.devRef .tc (Pipeline.arrRef spec0 (0 : Fin 3))) = W c (Proc.devRef .tc (Pipeline.arrRef spec0 (0 : Fin 3))) :=
    W2_of_ne W c G _ (by decide)
  have e1 : W2 W c G (Proc.devRef .tc (Pipeline.arrRef spec0 (1 : Fin 3))) = W c (Proc.devRef .tc (Pipeline.arrRef spec0 (1 : Fin 3))) :=
    W2_of_ne W c G _ (by decide)
  have e2 : W2 W c G (Proc.devRef .tc (Pipeline.arrRef spec0 (2 : Fin 3))) = G := W2_v7 W c G
  have er : Pipeline.unscopedRest (Ix := HIx 1) (Name := ℕ) (U := UU) (Lvl := ℕ) spec0 c (fun b => W2 W c G b) = Pipeline.unscopedRest spec0 c (VW W c) := by
    unfold Pipeline.unscopedRest
    exact bigSep_congr fun b hb =>
      congrArg (fun x : Buf (Elt F) ((c : Thread nD τ).loc b) => (((c : Thread nD τ).loc b) ↦{fullShare} x : sProp 𝕄))
        (W2_of_ne W c G b (fun e => (Finset.mem_sdiff.mp hb).2 (e ▸ Finset.mem_image.mpr ⟨2, Finset.mem_univ _, rfl⟩)))
  have hB : (held (c : Thread nD τ) (Pipeline.ucRefs τ sig) (W2 W c G) : sProp 𝕄)
      = iprop((((c : Thread nD τ).loc (Pipeline.arrRef spec0 (0 : Fin 3)) ↦{fullShare} W2 W c G (Proc.devRef .tc (Pipeline.arrRef spec0 (0 : Fin 3))))
          ∗ ((c : Thread nD τ).loc (Pipeline.arrRef spec0 (1 : Fin 3)) ↦{fullShare} W2 W c G (Proc.devRef .tc (Pipeline.arrRef spec0 (1 : Fin 3))))
          ∗ ((c : Thread nD τ).loc (Pipeline.arrRef spec0 (2 : Fin 3)) ↦{fullShare} W2 W c G (Proc.devRef .tc (Pipeline.arrRef spec0 (2 : Fin 3)))))
        ∗ Pipeline.unscopedRest (Ix := HIx 1) (Name := ℕ) (U := UU) (Lvl := ℕ) spec0 c (fun b => W2 W c G b)) := by
    rw [← Pipeline.unscopedBufs_held c (W2 W c G),
      Pipeline.unscopedBufs_split (Pipeline.pin (pcfgs (F := F)) adm) 0 launch0.win.arr_unscoped launch0.win.arr_inj c, bigSep_W0]
    rfl
  have s0 : (cfg0.win 0).arr.view.set = Finset.univ := (launch0.arr_whole 0).set_eq_univ
  have s1 : (cfg0.win 1).arr.view.set = Finset.univ := (launch0.arr_whole 1).set_eq_univ
  have s2 : (cfg0.win 2).arr.view.set = Finset.univ := (launch0.arr_whole 2).set_eq_univ
  rw [hB, er, e0, e1, e2, s0, s1, s2]
  iintro ⟨H5, H6, H7, Hr⟩
  isplitl [H5 H6 H7]
  · isplitl [H5]; · iexact H5
    isplitl [H6]; · iexact H6
    iexact H7
  · iexact Hr

set_option backward.isDefEq.respectTransparency.types false in
/-- REGION 0 over the thread state: entered from every unscoped buffer at `W`, left at `W2 G` for SOME result array
    `G` the pipeline's write-backs may leave. -/
def reg0 : Pipeline.RDat.RegionSeg (pcfgs (F := F)) adm (rdatsW W n) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := body_obligation0 (VW W) (Oc (F := F) c n) (Rc (F := F) c n) c
  hwaits c := hwaitsW W n 0 c
  pre c := iprop(held (c : Thread nD τ) (Pipeline.ucRefs τ sig) (W c) ∗ Rd (F := F) c n)
  post c := iprop(∃ G, ⌜(rdat0 (F := F) (U := UU) (VW W) (Oc (F := F) c n) (Rc (F := F) c n) c).ArrAt 2 cfg0.N G⌝
    ∗ held (c : Thread nD τ) (Pipeline.ucRefs τ sig) (W2 W c G) ∗ Rd (F := F) c n)
  X c := iprop(∃ r, prngReg c r)
  Y c := iprop(∃ r, prngReg c r)
  Z c := Pipeline.unscopedRest (Ix := HIx 1) (Name := ℕ) (U := UU) (Lvl := ℕ) spec0 c (VW W c)
  hentry c := by
    rw [Pipeline.ownSems0_none]
    have hsplit := Pipeline.RDat.arrays_of_unscopedBufs (p := 0) (pcfgs (F := F)) adm (rdatsW W n) launch0.win launch0.arr_whole c
      ((rdatsW W n 0 c).share_full fun _ => rfl) (VW W c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W', %hW, HO⟩; iexists W'; isplitr; · ipureintro; exact fun p hp => Or.inl (hW p hp)
      iexact HO
    isplitl [Hp]; · iexact Hp
    iexact Hrest
  hin c := by
    rw [show (rdatsW W n 0 c).Φ 0 = ΦH spec0 c from rfl]; unfold ΦH
    iintro ⟨Hp, -, Hr⟩
    isplitl [Hr]; · iexact Hr
    iexact Hp
  hout c := by
    rw [Pipeline.ownSems0_none, show (rdatsW W n 0 c).Φ (Fin.last _) = ΦH spec0 c from rfl]; unfold ΦH
    iintro ⟨Hr, Hp⟩
    isplitl [Hp]; · iexact Hp
    isplitr; · iempintro
    iexact Hr
  hexit c := by
    iintro ⟨Ha, HO, HY, Hrest⟩
    ihave Ha0 := (Entails.of_eq (show (rdatsW W n 0 c).arraysAt (Pipeline.pin (pcfgs (F := F)) adm 0).N
      = (rdat0 (F := F) (U := UU) (VW W) (Oc (F := F) c n) (Rc (F := F) c n) c).arraysAt cfg0.N from rfl)) $$ Ha
    ihave Ha' := (arraysAt0 (F := F) (U := UU) (VW W) (Oc (F := F) c n) (Rc (F := F) c n) c) $$ Ha0
    icases Ha' with ⟨H5, H6, ⟨%G, %hG, H7⟩⟩
    imodintro
    iexists G
    isplitr; · ipureintro; exact hG
    isplitl [H5 H6 H7 Hrest]
    · iapply (exit0_bufs W c G)
      isplitl [H5]; · iexact H5
      isplitl [H6]; · iexact H6
      isplitl [H7]; · iexact H7
      iexact Hrest
    isplitl [HY]; · iexact HY
    unfold Pipeline.RDat.owesAt Pipeline.owesWithin
    icases HO with ⟨%W', %hW, HO⟩; iexists W'
    isplitr; · ipureintro; exact wbelow_of_bound c n _ W' hW
    iexact HO

end Cert.Kernel.KS

end
-- ==== Proof.WKReg2.lean ====
/-
  The second TensorCore region (the ten gathered planes summed onto side·w + b, then the logistic) as a segment of
  @main inside the SparseCore program, at any entry contents `W` and before call `n`: left with its result array at
  what the pipeline library computes from the entry contents, every other buffer as entered.
-/
import proofs.«204616_g36739150250405_cont_8to1_b_1211_24_alg».proof.Proof.WKSetup
import proofs.«204616_g36739150250405_cont_8to1_b_1211_24_alg».proof.Proof.WKReg0

noncomputable section

namespace Cert.Kernel.KS

open Cert.Kernel Cert.Kernel.Gen Cert.Kernel.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Idealize.ShloMosaic.TcCoe
open Cert.Kernel.TcReg

variable {F : FTy → Type} [FloatOps F]

local notation "𝕄" => MT nD τ sig (HIx 1) (Elt F) ℕ UU ℕ

variable (W : Dev nD → Valuation τ sig (Elt F)) (n : ℕ)

/-- The second region's result buffer among the TensorCore's, and the buffers after the region. -/
abbrev r20 : DevRef τ sig := Proc.devRef .tc (main_v20 : Ref sig .tc)
def W6 (c : Dev nD) : Valuation τ sig (Elt F) :=
  Function.update (W c) r20 ((dat2 (F := F) (U := UU) (VW W) (Oc (F := F) c n) (Rc (F := F) c n) c).arrAt 3 cfg2.N)

theorem W6_of_ne (c : Dev nD) (b : Ref sig .tc) (hb : b ≠ main_v20) : W6 W n c (Proc.devRef .tc b) = W c (Proc.devRef .tc b) :=
  Function.update_of_ne (StableHlo.devRef_ne_of_ne hb) _ _

set_option maxHeartbeats 2000000 in
set_option backward.isDefEq.respectTransparency.types false in
/-- At the second region's exit: its arrays at what the pipeline leaves and every other unscoped buffer as entered
    are the unscoped buffers at `W6`. -/
theorem exit2_bufs [∀ e, Nonempty (Elt F e)] (c : Dev nD) :
    iprop((dat2 (F := F) (U := UU) (VW W) (Oc (F := F) c n) (Rc (F := F) c n) c).arrays
          ((dat2 (F := F) (U := UU) (VW W) (Oc (F := F) c n) (Rc (F := F) c n) c).arrAt · cfg2.N)
        ∗ Pipeline.unscopedRest (Ix := HIx 1) (Name := ℕ) (U := UU) (Lvl := ℕ) spec2 c (VW W c))
      ⊢ (held (c : Thread nD τ) (Pipeline.ucRefs τ sig) (W6 W n c) : sProp 𝕄) := by
  have e0 : W6 W n c (Proc.devRef .tc (Pipeline.arrRef spec2 (0 : Fin 4))) = W c (Proc.devRef .tc (Pipeline.arrRef spec2 (0 : Fin 4))) :=
    W6_of_ne W n c _ (by decide)
  have e1 : W6 W n c (Proc.devRef .tc (Pipeline.arrRef spec2 (1 : Fin 4))) = W c (Proc.devRef .tc (Pipeline.arrRef spec2 (1 : Fin 4))) :=
    W6_of_ne W n c _ (by decide)
  have e2 : W6 W n c (Proc.devRef .tc (Pipeline.arrRef spec2 (2 : Fin 4))) = W c (Proc.devRef .tc (Pipeline.arrRef spec2 (2 : Fin 4))) :=
    W6_of_ne W n c _ (by decide)
  have e3 : W6 W n c (Proc.devRef .tc (Pipeline.arrRef spec2 (3 : Fin 4)))
      = (dat2 (F := F) (U := UU) (VW W) (Oc (F := F) c n) (Rc (F := F) c n) c).arrAt 3 cfg2.N := Function.update_self _ _ _
  have er : Pipeline.unscopedRest (Ix := HIx 1) (Name := ℕ) (U := UU) (Lvl := ℕ) spec2 c (fun b => W6 W n c b) = Pipeline.unscopedRest spec2 c (VW W c) := by
    unfold Pipeline.unscopedRest
    exact bigSep_congr fun b hb =>
      congrArg (fun x : Buf (Elt F) ((c : Thread nD τ).loc b) => (((c : Thread nD τ).loc b) ↦{fullShare} x : sProp 𝕄))
        (W6_of_ne W n c b (fun e => (Finset.mem_sdiff.mp hb).2 (e ▸ Finset.mem_image.mpr ⟨3, Finset.mem_univ _, rfl⟩)))
  have hB : (held (c : Thread nD τ) (Pipeline.ucRefs τ sig) (W6 W n c) : sProp 𝕄)
      = iprop((((c : Thread nD τ).loc (Pipeline.arrRef spec2 (0 : Fin 4)) ↦{fullShare} W6 W n c (Proc.devRef .tc (Pipeline.arrRef spec2 (0 : Fin 4))))
          ∗ ((c : Thread nD τ).loc (Pipeline.arrRef spec2 (1 : Fin 4)) ↦{fullShare} W6 W n c (Proc.devRef .tc (Pipeline.arrRef spec2 (1 : Fin 4))))
          ∗ ((c : Thread nD τ).loc (Pipeline.arrRef spec2 (2 : Fin 4)) ↦{fullShare} W6 W n c (Proc.devRef .tc (Pipeline.arrRef spec2 (2 : Fin 4))))
          ∗ ((c : Thread nD τ).loc (Pipeline.arrRef spec2 (3 : Fin 4)) ↦{fullShare} W6 W n c (Proc.devRef .tc (Pipeline.arrRef spec2 (3 : Fin 4)))))
        ∗ Pipeline.unscopedRest (Ix := HIx 1) (Name := ℕ) (U := UU) (Lvl := ℕ) spec2 c (fun b => W6 W n c b)) := by
    rw [← Pipeline.unscopedBufs_held c (W6 W n c),
      Pipeline.unscopedBufs_split (Pipeline.pin (pcfgs (F := F)) adm) 1 launch2.win.arr_unscoped launch2.win.arr_inj c, bigSep_W2]
    rfl
  have hA : ((dat2 (F := F) (U := UU) (VW W) (Oc (F := F) c n) (Rc (F := F) c n) c).arrays
        ((dat2 (F := F) (U := UU) (VW W) (Oc (F := F) c n) (Rc (F := F) c n) c).arrAt · cfg2.N) : sProp 𝕄)
      = iprop(((c : Thread nD τ).loc (Pipeline.arrRef spec2 (0 : Fin 4)) ↦{fullShare} W c (Proc.devRef .tc (Pipeline.arrRef spec2 (0 : Fin 4))))
          ∗ ((c : Thread nD τ).loc (Pipeline.arrRef spec2 (1 : Fin 4)) ↦{fullShare} W c (Proc.devRef .tc (Pipeline.arrRef spec2 (1 : Fin 4))))
          ∗ ((c : Thread nD τ).loc (Pipeline.arrRef spec2 (2 : Fin 4)) ↦{fullShare} W c (Proc.devRef .tc (Pipeline.arrRef spec2 (2 : Fin 4))))
          ∗ ((c : Thread nD τ).loc (Pipeline.arrRef spec2 (3 : Fin 4)) ↦{fullShare}
              (dat2 (F := F) (U := UU) (VW W) (Oc (F := F) c n) (Rc (F := F) c n) c).arrAt 3 cfg2.N)) := by
    have s0 : (cfg2.win 0).arr.view.set = Finset.univ := (launch2.arr_whole 0).set_eq_univ
    have s1 : (cfg2.win 1).arr.view.set = Finset.univ := (launch2.arr_whole 1).set_eq_univ
    have s2 : (cfg2.win 2).arr.view.set = Finset.univ := (launch2.arr_whole 2).set_eq_univ
    have s3 : (cfg2.win 3).arr.view.set = Finset.univ := (launch2.arr_whole 3).set_eq_univ
    unfold Pipeline.Dat.arrays
    rw [bigSep_W2, s0, s1, s2, s3,
      (dat2 (F := F) (U := UU) (VW W) (Oc (F := F) c n) (Rc (F := F) c n) c).share_full (fun _ => rfl) 0,
      (dat2 (F := F) (U := UU) (VW W) (Oc (F := F) c n) (Rc (F := F) c n) c).share_full (fun _ => rfl) 1,
      (dat2 (F := F) (U := UU) (VW W) (Oc (F := F) c n) (Rc (F := F) c n) c).share_full (fun _ => rfl) 2,
      (dat2 (F := F) (U := UU) (VW W) (Oc (F := F) c n) (Rc (F := F) c n) c).share_full (fun _ => rfl) 3]
    beta_reduce
    rw [(dat2 (F := F) (U := UU) (VW W) (Oc (F := F) c n) (Rc (F := F) c n) c).arrAt_in 0 rfl,
      (dat2 (F := F) (U := UU) (VW W) (Oc (F := F) c n) (Rc (F := F) c n) c).arrAt_in 1 rfl,
      (dat2 (F := F) (U := UU) (VW W) (Oc (F := F) c n) (Rc (F := F) c n) c).arrAt_in 2 rfl]
    all_goals rfl
  rw [hB, hA, er, e0, e1, e2, e3]

set_option backward.isDefEq.respectTransparency.types false in
/-- REGION 2 over the thread state: entered from every unscoped buffer at `W`, left at `W6`. -/
def reg2 [∀ e, Nonempty (Elt F e)] : Pipeline.RDat.RegionSeg (pcfgs (F := F)) adm (rdatsW W n) (none : HIx 1) defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 (VW W) (Oc (F := F) c n) (Rc (F := F) c n) c).toR
  hwaits c := hwaitsW W n 1 c
  pre c := iprop(held (c : Thread nD τ) (Pipeline.ucRefs τ sig) (W c) ∗ Rd (F := F) c n)
  post c := iprop(held (c : Thread nD τ) (Pipeline.ucRefs τ sig) (W6 W n c) ∗ Rd (F := F) c n)
  X c := iprop(∃ r, prngReg c r)
  Y c := iprop(∃ r, prngReg c r)
  Z c := Pipeline.unscopedRest (Ix := HIx 1) (Name := ℕ) (U := UU) (Lvl := ℕ) spec2 c (VW W c)
  hentry c := by
    rw [Pipeline.ownSems0_none]
    have hsplit := Pipeline.RDat.arrays_of_unscopedBufs (p := 1) (pcfgs (F := F)) adm (rdatsW W n) launch2.win launch2.arr_whole c
      ((rdatsW W n 1 c).share_full fun _ => rfl) (VW W c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W', %hW, HO⟩; iexists W'; isplitr; · ipureintro; exact fun p hp => Or.inl (hW p hp)
      iexact HO
    isplitl [Hp]; · iexact Hp
    iexact Hrest
  hin c := by
    rw [show (rdatsW W n 1 c).Φ 0 = ΦH spec2 c from rfl]; unfold ΦH
    iintro ⟨Hp, -, Hr⟩
    isplitl [Hr]; · iexact Hr
    iexact Hp
  hout c := by
    rw [Pipeline.ownSems0_none, show (rdatsW W n 1 c).Φ (Fin.last _) = ΦH spec2 c from rfl]; unfold ΦH
    iintro ⟨Hr, Hp⟩
    isplitl [Hp]; · iexact Hp
    isplitr; · iempintro
    iexact Hr
  hexit c := by
    iintro ⟨Ha, HO, HY, Hrest⟩
    ihave Ha0 := (Entails.of_eq (show (rdatsW W n 1 c).arraysAt (Pipeline.pin (pcfgs (F := F)) adm 1).N
      = (dat2 (F := F) (U := UU) (VW W) (Oc (F := F) c n) (Rc (F := F) c n) c).arrays
          ((dat2 (F := F) (U := UU) (VW W) (Oc (F := F) c n) (Rc (F := F) c n) c).arrAt · cfg2.N) from
      (dat2 (F := F) (U := UU) (VW W) (Oc (F := F) c n) (Rc (F := F) c n) c).toR_arraysAt_eq cfg2.N)) $$ Ha
    imodintro
    isplitl [Ha0 Hrest]
    · iapply (exit2_bufs W n c)
      isplitl [Ha0]; · iexact Ha0
      iexact Hrest
    isplitl [HY]; · iexact HY
    unfold Pipeline.RDat.owesAt Pipeline.owesWithin
    icases HO with ⟨%W', %hW, HO⟩; iexists W'
    isplitr; · ipureintro; exact wbelow_of_bound c n _ W' hW
    iexact HO

end Cert.Kernel.KS

end
-- ==== Proof.WScTilePay.lean ====
/-
  The SparseCore call of the program, as the launch theorem sees it: the program's configuration, what the
  handshakes carry (the record of payloads), and the statements of the tile obligation and of the split of a
  SparseCore's operands among its sixteen tiles.

  The kernel: tile (core h, subcore s) with s < 10 copies row s of the projected table (an array of 16 rows of
  106496 words) into its own scratch, then, for each of the two halves t of its 8192 index words, copies the 4096
  indices, gathers the 4096 words of the row they name, and writes them to the half t of row (s, h) of the result.
  The result is therefore ONE function of the two operands: at (s, h, n) it is the table's row s at the index word
  at (s, h, n) (`Part`).
-/
import Idealize.ShloMosaic.Lib.SparseCore.Launch
import Idealize.ShloMosaic.Lib.SparseCore.Ops
import Idealize.ShloMosaic.Lib.Pipeline.Kit
import Idealize.ShloMosaic.Lib.Tactic
import Idealize.ShloMosaic.Lib.ValueIdx
import proofs.«204616_g36739150250405_cont_8to1_b_1211_24_alg».proof.Proof.Gen.Kernel

noncomputable section

namespace Cert.Proof.WScTile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open PCS

variable {F : FTy → Type} [FloatOps F]

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: any algebra with a copy of the transfers' counters -/

variable {U : Type} [URA U] [CountersIn U]

local notation "𝕄" => MT nD τ sig (HIx 1) (Elt F) ℕ U ℕ

/-! ## The operands when the call starts, and where each word of the result comes from -/

abbrev ptLoc (d : Dev nD) : Loc nD τ sig := (SparseCore.T d).loc main_v7
abbrev itLoc (d : Dev nD) : Loc nD τ sig := (SparseCore.T d).loc main_v10
abbrev outLoc (d : Dev nD) : Loc nD τ sig := (SparseCore.T d).loc main_v11

-- `IT`: the index words when the call starts. `Ag`: any property of the projected table's contents, carried through
-- the call unchanged (the call only reads the table).
variable (IT : (d : Dev nD) → Buf (Elt F) (itLoc d))
variable (Ag : (d : Dev nD) → Buf (Elt F) (ptLoc d) → Prop)

/-- The element of the table the result's element `j = (s, h, n)` is a copy of: row `s`, at the column the index word
    at `j` names (the word's value reduced below the row's length: the word itself when it is in range). -/
def gat (d : Dev nD) (j : S10x2x8192.Idx) : S16x106496.Idx :=
  ix2 (⟨(j 0).val, Nat.lt_of_lt_of_le (j 0).isLt (by decide)⟩ : Fin 16)
    (⟨(IT d j).toNat % 106496, Nat.mod_lt _ (by decide)⟩ : Fin 106496)

theorem gat_row (d : Dev nD) (j : S10x2x8192.Idx) : ((gat IT d j 0 : Fin 16) : ℕ) = (j 0).val := rfl
theorem gat_col (d : Dev nD) (j : S10x2x8192.Idx) : ((gat IT d j 1 : Fin 106496) : ℕ) = (IT d j).toNat % 106496 := rfl
theorem gat_apply (d : Dev nD) (a : Fin 10) (b : Fin 2) (c : Fin 8192) :
    gat IT d (ix3 a b c) = ix2 (⟨a.val, Nat.lt_of_lt_of_le a.isLt (by decide)⟩ : Fin 16)
      (⟨(IT d (ix3 a b c)).toNat % 106496, Nat.mod_lt _ (by decide)⟩ : Fin 106496) := rfl

/-- The result the call leaves when the table holds `PT`: ONE function of the whole array's index. -/
def gatF (d : Dev nD) (PT : Buf (Elt F) (ptLoc d)) : Buf (Elt F) (outLoc d) := fun j => PT (gat IT d j)

theorem gatF_apply (d : Dev nD) (PT : Buf (Elt F) (ptLoc d)) (j : S10x2x8192.Idx) : gatF IT d PT j = PT (gat IT d j) := rfl

/-! ## Shares: the two SparseCores read the operands at the two halves of the whole share -/

/-- SparseCore `c`'s read share of an operand: the left half of the whole share for SparseCore 0, the right half for
    SparseCore 1. -/
def q2 (c : ℕ) : PosShare TreeShare := if c = 0 then (fullShare : PosShare TreeShare).left else (fullShare : PosShare TreeShare).right

theorem q2_zero : q2 0 = (fullShare : PosShare TreeShare).left := if_pos rfl
theorem q2_one : q2 1 = (fullShare : PosShare TreeShare).right := if_neg Nat.one_ne_zero

/-- An operand held whole is its two read shares. -/
theorem split_share {ℓ : Loc nD τ sig} {I : Finset (Idx ℓ)} (f : Buf (Elt F) ℓ) :
    (ℓ ↦[I]{fullShare} f : sProp 𝕄) ⊣⊢ iprop((ℓ ↦[I]{q2 0} f) ∗ ℓ ↦[I]{q2 1} f) := by
  rw [q2_zero, q2_one]; exact pointsTo_share (PosShare.mem_left_op_right _)

/-- Two shares of one location held at two contents: the contents are the same. -/
theorem share_agree {ℓ : Loc nD τ sig} {q₁ q₂ : PosShare TreeShare} (f g : Buf (Elt F) ℓ) :
    iprop((ℓ ↦{q₁} f) ∗ ℓ ↦{q₂} g) ⊢ (iprop(⌜g = f⌝ ∗ (ℓ ↦{q₁} f) ∗ ℓ ↦{q₂} g) : sProp 𝕄) := by
  iintro ⟨Hf, Hg⟩
  ihave Ha := (persistent_entails_right (pointsTo_agree (ℓ := ℓ) (I := Finset.univ) (J := Finset.univ) (q₁ := q₁) (q₂ := q₂) (f := f) (g := g))) $$ [Hf Hg]
  · isplitl [Hf] <;> iassumption
  icases Ha with ⟨%ha, Hf, Hg⟩
  isplitr
  · ipureintro; exact funext fun i => ((ha i (Finset.mem_inter.mpr ⟨Finset.mem_univ _, Finset.mem_univ _⟩)).1).symm
  isplitl [Hf] <;> iassumption

/-- Two shares of one location held at two contents join at the first contents. -/
theorem join_share {ℓ : Loc nD τ sig} {q q₁ q₂ : PosShare TreeShare} (h : q ∈ q₁ ·? q₂) (f g : Buf (Elt F) ℓ) :
    iprop((ℓ ↦{q₁} f) ∗ ℓ ↦{q₂} g) ⊢ (ℓ ↦{q} f : sProp 𝕄) := by
  refine (share_agree f g).trans ?_
  iintro ⟨%hg, H⟩
  subst hg
  exact (pointsTo_share h).2

/-- The two SparseCores' read shares of the table, whatever contents each came back at, are the table whole at
    the first one's; the contents were the same. -/
theorem join_v7 (d : Dev nD) (f g : Buf (Elt F) (ptLoc d)) :
    iprop((ptLoc d ↦{q2 0} f) ∗ ptLoc d ↦{q2 1} g) ⊢ (iprop(⌜g = f⌝ ∗ ptLoc d ↦{fullShare} f) : sProp 𝕄) := by
  refine (share_agree f g).trans ?_
  iintro ⟨%hg, H⟩
  subst hg
  isplitr
  · ipureintro; rfl
  · exact (split_share g).2

theorem split_v7 (d : Dev nD) (f : Buf (Elt F) (ptLoc d)) :
    (ptLoc d ↦{fullShare} f : sProp 𝕄) ⊣⊢ iprop((ptLoc d ↦{q2 0} f) ∗ ptLoc d ↦{q2 1} f) := split_share f
theorem split_v10 (d : Dev nD) (f : Buf (Elt F) (itLoc d)) :
    (itLoc d ↦{fullShare} f : sProp 𝕄) ⊣⊢ iprop((itLoc d ↦{q2 0} f) ∗ itLoc d ↦{q2 1} f) := split_share f

/-! ## The result's elements, by SparseCore and by tile -/

/-- The elements of the result SparseCore `c` writes: those whose middle coordinate is `c`. -/
def slab (c : ℕ) : Finset S10x2x8192.Idx := Finset.univ.filter fun j => (j 1).val = c

theorem mem_slab {c : ℕ} {j : S10x2x8192.Idx} : j ∈ slab c ↔ (j 1).val = c := by
  unfold slab; rw [Finset.mem_filter]; exact ⟨fun h => h.2, fun h => ⟨Finset.mem_univ _, h⟩⟩

theorem slab_cover : slab 0 ∪ slab 1 = Finset.univ := by
  ext j
  have h2 : (j 1).val < 2 := (j 1).isLt
  simp only [Finset.mem_union, mem_slab, Finset.mem_univ, iff_true]
  omega

theorem slab_disj : Disjoint (slab 0) (slab 1) :=
  Finset.disjoint_left.mpr fun j h0 h1 => by
    rw [mem_slab] at h0 h1; omega

/-- A tile's grid coordinates, as the body table builds them. -/
def coordsV (c : Fin (grid1.bound 0)) (s : Fin (grid1.bound 1)) : grid1.Coords :=
  fun | 0 => c | 1 => s | ⟨_ + 2, h⟩ => absurd h (Nat.not_lt.2 (Nat.le_add_left _ _))

/-- The arrays as a tile's memrefs. -/
abbrev outW : Memref sig .scVector .hbm S10x2x8192 .f32 := Memref.whole main_v11_scv
abbrev ptW : Memref sig .scVector .hbm S16x106496 .f32 := Memref.whole main_v7_scv
abbrev itW : Memref sig .scVector .hbm S10x2x8192 .i32 := Memref.whole main_v10_scv

/-- The two 4096-word pieces of the result a working tile writes, spelt as the program slices them. -/
abbrev piece0 (L : grid1.Coords) (h : k1_cond1 L = 1#1) : Memref sig .scVector .hbm S4096 .f32 :=
  ((outW).slice (Rect.unit (s := S10x2x8192) (k1_off5 L) S1x1x4096.size (k1_off5_inb L h)) (fun _ => rfl)).squeeze S4096 squeezes_S1x1x4096_S4096
abbrev piece1 (L : grid1.Coords) (h : k1_cond1 L = 1#1) : Memref sig .scVector .hbm S4096 .f32 :=
  ((outW).slice (Rect.unit (s := S10x2x8192) (k1_off23 L) S1x1x4096.size (k1_off23_inb L h)) (fun _ => rfl)).squeeze S4096 squeezes_S1x1x4096_S4096

/-- The elements of piece `t` of the tile at `L`: the slice memref's own element set for a working tile, none for an
    idle one. -/
def pieceSet (L : grid1.Coords) (t : Fin 2) : Finset S10x2x8192.Idx :=
  if h : k1_cond1 L = 1#1 then (if t = 0 then (piece0 L h).view.set else (piece1 L h).view.set) else ∅

theorem pieceSet_zero (L : grid1.Coords) (h : k1_cond1 L = 1#1) : pieceSet L 0 = (piece0 L h).view.set := by
  unfold pieceSet; rw [dif_pos h, if_pos rfl]
theorem pieceSet_one (L : grid1.Coords) (h : k1_cond1 L = 1#1) : pieceSet L 1 = (piece1 L h).view.set := by
  unfold pieceSet; rw [dif_pos h, if_neg (by decide)]
theorem pieceSet_idle (L : grid1.Coords) (h : ¬ k1_cond1 L = 1#1) (t : Fin 2) : pieceSet L t = ∅ := by
  unfold pieceSet; rw [dif_neg h]

/-- The grid coordinates of tile `i` of SparseCore `c` of the call. -/
abbrev crd (c : Fin ((K (F := F)).nCore 0)) (i : Fin ((K (F := F)).nSub 0)) : grid1.Coords :=
  coordsV ⟨c.val, c.isLt⟩ ⟨i.val, i.isLt⟩

/-- Tile `i`'s read share of an operand its SparseCore holds at `q`. -/
abbrev tq (q : PosShare TreeShare) (i : Fin ((K (F := F)).nSub 0)) : PosShare TreeShare := Transfers.shareTok q 16 ⟨i.val, i.isLt⟩

/-! ## What the handshakes carry -/

/-- The call hands SparseCore `c` a read share of the two operands (the table at some contents with the carried
    property) and its slab of the result; each tile a read share of the operands and its two pieces of the result; the
    pieces and the slab come back holding, at each element, the table's word `gat` names. -/
def P : (K (F := F)).Pay (nD := nD) (Val := Elt F) (Name := ℕ) (U := U) where
  st := fun q d c => match q with
    | 0 => iprop(∃ PT, ⌜Ag d PT⌝ ∗ (ptLoc d ↦{q2 c.val} PT) ∗ (itLoc d ↦{q2 c.val} IT d) ∗ ∃ f, outLoc d ↦[slab c.val]{fullShare} f)
  dn := fun q d c => match q with
    | 0 => iprop(∃ PT f, ⌜Ag d PT ∧ ∀ j ∈ slab c.val, f j = PT (gat IT d j)⌝ ∗ (ptLoc d ↦{q2 c.val} PT) ∗ (itLoc d ↦{q2 c.val} IT d)
        ∗ outLoc d ↦[slab c.val]{fullShare} f)
  go := fun q d c i => match q with
    | 0 => iprop(∃ PT, ⌜Ag d PT⌝ ∗ (ptLoc d ↦{tq (F := F) (q2 c.val) i} PT) ∗ (itLoc d ↦{tq (F := F) (q2 c.val) i} IT d)
        ∗ (∃ f, outLoc d ↦[pieceSet (crd (F := F) c i) 0]{fullShare} f) ∗ ∃ f, outLoc d ↦[pieceSet (crd (F := F) c i) 1]{fullShare} f)
  td := fun q d c i => match q with
    | 0 => iprop(∃ PT, ⌜Ag d PT⌝ ∗ (ptLoc d ↦{tq (F := F) (q2 c.val) i} PT) ∗ (itLoc d ↦{tq (F := F) (q2 c.val) i} IT d)
        ∗ (outLoc d ↦[pieceSet (crd (F := F) c i) 0]{fullShare} gatF IT d PT) ∗ outLoc d ↦[pieceSet (crd (F := F) c i) 1]{fullShare} gatF IT d PT)
  x := fun _ _ => iprop(emp)

instance P_storable : (P (F := F) (U := U) IT Ag).IsStorable where
  st q d c := match q with | 0 => by unfold P; infer_instance
  dn q d c := match q with | 0 => by unfold P; infer_instance
  go q d c i := match q with | 0 => by unfold P; infer_instance
  td q d c i := match q with | 0 => by unfold P; infer_instance

theorem P_st (d : Dev nD) (c : Fin ((K (F := F)).nCore 0)) :
    (P (F := F) (U := U) IT Ag).st 0 d c
      = iprop(∃ PT, ⌜Ag d PT⌝ ∗ (ptLoc d ↦{q2 c.val} PT) ∗ (itLoc d ↦{q2 c.val} IT d) ∗ ∃ f, outLoc d ↦[slab c.val]{fullShare} f) := rfl
theorem P_dn (d : Dev nD) (c : Fin ((K (F := F)).nCore 0)) :
    (P (F := F) (U := U) IT Ag).dn 0 d c
      = iprop(∃ PT f, ⌜Ag d PT ∧ ∀ j ∈ slab c.val, f j = PT (gat IT d j)⌝ ∗ (ptLoc d ↦{q2 c.val} PT) ∗ (itLoc d ↦{q2 c.val} IT d)
        ∗ outLoc d ↦[slab c.val]{fullShare} f) := rfl
theorem P_go (d : Dev nD) (c : Fin ((K (F := F)).nCore 0)) (i : Fin ((K (F := F)).nSub 0)) :
    (P (F := F) (U := U) IT Ag).go 0 d c i
      = iprop(∃ PT, ⌜Ag d PT⌝ ∗ (ptLoc d ↦{tq (F := F) (q2 c.val) i} PT) ∗ (itLoc d ↦{tq (F := F) (q2 c.val) i} IT d)
        ∗ (∃ f, outLoc d ↦[pieceSet (crd (F := F) c i) 0]{fullShare} f) ∗ ∃ f, outLoc d ↦[pieceSet (crd (F := F) c i) 1]{fullShare} f) := rfl
theorem P_td (d : Dev nD) (c : Fin ((K (F := F)).nCore 0)) (i : Fin ((K (F := F)).nSub 0)) :
    (P (F := F) (U := U) IT Ag).td 0 d c i
      = iprop(∃ PT, ⌜Ag d PT⌝ ∗ (ptLoc d ↦{tq (F := F) (q2 c.val) i} PT) ∗ (itLoc d ↦{tq (F := F) (q2 c.val) i} IT d)
        ∗ (outLoc d ↦[pieceSet (crd (F := F) c i) 0]{fullShare} gatF IT d PT) ∗ outLoc d ↦[pieceSet (crd (F := F) c i) 1]{fullShare} gatF IT d PT) := rfl
theorem P_x (q : Fin 1) (thr : Thread nD τ) : (P (F := F) (U := U) IT Ag).x q thr = iprop(emp) := rfl

/-- Every index word names a column of the table's rows (the body's checks ask exactly this). -/
def InRange : Prop := ∀ (d : Dev nD) (j : S10x2x8192.Idx), (IT d j).toNat < 106496

/-! ## The obligations (proved in the modules that import this one) -/

/-- The statement of the tile obligation. -/
abbrev TileStmt : Prop := (K (F := F)).TileObl (D (F := F)) 𝒱 (P (F := F) (U := U) IT Ag) v₀ 0
/-- The statement of the split of a SparseCore's operands among its tiles. -/
abbrev SplitStmt : Prop := (K (F := F)).VecSplit' (P (F := F) (U := U) IT Ag) 0

end Cert.Proof.WScTile

end
-- ==== Proof.WKSc.lean ====
/-
  The SparseCore call as a step of @main on the TensorCore: the table's projection and the index array go out to the
  two SparseCores as read shares, the result array as its two slabs; they come back with every result word the
  projection's word its index names.
-/
import proofs.«204616_g36739150250405_cont_8to1_b_1211_24_alg».proof.Proof.WKSetup
import proofs.«204616_g36739150250405_cont_8to1_b_1211_24_alg».proof.Proof.WKReg0
import proofs.«204616_g36739150250405_cont_8to1_b_1211_24_alg».proof.Proof.WScTilePay
import Idealize.ShloMosaic.Lib.Pipeline.Frame

noncomputable section

namespace Cert.Kernel.KS

open Cert.Kernel Cert.Kernel.Gen Cert.Kernel.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Idealize.ShloMosaic.TcCoe
open Cert.Proof.WScTile (ptLoc itLoc outLoc q2 slab slab_cover slab_disj gat split_v7 split_v10 join_v7 join_share split_share mem_slab)

variable {F : FTy → Type} [FloatOps F]

local notation "𝕄" => MT nD τ sig (HIx 1) (Elt F) ℕ UU ℕ

variable (IT : (d : Dev nD) → Buf (Elt F) (itLoc d)) (Ag : (d : Dev nD) → Buf (Elt F) (ptLoc d) → Prop)

/-- What the handshakes of the one SparseCore call carry. -/
abbrev PP : (K (F := F)).Pay (nD := nD) (Val := Elt F) (Name := ℕ) (U := UU) := Cert.Proof.WScTile.P (F := F) (U := UU) IT Ag

/-- The call's three arrays among the TensorCore's buffers. -/
abbrev r10 : DevRef τ sig := Proc.devRef .tc (main_v10 : Ref sig .tc)
abbrev r11 : DevRef τ sig := Proc.devRef .tc (main_v11 : Ref sig .tc)
abbrev T3 : Finset (DevRef τ sig) := {r7, r10, r11}

theorem T3_sub : T3 ⊆ Pipeline.ucRefs τ sig := by decide

omit [FloatOps F] in
theorem held_T3 (d : Dev nD) (W : Valuation τ sig (Elt F)) :
    (held (T d) T3 W : sProp 𝕄) = iprop((ptLoc d ↦{fullShare} W r7) ∗ (itLoc d ↦{fullShare} W r10) ∗ outLoc d ↦{fullShare} W r11) := by
  unfold held T3
  rw [SparseCore.bigSep_insert' (by decide), SparseCore.bigSep_insert' (by decide), bigSep_singleton]

omit [FloatOps F] in
/-- The result array whole is its two slabs. -/
theorem split_v11 (d : Dev nD) (f : Buf (Elt F) (outLoc d)) :
    (outLoc d ↦{fullShare} f : sProp 𝕄) ⊣⊢ iprop((outLoc d ↦[slab 0]{fullShare} f) ∗ outLoc d ↦[slab 1]{fullShare} f) := by
  have h : (outLoc d ↦[slab 0 ∪ slab 1]{fullShare} f : sProp 𝕄) ⊣⊢ iprop((outLoc d ↦[slab 0]{fullShare} f) ∗ outLoc d ↦[slab 1]{fullShare} f) :=
    pointsTo_union slab_disj
  rw [slab_cover] at h
  exact h

omit [FloatOps F] in
/-- The two slabs, each at its own contents, are the array whole at the contents that are each slab's on it. -/
theorem join_v11 (d : Dev nD) (f g : Buf (Elt F) (outLoc d)) :
    iprop((outLoc d ↦[slab 0]{fullShare} f) ∗ outLoc d ↦[slab 1]{fullShare} g) ⊢ (outLoc d ↦{fullShare} ((slab 1).piecewise g f) : sProp 𝕄) := by
  have h : iprop((outLoc d ↦[slab 0]{fullShare} f) ∗ outLoc d ↦[slab 1]{fullShare} g) ⊢ (outLoc d ↦[slab 0 ∪ slab 1]{fullShare} ((slab 1).piecewise g f) : sProp 𝕄) :=
    pointsTo_join slab_disj
  rw [slab_cover] at h
  exact h

/-- The two SparseCores of the call, one by one. -/
theorem bigSep_cores (Φ : Fin ((K (F := F)).nCore 0) → sProp 𝕄) : bigSep Finset.univ Φ = iprop(Φ ⟨0, (show 0 < 2 by decide)⟩ ∗ Φ ⟨1, (show 1 < 2 by decide)⟩) := by
  show bigSep (Finset.univ : Finset (Fin 2)) Φ = _
  rw [show (Finset.univ : Finset (Fin 2)) = {0, 1} by decide, SparseCore.bigSep_insert' (by decide), bigSep_singleton]
  rfl

/-- What the call hands the two SparseCores, and what it gets back, spelt out. -/
theorem st_eq (d : Dev nD) : (bigSep Finset.univ fun c : Fin ((K (F := F)).nCore 0) => (PP IT Ag).st 0 d c)
    = iprop((∃ PT, ⌜Ag d PT⌝ ∗ (ptLoc d ↦{q2 0} PT) ∗ (itLoc d ↦{q2 0} IT d) ∗ ∃ f, outLoc d ↦[slab 0]{fullShare} f)
        ∗ (∃ PT, ⌜Ag d PT⌝ ∗ (ptLoc d ↦{q2 1} PT) ∗ (itLoc d ↦{q2 1} IT d) ∗ ∃ f, outLoc d ↦[slab 1]{fullShare} f)) := by
  rw [bigSep_cores]; rfl
theorem dn_eq (d : Dev nD) : (bigSep Finset.univ fun c : Fin ((K (F := F)).nCore 0) => (PP IT Ag).dn 0 d c)
    = iprop((∃ PT f, ⌜Ag d PT ∧ ∀ j ∈ slab 0, f j = PT (gat IT d j)⌝ ∗ (ptLoc d ↦{q2 0} PT) ∗ (itLoc d ↦{q2 0} IT d) ∗ outLoc d ↦[slab 0]{fullShare} f)
        ∗ (∃ PT f, ⌜Ag d PT ∧ ∀ j ∈ slab 1, f j = PT (gat IT d j)⌝ ∗ (ptLoc d ↦{q2 1} PT) ∗ (itLoc d ↦{q2 1} IT d) ∗ outLoc d ↦[slab 1]{fullShare} f)) := by
  rw [bigSep_cores]; rfl

omit [FloatOps F] in
/-- The three arrays after the call: the projection and the result at their new contents, the index array as it was. -/
theorem held_T3_upd (d : Dev nD) (W : Valuation τ sig (Elt F)) (PT : Buf (Elt F) (ptLoc d)) (f : Buf (Elt F) (outLoc d)) :
    (held (T d) T3 (Function.update (Function.update W r7 PT) r11 f) : sProp 𝕄)
      = iprop((ptLoc d ↦{fullShare} PT) ∗ (itLoc d ↦{fullShare} W r10) ∗ outLoc d ↦{fullShare} f) := by
  have e7 : Function.update (Function.update W r7 PT) r11 f r7 = PT :=
    (Function.update_of_ne (show r7 ≠ r11 by decide) _ _).trans (Function.update_self _ _ _)
  have e10 : Function.update (Function.update W r7 PT) r11 f r10 = W r10 :=
    (Function.update_of_ne (show r10 ≠ r11 by decide) _ _).trans (Function.update_of_ne (show r10 ≠ r7 by decide) _ _)
  have e11 : Function.update (Function.update W r7 PT) r11 f r11 = f := Function.update_self _ _ _
  rw [held_T3, e7, e10, e11]

omit [FloatOps F] in
/-- Every other buffer is untouched by the call. -/
theorem held_rest_upd (d : Dev nD) (W : Valuation τ sig (Elt F)) (PT : Buf (Elt F) (ptLoc d)) (f : Buf (Elt F) (outLoc d)) :
    (held (T d) (Pipeline.ucRefs τ sig \ T3) (Function.update (Function.update W r7 PT) r11 f) : sProp 𝕄)
      = held (T d) (Pipeline.ucRefs τ sig \ T3) W :=
  bigSep_congr fun b hb => by
    have hb' := (Finset.mem_sdiff.mp hb).2
    have h11 : b ≠ r11 := fun e => hb' (by rw [e]; decide)
    have h7 : b ≠ r7 := fun e => hb' (by rw [e]; decide)
    rw [Function.update_of_ne h11, Function.update_of_ne h7]

/-- THE SPARSECORE CALL on the TensorCore of `d`, from its buffers at `W` with the projection satisfying `Ag` and the
    index array at `IT d`: afterwards the projection is at some contents satisfying `Ag` and every word of the result is
    that projection's word at the row and the column its index word names. -/
theorem sc_step (κ : GSem nD τ sig → ℕ) (d : Dev nD) (W : Valuation τ sig (Elt F)) (hAg : Ag d (W r7)) (hIT : W r10 = IT d)
    (Φ : PUnit → sProp 𝕄) :
    iprop((K (F := F)).ctx EH (PP IT Ag) κ ∗ (K (F := F)).tcSt EH d 0 ∗ held (T d) (Pipeline.ucRefs τ sig) W
        ∗ (iprop((K (F := F)).tcSt EH d 1 ∗ ∃ (PT : Buf (Elt F) (ptLoc d)) (f : Buf (Elt F) (outLoc d)), ⌜Ag d PT ∧ ∀ j, f j = PT (gat IT d j)⌝
            ∗ held (T d) (Pipeline.ucRefs τ sig) (Function.update (Function.update W r7 PT) r11 f)) -∗ Φ ⟨⟩))
      ⊢ wp frame (wpE ((K (F := F)).defs (D (F := F))) 𝒱 (T d) none) Set.univ ((sc (F := F)).run d 0) Φ := by
  rw [StableHlo.held_sub_split (T d) T3_sub W, held_T3, hIT]
  iintro ⟨#Hctx, Hst, ⟨⟨H7, H10, H11⟩, Hrest⟩, Hk⟩
  ihave H7' := (split_v7 d _).1 $$ H7
  icases H7' with ⟨H7a, H7b⟩
  ihave H10' := (split_v10 d _).1 $$ H10
  icases H10' with ⟨H10a, H10b⟩
  ihave H11' := (split_v11 d _).1 $$ H11
  icases H11' with ⟨H11a, H11b⟩
  iapply ((K (F := F)).wp_run (D (F := F)) 𝒱 (EH := EH) (P := PP IT Ag) κ d 0) $$ [Hst H7a H7b H10a H10b H11a H11b Hrest Hk]
  isplitr; · iexact Hctx
  isplitl [Hst]; · iexact Hst
  isplitl [H7a H7b H10a H10b H11a H11b]
  · iapply (Entails.of_eq (st_eq IT Ag d).symm)
    isplitl [H7a H10a H11a]
    · iexists _; isplitr; · ipureintro; exact hAg
      isplitl [H7a]; · iexact H7a
      isplitl [H10a]; · iexact H10a
      iexists _; iexact H11a
    · iexists _; isplitr; · ipureintro; exact hAg
      isplitl [H7b]; · iexact H7b
      isplitl [H10b]; · iexact H10b
      iexists _; iexact H11b
  iintro ⟨Hst, Hdn⟩
  ihave Hdn' := (Entails.of_eq (dn_eq IT Ag d)) $$ Hdn
  icases Hdn' with ⟨⟨%PT0, %f0, %h0, H7a, H10a, H11a⟩, ⟨%PT1, %f1, %h1, H7b, H10b, H11b⟩⟩
  ihave H7 := (join_v7 d PT0 PT1) $$ [H7a H7b]
  · isplitl [H7a] <;> iassumption
  icases H7 with ⟨%hPT, H7⟩
  subst hPT
  ihave H10 := (split_v10 d _).2 $$ [H10a H10b]
  · isplitl [H10a] <;> iassumption
  ihave H11 := (join_v11 d f0 f1) $$ [H11a H11b]
  · isplitl [H11a] <;> iassumption
  iapply Hk
  isplitl [Hst]; · iexact Hst
  iexists PT1; iexists ((slab 1).piecewise f1 f0)
  isplitr
  · ipureintro
    refine ⟨h0.1, fun j => ?_⟩
    by_cases hj : j ∈ slab 1
    · rw [Finset.piecewise_eq_of_mem _ _ _ hj]; exact h1.2 j hj
    · rw [Finset.piecewise_eq_of_notMem _ _ _ hj]
      refine h0.2 j ?_
      have := Finset.mem_univ j; rw [← slab_cover, Finset.mem_union] at this
      exact this.resolve_right hj
  · iapply (Entails.of_eq (StableHlo.held_sub_split (T d) T3_sub _).symm)
    isplitl [H7 H10 H11]
    · iapply (Entails.of_eq (held_T3_upd d W PT1 _).symm)
      isplitl [H7]; · iexact H7
      isplitl [H10]; · rw [hIT]; iexact H10
      iexact H11
    · iapply (Entails.of_eq (held_rest_upd d W PT1 _).symm)
      iexact Hrest

end Cert.Kernel.KS

end
-- ==== Proof.WKVals.lean ====
/-
  The TensorCore's buffer contents at every boundary of @main: a fold from the launch memory through the four host
  stretches, the first region (its result array `G` one of the contents the pipeline may leave), the SparseCore call
  (the projection back at `PT`, the gathered array at `f`) and the second region.
-/
import proofs.«204616_g36739150250405_cont_8to1_b_1211_24_alg».proof.Proof.WKSetup
import proofs.«204616_g36739150250405_cont_8to1_b_1211_24_alg».proof.Proof.WKReg2
import proofs.«204616_g36739150250405_cont_8to1_b_1211_24_alg».proof.Proof.WKSc

noncomputable section

namespace Cert.Kernel.KS

open Cert.Kernel Cert.Kernel.Gen Cert.Kernel.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Idealize.ShloMosaic.TcCoe
open Cert.Kernel.TcReg
open Cert.Proof.WScTile (ptLoc itLoc outLoc gat)

variable {F : FTy → Type} [FloatOps F]

local notation "𝕄" => MT nD τ sig (HIx 1) (Elt F) ℕ UU ℕ

variable (m : (ℓ : Loc nD τ sig) → Buf (Elt F) ℓ) (d : Dev nD)

/-- At launch, and after the first host stretch (the weight rows padded, the table transposed). -/
abbrev W0 : Valuation τ sig (Elt F) := fun b => m (d, b)
abbrev W1 : Valuation τ sig (Elt F) := StableHlo.after ops0 (W0 m d)

variable (G : Buf (Elt F) ((d : Thread nD τ).loc main_v7))

/-- After the first region (result array `G`) and the second host stretch (the index columns stacked and split by core). -/
def W3 : Valuation τ sig (Elt F) := StableHlo.after ops1 (W2 (fun _ => W1 m d) d G)

/-- The index array the SparseCore call reads: it does not depend on what the first region left. -/
def ITm : Buf (Elt F) (itLoc d) := StableHlo.after ops1 (W1 m d) r10

variable (PT : Buf (Elt F) (ptLoc d)) (f : Buf (Elt F) (outLoc d))

/-- After the SparseCore call, and after the third host stretch. -/
def W4 : Valuation τ sig (Elt F) := Function.update (Function.update (W3 m d G) r7 PT) r11 f
def W5 : Valuation τ sig (Elt F) := StableHlo.after ops2 (W4 m d G PT f)

/-- After the second region (entered after the one SparseCore call), and at the return. -/
def W6v : Valuation τ sig (Elt F) := W6 (fun _ => W5 m d G PT f) 1 d
def W7 : Valuation τ sig (Elt F) := StableHlo.after ops3 (W6v m d G PT f)

end Cert.Kernel.KS

end
-- ==== Proof.WKStmt.lean ====
/-
  The statement of the kernel program's run: every weakly fair execution of the device's threads terminates, and on
  every device the final memory holds, at every unscoped TensorCore buffer, the fold's last contents for SOME result
  array of the first region, projection and gathered array the run passed through.
-/
import proofs.«204616_g36739150250405_cont_8to1_b_1211_24_alg».proof.Proof.WKSetup
import proofs.«204616_g36739150250405_cont_8to1_b_1211_24_alg».proof.Proof.WKVals

noncomputable section

namespace Cert.Kernel.KS

open Cert.Kernel Cert.Kernel.Gen Cert.Kernel.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Idealize.ShloMosaic.TcCoe
open Cert.Kernel.TcReg
open Cert.Proof.WScTile (ptLoc itLoc outLoc gat)

variable {F : FTy → Type} [FloatOps F]

local notation "𝕄" => MT nD τ sig (HIx 1) (Elt F) ℕ UU ℕ

variable (m : (ℓ : Loc nD τ sig) → Buf (Elt F) ℓ) (ρ : Dev nD → PrngReg)
variable (Ag : (d : Dev nD) → Buf (Elt F) (ptLoc d) → Prop)

/-- The index array of the SparseCore call on every device. -/
abbrev ITf : (d : Dev nD) → Buf (Elt F) (itLoc d) := fun d => ITm m d

/-- What every final state satisfies. -/
def RunPost : PUnit × MemSt nD τ sig (Elt F) → Prop := fun r =>
  ∀ d : Dev nD, ∃ (G : Buf (Elt F) ((d : Thread nD τ).loc main_v7)) (PT : Buf (Elt F) (ptLoc d)) (f : Buf (Elt F) (outLoc d)),
    (Ag d PT ∧ ∀ j, f j = PT (gat (ITf m) d j)) ∧ ∀ b ∈ Pipeline.ucRefs τ sig, r.2.mem (d, b) = W7 m d G PT f b

/-- The run. -/
def RunStmt : Prop :=
  θ_run (Cert.Kernel.defs (F := F)) (Cert.Kernel.threads (F := F)) ⟨m, fun _ => 0, ρ⟩ (RunPost m Ag)

end Cert.Kernel.KS

end
-- ==== Proof.WKValueG.lean ====
/-
  What no stretch of host operations and no call of @main writes: each argument array is read back as launched
  from every boundary of the fold, the projected table passes through the second stretch untouched, and the index
  array that stretch builds reads the two index arguments only.
-/
import proofs.«204616_g36739150250405_cont_8to1_b_1211_24_alg».proof.Proof.WKVals

noncomputable section

namespace Cert.Kernel.KS

open Cert.Kernel Cert.Kernel.Gen Cert.Kernel.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Idealize.ShloMosaic.TcCoe
open Idealize.ShloMosaic.ValueIdx
open Cert.Kernel.TcReg
open Cert.Proof.WScTile (ptLoc itLoc outLoc gat)
open scoped BigOperators

/-- A buffer no operation of a host stretch writes keeps its contents through the stretch. -/
local macro "keep_through " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-! ## What no stretch and no call writes: the arguments, and the two operands of the SparseCore call -/

section Generic
variable {F : FTy → Type} [FloatOps F]
variable (m : (ℓ : Loc nD τ sig) → Buf (Elt F) ℓ) (d : Dev nD)
variable (G : Buf (Elt F) ((d : Thread nD τ).loc main_v7))
variable (PT : Buf (Elt F) (ptLoc d)) (f : Buf (Elt F) (outLoc d))

theorem W1_arg0 : W1 m d (Proc.devRef .tc main_arg0) = m ((d : Thread nD τ).loc main_arg0) :=
  (by keep_through ops0 : StableHlo.after ops0 (W0 m d) (Proc.devRef .tc main_arg0) = W0 m d (Proc.devRef .tc main_arg0))

theorem W1_arg1 : W1 m d (Proc.devRef .tc main_arg1) = m ((d : Thread nD τ).loc main_arg1) :=
  (by keep_through ops0 : StableHlo.after ops0 (W0 m d) (Proc.devRef .tc main_arg1) = W0 m d (Proc.devRef .tc main_arg1))

theorem W1_arg2 : W1 m d (Proc.devRef .tc main_arg2) = m ((d : Thread nD τ).loc main_arg2) :=
  (by keep_through ops0 : StableHlo.after ops0 (W0 m d) (Proc.devRef .tc main_arg2) = W0 m d (Proc.devRef .tc main_arg2))

theorem W1_arg3 : W1 m d (Proc.devRef .tc main_arg3) = m ((d : Thread nD τ).loc main_arg3) :=
  (by keep_through ops0 : StableHlo.after ops0 (W0 m d) (Proc.devRef .tc main_arg3) = W0 m d (Proc.devRef .tc main_arg3))

theorem W1_arg4 : W1 m d (Proc.devRef .tc main_arg4) = m ((d : Thread nD τ).loc main_arg4) :=
  (by keep_through ops0 : StableHlo.after ops0 (W0 m d) (Proc.devRef .tc main_arg4) = W0 m d (Proc.devRef .tc main_arg4))

theorem W1_arg5 : W1 m d (Proc.devRef .tc main_arg5) = m ((d : Thread nD τ).loc main_arg5) :=
  (by keep_through ops0 : StableHlo.after ops0 (W0 m d) (Proc.devRef .tc main_arg5) = W0 m d (Proc.devRef .tc main_arg5))

theorem W4_arg0 : W4 m d G PT f (Proc.devRef .tc main_arg0) = m ((d : Thread nD τ).loc main_arg0) :=
  calc W4 m d G PT f (Proc.devRef .tc main_arg0)
    _ = W3 m d G (Proc.devRef .tc main_arg0) :=
        (Function.update_of_ne (StableHlo.devRef_ne_of_ne (by decide)) _ _).trans
          (Function.update_of_ne (StableHlo.devRef_ne_of_ne (by decide)) _ _)
    _ = W2 (fun _ => W1 m d) d G (Proc.devRef .tc main_arg0) := by unfold W3; keep_through ops1
    _ = W1 m d (Proc.devRef .tc main_arg0) := W2_of_ne _ d G main_arg0 (by decide)
    _ = W0 m d (Proc.devRef .tc main_arg0) := by keep_through ops0
    _ = m ((d : Thread nD τ).loc main_arg0) := rfl

theorem W7_arg0 : W7 m d G PT f (Proc.devRef .tc main_arg0) = m ((d : Thread nD τ).loc main_arg0) :=
  calc W7 m d G PT f (Proc.devRef .tc main_arg0)
    _ = W6v m d G PT f (Proc.devRef .tc main_arg0) := by unfold W7; keep_through ops3
    _ = W5 m d G PT f (Proc.devRef .tc main_arg0) := W6_of_ne _ 1 d main_arg0 (by decide)
    _ = W4 m d G PT f (Proc.devRef .tc main_arg0) := by unfold W5; keep_through ops2
    _ = m ((d : Thread nD τ).loc main_arg0) := W4_arg0 m d G PT f

theorem W4_arg1 : W4 m d G PT f (Proc.devRef .tc main_arg1) = m ((d : Thread nD τ).loc main_arg1) :=
  calc W4 m d G PT f (Proc.devRef .tc main_arg1)
    _ = W3 m d G (Proc.devRef .tc main_arg1) :=
        (Function.update_of_ne (StableHlo.devRef_ne_of_ne (by decide)) _ _).trans
          (Function.update_of_ne (StableHlo.devRef_ne_of_ne (by decide)) _ _)
    _ = W2 (fun _ => W1 m d) d G (Proc.devRef .tc main_arg1) := by unfold W3; keep_through ops1
    _ = W1 m d (Proc.devRef .tc main_arg1) := W2_of_ne _ d G main_arg1 (by decide)
    _ = W0 m d (Proc.devRef .tc main_arg1) := by keep_through ops0
    _ = m ((d : Thread nD τ).loc main_arg1) := rfl

theorem W7_arg1 : W7 m d G PT f (Proc.devRef .tc main_arg1) = m ((d : Thread nD τ).loc main_arg1) :=
  calc W7 m d G PT f (Proc.devRef .tc main_arg1)
    _ = W6v m d G PT f (Proc.devRef .tc main_arg1) := by unfold W7; keep_through ops3
    _ = W5 m d G PT f (Proc.devRef .tc main_arg1) := W6_of_ne _ 1 d main_arg1 (by decide)
    _ = W4 m d G PT f (Proc.devRef .tc main_arg1) := by unfold W5; keep_through ops2
    _ = m ((d : Thread nD τ).loc main_arg1) := W4_arg1 m d G PT f

theorem W4_arg2 : W4 m d G PT f (Proc.devRef .tc main_arg2) = m ((d : Thread nD τ).loc main_arg2) :=
  calc W4 m d G PT f (Proc.devRef .tc main_arg2)
    _ = W3 m d G (Proc.devRef .tc main_arg2) :=
        (Function.update_of_ne (StableHlo.devRef_ne_of_ne (by decide)) _ _).trans
          (Function.update_of_ne (StableHlo.devRef_ne_of_ne (by decide)) _ _)
    _ = W2 (fun _ => W1 m d) d G (Proc.devRef .tc main_arg2) := by unfold W3; keep_through ops1
    _ = W1 m d (Proc.devRef .tc main_arg2) := W2_of_ne _ d G main_arg2 (by decide)
    _ = W0 m d (Proc.devRef .tc main_arg2) := by keep_through ops0
    _ = m ((d : Thread nD τ).loc main_arg2) := rfl

theorem W7_arg2 : W7 m d G PT f (Proc.devRef .tc main_arg2) = m ((d : Thread nD τ).loc main_arg2) :=
  calc W7 m d G PT f (Proc.devRef .tc main_arg2)
    _ = W6v m d G PT f (Proc.devRef .tc main_arg2) := by unfold W7; keep_through ops3
    _ = W5 m d G PT f (Proc.devRef .tc main_arg2) := W6_of_ne _ 1 d main_arg2 (by decide)
    _ = W4 m d G PT f (Proc.devRef .tc main_arg2) := by unfold W5; keep_through ops2
    _ = m ((d : Thread nD τ).loc main_arg2) := W4_arg2 m d G PT f

theorem W4_arg3 : W4 m d G PT f (Proc.devRef .tc main_arg3) = m ((d : Thread nD τ).loc main_arg3) :=
  calc W4 m d G PT f (Proc.devRef .tc main_arg3)
    _ = W3 m d G (Proc.devRef .tc main_arg3) :=
        (Function.update_of_ne (StableHlo.devRef_ne_of_ne (by decide)) _ _).trans
          (Function.update_of_ne (StableHlo.devRef_ne_of_ne (by decide)) _ _)
    _ = W2 (fun _ => W1 m d) d G (Proc.devRef .tc main_arg3) := by unfold W3; keep_through ops1
    _ = W1 m d (Proc.devRef .tc main_arg3) := W2_of_ne _ d G main_arg3 (by decide)
    _ = W0 m d (Proc.devRef .tc main_arg3) := by keep_through ops0
    _ = m ((d : Thread nD τ).loc main_arg3) := rfl

theorem W7_arg3 : W7 m d G PT f (Proc.devRef .tc main_arg3) = m ((d : Thread nD τ).loc main_arg3) :=
  calc W7 m d G PT f (Proc.devRef .tc main_arg3)
    _ = W6v m d G PT f (Proc.devRef .tc main_arg3) := by unfold W7; keep_through ops3
    _ = W5 m d G PT f (Proc.devRef .tc main_arg3) := W6_of_ne _ 1 d main_arg3 (by decide)
    _ = W4 m d G PT f (Proc.devRef .tc main_arg3) := by unfold W5; keep_through ops2
    _ = m ((d : Thread nD τ).loc main_arg3) := W4_arg3 m d G PT f

theorem W4_arg4 : W4 m d G PT f (Proc.devRef .tc main_arg4) = m ((d : Thread nD τ).loc main_arg4) :=
  calc W4 m d G PT f (Proc.devRef .tc main_arg4)
    _ = W3 m d G (Proc.devRef .tc main_arg4) :=
        (Function.update_of_ne (StableHlo.devRef_ne_of_ne (by decide)) _ _).trans
          (Function.update_of_ne (StableHlo.devRef_ne_of_ne (by decide)) _ _)
    _ = W2 (fun _ => W1 m d) d G (Proc.devRef .tc main_arg4) := by unfold W3; keep_through ops1
    _ = W1 m d (Proc.devRef .tc main_arg4) := W2_of_ne _ d G main_arg4 (by decide)
    _ = W0 m d (Proc.devRef .tc main_arg4) := by keep_through ops0
    _ = m ((d : Thread nD τ).loc main_arg4) := rfl

theorem W7_arg4 : W7 m d G PT f (Proc.devRef .tc main_arg4) = m ((d : Thread nD τ).loc main_arg4) :=
  calc W7 m d G PT f (Proc.devRef .tc main_arg4)
    _ = W6v m d G PT f (Proc.devRef .tc main_arg4) := by unfold W7; keep_through ops3
    _ = W5 m d G PT f (Proc.devRef .tc main_arg4) := W6_of_ne _ 1 d main_arg4 (by decide)
    _ = W4 m d G PT f (Proc.devRef .tc main_arg4) := by unfold W5; keep_through ops2
    _ = m ((d : Thread nD τ).loc main_arg4) := W4_arg4 m d G PT f

theorem W4_arg5 : W4 m d G PT f (Proc.devRef .tc main_arg5) = m ((d : Thread nD τ).loc main_arg5) :=
  calc W4 m d G PT f (Proc.devRef .tc main_arg5)
    _ = W3 m d G (Proc.devRef .tc main_arg5) :=
        (Function.update_of_ne (StableHlo.devRef_ne_of_ne (by decide)) _ _).trans
          (Function.update_of_ne (StableHlo.devRef_ne_of_ne (by decide)) _ _)
    _ = W2 (fun _ => W1 m d) d G (Proc.devRef .tc main_arg5) := by unfold W3; keep_through ops1
    _ = W1 m d (Proc.devRef .tc main_arg5) := W2_of_ne _ d G main_arg5 (by decide)
    _ = W0 m d (Proc.devRef .tc main_arg5) := by keep_through ops0
    _ = m ((d : Thread nD τ).loc main_arg5) := rfl

theorem W7_arg5 : W7 m d G PT f (Proc.devRef .tc main_arg5) = m ((d : Thread nD τ).loc main_arg5) :=
  calc W7 m d G PT f (Proc.devRef .tc main_arg5)
    _ = W6v m d G PT f (Proc.devRef .tc main_arg5) := by unfold W7; keep_through ops3
    _ = W5 m d G PT f (Proc.devRef .tc main_arg5) := W6_of_ne _ 1 d main_arg5 (by decide)
    _ = W4 m d G PT f (Proc.devRef .tc main_arg5) := by unfold W5; keep_through ops2
    _ = m ((d : Thread nD τ).loc main_arg5) := W4_arg5 m d G PT f

/-- The second stretch does not touch the projection: it is what the first region left. -/
theorem W3_r7 : W3 m d G r7 = G := by
  unfold W3
  exact (by keep_through ops1 : StableHlo.after ops1 (W2 (fun _ => W1 m d) d G) (Proc.devRef .tc main_v7) = _).trans (W2_v7 _ d G)

/-- The index array the second stretch builds, as a term of the two index arguments' contents. -/
theorem ops1_r10 (Vv : Valuation τ sig (Elt F)) :
    (StableHlo.after ops1 Vv (Proc.devRef .tc main_v10) : IVec S10x2x8192 32)
      = shapeCast S10x2x8192 (transpose S10x16384 [1, 0]
          (concatenate S16384x10 1 [⟨S16384x5, Vv (Proc.devRef .tc main_arg0)⟩, ⟨S16384x5, Vv (Proc.devRef .tc main_arg1)⟩]
            concatenates_S16384x5_S16384x5_S16384x10_d1) transposes_S16384x10_S10x16384_1_0) shapeCasts_S10x16384_S10x2x8192 := by
  simp only [ops1]
  after_results
  try rfl

/-- It reads the index arguments only, so it does not depend on what the first region left. -/
theorem W3_r10 : W3 m d G r10 = ITm m d := by
  unfold W3 ITm
  refine (ops1_r10 _).trans (Eq.trans ?_ (ops1_r10 _).symm)
  rw [W2_of_ne _ d G main_arg0 (by decide), W2_of_ne _ d G main_arg1 (by decide)]

end Generic

end Cert.Kernel.KS

end
-- ==== Proof.WKClaims.lean ====
/-
  The word-level kernel's frame, from the statement of its run.

  The run ends, on every device, with every unscoped TensorCore buffer at the last contents of the fold through
  @main's stretches and calls. No stretch and no call writes an argument, and each argument is an unscoped
  TensorCore buffer: the arguments end as launched.
-/
import proofs.«204616_g36739150250405_cont_8to1_b_1211_24_alg».proof.Proof.WKStmt
import proofs.«204616_g36739150250405_cont_8to1_b_1211_24_alg».proof.Proof.WKValueG
import proofs.«204616_g36739150250405_cont_8to1_b_1211_24_alg».proof.Proof.Gen.Pre_input_domain

noncomputable section

namespace Cert.Proof.WClaims

open Idealize.ShloMosaic Idealize.SL.Sem
open Cert.Kernel.KS
open Cert.Proof.WScTile (ptLoc itLoc outLoc gat)

section Frame
variable {F : FTy → Type} [FloatOps F]

/-- The arguments end as launched: each is an unscoped TensorCore buffer that nothing writes. -/
theorem frame_of_run (m : (ℓ : Loc Cert.Kernel.nD Cert.Kernel.τ Cert.Kernel.sig) → Buf (Elt F) ℓ) (ρ : Dev Cert.Kernel.nD → PrngReg)
    (Ag : (d : Dev Cert.Kernel.nD) → Buf (Elt F) (ptLoc d) → Prop) (h : RunStmt m ρ Ag) :
    θ_run (Cert.Kernel.defs (F := F)) (Cert.Kernel.threads (F := F)) ⟨m, fun _ => 0, ρ⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)) :=
  (θ_run (Cert.Kernel.defs (F := F)) _ _).mono (fun r hr c => by
    obtain ⟨G, PT, f, -, hb⟩ := hr c
    exact ⟨(hb _ (show Proc.devRef .tc (Cert.Kernel.main_arg0 : Ref Cert.Kernel.sig .tc) ∈ Pipeline.ucRefs Cert.Kernel.τ Cert.Kernel.sig from by decide)).trans (W7_arg0 m c G PT f),
      (hb _ (show Proc.devRef .tc (Cert.Kernel.main_arg1 : Ref Cert.Kernel.sig .tc) ∈ Pipeline.ucRefs Cert.Kernel.τ Cert.Kernel.sig from by decide)).trans (W7_arg1 m c G PT f),
      (hb _ (show Proc.devRef .tc (Cert.Kernel.main_arg2 : Ref Cert.Kernel.sig .tc) ∈ Pipeline.ucRefs Cert.Kernel.τ Cert.Kernel.sig from by decide)).trans (W7_arg2 m c G PT f),
      (hb _ (show Proc.devRef .tc (Cert.Kernel.main_arg3 : Ref Cert.Kernel.sig .tc) ∈ Pipeline.ucRefs Cert.Kernel.τ Cert.Kernel.sig from by decide)).trans (W7_arg3 m c G PT f),
      (hb _ (show Proc.devRef .tc (Cert.Kernel.main_arg4 : Ref Cert.Kernel.sig .tc) ∈ Pipeline.ucRefs Cert.Kernel.τ Cert.Kernel.sig from by decide)).trans (W7_arg4 m c G PT f),
      (hb _ (show Proc.devRef .tc (Cert.Kernel.main_arg5 : Ref Cert.Kernel.sig .tc) ∈ Pipeline.ucRefs Cert.Kernel.τ Cert.Kernel.sig from by decide)).trans (W7_arg5 m c G PT f)⟩) h

end Frame

/-- The word-level kernel runs and leaves its arguments unchanged. -/
theorem frame_of_runB
    (hrun : ∀ (m : (ℓ : Loc Cert.Kernel.nD Cert.Kernel.τ Cert.Kernel.sig) → Buf (Elt Bits) ℓ) (ρ : Dev Cert.Kernel.nD → PrngReg),
      Cert.Pre_Kernel (hPre_input_domain := Cert.Pre_input_domain.Gen.facts) m → RunStmt (F := Bits) m ρ (fun _ _ => True)) :
    Cert.frame_Kernel (hKernel := Cert.Kernel.Gen.facts) (hPre_input_domain := Cert.Pre_input_domain.Gen.facts) :=
  fun m g hpre => frame_of_run m g (fun _ _ => True) (hrun m g hpre)

end Cert.Proof.WClaims

end
-- ==== Proof.WKSteps.lean ====
/-
  The steps of @main on the TensorCore, each as one entailment over the thread state: a stretch of host operations,
  the first region, the second region.
-/
import proofs.«204616_g36739150250405_cont_8to1_b_1211_24_alg».proof.Proof.WKSetup
import proofs.«204616_g36739150250405_cont_8to1_b_1211_24_alg».proof.Proof.WKStmt

noncomputable section

namespace Cert.Kernel.KS

open Cert.Kernel Cert.Kernel.Gen Cert.Kernel.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Idealize.ShloMosaic.TcCoe
open Cert.Kernel.TcReg
open Cert.Proof.WScTile (ptLoc itLoc outLoc gat)

variable {F : FTy → Type} [FloatOps F]

local notation "𝕄" => MT nD τ sig (HIx 1) (Elt F) ℕ UU ℕ

/-- What the TensorCore owes the handshakes before call `n`, its recorded pairs bounded. -/
abbrev Rowes (d : Dev nD) (n : ℕ) : sProp 𝕄 :=
  iprop(∃ W, ⌜(K (F := F)).WBelow (T d) W (8 * n)⌝ ∗ owes (T d) (Oc (F := F) d n) W)

set_option maxHeartbeats 1000000 in
set_option backward.isDefEq.respectTransparency.types false in
/-- A stretch of host operations at the head of the TensorCore's program, over its unscoped buffers. -/
theorem host_step (d : Dev nD) (ops : List (HloOp τ sig (Elt F))) (hsub : ∀ op ∈ ops, op.bufs ⊆ Pipeline.ucRefs τ sig)
    (hfresh : ∀ op ∈ ops, op.fresh = ∅) (W : Valuation τ sig (Elt F)) {β : Type}
    (k : PUnit → Prog (TpuEff nD τ sig (Elt F) (SparseCore.Sig (ΛP (F := F)) 1) .tc) β) (Φ : β → sProp 𝕄) :
    iprop(boundary (T d) ∗ held (T d) (Pipeline.ucRefs τ sig) W
        ∗ (iprop(boundary (T d) ∗ held (T d) (Pipeline.ucRefs τ sig) (StableHlo.after ops W))
            -∗ wp frame (wpE ((K (F := F)).defs (D (F := F))) 𝒱 (T d) none) Set.univ (k ⟨⟩) Φ))
      ⊢ wp frame (wpE ((K (F := F)).defs (D (F := F))) 𝒱 (T d) none) Set.univ (StableHlo.seq ops >>= k) Φ := by
  iintro ⟨Hb, Hh, Hk⟩
  iapply (wp_seq 𝒱 none Set.univ d (Pipeline.ucRefs τ sig) k ops hsub hfresh W) $$ [Hb Hh]
  · isplitl [Hb] <;> iassumption
  iexact Hk

variable (m : (ℓ : Loc nD τ sig) → Buf (Elt F) ℓ) (ρ : Dev nD → PrngReg)

/-- What the launch deals the TensorCore, its unscoped buffers read as the fold's first contents. -/
theorem tcRes_eq (d : Dev nD) : ((K (F := F)).tcRes m ρ d : sProp 𝕄)
    = iprop(boundary (T d) ∗ held (T d) (Pipeline.ucRefs τ sig) (W0 m d) ∗ (K (F := F)).tcSems0 d ∗ prngReg d (ρ d)) := by
  unfold SparseCore.Cfg.tcRes
  rw [← Pipeline.unscopedBufs_held d (W0 m d)]

set_option maxHeartbeats 4000000 in
set_option backward.isDefEq.respectTransparency.types false in
/-- The first region as a step of @main, from the thread state at contents `W` before call `n`. -/
theorem reg0_step [∀ e, Nonempty (Elt F e)] (d : Dev nD) (W : Valuation τ sig (Elt F)) (n : ℕ) (Φ : PUnit → sProp 𝕄) :
    iprop(boundary (T d) ∗ held (T d) (Pipeline.ucRefs τ sig) W ∗ (∃ r, prngReg d r) ∗ Rowes (F := F) d n
        ∗ levAts (K (F := F)).L (K (F := F)).lev
        ∗ Pipeline.cellsGhost (Pipeline.pin (pcfgs (F := F)) adm) EP 0 d ∗ Pipeline.toksInit (Pipeline.pin (pcfgs (F := F)) adm) EP 0 d
        ∗ (iprop(boundary (T d) ∗ ∃ G, ⌜(rdat0 (F := F) (U := UU) (VW fun _ => W) (Oc (F := F) d n) (Rc (F := F) d n) d).ArrAt 2 cfg0.N G⌝
              ∗ held (T d) (Pipeline.ucRefs τ sig) (W2 (fun _ => W) d G) ∗ (∃ r, prngReg d r) ∗ Rowes (F := F) d n) -∗ Φ ⟨⟩))
      ⊢ wp frame (wpE ((K (F := F)).defs (D (F := F))) 𝒱 (T d) none) Set.univ
          (Prog.lift (.customCall (SparseCore.inner (Pipeline.entry (0 : Fin 2))) ())) Φ := by
  iintro ⟨Hb, Hh, Hp, HO, Hlev, Hcg, Htk, Hk⟩
  iapply (region_stepR (rdatsW (fun _ => W) n) (reg0 (fun _ => W) n) d Φ)
  isplitl [Hk]; · iexact Hk
  isplitl [Hb]; · iexact Hb
  isplitl [Hh Hp HO]
  · iapply (show iprop(held (T d) (Pipeline.ucRefs τ sig) W ∗ ((∃ r, prngReg d r) ∗ Rowes (F := F) d n)) ⊢ (reg0 (fun _ => W) n).pre d from .rfl)
    isplitl [Hh]; · iexact Hh
    isplitl [Hp]; · iexact Hp
    iexact HO
  isplitl [Hlev]; · iexact Hlev
  isplitl [Hcg] <;> iassumption

set_option maxHeartbeats 4000000 in
set_option backward.isDefEq.respectTransparency.types false in
/-- The second region as a step of @main, from the thread state at contents `W` before call `n`. -/
theorem reg2_step [∀ e, Nonempty (Elt F e)] (d : Dev nD) (W : Valuation τ sig (Elt F)) (n : ℕ) (Φ : PUnit → sProp 𝕄) :
    iprop(boundary (T d) ∗ held (T d) (Pipeline.ucRefs τ sig) W ∗ (∃ r, prngReg d r) ∗ Rowes (F := F) d n
        ∗ levAts (K (F := F)).L (K (F := F)).lev
        ∗ Pipeline.cellsGhost (Pipeline.pin (pcfgs (F := F)) adm) EP 1 d ∗ Pipeline.toksInit (Pipeline.pin (pcfgs (F := F)) adm) EP 1 d
        ∗ (iprop(boundary (T d) ∗ held (T d) (Pipeline.ucRefs τ sig) (W6 (fun _ => W) n d) ∗ (∃ r, prngReg d r) ∗ Rowes (F := F) d n) -∗ Φ ⟨⟩))
      ⊢ wp frame (wpE ((K (F := F)).defs (D (F := F))) 𝒱 (T d) none) Set.univ
          (Prog.lift (.customCall (SparseCore.inner (Pipeline.entry (1 : Fin 2))) ())) Φ := by
  iintro ⟨Hb, Hh, Hp, HO, Hlev, Hcg, Htk, Hk⟩
  iapply (region_stepR (rdatsW (fun _ => W) n) (reg2 (fun _ => W) n) d Φ)
  isplitl [Hk]; · iexact Hk
  isplitl [Hb]; · iexact Hb
  isplitl [Hh Hp HO]
  · iapply (show iprop(held (T d) (Pipeline.ucRefs τ sig) W ∗ ((∃ r, prngReg d r) ∗ Rowes (F := F) d n)) ⊢ (reg2 (fun _ => W) n).pre d from .rfl)
    isplitl [Hh]; · iexact Hh
    isplitl [Hp]; · iexact Hp
    iexact HO
  isplitl [Hlev]; · iexact Hlev
  isplitl [Hcg] <;> iassumption

end Cert.Kernel.KS

end
-- ==== Proof.WKLaunch.lean ====
/-
  The launch's ghost state (the handshakes' rounds, the two pipelines' staging cells' rounds and duty tokens, no
  counter yet), the TensorCore's handshake state with its debts set apart, and what @main leaves the claim.
-/
import proofs.«204616_g36739150250405_cont_8to1_b_1211_24_alg».proof.Proof.WKSetup
import proofs.«204616_g36739150250405_cont_8to1_b_1211_24_alg».proof.Proof.WKStmt

noncomputable section

namespace Cert.Kernel.KS

open Cert.Kernel Cert.Kernel.Gen Cert.Kernel.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Idealize.ShloMosaic.TcCoe
open Cert.Kernel.TcReg
open Cert.Proof.WScTile (ptLoc itLoc outLoc gat)

variable {F : FTy → Type} [FloatOps F]

local notation "𝕄" => MT nD τ sig (HIx 1) (Elt F) ℕ UU ℕ

variable (m : (ℓ : Loc nD τ sig) → Buf (Elt F) ℓ) (ρ : Dev nD → PrngReg)
variable (Ag : (d : Dev nD) → Buf (Elt F) (ptLoc d) → Prop)

/-- What the handshakes of the one SparseCore call carry. -/
abbrev PPm : (K (F := F)).Pay (nD := nD) (Val := Elt F) (Name := ℕ) (U := UU) := PP (ITf m) Ag

/-! ## The launch element -/

/-- The launch element: the handshakes' rounds, the staging cells' rounds, no counter yet. -/
def u₀ : UU := (initOf (K (F := F)).hsCells (K (F := F)).hsToks,
  (initOf (Pipeline.cells (Pipeline.pin (pcfgs (F := F)) adm) cinj) (Pipeline.launchToks (Pipeline.pin (pcfgs (F := F)) adm) cinj), 1))

/-- What the launch leaves the TensorCore of `d` beyond its handshake state: both pipelines' cells' ghost state and
    duty tokens. -/
abbrev Gd (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (PPm m Ag).x q thr) := by
  have hG : (bigSep Finset.univ fun d : Dev nD => Gd (F := F) d)
      = iprop((bigSep Finset.univ fun c : Dev nD => bigSep Finset.univ fun p : Fin 2 => Pipeline.cellsGhost (Pipeline.pin (pcfgs (F := F)) adm) EP p c)
          ∗ (bigSep Finset.univ fun c : Dev nD => bigSep Finset.univ fun p : Fin 2 => (Pipeline.toksInit (Pipeline.pin (pcfgs (F := F)) adm) EP p c : sProp 𝕄))) := by
    rw [← bigSep_sep']
  have hX : (bigSep Finset.univ fun thr : Thread nD τ => bigSep Finset.univ fun q : Fin 1 => (PPm m Ag).x q thr) = (iprop(emp) : sProp 𝕄) := by
    show (bigSep Finset.univ fun _ : Thread nD τ => bigSep Finset.univ fun _ : Fin 1 => (iprop(emp) : sProp 𝕄)) = _
    rw [bigSep_congr fun _ _ => bigSep_emp' _, bigSep_emp']
  rw [hG, hX]
  unfold u₀
  iintro Hu
  ihave H := (ownU_pair _ _) $$ Hu
  icases H with ⟨HH, HR⟩
  ihave HP := (show BI.own (embR (A := UH) (initOf (Pipeline.cells (Pipeline.pin (pcfgs (F := F)) adm) cinj) (Pipeline.launchToks (Pipeline.pin (pcfgs (F := F)) adm) cinj), (1 : Counters)))
      ⊢ (BI.own (EP (F := F) (initOf (Pipeline.cells (Pipeline.pin (pcfgs (F := F)) adm) cinj) (Pipeline.launchToks (Pipeline.pin (pcfgs (F := F)) adm) cinj))) : sProp 𝕄) from .rfl) $$ HR
  imod (Pipeline.fund_ghost (Pipeline.pin (pcfgs (F := F)) adm) EP cinj) $$ HP with ⟨Hcg, Htk⟩
  imodintro
  isplitl [HH]; · iexact HH
  isplitl [Hcg Htk]
  · isplitl [Hcg] <;> iassumption
  iempintro

/-! ## The TensorCore's handshake state, its debts apart -/

/-- The TensorCore's handshake state before call `n` but for what it owes. -/
def tcTail (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

omit [FloatOps F] in
theorem tcSt_eq (d : Dev nD) (n : ℕ) : ((K (F := F)).tcSt EH d n : sProp 𝕄)
    = iprop((∃ W, ⌜(K (F := F)).WBelow (T d) W (8 * n)⌝ ∗ owes (T d) (Oc (F := F) d n) W) ∗ tcTail (F := F) d n) := rfl

omit [FloatOps F] in
/-- The two pipelines, one by one. -/
theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-! ## @main -/

/-- What @main leaves the claim on device `d`: every unscoped buffer at the fold's last contents, for SOME result array
    `G` of the first region, projection `PT` and gathered array `f` the run may have passed through. -/
def FIN (d : Dev nD) : sProp 𝕄 :=
  iprop(∃ (G : Buf (Elt F) ((d : Thread nD τ).loc main_v7)) (PT : Buf (Elt F) (ptLoc d)) (f : Buf (Elt F) (outLoc d)),
    ⌜Ag d PT ∧ ∀ j, f j = PT (gat (ITf m) d j)⌝ ∗ held (T d) (Pipeline.ucRefs τ sig) (W7 m d G PT f))

end Cert.Kernel.KS

end
-- ==== Proof.WKMain.lean ====
/-
  @main on the TensorCore inside the SparseCore launch theorem, stretch by stretch — host operations, the first region,
  host operations, the SparseCore call, host operations, the second region, the last operation — each entered from
  what the one before it left; the TensorCore's handshake state goes in before call 0 and comes out after it.
-/
import proofs.«204616_g36739150250405_cont_8to1_b_1211_24_alg».proof.Proof.WKSetup
import proofs.«204616_g36739150250405_cont_8to1_b_1211_24_alg».proof.Proof.WKSteps
import proofs.«204616_g36739150250405_cont_8to1_b_1211_24_alg».proof.Proof.WKLaunch
import proofs.«204616_g36739150250405_cont_8to1_b_1211_24_alg».proof.Proof.WKValueG

noncomputable section

namespace Cert.Kernel.KS

open Cert.Kernel Cert.Kernel.Gen Cert.Kernel.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Idealize.ShloMosaic.TcCoe
open Cert.Kernel.TcReg
open Cert.Proof.WScTile (ptLoc itLoc outLoc gat)

variable {F : FTy → Type} [FloatOps F]

local notation "𝕄" => MT nD τ sig (HIx 1) (Elt F) ℕ UU ℕ

variable (m : (ℓ : Loc nD τ sig) → Buf (Elt F) ℓ) (ρ : Dev nD → PrngReg)
variable (Ag : (d : Dev nD) → Buf (Elt F) (ptLoc d) → Prop)

set_option maxHeartbeats 4000000 in
set_option backward.isDefEq.respectTransparency.types false in
theorem hmain [∀ e, Nonempty (Elt F e)]
    (hAg0 : ∀ d G, (rdat0 (F := F) (U := UU) (VW fun _ => W1 m d) (Oc (F := F) d 0) (Rc (F := F) d 0) d).ArrAt 2 cfg0.N G → Ag d G)
    (κ : GSem nD τ sig → ℕ) (d : Dev nD) :
    iprop((K (F := F)).ctx EH (PPm m Ag) κ ∗ (K (F := F)).tcSt EH d 0 ∗ (K (F := F)).tcRes m ρ d ∗ Gd (F := F) d)
      ⊢ wp frame (wpE ((K (F := F)).defs (D (F := F))) 𝒱 (T d) none) Set.univ (main (F := F) d)
          fun _ => iprop((K (F := F)).tcSt EH d 1 ∗ FIN m Ag d) := by
  rw [main_eq, tcSt_eq, tcRes_eq]
  iintro ⟨#Hctx, ⟨Howes, Htail⟩, ⟨Hb, Hheld, -, Hprng⟩, ⟨Hcg, Htk⟩⟩
  ihave Hcg' := (Entails.of_eq (bigSep_two _)) $$ Hcg
  icases Hcg' with ⟨Hcg0, Hcg1⟩
  ihave Htk' := (Entails.of_eq (bigSep_two _)) $$ Htk
  icases Htk' with ⟨Htk0, Htk1⟩
  -- the first host stretch
  iapply (host_step d ops0 ops0_sub ops0_fresh (W0 m d) _ _)
  isplitl [Hb]; · iexact Hb
  isplitl [Hheld]; · iexact Hheld
  iintro ⟨Hb, Hheld⟩
  -- the first region
  rw [wp_bind]
  ihave Hlev := (SparseCore.Cfg.ctx_levAts κ) $$ Hctx
  iapply (reg0_step d (W1 m d) 0 _)
  isplitl [Hb]; · iexact Hb
  isplitl [Hheld]; · iexact Hheld
  isplitl [Hprng]; · iexists _; iexact Hprng
  isplitl [Howes]; · iexact Howes
  isplitl [Hlev]; · iexact Hlev
  isplitl [Hcg0]; · iexact Hcg0
  isplitl [Htk0]; · iexact Htk0
  iintro ⟨Hb, ⟨%G, %hG, Hheld, Hprng, Howes⟩⟩
  -- the second host stretch
  iapply (host_step d ops1 ops1_sub ops1_fresh (W2 (fun _ => W1 m d) d G) _ _)
  isplitl [Hb]; · iexact Hb
  isplitl [Hheld]; · iexact Hheld
  iintro ⟨Hb, Hheld⟩
  -- the SparseCore call
  rw [wp_bind]
  iapply (sc_step (ITf m) Ag κ d (W3 m d G) (by rw [W3_r7]; exact hAg0 d G hG) (W3_r10 m d G) _)
  isplitr; · iexact Hctx
  isplitl [Howes Htail]
  · iapply (Entails.of_eq (tcSt_eq d 0).symm); isplitl [Howes] <;> iassumption
  isplitl [Hheld]; · iexact Hheld
  iintro ⟨Hst, ⟨%PT, %f, %hf, Hheld⟩⟩
  ihave Hst' := (Entails.of_eq (tcSt_eq d 1)) $$ Hst
  icases Hst' with ⟨Howes, Htail⟩
  -- the third host stretch
  iapply (host_step d ops2 ops2_sub ops2_fresh (W4 m d G PT f) _ _)
  isplitl [Hb]; · iexact Hb
  isplitl [Hheld]; · iexact Hheld
  iintro ⟨Hb, Hheld⟩
  -- the second region
  rw [wp_bind]
  ihave Hlev := (SparseCore.Cfg.ctx_levAts κ) $$ Hctx
  iapply (reg2_step d (W5 m d G PT f) 1 _)
  isplitl [Hb]; · iexact Hb
  isplitl [Hheld]; · iexact Hheld
  isplitl [Hprng]; · iexact Hprng
  isplitl [Howes]; · iexact Howes
  isplitl [Hlev]; · iexact Hlev
  isplitl [Hcg1]; · iexact Hcg1
  isplitl [Htk1]; · iexact Htk1
  iintro ⟨Hb, Hheld, Hprng, Howes⟩
  -- the last operation
  iapply (host_step d ops3 ops3_sub ops3_fresh (W6v m d G PT f) _ _)
  isplitl [Hb]; · iexact Hb
  isplitl [Hheld]; · iexact Hheld
  iintro ⟨Hb, Hheld⟩
  rw [wp_pure]; imodintro
  isplitl [Howes Htail]
  · iapply (Entails.of_eq (tcSt_eq d 1).symm); isplitl [Howes] <;> iassumption
  unfold FIN
  iexists G; iexists PT; iexists f
  isplitr; · ipureintro; exact hf
  iexact Hheld

end Cert.Kernel.KS

end
-- ==== Proof.WKRead.lean ====
/-
  Reading a set of held buffers against a final state: buffers held whole at contents `V`, together with the state
  interpretation of a physical state, pin that state's memory at those buffers to `V` — a plain entailment, no update.
-/
import proofs.«204616_g36739150250405_cont_8to1_b_1211_24_alg».proof.Proof.WKSetup

noncomputable section

namespace Cert.Kernel.KS

open Cert.Kernel Cert.Kernel.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} {U : Type} [URA U]

/-- The buffers `S` of thread `c`'s device, held whole at `V`, under the state interpretation of `s'`: the memory of
    `s'` at each of them is `V`'s. -/
theorem held_read (c : Thread nD τ) (S : Finset (DevRef τ sig)) (V : Valuation τ sig (Elt F)) (s' : Phys nD τ sig (Elt F)) :
    iprop(StableHlo.held c S V ∗ SI s') ⊢ (⌜∀ b ∈ S, s'.mem.mem (c.1, b) = V b⌝ : sProp (MT nD τ sig (HIx 1) (Elt F) ℕ U ℕ)) := by
  unfold StableHlo.held
  exact sep_comm.1.trans (SI_pointsTo_bufs_agree (c := c.1) (qs := fun _ => fullShare) S)

end Cert.Kernel.KS

end
-- ==== Proof.WScTileBody.lean ====
/-
  The tile obligation of the SparseCore call: one tile's task, run at a symbolic tile.

  A working tile (subcore s < 10 of core h) copies row s of the table into its scratch in four pieces, then twice
  (once per half t of its 8192 index words): copies the 4096 index words in, gathers in a loop of 16 trips of 16
  sixteen-lane indexed loads, and copies the 4096 gathered words out to its piece of the result. Every copy has its own
  semaphore and is waited for at once. An idle tile (s ≥ 10) does nothing.
-/
import proofs.«204616_g36739150250405_cont_8to1_b_1211_24_alg».proof.Proof.WScTilePay
import proofs.«204616_g36739150250405_cont_8to1_b_1211_24_alg».proof.Proof.Gen.Kernel.Skeleton

noncomputable section

namespace Cert.Proof.WScTile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Tactic
open PCS

variable {F : FTy → Type} [FloatOps F]
variable {U : Type} [URA U] [CountersIn U]

local notation "𝕄" => MT nD τ sig (HIx 1) (Elt F) ℕ U ℕ

variable (IT : (d : Dev nD) → Buf (Elt F) (itLoc d))
variable (Ag : (d : Dev nD) → Buf (Elt F) (ptLoc d) → Prop)

section Tile

variable (d : Dev nD) (L : grid1.Coords)

abbrev cV (L : grid1.Coords) : Fin τ.nSC := (L 0).castLE hcore1
abbrev jV (L : grid1.Coords) : Fin τ.nSub := (L 1).castLE hsub1
/-- The tile's thread. -/
abbrev thr : Thread nD τ := V d (cV L) (jV L)

/-- The tile's three scratch buffers: the table's row, the index words, the gathered words. -/
abbrev colW : Memref sig .scVector .vmem S106496 .f32 := Memref.whole cc1_scratch0
abbrev idxW : Memref sig .scVector .vmem S4096 .i32 := Memref.whole cc1_scratch1
abbrev accW : Memref sig .scVector .vmem S4096 .f32 := Memref.whole cc1_scratch2

abbrev cell0 : GSem nD τ sig := (thr d L, .dma cc1_scoped0.sem)
abbrev cell1 : GSem nD τ sig := (thr d L, .dma cc1_scoped1.sem)
abbrev cell2 : GSem nD τ sig := (thr d L, .dma cc1_scoped2.sem)
abbrev cell3 : GSem nD τ sig := (thr d L, .dma cc1_scoped3.sem)
abbrev cell4 : GSem nD τ sig := (thr d L, .dma cc1_scoped4.sem)
abbrev cell5 : GSem nD τ sig := (thr d L, .dma cc1_scoped5.sem)
abbrev cell6 : GSem nD τ sig := (thr d L, .dma cc1_scoped6.sem)
abbrev cell7 : GSem nD τ sig := (thr d L, .dma cc1_scoped7.sem)

omit [FloatOps F] in
theorem cell_ne {s s' : DmaSem sig} (h : s ≠ s') : ((thr d L, SemLoc.dma s) : GSem nD τ sig) ≠ (thr d L, SemLoc.dma s') :=
  fun e => h (SemLoc.dma.inj (Prod.mk.inj e).2)

omit [FloatOps F] in
theorem ownSems0_V :
    (ownSems0 (thr d L) : sProp 𝕄)
      = iprop(semVal (cell0 d L) 0 ∗ semVal (cell1 d L) 0 ∗ semVal (cell2 d L) 0 ∗ semVal (cell3 d L) 0 ∗ semVal (cell4 d L) 0 ∗ semVal (cell5 d L) 0 ∗ semVal (cell6 d L) 0 ∗ semVal (cell7 d L) 0
          ∗ bigSep (((((((((ownCells (thr d L)).erase (cell0 d L)).erase (cell1 d L)).erase (cell2 d L)).erase (cell3 d L)).erase (cell4 d L)).erase (cell5 d L)).erase (cell6 d L)).erase (cell7 d L)) fun g => semVal g 0) := by
  unfold SparseCore.Cfg.ownSems0
  rw [SparseCore.bigSep_erase' ((mem_ownCells (g := cell0 d L)).mpr ⟨rfl, by show (SemLoc.dma cc1_scoped0.sem : SemLoc sig).isScoped .scVector = true; decide⟩),
    SparseCore.bigSep_erase' (Finset.mem_erase.mpr ⟨cell_ne d L (show (cc1_scoped1.sem : DmaSem sig) ≠ cc1_scoped0.sem by decide), (mem_ownCells (g := cell1 d L)).mpr ⟨rfl, by show (SemLoc.dma cc1_scoped1.sem : SemLoc sig).isScoped .scVector = true; decide⟩⟩),
    SparseCore.bigSep_erase' (Finset.mem_erase.mpr ⟨cell_ne d L (show (cc1_scoped2.sem : DmaSem sig) ≠ cc1_scoped1.sem by decide), Finset.mem_erase.mpr ⟨cell_ne d L (show (cc1_scoped2.sem : DmaSem sig) ≠ cc1_scoped0.sem by decide), (mem_ownCells (g := cell2 d L)).mpr ⟨rfl, by show (SemLoc.dma cc1_scoped2.sem : SemLoc sig).isScoped .scVector = true; decide⟩⟩⟩),
    SparseCore.bigSep_erase' (Finset.mem_erase.mpr ⟨cell_ne d L (show (cc1_scoped3.sem : DmaSem sig) ≠ cc1_scoped2.sem by decide), Finset.mem_erase.mpr ⟨cell_ne d L (show (cc1_scoped3.sem : DmaSem sig) ≠ cc1_scoped1.sem by decide), Finset.mem_erase.mpr ⟨cell_ne d L (show (cc1_scoped3.sem : DmaSem sig) ≠ cc1_scoped0.sem by decide), (mem_ownCells (g := cell3 d L)).mpr ⟨rfl, by show (SemLoc.dma cc1_scoped3.sem : SemLoc sig).isScoped .scVector = true; decide⟩⟩⟩⟩),
    SparseCore.bigSep_erase' (Finset.mem_erase.mpr ⟨cell_ne d L (show (cc1_scoped4.sem : DmaSem sig) ≠ cc1_scoped3.sem by decide), Finset.mem_erase.mpr ⟨cell_ne d L (show (cc1_scoped4.sem : DmaSem sig) ≠ cc1_scoped2.sem by decide), Finset.mem_erase.mpr ⟨cell_ne d L (show (cc1_scoped4.sem : DmaSem sig) ≠ cc1_scoped1.sem by decide), Finset.mem_erase.mpr ⟨cell_ne d L (show (cc1_scoped4.sem : DmaSem sig) ≠ cc1_scoped0.sem by decide), (mem_ownCells (g := cell4 d L)).mpr ⟨rfl, by show (SemLoc.dma cc1_scoped4.sem : SemLoc sig).isScoped .scVector = true; decide⟩⟩⟩⟩⟩),
    SparseCore.bigSep_erase' (Finset.mem_erase.mpr ⟨cell_ne d L (show (cc1_scoped5.sem : DmaSem sig) ≠ cc1_scoped4.sem by decide), Finset.mem_erase.mpr ⟨cell_ne d L (show (cc1_scoped5.sem : DmaSem sig) ≠ cc1_scoped3.sem by decide), Finset.mem_erase.mpr ⟨cell_ne d L (show (cc1_scoped5.sem : DmaSem sig) ≠ cc1_scoped2.sem by decide), Finset.mem_erase.mpr ⟨cell_ne d L (show (cc1_scoped5.sem : DmaSem sig) ≠ cc1_scoped1.sem by decide), Finset.mem_erase.mpr ⟨cell_ne d L (show (cc1_scoped5.sem : DmaSem sig) ≠ cc1_scoped0.sem by decide), (mem_ownCells (g := cell5 d L)).mpr ⟨rfl, by show (SemLoc.dma cc1_scoped5.sem : SemLoc sig).isScoped .scVector = true; decide⟩⟩⟩⟩⟩⟩),
    SparseCore.bigSep_erase' (Finset.mem_erase.mpr ⟨cell_ne d L (show (cc1_scoped6.sem : DmaSem sig) ≠ cc1_scoped5.sem by decide), Finset.mem_erase.mpr ⟨cell_ne d L (show (cc1_scoped6.sem : DmaSem sig) ≠ cc1_scoped4.sem by decide), Finset.mem_erase.mpr ⟨cell_ne d L (show (cc1_scoped6.sem : DmaSem sig) ≠ cc1_scoped3.sem by decide), Finset.mem_erase.mpr ⟨cell_ne d L (show (cc1_scoped6.sem : DmaSem sig) ≠ cc1_scoped2.sem by decide), Finset.mem_erase.mpr ⟨cell_ne d L (show (cc1_scoped6.sem : DmaSem sig) ≠ cc1_scoped1.sem by decide), Finset.mem_erase.mpr ⟨cell_ne d L (show (cc1_scoped6.sem : DmaSem sig) ≠ cc1_scoped0.sem by decide), (mem_ownCells (g := cell6 d L)).mpr ⟨rfl, by show (SemLoc.dma cc1_scoped6.sem : SemLoc sig).isScoped .scVector = true; decide⟩⟩⟩⟩⟩⟩⟩),
    SparseCore.bigSep_erase' (Finset.mem_erase.mpr ⟨cell_ne d L (show (cc1_scoped7.sem : DmaSem sig) ≠ cc1_scoped6.sem by decide), Finset.mem_erase.mpr ⟨cell_ne d L (show (cc1_scoped7.sem : DmaSem sig) ≠ cc1_scoped5.sem by decide), Finset.mem_erase.mpr ⟨cell_ne d L (show (cc1_scoped7.sem : DmaSem sig) ≠ cc1_scoped4.sem by decide), Finset.mem_erase.mpr ⟨cell_ne d L (show (cc1_scoped7.sem : DmaSem sig) ≠ cc1_scoped3.sem by decide), Finset.mem_erase.mpr ⟨cell_ne d L (show (cc1_scoped7.sem : DmaSem sig) ≠ cc1_scoped2.sem by decide), Finset.mem_erase.mpr ⟨cell_ne d L (show (cc1_scoped7.sem : DmaSem sig) ≠ cc1_scoped1.sem by decide), Finset.mem_erase.mpr ⟨cell_ne d L (show (cc1_scoped7.sem : DmaSem sig) ≠ cc1_scoped0.sem by decide), (mem_ownCells (g := cell7 d L)).mpr ⟨rfl, by show (SemLoc.dma cc1_scoped7.sem : SemLoc sig).isScoped .scVector = true; decide⟩⟩⟩⟩⟩⟩⟩⟩)]

omit [FloatOps F] in
/-- The three scratch buffers are among the subcore's own: they are them, at some contents, and the rest. -/
theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

/-- What the tile is handed, at a read share `q` of the operands. -/
def GO (q : PosShare TreeShare) : sProp 𝕄 :=
  iprop(∃ PT, ⌜Ag d PT⌝ ∗ (ptLoc d ↦{q} PT) ∗ (itLoc d ↦{q} IT d)
    ∗ (∃ f, outLoc d ↦[pieceSet L 0]{fullShare} f) ∗ ∃ f, outLoc d ↦[pieceSet L 1]{fullShare} f)
/-- What it hands back. -/
def TD (q : PosShare TreeShare) : sProp 𝕄 :=
  iprop(∃ PT, ⌜Ag d PT⌝ ∗ (ptLoc d ↦{q} PT) ∗ (itLoc d ↦{q} IT d)
    ∗ (outLoc d ↦[pieceSet L 0]{fullShare} gatF IT d PT) ∗ outLoc d ↦[pieceSet L 1]{fullShare} gatF IT d PT)

omit [FloatOps F] in
theorem pts_empty_intro (g : Buf (Elt F) (outLoc d)) : (iprop(emp) : sProp 𝕄) ⊢ (outLoc d ↦[(∅ : Finset S10x2x8192.Idx)]{fullShare} g : sProp 𝕄) :=
  Entails.of_eq pointsTo_empty.symm

/-- An idle tile (subcore 10 or above): the branch not taken; its two pieces are empty. -/
theorem tile_idle (hL : ¬ k1_cond1 L = 1#1) (q : PosShare TreeShare) (O : CellTallies nD τ sig (HIx 1)) (W : Waits sig (HIx 1)) :
    (iprop(levAts (K (F := F)).L (K (F := F)).lev ∗ emp ∗ GO IT Ag d L q
        ∗ scopedBufs (thr d L) ∗ scopedSems0 (thr d L) ∗ owes (thr d L) O W) : sProp 𝕄)
      ⊢ wp frame (wpE (defs₀ (F := F)) 𝒱₀ (thr d L) none) Set.univ
          (cc1__sc L ptW (Memref.isWhole_whole _) itW (Memref.isWhole_whole _) outW (Memref.isWhole_whole _) colW (Memref.isWhole_whole _) idxW (Memref.isWhole_whole _) accW (Memref.isWhole_whole _) cc1_scoped0 cc1_scoped1 cc1_scoped2 cc1_scoped3 cc1_scoped4 cc1_scoped5 cc1_scoped6 cc1_scoped7)
          fun _ => iprop(TD IT Ag d L q ∗ scopedBufs (thr d L) ∗ scopedSems0 (thr d L)
            ∗ ∃ W', ⌜∀ p ∈ W', p ∈ W ∨ p.2 = none⌝ ∗ owes (thr d L) O W') := by
  have k1_h1 : ¬ k1_cond1 L = 1#1 := hL
  simp only [cc1__sc_eq_skeleton]; unfold cc1__sc_skel
  unfold GO TD
  rw [pieceSet_idle L hL, pieceSet_idle L hL]
  simp only [pointsTo_empty]
  iintro ⟨-, -, ⟨%PT, %hAg, Hpt, Hit, -, -⟩, Hsb, Hss, HO⟩
  sl_exec
  sl_step
  isplitl [Hpt Hit]
  · iexists PT; isplitr; · ipureintro; exact hAg
    isplitl [Hpt]; · iexact Hpt
    isplitl [Hit]; · iexact Hit
    isplitr
    · iapply (pts_empty_intro (F := F) d _); iempintro
    · iapply (pts_empty_intro (F := F) d _); iempintro
  isplitl [Hsb]; · iexact Hsb
  isplitl [Hss]; · iexact Hss
  iexists W; isplitr
  · ipureintro; exact fun p hp => .inl hp
  · iexact HO

omit [FloatOps F] in
theorem pts_pt (q : PosShare TreeShare) (f : Buf (Elt F) (ptLoc d)) :
    ((ptW).view.loc (thr d L) ↦{q} f : sProp 𝕄) = ptLoc d ↦{q} f := rfl
omit [FloatOps F] in
theorem pts_it (q : PosShare TreeShare) (f : Buf (Elt F) (itLoc d)) :
    ((itW).view.loc (thr d L) ↦{q} f : sProp 𝕄) = itLoc d ↦{q} f := rfl
omit [FloatOps F] in
theorem pts_piece0 (h : k1_cond1 L = 1#1) (f : Buf (Elt F) (outLoc d)) :
    ((piece0 L h).view.loc (thr d L) ↦[(piece0 L h).view.set]{fullShare} f : sProp 𝕄) = outLoc d ↦[pieceSet L 0]{fullShare} f := by
  rw [pieceSet_zero L h]
omit [FloatOps F] in
theorem pts_piece1 (h : k1_cond1 L = 1#1) (f : Buf (Elt F) (outLoc d)) :
    ((piece1 L h).view.loc (thr d L) ↦[(piece1 L h).view.set]{fullShare} f : sProp 𝕄) = outLoc d ↦[pieceSet L 1]{fullShare} f := by
  rw [pieceSet_one L h]
omit [FloatOps F] in
theorem pts_col (f : Buf (Elt F) ((thr d L).loc cc1_scratch0)) :
    ((colW).view.loc (thr d L) ↦{fullShare} f : sProp 𝕄) = (thr d L).loc cc1_scratch0 ↦{fullShare} f := rfl
omit [FloatOps F] in
theorem pts_idx (f : Buf (Elt F) ((thr d L).loc cc1_scratch1)) :
    ((idxW).view.loc (thr d L) ↦{fullShare} f : sProp 𝕄) = (thr d L).loc cc1_scratch1 ↦{fullShare} f := rfl
omit [FloatOps F] in
theorem pts_acc (f : Buf (Elt F) ((thr d L).loc cc1_scratch2)) :
    ((accW).view.loc (thr d L) ↦{fullShare} f : sProp 𝕄) = (thr d L).loc cc1_scratch2 ↦{fullShare} f := rfl

/-! ### What the scratch buffers hold -/

omit [FloatOps F] in
theorem sRow_lt : (L 1).val < 16 := (L 1).isLt
omit [FloatOps F] in
theorem hCore_lt : (L 0).val < 2 := (L 0).isLt

/-- Row `s` of the table: what the first scratch holds after the four copies. -/
def colF (PT : Buf (Elt F) (ptLoc d)) : Buf (Elt F) ((thr d L).loc cc1_scratch0) :=
  fun (j : S106496.Idx) => PT (ix2 (⟨(L 1).val, sRow_lt L⟩ : Fin 16) (⟨(j 0).val, (j 0).isLt⟩ : Fin 106496))

/-! ### The views' placements, by coordinates -/

omit [FloatOps F] in
/-- A working tile's subcore is below 10. -/
theorem cond_lt : ∀ L : grid1.Coords, k1_cond1 L = 1#1 → (L 1).val < 10 := by decide +kernel

omit [FloatOps F] in
theorem trips1 : Scf.trips k1_t1_loop.lb k1_t1_loop.ub k1_t1_loop.st = 16 := by decide +kernel
omit [FloatOps F] in
theorem trips2 : Scf.trips k1_t2_loop.lb k1_t2_loop.ub k1_t2_loop.st = 16 := by decide +kernel

/-- The four quarter-rows of the table's row the tile copies, spelt as the program slices them. -/
abbrev rowP1 (L : grid1.Coords) (h : k1_cond1 L = 1#1) : Memref sig .scVector .hbm S26624 .f32 :=
  ((ptW).slice (Rect.unit (s := S16x106496) (k1_off1 L) S1x26624.size (k1_off1_inb L h)) (fun _ => rfl)).squeeze S26624 squeezes_S1x26624_S26624
abbrev rowP2 (L : grid1.Coords) (h : k1_cond1 L = 1#1) : Memref sig .scVector .hbm S26624 .f32 :=
  ((ptW).slice (Rect.unit (s := S16x106496) (k1_off2 L) S1x26624.size (k1_off2_inb L h)) (fun _ => rfl)).squeeze S26624 squeezes_S1x26624_S26624
abbrev rowP3 (L : grid1.Coords) (h : k1_cond1 L = 1#1) : Memref sig .scVector .hbm S26624 .f32 :=
  ((ptW).slice (Rect.unit (s := S16x106496) (k1_off3 L) S1x26624.size (k1_off3_inb L h)) (fun _ => rfl)).squeeze S26624 squeezes_S1x26624_S26624
abbrev rowP4 (L : grid1.Coords) (h : k1_cond1 L = 1#1) : Memref sig .scVector .hbm S26624 .f32 :=
  ((ptW).slice (Rect.unit (s := S16x106496) (k1_off4 L) S1x26624.size (k1_off4_inb L h)) (fun _ => rfl)).squeeze S26624 squeezes_S1x26624_S26624
/-- The two halves of the tile's row of index words, spelt as the program slices them. -/
abbrev ip0 (L : grid1.Coords) (h : k1_cond1 L = 1#1) : Memref sig .scVector .hbm S4096 .i32 :=
  ((itW).slice (Rect.unit (s := S10x2x8192) (k1_off5 L) S1x1x4096.size (k1_off5_inb L h)) (fun _ => rfl)).squeeze S4096 squeezes_S1x1x4096_S4096
abbrev ip1 (L : grid1.Coords) (h : k1_cond1 L = 1#1) : Memref sig .scVector .hbm S4096 .i32 :=
  ((itW).slice (Rect.unit (s := S10x2x8192) (k1_off23 L) S1x1x4096.size (k1_off23_inb L h)) (fun _ => rfl)).squeeze S4096 squeezes_S1x1x4096_S4096

omit [FloatOps F] in
/-- Where a quarter-row's word `x` sits in the table: row `s`, column the quarter's offset plus `x`. -/
theorem emb_row (off : Fin 2 → ℕ) (inb : ∀ a, off a + S1x26624.size a ≤ S16x106496.size a) (o : ℕ) (ho : off = ![(L 1).val, o])
    (x : S26624.Idx) (hx : o + (x 0).val < 106496) :
    (((ptW).slice (Rect.unit (s := S16x106496) off S1x26624.size inb) (fun _ => rfl)).squeeze S26624 squeezes_S1x26624_S26624).view.emb x
      = (ix2 (⟨(L 1).val, sRow_lt L⟩ : Fin 16) (⟨o + (x 0).val, hx⟩ : Fin 106496) : S16x106496.Idx) := by
  subst ho
  show (Rect.unit (s := S16x106496) ![(L 1).val, o] S1x26624.size inb).emb (Shape.reshapeEquiv squeezes_S1x26624_S26624.numel_eq x) = _
  rw [Shape.reshapeEquiv_cons_one]
  funext a
  match a with
  | ⟨0, _⟩ => apply Fin.ext; show (L 1).val + 1 * 0 = (L 1).val; omega
  | ⟨1, _⟩ => apply Fin.ext; show o + 1 * (x 0).val = o + (x 0).val; omega

omit [FloatOps F] in
/-- A piece's elements all lie in the tile's row of the result. -/
theorem emb3_axis0 (off : Fin 3 → ℕ) (inb : ∀ a, off a + S1x1x4096.size a ≤ S10x2x8192.size a) (ho : off 0 = (L 1).val) (y : S4096.Idx) :
    ((((outW).slice (Rect.unit (s := S10x2x8192) off S1x1x4096.size inb) (fun _ => rfl)).squeeze S4096 squeezes_S1x1x4096_S4096).view.emb y 0).val
      = (L 1).val := by
  have hz : ((Shape.reshapeEquiv squeezes_S1x1x4096_S4096.numel_eq y) 0).val < 1 := ((Shape.reshapeEquiv squeezes_S1x1x4096_S4096.numel_eq y) 0).isLt
  show off 0 + 1 * ((Shape.reshapeEquiv squeezes_S1x1x4096_S4096.numel_eq y) 0).val = (L 1).val
  omega

/-! ### What lands in the scratch buffers, and what goes out -/

/-- The index words of the first half, as the tile's memref reads them. -/
def idxF0 (h : k1_cond1 L = 1#1) : Buf (Elt F) ((thr d L).loc cc1_scratch1) :=
  fun (j : S4096.Idx) => IT d ((ip0 L h).view.emb j)
/-- The index words of the second half. -/
def idxF1 (h : k1_cond1 L = 1#1) : Buf (Elt F) ((thr d L).loc cc1_scratch1) :=
  fun (j : S4096.Idx) => IT d ((ip1 L h).view.emb j)

omit [FloatOps F] in
theorem idx_value0 (h : k1_cond1 L = 1#1) (fi : Buf (Elt F) ((thr d L).loc cc1_scratch1)) (j : S4096.Idx) :
    (idxW).view.write (Elt F) fi (ReadAs.same.apply (View.read (Elt F) (ip0 L h).view (IT d))) Finset.univ j = idxF0 IT d L h j :=
  (congrFun (View.write_whole_univ (cc1_scratch1 : Ref sig .scVector) fi _) j).trans ((View.read_apply _ _).trans (cast_eq _ _))
omit [FloatOps F] in
theorem idx_value1 (h : k1_cond1 L = 1#1) (fi : Buf (Elt F) ((thr d L).loc cc1_scratch1)) (j : S4096.Idx) :
    (idxW).view.write (Elt F) fi (ReadAs.same.apply (View.read (Elt F) (ip1 L h).view (IT d))) Finset.univ j = idxF1 IT d L h j :=
  (congrFun (View.write_whole_univ (cc1_scratch1 : Ref sig .scVector) fi _) j).trans ((View.read_apply _ _).trans (cast_eq _ _))

omit [FloatOps F] in
/-- A landed quarter-row is the row's words at the quarter's columns. -/
theorem row_piece (PT : Buf (Elt F) (ptLoc d)) (off : Fin 2 → ℕ) (inb : ∀ a, off a + S1x26624.size a ≤ S16x106496.size a) (o : ℕ)
    (ho : off = ![(L 1).val, o]) (inb' : ∀ a, (![o] : Fin 1 → ℕ) a + S26624.size a ≤ S106496.size a) (x : S26624.Idx) :
    ReadAs.same.apply (View.read (Elt F)
        (((ptW).slice (Rect.unit (s := S16x106496) off S1x26624.size inb) (fun _ => rfl)).squeeze S26624 squeezes_S1x26624_S26624).view PT) x
      = colF d L PT ((Rect.unit (s := S106496) ![o] S26624.size inb').emb x) := by
  have hx26 : (x 0).val < 26624 := (x 0).isLt
  have hb : o + 26624 ≤ 106496 := inb' 0
  show View.read (Elt F) (((ptW).slice (Rect.unit (s := S16x106496) off S1x26624.size inb) (fun _ => rfl)).squeeze S26624 squeezes_S1x26624_S26624).view PT x = _
  rw [View.read_apply, cast_eq, emb_row L off inb o ho x (by omega)]
  unfold colF
  congr 1
  funext a
  match a with
  | ⟨0, _⟩ => rfl
  | ⟨1, _⟩ => apply Fin.ext; show o + (x 0).val = o + 1 * (x 0).val; omega

omit [FloatOps F] in
theorem mem_unit1 (o : ℕ) (inb : ∀ a, (![o] : Fin 1 → ℕ) a + S26624.size a ≤ S106496.size a) (j : S106496.Idx)
    (h1 : o ≤ (j 0).val) (h2 : (j 0).val < o + 26624) : j ∈ (Rect.unit (s := S106496) ![o] S26624.size inb).set :=
  Rect.mem_set_unit.mpr fun a => match a with | ⟨0, _⟩ => ⟨h1, h2⟩

set_option maxRecDepth 16384 in
set_option maxHeartbeats 2000000 in
/-- The first scratch after the four copies: row `s` of the table. -/
theorem col_value (h : k1_cond1 L = 1#1) (PT : Buf (Elt F) (ptLoc d)) (j : S106496.Idx) :
    (colW).view.read (Elt F) ((colW).view.writes (Elt F) (colW).view.junk
        [⟨Rect.unit (s := S106496) ![79872] S26624.size inb_S106496_S26624_79872, ReadAs.same.apply (View.read (Elt F) (rowP4 L h).view PT)⟩,
          ⟨Rect.unit (s := S106496) ![53248] S26624.size inb_S106496_S26624_53248, ReadAs.same.apply (View.read (Elt F) (rowP3 L h).view PT)⟩,
          ⟨Rect.unit (s := S106496) ![26624] S26624.size inb_S106496_S26624_26624, ReadAs.same.apply (View.read (Elt F) (rowP2 L h).view PT)⟩,
          ⟨Rect.unit (s := S106496) ![0] S26624.size inb_S106496_S26624_0, ReadAs.same.apply (View.read (Elt F) (rowP1 L h).view PT)⟩]) j
      = colF d L PT j := by
  have hj : (j 0).val < 106496 := (j 0).isLt
  refine View.read_writes_apply_of_pieces (colW).view _ (colF d L PT) _
    (List.forall_mem_cons.mpr ⟨fun x => row_piece d L PT (k1_off4 L) (k1_off4_inb L h) 79872 (k1_off4_eq L) inb_S106496_S26624_79872 x,
      List.forall_mem_cons.mpr ⟨fun x => row_piece d L PT (k1_off3 L) (k1_off3_inb L h) 53248 (k1_off3_eq L) inb_S106496_S26624_53248 x,
        List.forall_mem_cons.mpr ⟨fun x => row_piece d L PT (k1_off2 L) (k1_off2_inb L h) 26624 (k1_off2_eq L) inb_S106496_S26624_26624 x,
          List.forall_mem_cons.mpr ⟨fun x => row_piece d L PT (k1_off1 L) (k1_off1_inb L h) 0 (k1_off1_eq L) inb_S106496_S26624_0 x,
            fun _ hh => absurd hh List.not_mem_nil⟩⟩⟩⟩) j ?_
  · by_cases h3 : 79872 ≤ (j 0).val
    · exact ⟨_, List.mem_cons_self, mem_unit1 79872 inb_S106496_S26624_79872 j h3 (by omega)⟩
    by_cases h2 : 53248 ≤ (j 0).val
    · exact ⟨_, List.mem_cons_of_mem _ List.mem_cons_self, mem_unit1 53248 inb_S106496_S26624_53248 j h2 (by omega)⟩
    by_cases h1 : 26624 ≤ (j 0).val
    · exact ⟨_, List.mem_cons_of_mem _ (List.mem_cons_of_mem _ List.mem_cons_self), mem_unit1 26624 inb_S106496_S26624_26624 j h1 (by omega)⟩
    · exact ⟨_, List.mem_cons_of_mem _ (List.mem_cons_of_mem _ (List.mem_cons_of_mem _ List.mem_cons_self)), mem_unit1 0 inb_S106496_S26624_0 j (by omega) (by omega)⟩

variable {d L} in
/-- The gathered word at position `j`: the row's word at the index word at `j`. -/
def gw (cf : Buf (Elt F) ((thr d L).loc cc1_scratch0)) (xf : Buf (Elt F) ((thr d L).loc cc1_scratch1))
    (hx : ∀ j : S4096.Idx, (xf j).toNat < 106496) (j : S4096.Idx) : Elt F .f32 :=
  cf (ix1 (⟨(xf j).toNat, hx j⟩ : Fin 106496))

variable {d L} in
/-- The third scratch after `n` sixteen-lane gathers: the first `16 n` words gathered, the rest as they were. -/
def accN (cf : Buf (Elt F) ((thr d L).loc cc1_scratch0)) (xf : Buf (Elt F) ((thr d L).loc cc1_scratch1))
    (hx : ∀ j : S4096.Idx, (xf j).toNat < 106496) (a0 : Buf (Elt F) ((thr d L).loc cc1_scratch2)) (n : ℕ) :
    Buf (Elt F) ((thr d L).loc cc1_scratch2) :=
  fun (j : S4096.Idx) => if (j 0).val < 16 * n then gw cf xf hx j else a0 j

omit [FloatOps F] in
/-- Contents that agree everywhere are the same points-to. -/
theorem pts_congr {ℓ : Loc nD τ sig} {q : PosShare TreeShare} {f g : Buf (Elt F) ℓ} (h : ∀ j, f j = g j) :
    (ℓ ↦{q} f : sProp 𝕄) ⊢ (ℓ ↦{q} g : sProp 𝕄) := Entails.of_eq (pointsTo_congr fun i _ => h i)

omit [FloatOps F] in
/-- Contents that agree on the elements held are the same points-to. -/
theorem pts_congr_on {ℓ : Loc nD τ sig} {I : Finset (Idx ℓ)} {q : PosShare TreeShare} {f g : Buf (Elt F) ℓ} (h : ∀ j ∈ I, f j = g j) :
    (ℓ ↦[I]{q} f : sProp 𝕄) ⊢ (ℓ ↦[I]{q} g : sProp 𝕄) := Entails.of_eq (pointsTo_congr h)

variable {d L} in
omit [FloatOps F] in
/-- Before any gather the third scratch is as it was. -/
theorem accN_zero (cf : Buf (Elt F) ((thr d L).loc cc1_scratch0)) (xf : Buf (Elt F) ((thr d L).loc cc1_scratch1))
    (hx : ∀ j : S4096.Idx, (xf j).toNat < 106496) (a0 : Buf (Elt F) ((thr d L).loc cc1_scratch2)) :
    ∀ j, a0 j = accN cf xf hx a0 (16 * 0) j := fun j => by
  unfold accN; rw [if_neg (by omega)]

omit [FloatOps F] in
/-- A half-row of index words and the piece of the result it is gathered into sit at the same elements of their arrays. -/
theorem emb_ip0 (h : k1_cond1 L = 1#1) (y : S4096.Idx) : (ip0 L h).view.emb y = (piece0 L h).view.emb y := rfl
omit [FloatOps F] in
theorem emb_ip1 (h : k1_cond1 L = 1#1) (y : S4096.Idx) : (ip1 L h).view.emb y = (piece1 L h).view.emb y := rfl

set_option maxHeartbeats 4000000 in
/-- What a copy-out leaves in a piece of the result: at each element, the table's word `gat` names. -/
theorem out_value (hin : InRange IT) (PT : Buf (Elt F) (ptLoc d)) (off : Fin 3 → ℕ) (inb : ∀ a, off a + S1x1x4096.size a ≤ S10x2x8192.size a)
    (ho : off 0 = (L 1).val) (g0 : Buf (Elt F) (outLoc d)) (xf : Buf (Elt F) ((thr d L).loc cc1_scratch1))
    (hxb : ∀ j : S4096.Idx, (xf j).toNat < 106496) (a0 : Buf (Elt F) ((thr d L).loc cc1_scratch2))
    (hxf : ∀ y : S4096.Idx, xf y = IT d ((((outW).slice (Rect.unit (s := S10x2x8192) off S1x1x4096.size inb) (fun _ => rfl)).squeeze S4096 squeezes_S1x1x4096_S4096).view.emb y))
    (N : ℕ) (hN : 4096 ≤ 16 * N) :
    ∀ i ∈ (((outW).slice (Rect.unit (s := S10x2x8192) off S1x1x4096.size inb) (fun _ => rfl)).squeeze S4096 squeezes_S1x1x4096_S4096).view.set,
      (((outW).slice (Rect.unit (s := S10x2x8192) off S1x1x4096.size inb) (fun _ => rfl)).squeeze S4096 squeezes_S1x1x4096_S4096).view.writes (Elt F) g0
          [⟨Rect.whole S4096, ReadAs.same.apply (View.read (Elt F) (accW).view (accN (colF d L PT) xf hxb a0 N))⟩] i
        = gatF IT d PT i := by
  intro i hi
  obtain ⟨y, -, rfl⟩ := Finset.mem_map.mp hi
  have hy : (y 0).val < 4096 := (y 0).isLt
  have e1 := View.read_writes_cons_emb (((outW).slice (Rect.unit (s := S10x2x8192) off S1x1x4096.size inb) (fun _ => rfl)).squeeze S4096 squeezes_S1x1x4096_S4096).view
    g0 (Rect.whole S4096) (ReadAs.same.apply (View.read (Elt F) (accW).view (accN (colF d L PT) xf hxb a0 N))) [] y
  rw [Rect.emb_whole_apply, View.read_apply, cast_eq] at e1
  refine e1.trans ?_
  show accN (colF d L PT) xf hxb a0 N y = _
  unfold accN
  rw [if_pos (by omega)]
  show PT (ix2 (⟨(L 1).val, sRow_lt L⟩ : Fin 16) (⟨(xf y).toNat, hxb y⟩ : Fin 106496)) = PT (gat IT d _)
  refine congrArg PT ?_
  funext a
  match a with
  | ⟨0, _⟩ => exact Fin.ext (emb3_axis0 L off inb ho y).symm
  | ⟨1, _⟩ =>
    apply Fin.ext
    show (xf y).toNat = (IT d _).toNat % 106496
    rw [Nat.mod_eq_of_lt (hin d _)]
    exact congrArg BitVec.toNat (hxf y)

omit [FloatOps F] in
/-- A wait at the kernels' index recorded keeps the record within the launch's bound. -/
theorem ins_ok {W W' : Waits sig (HIx 1)} (s : SemLoc sig) (h : ∀ p ∈ W', p ∈ W ∨ p.2 = none) :
    ∀ p ∈ insert ((s, none) : SemLoc sig × HIx 1) W', p ∈ W ∨ p.2 = none := by
  intro p hp
  rcases Finset.mem_insert.mp hp with rfl | hp
  · exact .inr rfl
  · exact h p hp

/-! ### One sixteen-lane gather, once -/

omit [FloatOps F] in
theorem vec1 {a b : ℕ} (h : a = b) : (![a] : Fin 1 → ℕ) = ![b] := by rw [h]

omit [FloatOps F] in
/-- Index words below the row's length pass the body's check on a loaded index vector. -/
theorem chk_ok (v : IVec S16 32) (hv : ∀ x, (v x).toNat < 106496) :
    ∀ a x, ((![v] : Fin 1 → IVec S16 32) a x).toNat < S106496.size a := by
  intro a x
  obtain rfl : a = 0 := Subsingleton.elim _ _
  exact hv x

variable {d L} in
/-- The three scratch buffers after `n` gathers. -/
def scr (cf : Buf (Elt F) ((thr d L).loc cc1_scratch0)) (xf : Buf (Elt F) ((thr d L).loc cc1_scratch1))
    (hx : ∀ j : S4096.Idx, (xf j).toNat < 106496) (a0 : Buf (Elt F) ((thr d L).loc cc1_scratch2)) (n : ℕ) : sProp 𝕄 :=
  iprop(((colW).view.loc (thr d L) ↦{fullShare} cf) ∗ ((idxW).view.loc (thr d L) ↦{fullShare} xf)
    ∗ ((accW).view.loc (thr d L) ↦{fullShare} accN cf xf hx a0 n))

omit [FloatOps F] in
theorem pts_col_acc (f : Buf (Elt F) ((thr d L).loc cc1_scratch0)) :
    (((colW).access (.whole S106496)).loc (thr d L) ↦{fullShare} f : sProp 𝕄) = ((colW).view.loc (thr d L) ↦{fullShare} f) := rfl
omit [FloatOps F] in
theorem pts_acc_acc (r : Rect S4096) (f : Buf (Elt F) ((thr d L).loc cc1_scratch2)) :
    (((accW).access r).loc (thr d L) ↦{fullShare} f : sProp 𝕄) = ((accW).view.loc (thr d L) ↦{fullShare} f) := rfl

variable {d L} in
/-- The sixteen words a gather stores are the gathered words of their positions; the rest is unchanged. -/
theorem acc_step (cf : Buf (Elt F) ((thr d L).loc cc1_scratch0)) (xf : Buf (Elt F) ((thr d L).loc cc1_scratch1))
    (hx : ∀ j : S4096.Idx, (xf j).toNat < 106496) (a0 : Buf (Elt F) ((thr d L).loc cc1_scratch2)) (n : ℕ)
    (inbI inbA : ∀ a, (![16 * n] : Fin 1 → ℕ) a + S16.size a ≤ S4096.size a)
    (h : ∀ a x, ((![(idxW).view.readAt (Elt F) (Rect.unit (s := S4096) ![16 * n] S16.size inbI).toLoadRect xf] : Fin 1 → IVec S16 32) a x).toNat < S106496.size a)
    :
    (((accW).access (Rect.unit (s := S4096) ![16 * n] S16.size inbA)).write (Elt F) (accN cf xf hx a0 n)
        (loadIdx (((colW).access (.whole S106496)).read (Elt F) cf)
          ![(idxW).view.readAt (Elt F) (Rect.unit (s := S4096) ![16 * n] S16.size inbI).toLoadRect xf] h) Finset.univ
        : Buf (Elt F) ((thr d L).loc cc1_scratch2))
      = accN cf xf hx a0 (n + 1) := by
  funext j
  have hj4 : (j 0).val < 4096 := (j 0).isLt
  by_cases hin' : 16 * n ≤ (j 0).val ∧ (j 0).val < 16 * n + 16
  · let x : S16.Idx := ix1 (⟨(j 0).val - 16 * n, by omega⟩ : Fin 16)
    have hxe : ((accW).access (Rect.unit (s := S4096) ![16 * n] S16.size inbA)).emb x = j := by
      funext (a : Fin 1); obtain rfl : a = 0 := Subsingleton.elim _ _
      apply Fin.ext; show 16 * n + 1 * ((j 0).val - 16 * n) = (j 0).val; omega
    have hxi : (Rect.unit (s := S4096) ![16 * n] S16.size inbI).toLoadRect.idx x = j := by
      funext (a : Fin 1); obtain rfl : a = 0 := Subsingleton.elim _ _
      apply Fin.ext; show 16 * n + 1 * ((j 0).val - 16 * n) = (j 0).val; omega
    have e1 : loadIdx (((colW).access (.whole S106496)).read (Elt F) cf)
          ![(idxW).view.readAt (Elt F) (Rect.unit (s := S4096) ![16 * n] S16.size inbI).toLoadRect xf] h x
        = cf (ix1 (⟨(xf j).toNat, hx j⟩ : Fin 106496)) := by
      show ((colW).access (.whole S106496)).read (Elt F) cf (idxAt _ h x) = _
      rw [View.read_apply, cast_eq]
      congr 1
      show (Rect.whole S106496).emb (idxAt _ h x) = _
      rw [Rect.emb_whole_apply]
      funext (a : Fin 1); obtain rfl : a = 0 := Subsingleton.elim _ _
      apply Fin.ext
      show (xf ((Rect.unit (s := S4096) ![16 * n] S16.size inbI).toLoadRect.idx x)).toNat = (xf j).toNat
      rw [hxi]
    rw [← hxe, View.write_emb_of_mem _ _ (Finset.mem_univ x), cast_eq, hxe, e1]
    unfold accN gw
    rw [if_pos (by omega)]
  · have hnm : j ∉ ((accW).access (Rect.unit (s := S4096) ![16 * n] S16.size inbA)).setOn Finset.univ := by
      intro hm
      obtain ⟨x, -, hxx⟩ := Finset.mem_map.mp hm
      have h0 : (j 0).val = 16 * n + 1 * (x 0).val := by rw [← hxx]; rfl
      have hx16 : (x 0).val < 16 := (x 0).isLt
      omega
    rw [View.write_of_not_mem _ _ _ hnm]
    unfold accN
    by_cases h1 : (j 0).val < 16 * n
    · rw [if_pos h1, if_pos (by omega)]
    · rw [if_neg h1, if_neg (by omega)]

variable {d L} in
/-- One gather at the head of a program: load sixteen index words, check them, load the row's words they name, (load
    and) store them at the same sixteen positions of the third scratch. -/
theorem gather_step {α : Type} (cf : Buf (Elt F) ((thr d L).loc cc1_scratch0)) (xf : Buf (Elt F) ((thr d L).loc cc1_scratch1))
    (hx : ∀ j : S4096.Idx, (xf j).toNat < 106496) (a0 : Buf (Elt F) ((thr d L).loc cc1_scratch2)) (n : ℕ)
    (offI offA : Fin 1 → ℕ) (inbI : ∀ a, offI a + S16.size a ≤ S4096.size a) (inbA : ∀ a, offA a + S16.size a ≤ S4096.size a)
    (hoI : offI = ![16 * n]) (hoA : offA = ![16 * n]) (n' : ℕ) (hn' : n' = n + 1)
    (C : IVec S16 32 → Prop) (dec : ∀ v, Decidable (C v))
    (hC : ∀ v, C v → ∀ a x, ((![v] : Fin 1 → IVec S16 32) a x).toNat < S106496.size a)
    (hCok : ∀ v : IVec S16 32, (∀ x, (v x).toNat < 106496) → C v)
    {hlI : (idxW).view.LoadsAt (Rect.unit (s := S4096) offI S16.size inbI).toLoadRect}
    {hl5 : (colW).view.Loads}
    {hlA : (accW).view.LoadsAt (Rect.unit (s := S4096) offA S16.size inbA).toLoadRect}
    {hst : ((accW).access (Rect.unit (s := S4096) offA S16.size inbA)).Stores Finset.univ}
    {hm : (Finset.univ : Finset (Rect.unit (s := S4096) offA S16.size inbA).shape.Idx) = Finset.univ ∨ ∀ a, (Rect.unit (s := S4096) offA S16.size inbA).stride a = 1}
    {k : PUnit → Prog (TpuEff nD τ sig (Elt F) Λ₀ (.scVector (cV L) (jV L))) α} {Q : α → sProp 𝕄} :
    scr (F := F) (U := U) cf xf hx a0 n
      ⊢ iprop((scr (F := F) (U := U) cf xf hx a0 n' -∗ wp frame (wpE (defs₀ (F := F)) 𝒱₀ (thr d L) none) Set.univ (k ⟨⟩) Q)
        -∗ wp frame (wpE (defs₀ (F := F)) 𝒱₀ (thr d L) none) Set.univ
          (.op (.load idxW (Rect.unit (s := S4096) offI S16.size inbI).toLoadRect hlI) fun (v9 : Vec F S16 .i32) =>
            .op (.assume (C v9) (dec v9)) fun hw =>
              SparseCore.vectorLoadIdx colW ![v9] (hC v9 hw.down) hl5 >>= fun (v10 : Vec F S16 .f32) =>
                .op (.load accW (Rect.unit (s := S4096) offA S16.size inbA).toLoadRect hlA) fun _ =>
                  .op (.store accW (Rect.unit (s := S4096) offA S16.size inbA) v10 Finset.univ hst hm) k) Q) := by
  subst hoI hoA hn'
  unfold scr
  iintro ⟨Hc, Hi, Ha⟩ Hk
  iapply (wp_load 𝒱₀ (thr d L) none Set.univ (m := idxW) (S := Finset.univ) (Finset.subset_univ _)) $$ Hi; iintro Hi
  iapply (wp_assume 𝒱₀ (thr d L) none Set.univ (hCok _ (fun x => hx _)))
  ihave Hc' := (Entails.of_eq (pts_col_acc (F := F) d L _).symm) $$ Hc
  iapply (SparseCore.wp_vectorLoadIdx 𝒱₀ (thr d L) none Set.univ (base := colW) (S := Finset.univ) (q := fullShare) (Finset.subset_univ _)) $$ Hc'; iintro Hc'
  iapply (wp_load 𝒱₀ (thr d L) none Set.univ (m := accW) (S := Finset.univ) (Finset.subset_univ _)) $$ Ha; iintro Ha
  ihave Ha' := (Entails.of_eq (pts_acc_acc (F := F) d L (Rect.unit (s := S4096) ![16 * n] S16.size inbA) _).symm) $$ Ha
  iapply (wp_store 𝒱₀ (thr d L) none Set.univ (m := accW) (r := Rect.unit (s := S4096) ![16 * n] S16.size inbA) (Mk := Finset.univ) (S := Finset.univ) (Finset.subset_univ _)) $$ Ha'; iintro Ha'
  iapply Hk
  isplitl [Hc']; · iexact Hc'
  isplitl [Hi]; · iexact Hi
  ihave Ha2 := (Entails.of_eq (pts_acc_acc (F := F) d L (Rect.unit (s := S4096) ![16 * n] S16.size inbA) _)) $$ Ha'
  ihave Ha3 := (Entails.of_eq (congrArg (fun f => (((accW).view.loc (thr d L) ↦{fullShare} f) : sProp 𝕄)) (acc_step (F := F) cf xf hx a0 n inbI inbA _))) $$ Ha2
  iexact Ha3

/-- A working tile. -/
theorem tile_work (hF : (K (F := F)).Facts) (hin : InRange IT) (hL : k1_cond1 L = 1#1) (q : PosShare TreeShare)
    (O : CellTallies nD τ sig (HIx 1)) (W : Waits sig (HIx 1)) (hO : ∀ g, O g none = 0) :
    (iprop(levAts (K (F := F)).L (K (F := F)).lev ∗ emp ∗ GO IT Ag d L q
        ∗ scopedBufs (thr d L) ∗ scopedSems0 (thr d L) ∗ owes (thr d L) O W) : sProp 𝕄)
      ⊢ wp frame (wpE (defs₀ (F := F)) 𝒱₀ (thr d L) none) Set.univ
          (cc1__sc L ptW (Memref.isWhole_whole _) itW (Memref.isWhole_whole _) outW (Memref.isWhole_whole _) colW (Memref.isWhole_whole _) idxW (Memref.isWhole_whole _) accW (Memref.isWhole_whole _) cc1_scoped0 cc1_scoped1 cc1_scoped2 cc1_scoped3 cc1_scoped4 cc1_scoped5 cc1_scoped6 cc1_scoped7)
          fun _ => iprop(TD IT Ag d L q ∗ scopedBufs (thr d L) ∗ scopedSems0 (thr d L)
            ∗ ∃ W', ⌜∀ p ∈ W', p ∈ W ∨ p.2 = none⌝ ∗ owes (thr d L) O W') := by
  have k1_h1 : k1_cond1 L = 1#1 := hL
  simp only [cc1__sc_eq_skeleton]; unfold cc1__sc_skel
  unfold GO TD
  rw [(K (F := F)).scopedBufs_V hF d (cV L) (jV L), SparseCore.Cfg.scopedSems0_V (Val := Elt F) d (cV L) (jV L), ownSems0_V, ownBufs_V]
  iintro ⟨#Hlv, -, ⟨%PT, %hAg, Hpt, Hit, ⟨%f0, Ho0⟩, ⟨%f1, Ho1⟩⟩, ⟨⟨%fc, Hc⟩, ⟨%fi, Hi⟩, ⟨%fa, Ha⟩, Hbufs⟩,
    ⟨Hs0, Hs1, Hs2, Hs3, Hs4, Hs5, Hs6, Hs7, Hsems⟩, HO⟩
  ihave Hmw := ((K (F := F)).mayWaits_none (thr := thr d L) hO) $$ Hlv
  ihave Hpt' := (Entails.of_eq (pts_pt (F := F) d L q _).symm) $$ Hpt
  ihave Hit' := (Entails.of_eq (pts_it (F := F) d L q _).symm) $$ Hit
  ihave Ho0' := (Entails.of_eq (pts_piece0 (F := F) d L hL _).symm) $$ Ho0
  ihave Ho1' := (Entails.of_eq (pts_piece1 (F := F) d L hL _).symm) $$ Ho1
  ihave Hc' := (Entails.of_eq (pts_col (F := F) d L _).symm) $$ Hc
  ihave Hi' := (Entails.of_eq (pts_idx (F := F) d L _).symm) $$ Hi
  ihave Ha' := (Entails.of_eq (pts_acc (F := F) d L _).symm) $$ Ha
  sl_exec
  have ht0 : (0 : ℕ) < 2 := by decide
  have ht1 : (1 : ℕ) < 2 := by decide
  have hx0 : ∀ j : S4096.Idx, ((idxF0 IT d L hL) j).toNat < 106496 := fun j => hin d _
  have hx1 : ∀ j : S4096.Idx, ((idxF1 IT d L hL) j).toNat < 106496 := fun j => hin d _
  ihave Hc := (pts_congr (F := F) (g := colF d L PT) ?hcol) $$ Hc'
  case hcol =>
    intro j
    exact (congrFun (View.read_whole (Val := Elt F) (cc1_scratch0 : Ref sig .scVector) _) j).symm.trans (col_value (F := F) d L hL PT j)
  ihave Hi := (pts_congr (F := F) (g := idxF0 IT d L hL) ?hidx) $$ Hi'
  case hidx => intro j; exact idx_value0 (F := F) IT d L hL fi j
  ihave Ha0 := (pts_congr (F := F) (accN_zero (colF d L PT) (idxF0 IT d L hL) hx0 fa)) $$ Ha'
  sl_for (fun (k : ℕ) (_ : PUnit) => scr (F := F) (U := U) (colF d L PT) (idxF0 IT d L hL) hx0 fa (16 * k)) $$ [Hc Hi Ha0]
  case region =>
    intro k _
    sl_respell []
    simp only [k1_part1_eq_skeleton, k1_part2_eq_skeleton, k1_part3_eq_skeleton, k1_part4_eq_skeleton]
    unfold k1_part1_skel k1_part2_skel k1_part3_skel k1_part4_skel
    simp only [Prog.lift, Prog.bind_op, Prog.bind_ret, Prog.pure_eq_ret, bind_assoc]
    iintro HR
    iapply (gather_step (F := F) (U := U) (colF d L PT) (idxF0 IT d L hL) hx0 fa (16 * k.val + 0) (k1_off6 k) (k1_off7 k 0#32) (k1_off6_inb L k k1_h1) (k1_off7_inb L k k1_h1 0) ((k1_off6_eq k).trans (vec1 (show 256 * k.val = 16 * (16 * k.val + 0) by omega))) ((k1_off7_eq k ⟨0, by decide⟩).trans (vec1 (show 256 * k.val + 16 * 0 = 16 * (16 * k.val + 0) by omega))) (16 * k.val + 1) (by omega)
      (k1_chk1 L) (k1_chk1.dec L) (fun v hw => k1_idx1_inb L v hw k1_h1) (fun v hv _ => chk_ok v hv)) $$ HR; iintro HR
    iapply (gather_step (F := F) (U := U) (colF d L PT) (idxF0 IT d L hL) hx0 fa (16 * k.val + 1) (k1_off7 k 1#32) (k1_off8 k 1#32) (k1_off7_inb L k k1_h1 1) (k1_off8_inb L k k1_h1 0) ((k1_off7_eq k ⟨1, by decide⟩).trans (vec1 (show 256 * k.val + 16 * 1 = 16 * (16 * k.val + 1) by omega))) ((k1_off8_eq k ⟨0, by decide⟩).trans (vec1 (show 256 * k.val + 16 * 0 + 16 = 16 * (16 * k.val + 1) by omega))) (16 * k.val + 2) (by omega)
      (k1_chk2 L) (k1_chk2.dec L) (fun v hw => k1_idx2_inb L v hw k1_h1) (fun v hv _ => chk_ok v hv)) $$ HR; iintro HR
    iapply (gather_step (F := F) (U := U) (colF d L PT) (idxF0 IT d L hL) hx0 fa (16 * k.val + 2) (k1_off8 k 2#32) (k1_off9 k 2#32) (k1_off8_inb L k k1_h1 1) (k1_off9_inb L k k1_h1 0) ((k1_off8_eq k ⟨1, by decide⟩).trans (vec1 (show 256 * k.val + 16 * 1 + 16 = 16 * (16 * k.val + 2) by omega))) ((k1_off9_eq k ⟨0, by decide⟩).trans (vec1 (show 256 * k.val + 16 * 0 + 32 = 16 * (16 * k.val + 2) by omega))) (16 * k.val + 3) (by omega)
      (k1_chk3 L) (k1_chk3.dec L) (fun v hw => k1_idx3_inb L v hw k1_h1) (fun v hv _ => chk_ok v hv)) $$ HR; iintro HR
    iapply (gather_step (F := F) (U := U) (colF d L PT) (idxF0 IT d L hL) hx0 fa (16 * k.val + 3) (k1_off9 k 3#32) (k1_off10 k 3#32) (k1_off9_inb L k k1_h1 1) (k1_off10_inb L k k1_h1 0) ((k1_off9_eq k ⟨1, by decide⟩).trans (vec1 (show 256 * k.val + 16 * 1 + 32 = 16 * (16 * k.val + 3) by omega))) ((k1_off10_eq k ⟨0, by decide⟩).trans (vec1 (show 256 * k.val + 16 * 0 + 48 = 16 * (16 * k.val + 3) by omega))) (16 * k.val + 4) (by omega)
      (k1_chk4 L) (k1_chk4.dec L) (fun v hw => k1_idx4_inb L v hw k1_h1) (fun v hv _ => chk_ok v hv)) $$ HR; iintro HR
    iapply (gather_step (F := F) (U := U) (colF d L PT) (idxF0 IT d L hL) hx0 fa (16 * k.val + 4) (k1_off10 k 4#32) (k1_off11 k 4#32) (k1_off10_inb L k k1_h1 1) (k1_off11_inb L k k1_h1 0) ((k1_off10_eq k ⟨1, by decide⟩).trans (vec1 (show 256 * k.val + 16 * 1 + 48 = 16 * (16 * k.val + 4) by omega))) ((k1_off11_eq k ⟨0, by decide⟩).trans (vec1 (show 256 * k.val + 16 * 0 + 64 = 16 * (16 * k.val + 4) by omega))) (16 * k.val + 5) (by omega)
      (k1_chk5 L) (k1_chk5.dec L) (fun v hw => k1_idx5_inb L v hw k1_h1) (fun v hv _ => chk_ok v hv)) $$ HR; iintro HR
    iapply (gather_step (F := F) (U := U) (colF d L PT) (idxF0 IT d L hL) hx0 fa (16 * k.val + 5) (k1_off11 k 5#32) (k1_off12 k 5#32) (k1_off11_inb L k k1_h1 1) (k1_off12_inb L k k1_h1 0) ((k1_off11_eq k ⟨1, by decide⟩).trans (vec1 (show 256 * k.val + 16 * 1 + 64 = 16 * (16 * k.val + 5) by omega))) ((k1_off12_eq k ⟨0, by decide⟩).trans (vec1 (show 256 * k.val + 16 * 0 + 80 = 16 * (16 * k.val + 5) by omega))) (16 * k.val + 6) (by omega)
      (k1_chk6 L) (k1_chk6.dec L) (fun v hw => k1_idx6_inb L v hw k1_h1) (fun v hv _ => chk_ok v hv)) $$ HR; iintro HR
    iapply (gather_step (F := F) (U := U) (colF d L PT) (idxF0 IT d L hL) hx0 fa (16 * k.val + 6) (k1_off12 k 6#32) (k1_off13 k 6#32) (k1_off12_inb L k k1_h1 1) (k1_off13_inb L k k1_h1 0) ((k1_off12_eq k ⟨1, by decide⟩).trans (vec1 (show 256 * k.val + 16 * 1 + 80 = 16 * (16 * k.val + 6) by omega))) ((k1_off13_eq k ⟨0, by decide⟩).trans (vec1 (show 256 * k.val + 16 * 0 + 96 = 16 * (16 * k.val + 6) by omega))) (16 * k.val + 7) (by omega)
      (k1_chk7 L) (k1_chk7.dec L) (fun v hw => k1_idx7_inb L v hw k1_h1) (fun v hv _ => chk_ok v hv)) $$ HR; iintro HR
    iapply (gather_step (F := F) (U := U) (colF d L PT) (idxF0 IT d L hL) hx0 fa (16 * k.val + 7) (k1_off13 k 7#32) (k1_off14 k 7#32) (k1_off13_inb L k k1_h1 1) (k1_off14_inb L k k1_h1 0) ((k1_off13_eq k ⟨1, by decide⟩).trans (vec1 (show 256 * k.val + 16 * 1 + 96 = 16 * (16 * k.val + 7) by omega))) ((k1_off14_eq k ⟨0, by decide⟩).trans (vec1 (show 256 * k.val + 16 * 0 + 112 = 16 * (16 * k.val + 7) by omega))) (16 * k.val + 8) (by omega)
      (k1_chk8 L) (k1_chk8.dec L) (fun v hw => k1_idx8_inb L v hw k1_h1) (fun v hv _ => chk_ok v hv)) $$ HR; iintro HR
    iapply (gather_step (F := F) (U := U) (colF d L PT) (idxF0 IT d L hL) hx0 fa (16 * k.val + 8) (k1_off14 k 8#32) (k1_off15 k 8#32) (k1_off14_inb L k k1_h1 1) (k1_off15_inb L k k1_h1 0) ((k1_off14_eq k ⟨1, by decide⟩).trans (vec1 (show 256 * k.val + 16 * 1 + 112 = 16 * (16 * k.val + 8) by omega))) ((k1_off15_eq k ⟨0, by decide⟩).trans (vec1 (show 256 * k.val + 16 * 0 + 128 = 16 * (16 * k.val + 8) by omega))) (16 * k.val + 9) (by omega)
      (k1_chk9 L) (k1_chk9.dec L) (fun v hw => k1_idx9_inb L v hw k1_h1) (fun v hv _ => chk_ok v hv)) $$ HR; iintro HR
    iapply (gather_step (F := F) (U := U) (colF d L PT) (idxF0 IT d L hL) hx0 fa (16 * k.val + 9) (k1_off15 k 9#32) (k1_off16 k 9#32) (k1_off15_inb L k k1_h1 1) (k1_off16_inb L k k1_h1 0) ((k1_off15_eq k ⟨1, by decide⟩).trans (vec1 (show 256 * k.val + 16 * 1 + 128 = 16 * (16 * k.val + 9) by omega))) ((k1_off16_eq k ⟨0, by decide⟩).trans (vec1 (show 256 * k.val + 16 * 0 + 144 = 16 * (16 * k.val + 9) by omega))) (16 * k.val + 10) (by omega)
      (k1_chk10 L) (k1_chk10.dec L) (fun v hw => k1_idx10_inb L v hw k1_h1) (fun v hv _ => chk_ok v hv)) $$ HR; iintro HR
    iapply (gather_step (F := F) (U := U) (colF d L PT) (idxF0 IT d L hL) hx0 fa (16 * k.val + 10) (k1_off16 k 10#32) (k1_off17 k 10#32) (k1_off16_inb L k k1_h1 1) (k1_off17_inb L k k1_h1 0) ((k1_off16_eq k ⟨1, by decide⟩).trans (vec1 (show 256 * k.val + 16 * 1 + 144 = 16 * (16 * k.val + 10) by omega))) ((k1_off17_eq k ⟨0, by decide⟩).trans (vec1 (show 256 * k.val + 16 * 0 + 160 = 16 * (16 * k.val + 10) by omega))) (16 * k.val + 11) (by omega)
      (k1_chk11 L) (k1_chk11.dec L) (fun v hw => k1_idx11_inb L v hw k1_h1) (fun v hv _ => chk_ok v hv)) $$ HR; iintro HR
    iapply (gather_step (F := F) (U := U) (colF d L PT) (idxF0 IT d L hL) hx0 fa (16 * k.val + 11) (k1_off17 k 11#32) (k1_off18 k 11#32) (k1_off17_inb L k k1_h1 1) (k1_off18_inb L k k1_h1 0) ((k1_off17_eq k ⟨1, by decide⟩).trans (vec1 (show 256 * k.val + 16 * 1 + 160 = 16 * (16 * k.val + 11) by omega))) ((k1_off18_eq k ⟨0, by decide⟩).trans (vec1 (show 256 * k.val + 16 * 0 + 176 = 16 * (16 * k.val + 11) by omega))) (16 * k.val + 12) (by omega)
      (k1_chk12 L) (k1_chk12.dec L) (fun v hw => k1_idx12_inb L v hw k1_h1) (fun v hv _ => chk_ok v hv)) $$ HR; iintro HR
    iapply (gather_step (F := F) (U := U) (colF d L PT) (idxF0 IT d L hL) hx0 fa (16 * k.val + 12) (k1_off18 k 12#32) (k1_off19 k 12#32) (k1_off18_inb L k k1_h1 1) (k1_off19_inb L k k1_h1 0) ((k1_off18_eq k ⟨1, by decide⟩).trans (vec1 (show 256 * k.val + 16 * 1 + 176 = 16 * (16 * k.val + 12) by omega))) ((k1_off19_eq k ⟨0, by decide⟩).trans (vec1 (show 256 * k.val + 16 * 0 + 192 = 16 * (16 * k.val + 12) by omega))) (16 * k.val + 13) (by omega)
      (k1_chk13 L) (k1_chk13.dec L) (fun v hw => k1_idx13_inb L v hw k1_h1) (fun v hv _ => chk_ok v hv)) $$ HR; iintro HR
    iapply (gather_step (F := F) (U := U) (colF d L PT) (idxF0 IT d L hL) hx0 fa (16 * k.val + 13) (k1_off19 k 13#32) (k1_off20 k 13#32) (k1_off19_inb L k k1_h1 1) (k1_off20_inb L k k1_h1 0) ((k1_off19_eq k ⟨1, by decide⟩).trans (vec1 (show 256 * k.val + 16 * 1 + 192 = 16 * (16 * k.val + 13) by omega))) ((k1_off20_eq k ⟨0, by decide⟩).trans (vec1 (show 256 * k.val + 16 * 0 + 208 = 16 * (16 * k.val + 13) by omega))) (16 * k.val + 14) (by omega)
      (k1_chk14 L) (k1_chk14.dec L) (fun v hw => k1_idx14_inb L v hw k1_h1) (fun v hv _ => chk_ok v hv)) $$ HR; iintro HR
    iapply (gather_step (F := F) (U := U) (colF d L PT) (idxF0 IT d L hL) hx0 fa (16 * k.val + 14) (k1_off20 k 14#32) (k1_off21 k 14#32) (k1_off20_inb L k k1_h1 1) (k1_off21_inb L k k1_h1 0) ((k1_off20_eq k ⟨1, by decide⟩).trans (vec1 (show 256 * k.val + 16 * 1 + 208 = 16 * (16 * k.val + 14) by omega))) ((k1_off21_eq k ⟨0, by decide⟩).trans (vec1 (show 256 * k.val + 16 * 0 + 224 = 16 * (16 * k.val + 14) by omega))) (16 * k.val + 15) (by omega)
      (k1_chk15 L) (k1_chk15.dec L) (fun v hw => k1_idx15_inb L v hw k1_h1) (fun v hv _ => chk_ok v hv)) $$ HR; iintro HR
    iapply (gather_step (F := F) (U := U) (colF d L PT) (idxF0 IT d L hL) hx0 fa (16 * k.val + 15) (k1_off21 k 15#32) (k1_off22 k) (k1_off21_inb L k k1_h1 1) (k1_off22_inb L k k1_h1) ((k1_off21_eq k ⟨1, by decide⟩).trans (vec1 (show 256 * k.val + 16 * 1 + 224 = 16 * (16 * k.val + 15) by omega))) ((k1_off22_eq k).trans (vec1 (show 256 * k.val + 240 = 16 * (16 * k.val + 15) by omega))) (16 * (k.val + 1)) (by omega)
      (k1_chk16 L) (k1_chk16.dec L) (fun v hw => k1_idx16_inb L v hw k1_h1) (fun v hv _ => chk_ok v hv)) $$ HR; iintro HR
    sl_step
    iexact HR
  · unfold scr
    isplitl [Hc]; · iexact Hc
    isplitl [Hi]; · iexact Hi
    iexact Ha0
  iintro %_ HR
  unfold scr
  icases HR with ⟨Hc, Hi, Ha⟩
  sl_exec
  ihave Hi2 := (pts_congr (F := F) (g := idxF1 IT d L hL) ?hidx2) $$ Hi
  case hidx2 => intro j; exact idx_value1 (F := F) IT d L hL _ j
  ihave Ha1 := (pts_congr (F := F) (accN_zero (colF d L PT) (idxF1 IT d L hL) hx1 (accN (colF d L PT) (idxF0 IT d L hL) hx0 fa (16 * Scf.trips k1_t1_loop.lb k1_t1_loop.ub k1_t1_loop.st)))) $$ Ha
  sl_for (fun (k : ℕ) (_ : PUnit) => scr (F := F) (U := U) (colF d L PT) (idxF1 IT d L hL) hx1 (accN (colF d L PT) (idxF0 IT d L hL) hx0 fa (16 * Scf.trips k1_t1_loop.lb k1_t1_loop.ub k1_t1_loop.st)) (16 * k)) $$ [Hc Hi2 Ha1]
  case region =>
    intro k _
    sl_respell [k1_t2_body]
    simp only [k1_part5_eq_skeleton, k1_part6_eq_skeleton, k1_part7_eq_skeleton, k1_part8_eq_skeleton]
    unfold k1_part5_skel k1_part6_skel k1_part7_skel k1_part8_skel
    simp only [Prog.lift, Prog.bind_op, Prog.bind_ret, Prog.pure_eq_ret, bind_assoc]
    iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 0) (k1_off24 k) (k1_off25 k 0#32) (k1_off24_inb L k k1_h1) (k1_off25_inb L k k1_h1 0) ((k1_off24_eq k).trans (vec1 (show 256 * k.val = 16 * (16 * k.val + 0) by omega))) ((k1_off25_eq k ⟨0, by decide⟩).trans (vec1 (show 256 * k.val + 16 * 0 = 16 * (16 * k.val + 0) by omega))) (16 * k.val + 1) (by omega)
      (k1_chk17 L) (k1_chk17.dec L) (fun v hw => k1_idx17_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 1) (k1_off25 k 1#32) (k1_off26 k 1#32) (k1_off25_inb L k k1_h1 1) (k1_off26_inb L k k1_h1 0) ((k1_off25_eq k ⟨1, by decide⟩).trans (vec1 (show 256 * k.val + 16 * 1 = 16 * (16 * k.val + 1) by omega))) ((k1_off26_eq k ⟨0, by decide⟩).trans (vec1 (show 256 * k.val + 16 * 0 + 16 = 16 * (16 * k.val + 1) by omega))) (16 * k.val + 2) (by omega)
      (k1_chk18 L) (k1_chk18.dec L) (fun v hw => k1_idx18_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 2) (k1_off26 k 2#32) (k1_off27 k 2#32) (k1_off26_inb L k k1_h1 1) (k1_off27_inb L k k1_h1 0) ((k1_off26_eq k ⟨1, by decide⟩).trans (vec1 (show 256 * k.val + 16 * 1 + 16 = 16 * (16 * k.val + 2) by omega))) ((k1_off27_eq k ⟨0, by decide⟩).trans (vec1 (show 256 * k.val + 16 * 0 + 32 = 16 * (16 * k.val + 2) by omega))) (16 * k.val + 3) (by omega)
      (k1_chk19 L) (k1_chk19.dec L) (fun v hw => k1_idx19_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 3) (k1_off27 k 3#32) (k1_off28 k 3#32) (k1_off27_inb L k k1_h1 1) (k1_off28_inb L k k1_h1 0) ((k1_off27_eq k ⟨1, by decide⟩).trans (vec1 (show 256 * k.val + 16 * 1 + 32 = 16 * (16 * k.val + 3) by omega))) ((k1_off28_eq k ⟨0, by decide⟩).trans (vec1 (show 256 * k.val + 16 * 0 + 48 = 16 * (16 * k.val + 3) by omega))) (16 * k.val + 4) (by omega)
      (k1_chk20 L) (k1_chk20.dec L) (fun v hw => k1_idx20_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 4) (k1_off28 k 4#32) (k1_off29 k 4#32) (k1_off28_inb L k k1_h1 1) (k1_off29_inb L k k1_h1 0) ((k1_off28_eq k ⟨1, by decide⟩).trans (vec1 (show 256 * k.val + 16 * 1 + 48 = 16 * (16 * k.val + 4) by omega))) ((k1_off29_eq k ⟨0, by decide⟩).trans (vec1 (show 256 * k.val + 16 * 0 + 64 = 16 * (16 * k.val + 4) by omega))) (16 * k.val + 5) (by omega)
      (k1_chk21 L) (k1_chk21.dec L) (fun v hw => k1_idx21_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 5) (k1_off29 k 5#32) (k1_off30 k 5#32) (k1_off29_inb L k k1_h1 1) (k1_off30_inb L k k1_h1 0) ((k1_off29_eq k ⟨1, by decide⟩).trans (vec1 (show 256 * k.val + 16 * 1 + 64 = 16 * (16 * k.val + 5) by omega))) ((k1_off30_eq k ⟨0, by decide⟩).trans (vec1 (show 256 * k.val + 16 * 0 + 80 = 16 * (16 * k.val + 5) by omega))) (16 * k.val + 6) (by omega)
      (k1_chk22 L) (k1_chk22.dec L) (fun v hw => k1_idx22_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 6) (k1_off30 k 6#32) (k1_off31 k 6#32) (k1_off30_inb L k k1_h1 1) (k1_off31_inb L k k1_h1 0) ((k1_off30_eq k ⟨1, by decide⟩).trans (vec1 (show 256 * k.val + 16 * 1 + 80 = 16 * (16 * k.val + 6) by omega))) ((k1_off31_eq k ⟨0, by decide⟩).trans (vec1 (show 256 * k.val + 16 * 0 + 96 = 16 * (16 * k.val + 6) by omega))) (16 * k.val + 7) (by omega)
      (k1_chk23 L) (k1_chk23.dec L) (fun v hw => k1_idx23_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 7) (k1_off31 k 7#32) (k1_off32 k 7#32) (k1_off31_inb L k k1_h1 1) (k1_off32_inb L k k1_h1 0) ((k1_off31_eq k ⟨1, by decide⟩).trans (vec1 (show 256 * k.val + 16 * 1 + 96 = 16 * (16 * k.val + 7) by omega))) ((k1_off32_eq k ⟨0, by decide⟩).trans (vec1 (show 256 * k.val + 16 * 0 + 112 = 16 * (16 * k.val + 7) by omega))) (16 * k.val + 8) (by omega)
      (k1_chk24 L) (k1_chk24.dec L) (fun v hw => k1_idx24_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 8) (k1_off32 k 8#32) (k1_off33 k 8#32) (k1_off32_inb L k k1_h1 1) (k1_off33_inb L k k1_h1 0) ((k1_off32_eq k ⟨1, by decide⟩).trans (vec1 (show 256 * k.val + 16 * 1 + 112 = 16 * (16 * k.val + 8) by omega))) ((k1_off33_eq k ⟨0, by decide⟩).trans (vec1 (show 256 * k.val + 16 * 0 + 128 = 16 * (16 * k.val + 8) by omega))) (16 * k.val + 9) (by omega)
      (k1_chk25 L) (k1_chk25.dec L) (fun v hw => k1_idx25_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 9) (k1_off33 k 9#32) (k1_off34 k 9#32) (k1_off33_inb L k k1_h1 1) (k1_off34_inb L k k1_h1 0) ((k1_off33_eq k ⟨1, by decide⟩).trans (vec1 (show 256 * k.val + 16 * 1 + 128 = 16 * (16 * k.val + 9) by omega))) ((k1_off34_eq k ⟨0, by decide⟩).trans (vec1 (show 256 * k.val + 16 * 0 + 144 = 16 * (16 * k.val + 9) by omega))) (16 * k.val + 10) (by omega)
      (k1_chk26 L) (k1_chk26.dec L) (fun v hw => k1_idx26_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 10) (k1_off34 k 10#32) (k1_off35 k 10#32) (k1_off34_inb L k k1_h1 1) (k1_off35_inb L k k1_h1 0) ((k1_off34_eq k ⟨1, by decide⟩).trans (vec1 (show 256 * k.val + 16 * 1 + 144 = 16 * (16 * k.val + 10) by omega))) ((k1_off35_eq k ⟨0, by decide⟩).trans (vec1 (show 256 * k.val + 16 * 0 + 160 = 16 * (16 * k.val + 10) by omega))) (16 * k.val + 11) (by omega)
      (k1_chk27 L) (k1_chk27.dec L) (fun v hw => k1_idx27_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 11) (k1_off35 k 11#32) (k1_off36 k 11#32) (k1_off35_inb L k k1_h1 1) (k1_off36_inb L k k1_h1 0) ((k1_off35_eq k ⟨1, by decide⟩).trans (vec1 (show 256 * k.val + 16 * 1 + 160 = 16 * (16 * k.val + 11) by omega))) ((k1_off36_eq k ⟨0, by decide⟩).trans (vec1 (show 256 * k.val + 16 * 0 + 176 = 16 * (16 * k.val + 11) by omega))) (16 * k.val + 12) (by omega)
      (k1_chk28 L) (k1_chk28.dec L) (fun v hw => k1_idx28_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 12) (k1_off36 k 12#32) (k1_off37 k 12#32) (k1_off36_inb L k k1_h1 1) (k1_off37_inb L k k1_h1 0) ((k1_off36_eq k ⟨1, by decide⟩).trans (vec1 (show 256 * k.val + 16 * 1 + 176 = 16 * (16 * k.val + 12) by omega))) ((k1_off37_eq k ⟨0, by decide⟩).trans (vec1 (show 256 * k.val + 16 * 0 + 192 = 16 * (16 * k.val + 12) by omega))) (16 * k.val + 13) (by omega)
      (k1_chk29 L) (k1_chk29.dec L) (fun v hw => k1_idx29_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 13) (k1_off37 k 13#32) (k1_off38 k 13#32) (k1_off37_inb L k k1_h1 1) (k1_off38_inb L k k1_h1 0) ((k1_off37_eq k ⟨1, by decide⟩).trans (vec1 (show 256 * k.val + 16 * 1 + 192 = 16 * (16 * k.val + 13) by omega))) ((k1_off38_eq k ⟨0, by decide⟩).trans (vec1 (show 256 * k.val + 16 * 0 + 208 = 16 * (16 * k.val + 13) by omega))) (16 * k.val + 14) (by omega)
      (k1_chk30 L) (k1_chk30.dec L) (fun v hw => k1_idx30_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 14) (k1_off38 k 14#32) (k1_off39 k 14#32) (k1_off38_inb L k k1_h1 1) (k1_off39_inb L k k1_h1 0) ((k1_off38_eq k ⟨1, by decide⟩).trans (vec1 (show 256 * k.val + 16 * 1 + 208 = 16 * (16 * k.val + 14) by omega))) ((k1_off39_eq k ⟨0, by decide⟩).trans (vec1 (show 256 * k.val + 16 * 0 + 224 = 16 * (16 * k.val + 14) by omega))) (16 * k.val + 15) (by omega)
      (k1_chk31 L) (k1_chk31.dec L) (fun v hw => k1_idx31_inb L v hw k1_h1) (fun v hv _ => chk_ok v hv)) $$ HR; iintro HR
    iapply (gather_step (F := F) (U := U) (colF d L PT) (idxF1 IT d L hL) hx1 (accN (colF d L PT) (idxF0 IT d L hL) hx0 fa (16 * Scf.trips k1_t1_loop.lb k1_t1_loop.ub k1_t1_loop.st)) (16 * k.val + 15) (k1_off39 k 15#32) (k1_off40 k) (k1_off39_inb L k k1_h1 1) (k1_off40_inb L k k1_h1) ((k1_off39_eq k ⟨1, by decide⟩).trans (vec1 (show 256 * k.val + 16 * 1 + 224 = 16 * (16 * k.val + 15) by omega))) ((k1_off40_eq k).trans (vec1 (show 256 * k.val + 240 = 16 * (16 * k.val + 15) by omega))) (16 * (k.val + 1)) (by omega)
      (k1_chk32 L) (k1_chk32.dec L) (fun v hw => k1_idx32_inb L v hw k1_h1) (fun v hv _ => chk_ok v hv)) $$ HR; iintro HR
    sl_step
    iexact HR
  · unfold scr
    isplitl [Hc]; · iexact Hc
    isplitl [Hi2]; · iexact Hi2
    iexact Ha1
  iintro %_ HR
  unfold scr
  icases HR with ⟨Hc, Hi, Ha⟩
  sl_exec
  sl_step
  ihave Ho0 := (Entails.of_eq (pts_piece0 (F := F) d L hL _)) $$ Ho0'
  ihave Ho0g := (pts_congr_on (F := F) (ℓ := outLoc d) (g := gatF IT d PT) ?hv0) $$ Ho0
  case hv0 =>
    intro i hi; rw [pieceSet_zero L hL] at hi
    exact out_value (F := F) IT d L hin PT (k1_off5 L) (k1_off5_inb L hL) (by rw [k1_off5_eq]; rfl) _ (idxF0 IT d L hL) hx0 fa (fun y => congrArg (IT d) (emb_ip0 L hL y)) _ (by rw [trips1]) i hi
  ihave Ho1 := (Entails.of_eq (pts_piece1 (F := F) d L hL _)) $$ Ho1'
  ihave Ho1g := (pts_congr_on (F := F) (ℓ := outLoc d) (g := gatF IT d PT) ?hv1) $$ Ho1
  case hv1 =>
    intro i hi; rw [pieceSet_one L hL] at hi
    exact out_value (F := F) IT d L hin PT (k1_off23 L) (k1_off23_inb L hL) (by rw [k1_off23_eq]; rfl) _ (idxF1 IT d L hL) hx1 _ (fun y => congrArg (IT d) (emb_ip1 L hL y)) _ (by rw [trips2]) i hi
  isplitl [Hpt' Hit' Ho0g Ho1g]
  · iexists PT; isplitr; · ipureintro; exact hAg
    isplitl [Hpt']; · iexact Hpt'
    isplitl [Hit']; · iexact Hit'
    isplitl [Ho0g]; · iexact Ho0g
    iexact Ho1g
  isplitl [Hc Hi Ha Hbufs]
  · isplitl [Hc]; · iexists _; iexact Hc
    isplitl [Hi]; · iexists _; iexact Hi
    isplitl [Ha]; · iexists _; iexact Ha
    iexact Hbufs
  isplitl [Hs0 Hs1 Hs2 Hs3 Hs4 Hs5 Hs6 Hs7 Hsems]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    iexact Hsems
  iexists _
  isplitr
  rotate_left
  · iexact HO
  · ipureintro
    exact ins_ok _ (ins_ok _ (ins_ok _ (ins_ok _ (ins_ok _ (ins_ok _ (ins_ok _ (ins_ok _ (fun p hp => Or.inl hp))))))))

end Tile

/-! ## The launch theorem's obligation -/

theorem defs₀_vector (c : Fin τ.nSC) (s : Fin τ.nSub) :
    defs₀ (F := F) (.scVector c s) 1 ()
      = SparseCore.onTile hcore1 hsub1 (fun c s => cc1__sc (coordsV c s)
          ptW (Memref.isWhole_whole _) itW (Memref.isWhole_whole _) outW (Memref.isWhole_whole _)
          colW (Memref.isWhole_whole _) idxW (Memref.isWhole_whole _) accW (Memref.isWhole_whole _)
          cc1_scoped0 cc1_scoped1 cc1_scoped2 cc1_scoped3 cc1_scoped4 cc1_scoped5 cc1_scoped6 cc1_scoped7) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The tile obligation: a working tile's task, or an idle tile's return. -/
theorem tileObl (hin : InRange IT) : TileStmt (F := F) (U := U) IT Ag := by
  intro d c i O W hO _ _
  -- this kernel owes nothing for a protocol of its own
  simp only [show (P (F := F) (U := U) IT Ag).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  by_cases hL : k1_cond1 (coordsV ⟨_, hc.1⟩ ⟨_, hc.2⟩) = 1#1
  · exact (tile_work IT Ag d (coordsV ⟨_, hc.1⟩ ⟨_, hc.2⟩) facts hin hL _ O W hO).trans (wp_mono frame _ _ fun _ => obl_post)
  · exact (tile_idle IT Ag d (coordsV ⟨_, hc.1⟩ ⟨_, hc.2⟩) hL _ O W).trans (wp_mono frame _ _ fun _ => obl_post)

end Cert.Proof.WScTile

end
-- ==== Proof.WScTileSplit.lean ====
/-
  The split of a SparseCore's operands among its sixteen tiles, and the gathering of their results.

  The SparseCore's read share of each operand is cut into sixteen read shares (and a remainder kept aside); its slab
  of the result — the elements whose middle coordinate is the SparseCore's — is the disjoint union of the working
  tiles' pieces: tile s < 10 holds the elements (s, c, n), n < 4096 in its first piece and 4096 ≤ n in its second.
-/
import proofs.«204616_g36739150250405_cont_8to1_b_1211_24_alg».proof.Proof.WScTilePay

noncomputable section

namespace Cert.Proof.WScTile

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open PCS

variable {F : FTy → Type} [FloatOps F]
variable {U : Type} [URA U] [CountersIn U]

local notation "𝕄" => MT nD τ sig (HIx 1) (Elt F) ℕ U ℕ

variable (IT : (d : Dev nD) → Buf (Elt F) (itLoc d))
variable (Ag : (d : Dev nD) → Buf (Elt F) (ptLoc d) → Prop)

/-! ## The pieces' elements -/

omit [FloatOps F] in
/-- A tile works exactly when its subcore is below 10. -/
theorem cond_iff : ∀ L : grid1.Coords, (k1_cond1 L = 1#1 ↔ (L 1).val < 10) := by decide +kernel

omit [FloatOps F] in
theorem set_piece0 (L : grid1.Coords) (h : k1_cond1 L = 1#1) :
    (piece0 L h).view.set = (Rect.unit (s := S10x2x8192) (k1_off5 L) S1x1x4096.size (k1_off5_inb L h)).set := by
  show (((outW).view.slice (Rect.unit (s := S10x2x8192) (k1_off5 L) S1x1x4096.size (k1_off5_inb L h))).reshape S4096 squeezes_S1x1x4096_S4096.numel_eq).set = _
  rw [View.set_reshape]
  show ((View.whole (main_v11_scv : Ref sig .scVector)).slice _).set = _
  rw [View.set_slice]; exact Finset.map_refl
omit [FloatOps F] in
theorem set_piece1 (L : grid1.Coords) (h : k1_cond1 L = 1#1) :
    (piece1 L h).view.set = (Rect.unit (s := S10x2x8192) (k1_off23 L) S1x1x4096.size (k1_off23_inb L h)).set := by
  show (((outW).view.slice (Rect.unit (s := S10x2x8192) (k1_off23 L) S1x1x4096.size (k1_off23_inb L h))).reshape S4096 squeezes_S1x1x4096_S4096.numel_eq).set = _
  rw [View.set_reshape]
  show ((View.whole (main_v11_scv : Ref sig .scVector)).slice _).set = _
  rw [View.set_slice]; exact Finset.map_refl

omit [FloatOps F] in
/-- Membership in a piece, by coordinates. -/
theorem mem_pieceSet (L : grid1.Coords) (t : Fin 2) (j : S10x2x8192.Idx) :
    j ∈ pieceSet L t ↔ (L 1).val < 10 ∧ (j 0).val = (L 1).val ∧ (j 1).val = (L 0).val
      ∧ 4096 * t.val ≤ (j 2).val ∧ (j 2).val < 4096 * t.val + 4096 := by
  by_cases h : k1_cond1 L = 1#1
  · have hs := (cond_iff L).mp h
    have key (off : Fin 3 → ℕ) (inb : ∀ a, off a + S1x1x4096.size a ≤ S10x2x8192.size a) (o2 : ℕ)
        (ho : off = ![(L 1).val, (L 0).val, o2]) :
        j ∈ (Rect.unit (s := S10x2x8192) off S1x1x4096.size inb).set
          ↔ (j 0).val = (L 1).val ∧ (j 1).val = (L 0).val ∧ o2 ≤ (j 2).val ∧ (j 2).val < o2 + 4096 := by
      subst ho
      rw [Rect.mem_set_unit]
      constructor
      · intro hh
        have h0 := hh 0; have h1 := hh 1; have h2 := hh 2
        change (L 1).val ≤ (j 0).val ∧ (j 0).val < (L 1).val + 1 at h0
        change (L 0).val ≤ (j 1).val ∧ (j 1).val < (L 0).val + 1 at h1
        change o2 ≤ (j 2).val ∧ (j 2).val < o2 + 4096 at h2
        omega
      · rintro ⟨h0, h1, h2, h3⟩ a
        match a with
        | 0 => exact ⟨by show (L 1).val ≤ (j 0).val; omega, by show (j 0).val < (L 1).val + 1; omega⟩
        | 1 => exact ⟨by show (L 0).val ≤ (j 1).val; omega, by show (j 1).val < (L 0).val + 1; omega⟩
        | 2 => exact ⟨by show o2 ≤ (j 2).val; omega, by show (j 2).val < o2 + 4096; omega⟩
    rcases Fin.exists_fin_two.mp ⟨t, rfl⟩ with rfl | rfl
    · rw [pieceSet_zero L h, set_piece0, key _ _ 0 (k1_off5_eq L)]
      simp only [Fin.val_zero, Nat.mul_zero, Nat.zero_add]
      exact ⟨fun hh => ⟨hs, hh⟩, fun hh => hh.2⟩
    · rw [pieceSet_one L h, set_piece1, key _ _ 4096 (k1_off23_eq L)]
      simp only [Fin.val_one, Nat.mul_one]
      exact ⟨fun hh => ⟨hs, hh⟩, fun hh => hh.2⟩
  · rw [pieceSet_idle L h]
    have hs : ¬ (L 1).val < 10 := fun hh => h ((cond_iff L).mpr hh)
    simp only [Finset.notMem_empty, false_iff]
    exact fun hh => hs hh.1

/-! ## The slab is its tiles' pieces -/

omit [FloatOps F] in
theorem crd_zero (c : Fin ((K (F := F)).nCore 0)) (i : Fin ((K (F := F)).nSub 0)) : ((crd (F := F) c i) 0).val = c.val := rfl
omit [FloatOps F] in
theorem crd_one (c : Fin ((K (F := F)).nCore 0)) (i : Fin ((K (F := F)).nSub 0)) : ((crd (F := F) c i) 1).val = i.val := rfl

/-- A tile's two pieces. -/
abbrev K1 (c : Fin ((K (F := F)).nCore 0)) (i : Fin ((K (F := F)).nSub 0)) : Finset S10x2x8192.Idx :=
  pieceSet (crd (F := F) c i) 0 ∪ pieceSet (crd (F := F) c i) 1

omit [FloatOps F] in
theorem pieces_disj (L : grid1.Coords) : Disjoint (pieceSet L 0) (pieceSet L 1) :=
  Finset.disjoint_left.mpr fun j h0 h1 => by
    have a0 := (mem_pieceSet L 0 j).mp h0
    have a1 := (mem_pieceSet L 1 j).mp h1
    simp only [Fin.val_zero, Fin.val_one] at a0 a1
    omega

omit [FloatOps F] in
theorem mem_K1 (c : Fin ((K (F := F)).nCore 0)) (i : Fin ((K (F := F)).nSub 0)) (j : S10x2x8192.Idx) :
    j ∈ K1 (F := F) c i ↔ i.val < 10 ∧ (j 0).val = i.val ∧ (j 1).val = c.val := by
  unfold K1
  rw [Finset.mem_union, mem_pieceSet, mem_pieceSet, crd_zero, crd_one]
  simp only [Fin.val_zero, Fin.val_one]
  have h2 : (j 2).val < 8192 := (j 2).isLt
  constructor
  · rintro (h | h) <;> exact ⟨h.1, h.2.1, h.2.2.1⟩
  · rintro ⟨h0, h1, h2'⟩
    by_cases hj : (j 2).val < 4096
    · exact .inl ⟨h0, h1, h2', by omega, by omega⟩
    · exact .inr ⟨h0, h1, h2', by omega, by omega⟩

omit [FloatOps F] in
theorem K1_disj (c : Fin ((K (F := F)).nCore 0)) {i i' : Fin ((K (F := F)).nSub 0)} (h : i ≠ i') :
    Disjoint (K1 (F := F) c i) (K1 (F := F) c i') :=
  Finset.disjoint_left.mpr fun j h0 h1 => by
    have a0 := (mem_K1 c i j).mp h0
    have a1 := (mem_K1 c i' j).mp h1
    exact h (Fin.ext (by omega))

omit [FloatOps F] in
theorem K1_cover (c : Fin ((K (F := F)).nCore 0)) :
    (Finset.univ : Finset (Fin ((K (F := F)).nSub 0))).biUnion (K1 (F := F) c) = slab c.val := by
  ext j
  rw [Finset.mem_biUnion, mem_slab]
  constructor
  · rintro ⟨i, -, hi⟩; exact ((mem_K1 c i j).mp hi).2.2
  · intro hj
    have h0 : (j 0).val < 10 := (j 0).isLt
    exact ⟨⟨(j 0).val, by show (j 0).val < 16; omega⟩, Finset.mem_univ _, (mem_K1 c _ j).mpr ⟨h0, rfl, hj⟩⟩

/-- A SparseCore's slab of the result is its tiles' pieces. -/
theorem slab_pieces (d : Dev nD) (c : Fin ((K (F := F)).nCore 0)) (f : Buf (Elt F) (outLoc d)) :
    (outLoc d ↦[slab c.val]{fullShare} f : sProp 𝕄)
      = bigSep Finset.univ fun i : Fin ((K (F := F)).nSub 0) =>
          iprop((outLoc d ↦[pieceSet (crd (F := F) c i) 0]{fullShare} f) ∗ outLoc d ↦[pieceSet (crd (F := F) c i) 1]{fullShare} f) := by
  rw [← K1_cover (F := F) c]
  refine (pointsTo_biUnion (ℓ := outLoc d) (q := fullShare) (f := f) Finset.univ (K1 (F := F) c) (fun i _ i' _ h => K1_disj c h)).trans ?_
  exact bigSep_congr fun i _ =>
    BI.equiv_iff.mp ⟨(pointsTo_union (pieces_disj _)).1, (pointsTo_union (pieces_disj _)).2⟩

/-! ## The read shares -/

theorem toks_split {ℓ : Loc nD τ sig} (q : PosShare TreeShare) (f : Buf (Elt F) ℓ) :
    (ℓ ↦{q} f : sProp 𝕄)
      ⊢ iprop((ℓ ↦{Transfers.shareDrop q 16} f) ∗ bigSep Finset.univ fun i : Fin ((K (F := F)).nSub 0) => ℓ ↦{tq (F := F) q i} f) :=
  Transfers.pointsTo_toks_split q 16
theorem toks_join {ℓ : Loc nD τ sig} (q : PosShare TreeShare) (f : Buf (Elt F) ℓ) :
    iprop((ℓ ↦{Transfers.shareDrop q 16} f) ∗ bigSep Finset.univ fun i : Fin ((K (F := F)).nSub 0) => ℓ ↦{tq (F := F) q i} f)
      ⊢ (ℓ ↦{q} f : sProp 𝕄) :=
  Transfers.pointsTo_toks_join q 16

omit [FloatOps F] in
/-- A resource threaded through the summands of a `bigSep`. -/
theorem bigSep_thread {I : Type} (s : Finset I) (R : sProp 𝕄) (Φ Ψ : I → sProp 𝕄)
    (h : ∀ i, iprop(R ∗ Φ i) ⊢ iprop(R ∗ Ψ i)) : iprop(R ∗ bigSep s Φ) ⊢ iprop(R ∗ bigSep s Ψ) := by
  classical
  induction s using Finset.induction_on with
  | empty => exact .rfl
  | insert a s ha ih =>
    rw [SparseCore.bigSep_insert' ha, SparseCore.bigSep_insert' ha]
    iintro ⟨HR, Ha, Hs⟩
    ihave H1 := (h a) $$ [HR Ha]
    · isplitl [HR] <;> iassumption
    icases H1 with ⟨HR, Ha⟩
    ihave H2 := ih $$ [HR Hs]
    · isplitl [HR] <;> iassumption
    icases H2 with ⟨HR, Hs⟩
    isplitl [HR]; · iexact HR
    isplitl [Ha]; · iexact Ha
    iexact Hs

/-! ## The split -/

/-- The tiles' shares and pieces make the tiles' payloads. -/
theorem deal (d : Dev nD) (c : Fin ((K (F := F)).nCore 0)) (PT : Buf (Elt F) (ptLoc d)) (f : Buf (Elt F) (outLoc d)) (hAg : Ag d PT) :
    iprop((bigSep Finset.univ fun i : Fin ((K (F := F)).nSub 0) => ptLoc d ↦{tq (F := F) (q2 c.val) i} PT)
        ∗ (bigSep Finset.univ fun i : Fin ((K (F := F)).nSub 0) => itLoc d ↦{tq (F := F) (q2 c.val) i} IT d)
        ∗ bigSep Finset.univ fun i : Fin ((K (F := F)).nSub 0) =>
            iprop((outLoc d ↦[pieceSet (crd (F := F) c i) 0]{fullShare} f) ∗ outLoc d ↦[pieceSet (crd (F := F) c i) 1]{fullShare} f))
      ⊢ (bigSep Finset.univ fun i : Fin ((K (F := F)).nSub 0) => (P (F := F) (U := U) IT Ag).go 0 d c i : sProp 𝕄) := by
  have hpt : ∀ i : Fin ((K (F := F)).nSub 0),
      (iprop((ptLoc d ↦{tq (F := F) (q2 c.val) i} PT) ∗ (itLoc d ↦{tq (F := F) (q2 c.val) i} IT d)
        ∗ (outLoc d ↦[pieceSet (crd (F := F) c i) 0]{fullShare} f) ∗ outLoc d ↦[pieceSet (crd (F := F) c i) 1]{fullShare} f) : sProp 𝕄)
      ⊢ (P (F := F) (U := U) IT Ag).go 0 d c i := fun i => by
    rw [P_go]
    iintro ⟨Hp, Hi, Ho0, Ho1⟩
    iexists PT; isplitr; · ipureintro; exact hAg
    isplitl [Hp]; · iexact Hp
    isplitl [Hi]; · iexact Hi
    isplitl [Ho0]; · iexists f; iexact Ho0
    iexists f; iexact Ho1
  rw [← bigSep_sep', ← bigSep_sep']
  exact bigSep_mono fun i _ => hpt i

/-- The tiles' results and the remainders kept aside make the SparseCore's result. -/
theorem collect (d : Dev nD) (c : Fin ((K (F := F)).nCore 0)) (PT : Buf (Elt F) (ptLoc d)) :
    iprop((ptLoc d ↦{Transfers.shareDrop (q2 c.val) 16} PT) ∗ (itLoc d ↦{Transfers.shareDrop (q2 c.val) 16} IT d)
        ∗ bigSep Finset.univ fun i : Fin ((K (F := F)).nSub 0) => (P (F := F) (U := U) IT Ag).td 0 d c i)
      ⊢ (iprop((ptLoc d ↦{q2 c.val} PT) ∗ (itLoc d ↦{q2 c.val} IT d) ∗ outLoc d ↦[slab c.val]{fullShare} gatF IT d PT) : sProp 𝕄) := by
  have hthread := bigSep_thread (F := F) (U := U) (Finset.univ : Finset (Fin ((K (F := F)).nSub 0)))
    (ptLoc d ↦{Transfers.shareDrop (q2 c.val) 16} PT)
    (fun i => (P (F := F) (U := U) IT Ag).td 0 d c i)
    (fun i => iprop((ptLoc d ↦{tq (F := F) (q2 c.val) i} PT) ∗ (itLoc d ↦{tq (F := F) (q2 c.val) i} IT d)
      ∗ (outLoc d ↦[pieceSet (crd (F := F) c i) 0]{fullShare} gatF IT d PT) ∗ outLoc d ↦[pieceSet (crd (F := F) c i) 1]{fullShare} gatF IT d PT))
    (fun i => by
      rw [P_td]
      iintro ⟨HR, %PT', %hAg', Hp, Hi, Ho0, Ho1⟩
      ihave Ha := (share_agree (F := F) (U := U) PT PT') $$ [HR Hp]
      · isplitl [HR] <;> iassumption
      icases Ha with ⟨%he, HR, Hp⟩
      subst he
      isplitl [HR]; · iexact HR
      isplitl [Hp]; · iexact Hp
      isplitl [Hi]; · iexact Hi
      isplitl [Ho0]; · iexact Ho0
      iexact Ho1)
  iintro ⟨Hpr, Hir, Htd⟩
  ihave H := hthread $$ [Hpr Htd]
  · isplitl [Hpr] <;> iassumption
  icases H with ⟨Hpr, Hall⟩
  ihave Hall' := (Entails.of_eq (bigSep_sep' _ _ _)) $$ Hall
  icases Hall' with ⟨Hps, Hrest⟩
  ihave Hrest' := (Entails.of_eq (bigSep_sep' _ _ _)) $$ Hrest
  icases Hrest' with ⟨His, Hos⟩
  isplitl [Hpr Hps]
  · iapply (toks_join (F := F) (U := U) (q2 c.val) PT); isplitl [Hpr] <;> iassumption
  isplitl [Hir His]
  · iapply (toks_join (F := F) (U := U) (q2 c.val) (IT d)); isplitl [Hir] <;> iassumption
  iapply (Entails.of_eq (slab_pieces (F := F) (U := U) d c (gatF IT d PT)).symm); iexact Hos

theorem vecSplit : SplitStmt (F := F) (U := U) IT Ag := by
  intro d c
  rw [P_st, P_dn]
  iintro ⟨%PT, %hAg, Hpt, Hit, %f, Hout⟩
  ihave Hpt' := (toks_split (F := F) (U := U) (q2 c.val) PT) $$ Hpt
  icases Hpt' with ⟨Hptr, Hpts⟩
  ihave Hit' := (toks_split (F := F) (U := U) (q2 c.val) (IT d)) $$ Hit
  icases Hit' with ⟨Hitr, Hits⟩
  ihave Hout' := (Entails.of_eq (slab_pieces (F := F) (U := U) d c f)) $$ Hout
  imodintro
  isplitl [Hpts Hits Hout']
  · iapply (deal (F := F) (U := U) IT Ag d c PT f hAg)
    isplitl [Hpts]; · iexact Hpts
    isplitl [Hits]; · iexact Hits
    iexact Hout'
  iintro Htd
  ihave H := (collect (F := F) (U := U) IT Ag d c PT) $$ [Hptr Hitr Htd]
  · isplitl [Hptr]; · iexact Hptr
    isplitl [Hitr]; · iexact Hitr
    iexact Htd
  icases H with ⟨Hp, Hi, Ho⟩
  iexists PT; iexists (gatF IT d PT)
  isplitr; · ipureintro; exact ⟨hAg, fun j _ => rfl⟩
  isplitl [Hp]; · iexact Hp
  isplitl [Hi]; · iexact Hi
  iexact Ho

end Cert.Proof.WScTile

end
-- ==== Proof.WKRun.lean ====
/-
  The kernel program's run from @main's obligation: the SparseCore launch theorem applied to the one vector-subcore
  call — no scalar kernel; the tile obligation and the split of a SparseCore's operands among its tiles; the launch
  element; what the final memory holds read off the buffers @main leaves held.
-/
import proofs.«204616_g36739150250405_cont_8to1_b_1211_24_alg».proof.Proof.WKLaunch
import proofs.«204616_g36739150250405_cont_8to1_b_1211_24_alg».proof.Proof.WKRead
import proofs.«204616_g36739150250405_cont_8to1_b_1211_24_alg».proof.Proof.WScTileBody
import proofs.«204616_g36739150250405_cont_8to1_b_1211_24_alg».proof.Proof.WScTileSplit

noncomputable section

namespace Cert.Kernel.KS

open Cert.Kernel Cert.Kernel.Gen Cert.Kernel.KS

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_seq)
open Idealize.ShloMosaic.TcCoe
open Cert.Kernel.TcReg
open Cert.Proof.WScTile (ptLoc itLoc outLoc gat)

variable {F : FTy → Type} [FloatOps F]

local notation "𝕄" => MT nD τ sig (HIx 1) (Elt F) ℕ UU ℕ

variable (m : (ℓ : Loc nD τ sig) → Buf (Elt F) ℓ) (ρ : Dev nD → PrngReg)
variable (Ag : (d : Dev nD) → Buf (Elt F) (ptLoc d) → Prop)

/-- What a final state satisfies on device `d`: for some result array of the first region, projection and gathered
    array, every unscoped buffer holds the fold's last contents. -/
def fq (d : Dev nD) (s' : Phys nD τ sig (Elt F)) : Prop :=
  ∃ (G : Buf (Elt F) ((d : Thread nD τ).loc main_v7)) (PT : Buf (Elt F) (ptLoc d)) (f : Buf (Elt F) (outLoc d)),
    (Ag d PT ∧ ∀ j, f j = PT (gat (ITf m) d j)) ∧ ∀ b ∈ Pipeline.ucRefs τ sig, s'.mem.mem (d, b) = W7 m d G PT f b

/-- The buffers @main leaves held pin the final memory. -/
theorem hfin (d : Dev nD) (s' : Phys nD τ sig (Elt F)) : iprop(FIN m Ag d ∗ SI s') ⊢ (⌜fq m Ag d s'⌝ : sProp 𝕄) := by
  unfold FIN
  iintro ⟨⟨%G, %PT, %f, %hf, Hheld⟩, HSI⟩
  ihave H := (held_read (F := F) (U := UU) (T d) (Pipeline.ucRefs τ sig) (W7 m d G PT f) s') $$ [Hheld HSI]
  · isplitl [Hheld] <;> iassumption
  icases H with %h
  ipureintro
  exact ⟨G, PT, f, hf, h⟩

/-- The run, from @main's obligation. -/
theorem run_of_hmain [∀ e, Nonempty (Elt F e)] (hin : Cert.Proof.WScTile.InRange (ITf m))
    (hmain : ∀ (κ : GSem nD τ sig → ℕ) (d : Dev nD),
      iprop((K (F := F)).ctx EH (PPm m Ag) κ ∗ (K (F := F)).tcSt EH d 0 ∗ (K (F := F)).tcRes m ρ d ∗ Gd (F := F) d)
        ⊢ wp frame (wpE ((K (F := F)).defs (D (F := F))) 𝒱 (T d) none) Set.univ (main (F := F) d)
            fun _ => iprop((K (F := F)).tcSt EH d 1 ∗ FIN m Ag d)) :
    RunStmt m ρ Ag := by
  unfold RunStmt
  exact SparseCore.Cfg.θ_run_sc (K := K (F := F)) (D := D (F := F)) (𝒱 := 𝒱) (EH := EH) (P := PPm m Ag) facts v₀
    (fun q hq => match q with | 0 => nomatch hq)
    (fun q _ => match q with | 0 => Cert.Proof.WScTile.tileObl (F := F) (U := UU) (ITf m) Ag hin)
    (fun q _ => match q with | 0 => SparseCore.Cfg.VecSplit.of_plain (Cert.Proof.WScTile.vecSplit (F := F) (U := UU) (ITf m) Ag))
    m ρ main (fun d => Gd (F := F) d) (FIN m Ag) (u₀ (F := F)) (sep_elim_left.trans (hu₀ m Ag)) hmain
    (fq m Ag) (hfin m Ag) (RunPost m Ag) (fun _ h => h)

end Cert.Kernel.KS

end
-- ==== Proof.WKPre.lean ====
/-
  The index ranges out of the precondition, for the program's own index array.

  The precondition is a conjunction of "all" reductions that evaluates to 1; two of its conjuncts say that every word
  of the two index arrays lies in [0, 99999] as a signed integer (the float conjuncts are dropped here: nothing below
  depends on the float instance). The array the gather reads its indices from is the two index arrays stacked by
  columns, transposed and split in two: each of its words is a word of one of them, so each is below 100000.
-/
import proofs.«204616_g36739150250405_cont_8to1_b_1211_24_alg».proof.Proof.WKSetup
import Idealize.ShloMosaic.Lib.ReduceAll
import Idealize.ShloMosaic.Lib.ValueIdx

noncomputable section

namespace Cert.Kernel.KS

open Cert.Kernel Cert.Kernel.Gen
open Idealize.ShloMosaic Idealize.SL.Sem Idealize.ShloMosaic.ValueIdx

variable {F : FTy → Type} [FloatOps F]

/-- The rank-0 shape has one index. -/
instance subsingleton_S_ : Subsingleton Cert.Pre_input_domain.S_.Idx := ⟨fun a b => funext fun d => d.elim0⟩

/-- The precondition read back at the two index arrays: every word, read unsigned, is below 100000. -/
theorem lt_of_pre [Cert.Pre_input_domain.Facts]
    (a0 a1 : IVec Cert.Pre_input_domain.S16384x5 32) (a2 : FVec F Cert.Pre_input_domain.S16384 .f32)
    (a3 : FVec F Cert.Pre_input_domain.S100000x64 .f32) (a4 : FVec F Cert.Pre_input_domain.S641x1 .f32)
    (a5 : FVec F Cert.Pre_input_domain.S1 .f32)
    (h : Cert.Pre_input_domain.fn (F := F) a0 a1 a2 a3 a4 a5 = fun _ => 1#1) :
    (∀ i, (a0 i).toNat < 100000) ∧ (∀ i, (a1 i).toNat < 100000) := by
  have h0 := congrFun h ix0
  dsimp only [Cert.Pre_input_domain.fn, Cert.Pre_input_domain.fn_part1] at h0
  obtain ⟨h1, hred⟩ := IntOp.andi_eq_one.1 h0
  obtain ⟨-, hblue⟩ := IntOp.andi_eq_one.1 h1
  have hz : (0#32 : BitVec 32).toInt = 0 := by decide
  have hm : (99999#32 : BitVec 32).toInt = 99999 := by decide
  have key : ∀ w : BitVec 32, (0#32 : BitVec 32).toInt ≤ w.toInt → w.toInt ≤ (99999#32 : BitVec 32).toInt → w.toNat < 100000 := by
    intro w h1 h2
    rw [hz] at h1; rw [hm] at h2
    have := BitVec.toInt_eq_toNat_cond w
    have hlt : w.toNat < 2 ^ 32 := w.isLt
    split at this <;> omega
  constructor
  · intro i
    obtain ⟨hge, hle⟩ := IntOp.andi_eq_one.1 (Host.reduce_andi_all _ _ _ _ ix0 hblue i)
    exact key _ (IntOp.cmpi_sge.1 hge) (IntOp.cmpi_sle.1 hle)
  · intro i
    obtain ⟨hge, hle⟩ := IntOp.andi_eq_one.1 (Host.reduce_andi_all _ _ _ _ ix0 hred i)
    exact key _ (IntOp.cmpi_sge.1 hge) (IntOp.cmpi_sle.1 hle)

/-- A property of every element of every piece is a property of every element of their concatenation. -/
theorem concatenate_forall {α : Type} {t : Shape} (a : Fin t.rank) (xs : List ((s : Shape) × (s.Idx → α)))
    (h : Shape.Concatenates (xs.map (·.1)) t a) (P : α → Prop) (hP : ∀ p ∈ xs, ∀ i, P (p.2 i)) (j : t.Idx) :
    P (concatenate t a xs h j) := by
  unfold concatenate
  exact hP _ (List.getElem_mem _) _

variable (m : (ℓ : Loc nD τ sig) → Buf (Elt F) ℓ) (d : Dev nD)

/-- The index array the gather reads, as the second host stretch leaves it from the launch memory: the two index
    arrays stacked by columns, transposed, split in two. -/
theorem it_eq :
    (StableHlo.after (ops1 (F := F)) (StableHlo.after (ops0 (F := F)) (fun b => m (d, b))) (Proc.devRef .tc (main_v10 : Ref sig .tc)) : IVec S10x2x8192 32)
      = shapeCast S10x2x8192 (transpose S10x16384 [1, 0]
          (concatenate S16384x10 1 [⟨S16384x5, (m (d, Proc.devRef .tc (main_arg0 : Ref sig .tc)) : IVec S16384x5 32)⟩,
            ⟨S16384x5, (m (d, Proc.devRef .tc (main_arg1 : Ref sig .tc)) : IVec S16384x5 32)⟩] concatenates_S16384x5_S16384x5_S16384x10_d1)
          transposes_S16384x10_S10x16384_1_0) shapeCasts_S10x16384_S10x2x8192 := by
  unfold ops1 ops0
  after_results
  rfl

/-- Every word of the index array the gather reads is below 100000, under the precondition. -/
theorem it_lt [Cert.Pre_input_domain.Facts]
    (hpre : Cert.Pre_input_domain.fn (F := F) (m ((d.tc : Thread nD τ).loc main_arg0)) (m ((d.tc : Thread nD τ).loc main_arg1))
      (m ((d.tc : Thread nD τ).loc main_arg2)) (m ((d.tc : Thread nD τ).loc main_arg3)) (m ((d.tc : Thread nD τ).loc main_arg4))
      (m ((d.tc : Thread nD τ).loc main_arg5)) = fun _ => 1#1) (j : S10x2x8192.Idx) :
    ((StableHlo.after (ops1 (F := F)) (StableHlo.after (ops0 (F := F)) (fun b => m (d, b))) (Proc.devRef .tc (main_v10 : Ref sig .tc)) : IVec S10x2x8192 32) j).toNat < 100000 := by
  obtain ⟨hb, hr⟩ := lt_of_pre _ _ _ _ _ _ hpre
  rw [it_eq]
  unfold shapeCast transpose
  refine concatenate_forall _ _ _ (fun w : BitVec 32 => w.toNat < 100000) (fun p hp i => ?_) _
  rcases List.mem_cons.mp hp with rfl | hp
  · exact hb i
  · rcases List.mem_cons.mp hp with rfl | hp
    · exact hr i
    · exact absurd hp List.not_mem_nil

end Cert.Kernel.KS

end
-- ==== Proof.WKPreV.lean ====
/-
  The index array the SparseCore call reads holds words below 100000, under the precondition.
-/
import proofs.«204616_g36739150250405_cont_8to1_b_1211_24_alg».proof.Proof.WKPre
import proofs.«204616_g36739150250405_cont_8to1_b_1211_24_alg».proof.Proof.WKVals

noncomputable section

namespace Cert.Kernel.KS

open Cert.Kernel Cert.Kernel.Gen
open Idealize.ShloMosaic Idealize.SL.Sem

variable {F : FTy → Type} [FloatOps F]

/-- Every word of the index array the gather reads is below 100000, under the precondition. -/
theorem ITm_lt [Cert.Pre_input_domain.Facts] (m : (ℓ : Loc nD τ sig) → Buf (Elt F) ℓ) (d : Dev nD)
    (hpre : Cert.Pre_input_domain.fn (F := F) (m ((d.tc : Thread nD τ).loc main_arg0)) (m ((d.tc : Thread nD τ).loc main_arg1))
      (m ((d.tc : Thread nD τ).loc main_arg2)) (m ((d.tc : Thread nD τ).loc main_arg3)) (m ((d.tc : Thread nD τ).loc main_arg4))
      (m ((d.tc : Thread nD τ).loc main_arg5)) = fun _ => 1#1) :
    ∀ j : S10x2x8192.Idx, ((ITm m d : IVec S10x2x8192 32) j).toNat < 100000 :=
  fun j => it_lt m d hpre j

end Cert.Kernel.KS

end
-- ==== Proof.lean ====
/-
  The certificate's proof: the kernel and the reference compute one function, and each runs and leaves its
  arguments unchanged.

  Both programs return, for each of the 16384 samples n,

      sigmoid( side[n] · W[640] + bias + Σ_{s < 10} Σ_{d < 64} W[64·s + d] · emb[idx_s(n), d] ),

  where idx_s(n) is the index word of slot s of sample n (slots 0..4 from the first index array, 5..9 from the
  second) and sigmoid x = 1 / (1 + e^(-x)) on the extended reals.

  The reference gathers the ten table rows of a sample, lays them end to end with the side flag as a row of 641
  numbers, contracts that row with the weight column, adds the bias and applies the sigmoid. The kernel first
  projects the whole table onto the ten rows of 64 weights (a [16, 64] × [64, columns] product: row s at column v
  is Σ_d W[64·s + d] · emb[v, d]), then gathers, for every sample and slot, the one scalar of row s at the column
  the index word names, and finally adds side · W[640] + bias and the ten gathered planes in order and applies
  the sigmoid. The two sides differ only in the order of the additions and the factors of each product: sums and
  products in a commutative monoid, no finiteness of the inputs is used. The projection's columns past the
  table's end hold values nothing constrains, and they are never read: every index word is between 0 and 99999
  by the precondition, which is also what makes the reference's lookup a plain read of the named row.

  The same printed program read at the machine's words has the same control and data movement, so its frame (it
  runs to the end, faults nowhere, leaves its arguments as launched) is the same proof at that instance; the
  idealization rewrote nothing, so there is nothing to preserve beyond that.
-/
import proofs.«204616_g36739150250405_cont_8to1_b_1211_24_alg».proof.Defs
import proofs.«204616_g36739150250405_cont_8to1_b_1211_24_alg».proof.Proof.Gen.Kernel
import proofs.«204616_g36739150250405_cont_8to1_b_1211_24_alg».proof.Proof.Gen.Kernel.Skeleton
import proofs.«204616_g36739150250405_cont_8to1_b_1211_24_alg».proof.Proof.Gen.Kernel.Launch
import proofs.«204616_g36739150250405_cont_8to1_b_1211_24_alg».proof.Proof.Gen.Kernel.Regions
import proofs.«204616_g36739150250405_cont_8to1_b_1211_24_alg».proof.Proof.Gen.Kernel.Points
import proofs.«204616_g36739150250405_cont_8to1_b_1211_24_alg».proof.Proof.Gen.KernelIdeal
import proofs.«204616_g36739150250405_cont_8to1_b_1211_24_alg».proof.Proof.Gen.KernelIdeal.Skeleton
import proofs.«204616_g36739150250405_cont_8to1_b_1211_24_alg».proof.Proof.Gen.KernelIdeal.Launch
import proofs.«204616_g36739150250405_cont_8to1_b_1211_24_alg».proof.Proof.Gen.KernelIdeal.Regions
import proofs.«204616_g36739150250405_cont_8to1_b_1211_24_alg».proof.Proof.Gen.KernelIdeal.Points
import proofs.«204616_g36739150250405_cont_8to1_b_1211_24_alg».proof.Proof.Gen.ReferenceIdeal
import proofs.«204616_g36739150250405_cont_8to1_b_1211_24_alg».proof.Proof.Gen.Pre_input_domain
import Idealize.ShloMosaic.Adequacy
import Idealize.ShloMosaic.Init
import proofs.«204616_g36739150250405_cont_8to1_b_1211_24_alg».proof.Proof.KClaims
import proofs.«204616_g36739150250405_cont_8to1_b_1211_24_alg».proof.Proof.KMain
import proofs.«204616_g36739150250405_cont_8to1_b_1211_24_alg».proof.Proof.KRun
import proofs.«204616_g36739150250405_cont_8to1_b_1211_24_alg».proof.Proof.WKClaims
import proofs.«204616_g36739150250405_cont_8to1_b_1211_24_alg».proof.Proof.WKMain
import proofs.«204616_g36739150250405_cont_8to1_b_1211_24_alg».proof.Proof.WKRun
import proofs.«204616_g36739150250405_cont_8to1_b_1211_24_alg».proof.Proof.WKPreV

noncomputable section

namespace Cert.Proof

open Idealize.ShloMosaic Idealize.SL.Sem

/-- The idealized kernel's run under the precondition: every index word names a column inside the projected
    table, and whatever the first region leaves has the inner products on the columns inside the table. -/
theorem hrun (m : (ℓ : Loc Cert.KernelIdeal.nD Cert.KernelIdeal.τ Cert.KernelIdeal.sig) → Buf (Elt Ideal) ℓ)
    (ρ : Dev Cert.KernelIdeal.nD → PrngReg)
    (hpre : Cert.Pre_KernelIdeal (hPre_input_domain := Cert.Pre_input_domain.Gen.facts) m) :
    Cert.KernelIdeal.KS.RunStmt (F := Ideal) m ρ (Cert.KernelIdeal.KS.AgI m) :=
  Cert.KernelIdeal.KS.run_of_hmain m ρ (Cert.KernelIdeal.KS.AgI m)
    (fun d j => Nat.lt_trans (Cert.KernelIdeal.KS.ITm_lt m d (hpre d) j) (by decide))
    (Cert.KernelIdeal.KS.hmain m ρ (Cert.KernelIdeal.KS.AgI m)
      (fun d G hG => Cert.KernelIdeal.KS.ag_of_arrAt m d G _ _ hG))

/-- The word-level kernel's run under the precondition; nothing is asked of the projected table's values. -/
theorem hrunB (m : (ℓ : Loc Cert.Kernel.nD Cert.Kernel.τ Cert.Kernel.sig) → Buf (Elt Bits) ℓ)
    (ρ : Dev Cert.Kernel.nD → PrngReg)
    (hpre : Cert.Pre_Kernel (hPre_input_domain := Cert.Pre_input_domain.Gen.facts) m) :
    Cert.Kernel.KS.RunStmt (F := Bits) m ρ (fun _ _ => True) :=
  Cert.Kernel.KS.run_of_hmain m ρ (fun _ _ => True)
    (fun d j => Nat.lt_trans (Cert.Kernel.KS.ITm_lt m d (hpre d) j) (by decide))
    (Cert.Kernel.KS.hmain m ρ (fun _ _ => True) (fun _ _ _ => trivial))

theorem claim : Cert.Claim :=
  ⟨Cert.Kernel.Gen.facts, Cert.KernelIdeal.Gen.facts, Cert.ReferenceIdeal.Gen.facts, Cert.Pre_input_domain.Gen.facts,
    Cert.Proof.WClaims.frame_of_runB hrunB, (Cert.Proof.Claims.claims_of_run hrun).1, Cert.Proof.Claims.frame_ri, trivial,
    (Cert.Proof.Claims.claims_of_run hrun).2⟩

end Cert.Proof

end
